-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v96_0)) (v1 : (c : Dev Cert.KernelIdeal.nD) → Buf (Elt Ideal) ((c.tc : Thread Cert.KernelIdeal.nD Cert.KernelIdeal.τ).loc Cert.KernelIdeal.main_v96_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96_0) = v0 c
          ∧ r.2.mem ((c.tc : Thread Cert.KernelIdeal.nD Cert.KernelIdeal.τ).loc Cert.KernelIdeal.main_v96_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v122) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1250000 : Shape := ⟨2, ![2, 1250000]⟩
abbrev S20000 : Shape := ⟨1, ![20000]⟩
abbrev S128x64 : Shape := ⟨2, ![128, 64]⟩
abbrev S64 : Shape := ⟨1, ![64]⟩
abbrev S64x64 : Shape := ⟨2, ![64, 64]⟩
abbrev S64x5 : Shape := ⟨2, ![64, 5]⟩
abbrev S5 : Shape := ⟨1, ![5]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x5 : S_.BroadcastsInDim S64x5 (![] : Fin 0 → Fin S64x5.rank)
  reducesTo_S64x5_S_d0_1 : S64x5.ReducesTo [0, 1] S_
  bcast_S_S5 : S_.BroadcastsInDim S5 (![] : Fin 0 → Fin S5.rank)
  reducesTo_S5_S_d0 : S5.ReducesTo [0] S_

variable [Facts]

def fn_part3 {F : FTy → Type} [FloatOps F] (main_v48 : IVec S_ 1) (main_v49 : FVec F S5 .f32) (main_v50 : FVec F S5 .f32) : IVec S_ 1 :=
  let main_v51 : IVec S5 1 := cmpf .olt main_v49 main_v50
  let main_c_19 : IVec S_ 1 := constantI S_ 1 1#1
  let main_v52 : IVec S_ 1 := (fun x v => Host.reduce IntOp.andi x v reducesTo_S5_S_d0 h_S_) main_v51 main_c_19
  let main_v53 : IVec S_ 1 := andi main_v48 main_v52
  main_v53

def fn_part2 {F : FTy → Type} [FloatOps F] (main_arg9 : FVec F S64 .f32) (main_arg10 : FVec F S64 .f32) (main_arg11 : FVec F S64x5 .f32) (main_arg12 : FVec F S5 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x5 .f32 := Host.absf main_arg11
  let main_cst_16 : FVec F S_ .f32 := constant S_ .f32 0x7F800000#32
  let main_v45 : FVec F S64x5 .f32 := broadcastInDim S64x5 ![] bcast_S_S64x5 main_cst_16
  let main_v46 : IVec S64x5 1 := cmpf .olt main_v44 main_v45
  let main_c_17 : IVec S_ 1 := constantI S_ 1 1#1
  let main_v47 : IVec S_ 1 := (fun x v => Host.reduce IntOp.andi x v reducesTo_S64x5_S_d0_1 h_S_) main_v46 main_c_17
  let main_v48 : IVec S_ 1 := andi main_v43 main_v47
  let main_v49 : FVec F S5 .f32 := Host.absf main_arg12
  let main_cst_18 : FVec F S_ .f32 := constant S_ .f32 0x7F800000#32
  let main_v50 : FVec F S5 .f32 := broadcastInDim S5 ![] bcast_S_S5 main_cst_18
  fn_part3 (F := F) main_v48 main_v49 main_v50

def fn_part1 {F : FTy → Type} [FloatOps F] (main_arg6 : FVec F S64 .f32) (main_arg7 : FVec F S64x64 .f32) (main_arg8 : FVec F S64 .f32) (main_arg9 : FVec F S64 .f32) (main_arg10 : FVec F S64 .f32) (main_arg11 : FVec F S64x5 .f32) (main_arg12 : FVec F S5 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x1250000 32) (main_arg2 : IVec S20000 32) (main_arg3 : FVec F S128x64 .f32) (main_arg4 : FVec F S64 .f32) (main_arg5 : FVec F S64 .f32) (main_arg6 : FVec F S64 .f32) (main_arg7 : FVec F S64x64 .f32) (main_arg8 : FVec F S64 .f32) (main_arg9 : FVec F S64 .f32) (main_arg10 : FVec F S64 .f32) (main_arg11 : FVec F S64x5 .f32) (main_arg12 : FVec F S5 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x1250000 : Shape := ⟨2, ![2, 1250000]⟩
abbrev S20000 : Shape := ⟨1, ![20000]⟩
abbrev S128x64 : Shape := ⟨2, ![128, 64]⟩
abbrev S64 : Shape := ⟨1, ![64]⟩
abbrev S64x64 : Shape := ⟨2, ![64, 64]⟩
abbrev S64x5 : Shape := ⟨2, ![64, 5]⟩
abbrev S5 : Shape := ⟨1, ![5]⟩
abbrev S100000 : Shape := ⟨1, ![100000]⟩
abbrev S1x1250000 : Shape := ⟨2, ![1, 1250000]⟩
abbrev S1250000 : Shape := ⟨1, ![1250000]⟩
abbrev S1350000 : Shape := ⟨1, ![1350000]⟩
abbrev S_ : Shape := ⟨0, ![]⟩
abbrev S1350000x1 : Shape := ⟨2, ![1350000, 1]⟩
abbrev S100000x1 : Shape := ⟨2, ![100000, 1]⟩
abbrev S1x64 : Shape := ⟨2, ![1, 64]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1350000x64 : Shape := ⟨2, ![1350000, 64]⟩
abbrev S20x8x64 : Shape := ⟨3, ![20, 8, 64]⟩
abbrev S1x8x64 : Shape := ⟨3, ![1, 8, 64]⟩
abbrev S1x1x64 : Shape := ⟨3, ![1, 1, 64]⟩
abbrev S20x1x64 : Shape := ⟨3, ![20, 1, 64]⟩
abbrev S20x64 : Shape := ⟨2, ![20, 64]⟩
abbrev S64x1 : Shape := ⟨2, ![64, 1]⟩
abbrev S20000x1 : Shape := ⟨2, ![20000, 1]⟩
abbrev S20000x64 : Shape := ⟨2, ![20000, 64]⟩
abbrev S1x5 : Shape := ⟨2, ![1, 5]⟩
abbrev S20000x5 : Shape := ⟨2, ![20000, 5]⟩
abbrev S2000x64 : Shape := ⟨2, ![2000, 64]⟩
abbrev S2000x5 : Shape := ⟨2, ![2000, 5]⟩

abbrev nBuf : Space → Nat
  | .hbm => 142
  | .vmem => 50
  | .smem => 0
  | _ => 0

abbrev hbmTy0_0 (i : Nat) : BufTy := match i % 128 with
  | 0 => ⟨S100000x128, .f32⟩
  | 1 => ⟨S2x1250000, .i32⟩
  | 2 => ⟨S20000, .i32⟩
  | 3 => ⟨S128x64, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S64x5, .f32⟩
  | 12 => ⟨S5, .f32⟩
  | 13 => ⟨S100000, .i32⟩
  | 14 => ⟨S1x1250000, .i32⟩
  | 15 => ⟨S1250000, .i32⟩
  | 16 => ⟨S1350000, .i32⟩
  | 17 => ⟨S1x1250000, .i32⟩
  | 18 => ⟨S1250000, .i32⟩
  | 19 => ⟨S1350000, .i32⟩
  | 20 => ⟨S_, .f32⟩
  | 21 => ⟨S1350000, .f32⟩
  | 22 => ⟨S_, .f32⟩
  | 23 => ⟨S100000, .f32⟩
  | 24 => ⟨S1350000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S100000, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S100000x1, .f32⟩
  | 38 => ⟨S_, .f32⟩
  | 39 => ⟨S1x64, .f32⟩
  | 40 => ⟨S1x64, .f32⟩
  | 41 => ⟨S100000x64, .f32⟩
  | 42 => ⟨S_, .i32⟩
  | 43 => ⟨S1350000, .i32⟩
  | 44 => ⟨S1350000, .i1⟩
  | 45 => ⟨S_, .i32⟩
  | 46 => ⟨S1350000, .i32⟩
  | 47 => ⟨S1350000, .i32⟩
  | 48 => ⟨S1350000, .i32⟩
  | 49 => ⟨S1350000x1, .i32⟩
  | 50 => ⟨S1350000x64, .f32⟩
  | 51 => ⟨S_, .f32⟩
  | 52 => ⟨S100000x64, .f32⟩
  | 53 => ⟨S1350000x1, .i32⟩
  | 54 => ⟨S100000x64, .f32⟩
  | 55 => ⟨S100000x64, .f32⟩
  | 56 => ⟨S20x8x64, .f32⟩
  | 57 => ⟨S20x8x64, .f32⟩
  | 58 => ⟨S20x1x64, .f32⟩
  | 59 => ⟨S20x64, .f32⟩
  | 60 => ⟨S_, .f32⟩
  | 61 => ⟨S64, .f32⟩
  | 62 => ⟨S20x1x64, .f32⟩
  | 63 => ⟨S20x64, .f32⟩
  | 64 => ⟨S_, .f32⟩
  | 65 => ⟨S64, .f32⟩
  | 66 => ⟨S_, .f32⟩
  | 67 => ⟨S64, .f32⟩
  | 68 => ⟨S64, .f32⟩
  | 69 => ⟨S_, .f32⟩
  | 70 => ⟨S64, .f32⟩
  | 71 => ⟨S64, .f32⟩
  | 72 => ⟨S64, .f32⟩
  | 73 => ⟨S64, .f32⟩
  | 74 => ⟨S_, .f32⟩
  | 75 => ⟨S64, .f32⟩
  | 76 => ⟨S64, .f32⟩
  | 77 => ⟨S_, .f32⟩
  | 78 => ⟨S64, .f32⟩
  | 79 => ⟨S64, .f32⟩
  | 80 => ⟨S64, .f32⟩
  | 81 => ⟨S64, .f32⟩
  | 82 => ⟨S64, .f32⟩
  | 83 => ⟨S64, .f32⟩
  | 84 => ⟨S64x1, .f32⟩
  | 85 => ⟨S64x64, .f32⟩
  | 86 => ⟨S64x64, .f32⟩
  | 87 => ⟨S1x64, .f32⟩
  | 88 => ⟨S1x64, .f32⟩
  | 89 => ⟨S1x64, .f32⟩
  | 90 => ⟨S100000x64, .f32⟩
  | 91 => ⟨S_, .i32⟩
  | 92 => ⟨S1350000, .i32⟩
  | 93 => ⟨S1350000, .i1⟩
  | 94 => ⟨S_, .i32⟩
  | 95 => ⟨S1350000, .i32⟩
  | 96 => ⟨S1350000, .i32⟩
  | 97 => ⟨S1350000, .i32⟩
  | 98 => ⟨S1350000x1, .i32⟩
  | 99 => ⟨S1350000x64, .f32⟩
  | 100 => ⟨S_, .f32⟩
  | 101 => ⟨S100000x64, .f32⟩
  | 102 => ⟨S1350000x1, .i32⟩
  | 103 => ⟨S100000x64, .f32⟩
  | 104 => ⟨S100000x64, .f32⟩
  | 105 => ⟨S20x8x64, .f32⟩
  | 106 => ⟨S20x8x64, .f32⟩
  | 107 => ⟨S20x1x64, .f32⟩
  | 108 => ⟨S20x64, .f32⟩
  | 109 => ⟨S_, .f32⟩
  | 110 => ⟨S64, .f32⟩
  | 111 => ⟨S20x1x64, .f32⟩
  | 112 => ⟨S20x64, .f32⟩
  | 113 => ⟨S_, .f32⟩
  | 114 => ⟨S64, .f32⟩
  | 115 => ⟨S_, .f32⟩
  | 116 => ⟨S64, .f32⟩
  | 117 => ⟨S64, .f32⟩
  | 118 => ⟨S_, .f32⟩
  | 119 => ⟨S64, .f32⟩
  | 120 => ⟨S64, .f32⟩
  | 121 => ⟨S64, .f32⟩
  | 122 => ⟨S64, .f32⟩
  | 123 => ⟨S_, .f32⟩
  | 124 => ⟨S64, .f32⟩
  | 125 => ⟨S64, .f32⟩
  | 126 => ⟨S_, .i32⟩
  | 127 => ⟨S20000, .i32⟩
  | _ => ⟨S100000x128, .f32⟩

abbrev hbmTy0_1 (i : Nat) : BufTy := match i % 128 with
  | 0 => ⟨S20000, .i1⟩
  | 1 => ⟨S_, .i32⟩
  | 2 => ⟨S20000, .i32⟩
  | 3 => ⟨S20000, .i32⟩
  | 4 => ⟨S20000, .i32⟩
  | 5 => ⟨S20000x1, .i32⟩
  | 6 => ⟨S20000x64, .f32⟩
  | 7 => ⟨S1x64, .f32⟩
  | 8 => ⟨S1x64, .f32⟩
  | 9 => ⟨S1x64, .f32⟩
  | 10 => ⟨S1x64, .f32⟩
  | 11 => ⟨S1x5, .f32⟩
  | 12 => ⟨S20000x64, .f32⟩
  | 13 => ⟨S20000x5, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x1, .f32⟩
  | .local _ .vmem, ⟨5, _⟩ => ⟨S5000x1, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x1, .f32⟩
  | .local _ .vmem, ⟨11, _⟩ => ⟨S5000x1, .f32⟩
  | .local _ .vmem, ⟨12, _⟩ => ⟨S1x64, .f32⟩
  | .local _ .vmem, ⟨13, _⟩ => ⟨S5000x64, .f32⟩
  | .local _ .vmem, ⟨14, _⟩ => ⟨S5000x64, .f32⟩
  | .local _ .vmem, ⟨15, _⟩ => ⟨S1x8x64, .f32⟩
  | .local _ .vmem, ⟨16, _⟩ => ⟨S1x8x64, .f32⟩
  | .local _ .vmem, ⟨17, _⟩ => ⟨S1x8x64, .f32⟩
  | .local _ .vmem, ⟨18, _⟩ => ⟨S1x8x64, .f32⟩
  | .local _ .vmem, ⟨19, _⟩ => ⟨S5000x64, .f32⟩
  | .local _ .vmem, ⟨20, _⟩ => ⟨S5000x64, .f32⟩
  | .local _ .vmem, ⟨21, _⟩ => ⟨S64x64, .f32⟩
  | .local _ .vmem, ⟨22, _⟩ => ⟨S1x64, .f32⟩
  | .local _ .vmem, ⟨23, _⟩ => ⟨S5000x1, .f32⟩
  | .local _ .vmem, ⟨24, _⟩ => ⟨S5000x1, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x1, .f32⟩
  | .local _ .vmem, ⟨30, _⟩ => ⟨S5000x1, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | .local _ .vmem, ⟨34, _⟩ => ⟨S1x8x64, .f32⟩
  | .local _ .vmem, ⟨35, _⟩ => ⟨S1x8x64, .f32⟩
  | .local _ .vmem, ⟨36, _⟩ => ⟨S1x8x64, .f32⟩
  | .local _ .vmem, ⟨37, _⟩ => ⟨S1x8x64, .f32⟩
  | .local _ .vmem, ⟨38, _⟩ => ⟨S2000x64, .f32⟩
  | .local _ .vmem, ⟨39, _⟩ => ⟨S2000x64, .f32⟩
  | .local _ .vmem, ⟨40, _⟩ => ⟨S1x64, .f32⟩
  | .local _ .vmem, ⟨41, _⟩ => ⟨S1x64, .f32⟩
  | .local _ .vmem, ⟨42, _⟩ => ⟨S1x64, .f32⟩
  | .local _ .vmem, ⟨43, _⟩ => ⟨S1x64, .f32⟩
  | .local _ .vmem, ⟨44, _⟩ => ⟨S64x5, .f32⟩
  | .local _ .vmem, ⟨45, _⟩ => ⟨S1x5, .f32⟩
  | .local _ .vmem, ⟨46, _⟩ => ⟨S2000x64, .f32⟩
  | .local _ .vmem, ⟨47, _⟩ => ⟨S2000x64, .f32⟩
  | .local _ .vmem, ⟨48, _⟩ => ⟨S2000x5, .f32⟩
  | .local _ .vmem, ⟨49, _⟩ => ⟨S2000x5, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_v17 : Ref sig .tc := ⟨.hbm, 37, rfl⟩
abbrev main_cst_4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c : Ref sig .tc := ⟨.hbm, 42, rfl⟩
abbrev main_v21 : Ref sig .tc := ⟨.hbm, 43, rfl⟩
abbrev main_v22 : Ref sig .tc := ⟨.hbm, 44, rfl⟩
abbrev main_c_5 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_6 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31_0 : Ref sig .tc := ⟨.hbm, 55, rfl⟩
abbrev main_v31_1 : Ref sig .tc := ⟨.hbm, 56, rfl⟩
abbrev main_v31_2 : Ref sig .tc := ⟨.hbm, 57, rfl⟩
abbrev main_v32 : Ref sig .tc := ⟨.hbm, 58, rfl⟩
abbrev main_v33 : Ref sig .tc := ⟨.hbm, 59, rfl⟩
abbrev main_cst_7 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_8 : Ref sig .tc := ⟨.hbm, 64, rfl⟩
abbrev main_v37 : Ref sig .tc := ⟨.hbm, 65, rfl⟩
abbrev main_cst_9 : Ref sig .tc := ⟨.hbm, 66, rfl⟩
abbrev main_v38 : Ref sig .tc := ⟨.hbm, 67, rfl⟩
abbrev main_v39 : Ref sig .tc := ⟨.hbm, 68, rfl⟩
abbrev main_cst_10 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_11 : Ref sig .tc := ⟨.hbm, 74, rfl⟩
abbrev main_v44 : Ref sig .tc := ⟨.hbm, 75, rfl⟩
abbrev main_v45 : Ref sig .tc := ⟨.hbm, 76, rfl⟩
abbrev main_cst_12 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_c_13 : Ref sig .tc := ⟨.hbm, 91, rfl⟩
abbrev main_v59 : Ref sig .tc := ⟨.hbm, 92, rfl⟩
abbrev main_v60 : Ref sig .tc := ⟨.hbm, 93, rfl⟩
abbrev main_c_14 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_15 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69_0 : Ref sig .tc := ⟨.hbm, 104, rfl⟩
abbrev main_v69_1 : Ref sig .tc := ⟨.hbm, 105, rfl⟩
abbrev main_v69_2 : Ref sig .tc := ⟨.hbm, 106, rfl⟩
abbrev main_v70 : Ref sig .tc := ⟨.hbm, 107, rfl⟩
abbrev main_v71 : Ref sig .tc := ⟨.hbm, 108, rfl⟩
abbrev main_cst_16 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_17 : Ref sig .tc := ⟨.hbm, 113, rfl⟩
abbrev main_v75 : Ref sig .tc := ⟨.hbm, 114, rfl⟩
abbrev main_cst_18 : Ref sig .tc := ⟨.hbm, 115, rfl⟩
abbrev main_v76 : Ref sig .tc := ⟨.hbm, 116, rfl⟩
abbrev main_v77 : Ref sig .tc := ⟨.hbm, 117, rfl⟩
abbrev main_cst_19 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst_20 : Ref sig .tc := ⟨.hbm, 123, rfl⟩
abbrev main_v82 : Ref sig .tc := ⟨.hbm, 124, rfl⟩
abbrev main_v83 : Ref sig .tc := ⟨.hbm, 125, rfl⟩
abbrev main_c_21 : Ref sig .tc := ⟨.hbm, 126, rfl⟩
abbrev main_v84 : Ref sig .tc := ⟨.hbm, 127, rfl⟩
abbrev main_v85 : Ref sig .tc := ⟨.hbm, 128, rfl⟩
abbrev main_c_22 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96_0 : Ref sig .tc := ⟨.hbm, 140, rfl⟩
abbrev main_v96_1 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg4_1 : Ref sig .tc := ⟨.vmem, 35, rfl⟩
abbrev cc3_stg5_0 : Ref sig .tc := ⟨.vmem, 36, rfl⟩
abbrev cc3_stg5_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg5_0 : Ref sig .tc := ⟨.vmem, 44, rfl⟩
abbrev cc4_stg6_0 : Ref sig .tc := ⟨.vmem, 45, rfl⟩
abbrev cc4_stg7_0 : Ref sig .tc := ⟨.vmem, 46, rfl⟩
abbrev cc4_stg7_1 : Ref sig .tc := ⟨.vmem, 47, rfl⟩
abbrev cc4_stg8_0 : Ref sig .tc := ⟨.vmem, 48, rfl⟩
abbrev cc4_stg8_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem3_1 : DmaSem sig := 24
abbrev cc2_sem4_0 : DmaSem sig := 25
abbrev cc2_sem4_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem3_1 : DmaSem sig := 33
abbrev cc3_sem4_0 : DmaSem sig := 34
abbrev cc3_sem4_1 : DmaSem sig := 35
abbrev cc3_sem5_0 : DmaSem sig := 36
abbrev cc3_sem5_1 : DmaSem sig := 37
abbrev cc4_sem0_0 : DmaSem sig := 38
abbrev cc4_sem0_1 : DmaSem sig := 39
abbrev cc4_sem1_0 : DmaSem sig := 40
abbrev cc4_sem2_0 : DmaSem sig := 41
abbrev cc4_sem3_0 : DmaSem sig := 42
abbrev cc4_sem4_0 : DmaSem sig := 43
abbrev cc4_sem5_0 : DmaSem sig := 44
abbrev cc4_sem6_0 : DmaSem sig := 45
abbrev cc4_sem7_0 : DmaSem sig := 46
abbrev cc4_sem7_1 : DmaSem sig := 47
abbrev cc4_sem8_0 : DmaSem sig := 48
abbrev cc4_sem8_1 : DmaSem sig := 49

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x8x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x8x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x8x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x8x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x5 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x5 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2000x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S2000x5 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

class Facts₀ : Prop where
  slices_S2x1250000_S1x1250000_0_0 : S2x1250000.Slices ![0, 0] S1x1250000
  shapeCasts_S1x1250000_S1250000 : S1x1250000.ShapeCasts S1250000
  concatenates_S1250000_S100000_S1350000_d0 : Shape.Concatenates [S1250000, S100000] S1350000 0
  slices_S2x1250000_S1x1250000_1_0 : S2x1250000.Slices ![1, 0] S1x1250000
  bcast_S_S1350000 : S_.BroadcastsInDim S1350000 (![] : Fin 0 → Fin S1350000.rank)
  bcast_S_S100000 : S_.BroadcastsInDim S100000 (![] : Fin 0 → Fin S100000.rank)
  bcast_S1350000_S1350000x1_0 : S1350000.BroadcastsInDim S1350000x1 (![0] : Fin 1 → Fin S1350000x1.rank)
  shapeCasts_S100000_S100000x1 : S100000.ShapeCasts S100000x1
  bcast_S_S1x64 : S_.BroadcastsInDim S1x64 (![] : Fin 0 → Fin S1x64.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S5000x64_S5000x64 : S5000x64.ShapeCasts S5000x64
  reduces_S5000x64_S64 : S5000x64.Reduces [0] S64
  shapeCasts_S64_S1x1x64 : S64.ShapeCasts S1x1x64
  shapeCasts_S1x1x64_S1x1x64 : S1x1x64.ShapeCasts S1x1x64
  broadcasts_S1x1x64_S1x8x64 : S1x1x64.Broadcasts S1x8x64
  inb_S1x8x64_S1x8x64_0_0_0 : ∀ a, (![0, 0, 0] : Fin 3 → Nat) a + S1x8x64.size a ≤ S1x8x64.size a
  h_S1x8x64 : 0 < S1x8x64.numel
  slices_S20x8x64_S20x1x64_0_0_0 : S20x8x64.Slices ![0, 0, 0] S20x1x64
  shapeCasts_S20x1x64_S20x64 : S20x1x64.ShapeCasts S20x64
  reducesTo_S20x64_S64_d0 : S20x64.ReducesTo [0] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S20000 : S_.BroadcastsInDim S20000 (![] : Fin 0 → Fin S20000.rank)
  bcast_S20000_S20000x1_0 : S20000.BroadcastsInDim S20000x1 (![0] : Fin 1 → Fin S20000x1.rank)
  shapeCasts_S5_S1x5 : S5.ShapeCasts S1x5
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S1x64_S2000x64 : S1x64.Broadcasts S2000x64
  inb_S64x5_S64x5_0_0 : ∀ a, (![0, 0] : Fin 2 → Nat) a + S64x5.size a ≤ S64x5.size a
  h_S64x5 : 0 < S64x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S2000x5 : S1x5.Broadcasts S2000x5
  inb_S2000x5_S2000x5_0_0 : ∀ a, (![0, 0] : Fin 2 → Nat) a + S2000x5.size a ≤ S2000x5.size a
  h_S2000x5 : 0 < S2000x5.numel
  scatter_S100000_S1350000x1_S1350000_n_0_0_1_wf : ScatterDims.WF S100000 S1350000x1 S1350000 [] [0] [0] 1
  dot_S5000x128_S128x64_S5000x64_1_0_0_1_n_n_wf : DotDims.WF S5000x128 S128x64 S5000x64 [1] [0] [0] [1] [] []
  gather_S100000x64_S1350000x1_S1350000x64_1_0_n_n_0_1_164_wf : GatherDims.WF S100000x64 S1350000x1 S1350000x64 [1] [0] [] [0] [] 1 ![1, 64]
  scatter_S100000x64_S1350000x1_S1350000x64_1_0_0_1_wf : ScatterDims.WF S100000x64 S1350000x1 S1350000x64 [1] [0] [0] 1
  dot_S1x64_S64x64_S1x64_1_0_0_1_n_n_wf : DotDims.WF S1x64 S64x64 S1x64 [1] [0] [0] [1] [] []
  dot_S5000x64_S64x64_S5000x64_1_0_0_1_n_n_wf : DotDims.WF S5000x64 S64x64 S5000x64 [1] [0] [0] [1] [] []
  gather_S100000x64_S20000x1_S20000x64_1_0_n_n_0_1_164_wf : GatherDims.WF S100000x64 S20000x1 S20000x64 [1] [0] [] [0] [] 1 ![1, 64]
  dot_S2000x64_S64x5_S2000x5_1_0_0_1_n_n_wf : DotDims.WF S2000x64 S64x5 S2000x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S100000x1.size a
  hwx0_3 : ∀ i : grid0.Coords, EltTy.bits .f32 = 32 ∨ (Rect.block (s := S100000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x8x64.size a ≤ S20x8x64.size a
  hwx1_4 : ∀ i : grid1.Coords, EltTy.bits .f32 = 32 ∨ (Rect.block (s := S20x8x64) S1x8x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x8x64.size a ≤ S20x8x64.size a
  hwx1_5 : ∀ i : grid1.Coords, EltTy.bits .f32 = 32 ∨ (Rect.block (s := S20x8x64) S1x8x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S100000x1.size a
  hwx2_3 : ∀ i : grid2.Coords, EltTy.bits .f32 = 32 ∨ (Rect.block (s := S100000x1) S5000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x8x64.size a ≤ S20x8x64.size a
  hwx3_4 : ∀ i : grid3.Coords, EltTy.bits .f32 = 32 ∨ (Rect.block (s := S20x8x64) S1x8x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x8x64.size a ≤ S20x8x64.size a
  hwx3_5 : ∀ i : grid3.Coords, EltTy.bits .f32 = 32 ∨ (Rect.block (s := S20x8x64) S1x8x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S20000x64.size a
  hwx4_0 : ∀ i : grid4.Coords, EltTy.bits .f32 = 32 ∨ (Rect.block (s := S20000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x5.size a ≤ S64x5.size a
  hwx4_5 : ∀ i : grid4.Coords, EltTy.bits .f32 = 32 ∨ (Rect.block (s := S64x5) S64x5.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x5.size a ≤ S1x5.size a
  hwx4_6 : ∀ i : grid4.Coords, EltTy.bits .f32 = 32 ∨ (Rect.block (s := S1x5) S1x5.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x64.size a ≤ S20000x64.size a
  hwx4_7 : ∀ i : grid4.Coords, EltTy.bits .f32 = 32 ∨ (Rect.block (s := S20000x64) S2000x64.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S2000x5.size a ≤ S20000x5.size a
  hwx4_8 : ∀ i : grid4.Coords, EltTy.bits .f32 = 32 ∨ (Rect.block (s := S20000x5) S2000x5.size (cc4_transform_8 i) (hinb4_8 i)).WholeWords (EltTy.packing .f32)

variable [Facts₀]

def scatter_S100000_S1350000x1_S1350000_n_0_0_1 : ScatterDims S100000 S1350000x1 S1350000 where
  updateWindowDims := []
  insertedWindowDims := [0]
  scatterDimsToOperandDims := [0]
  indexVectorDim := 1
  wf := scatter_S100000_S1350000x1_S1350000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1350000x1_S1350000x64_1_0_n_n_0_1_164 : GatherDims S100000x64 S1350000x1 S1350000x64 where
  offsetDims := [1]
  collapsedSliceDims := [0]
  operandBatchingDims := []
  startIndicesBatchingDims := []
  startIndexMap := [0]
  indexVectorDim := 1
  sliceSizes := ![1, 64]
  wf := gather_S100000x64_S1350000x1_S1350000x64_1_0_n_n_0_1_164_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S20000x1_S20000x64_1_0_n_n_0_1_164 : GatherDims S100000x64 S20000x1 S20000x64 where
  offsetDims := [1]
  collapsedSliceDims := [0]
  operandBatchingDims := []
  startIndicesBatchingDims := []
  startIndexMap := [0]
  indexVectorDim := 1
  sliceSizes := ![1, 64]
  wf := gather_S100000x64_S20000x1_S20000x64_1_0_n_n_0_1_164_wf
def dot_S2000x64_S64x5_S2000x5_1_0_0_1_n_n : DotDims S2000x64 S64x5 S2000x5 where
  lhsContracting := [1]
  rhsContracting := [0]
  lhsNonContracting := [0]
  rhsNonContracting := [1]
  lhsBatch := []
  rhsBatch := []
  wf := dot_S2000x64_S64x5_S2000x5_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v30) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31_0) S5000x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v31_1) S1x8x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v31_2) S1x8x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v31_0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v58) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v68) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v57) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v69_0) S5000x64.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v69_1) S1x8x64.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v69_2) S1x8x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v90) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v91) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v92) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v93) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v94) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg11) S64x5.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v95) S1x5.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v96_0) S2000x64.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v96_1) S2000x5.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1250000 : Shape := ⟨2, ![2, 1250000]⟩
abbrev S20000 : Shape := ⟨1, ![20000]⟩
abbrev S128x64 : Shape := ⟨2, ![128, 64]⟩
abbrev S64 : Shape := ⟨1, ![64]⟩
abbrev S64x64 : Shape := ⟨2, ![64, 64]⟩
abbrev S64x5 : Shape := ⟨2, ![64, 5]⟩
abbrev S5 : Shape := ⟨1, ![5]⟩
abbrev S100000 : Shape := ⟨1, ![100000]⟩
abbrev S1x1250000 : Shape := ⟨2, ![1, 1250000]⟩
abbrev S1250000 : Shape := ⟨1, ![1250000]⟩
abbrev S1350000 : Shape := ⟨1, ![1350000]⟩
abbrev S_ : Shape := ⟨0, ![]⟩
abbrev S1350000x1 : Shape := ⟨2, ![1350000, 1]⟩
abbrev S100000x64 : Shape := ⟨2, ![100000, 64]⟩
abbrev S1350000x64 : Shape := ⟨2, ![1350000, 64]⟩
abbrev S1x64 : Shape := ⟨2, ![1, 64]⟩
abbrev S20000x1 : Shape := ⟨2, ![20000, 1]⟩
abbrev S20000x64 : Shape := ⟨2, ![20000, 64]⟩
abbrev S20000x5 : Shape := ⟨2, ![20000, 5]⟩
abbrev S1x5 : Shape := ⟨2, ![1, 5]⟩

abbrev nBuf : Space → Nat
  | .hbm => 221
  | .vmem => 0
  | .smem => 0
  | _ => 0

abbrev hbmTy0_0 (i : Nat) : BufTy := match i % 128 with
  | 0 => ⟨S100000x128, .f32⟩
  | 1 => ⟨S2x1250000, .i32⟩
  | 2 => ⟨S20000, .i32⟩
  | 3 => ⟨S128x64, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S64x5, .f32⟩
  | 12 => ⟨S5, .f32⟩
  | 13 => ⟨S100000, .i32⟩
  | 14 => ⟨S1x1250000, .i32⟩
  | 15 => ⟨S1250000, .i32⟩
  | 16 => ⟨S1350000, .i32⟩
  | 17 => ⟨S1x1250000, .i32⟩
  | 18 => ⟨S1250000, .i32⟩
  | 19 => ⟨S1350000, .i32⟩
  | 20 => ⟨S_, .f32⟩
  | 21 => ⟨S1350000, .f32⟩
  | 22 => ⟨S_, .f32⟩
  | 23 => ⟨S100000, .f32⟩
  | 24 => ⟨S1350000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S100000, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1350000, .i32⟩
  | 39 => ⟨S1350000, .i1⟩
  | 40 => ⟨S_, .i32⟩
  | 41 => ⟨S1350000, .i32⟩
  | 42 => ⟨S1350000, .i32⟩
  | 43 => ⟨S1350000, .i32⟩
  | 44 => ⟨S1350000x1, .i32⟩
  | 45 => ⟨S1350000, .f32⟩
  | 46 => ⟨S_, .i32⟩
  | 47 => ⟨S1350000, .i32⟩
  | 48 => ⟨S1350000, .i1⟩
  | 49 => ⟨S_, .i32⟩
  | 50 => ⟨S1350000, .i32⟩
  | 51 => ⟨S1350000, .i32⟩
  | 52 => ⟨S1350000, .i32⟩
  | 53 => ⟨S1350000x1, .i32⟩
  | 54 => ⟨S1350000, .f32⟩
  | 55 => ⟨S1350000, .f32⟩
  | 56 => ⟨S100000x64, .f32⟩
  | 57 => ⟨S_, .i32⟩
  | 58 => ⟨S1350000, .i32⟩
  | 59 => ⟨S1350000, .i1⟩
  | 60 => ⟨S_, .i32⟩
  | 61 => ⟨S1350000, .i32⟩
  | 62 => ⟨S1350000, .i32⟩
  | 63 => ⟨S1350000, .i32⟩
  | 64 => ⟨S1350000x1, .i32⟩
  | 65 => ⟨S1350000x64, .f32⟩
  | 66 => ⟨S1350000x1, .f32⟩
  | 67 => ⟨S1350000x64, .f32⟩
  | 68 => ⟨S1350000x64, .f32⟩
  | 69 => ⟨S_, .f32⟩
  | 70 => ⟨S100000x64, .f32⟩
  | 71 => ⟨S1350000x1, .i32⟩
  | 72 => ⟨S100000x64, .f32⟩
  | 73 => ⟨S1x64, .f32⟩
  | 74 => ⟨S100000x64, .f32⟩
  | 75 => ⟨S100000x64, .f32⟩
  | 76 => ⟨S_, .f32⟩
  | 77 => ⟨S_, .f32⟩
  | 78 => ⟨S100000x64, .f32⟩
  | 79 => ⟨S100000x64, .i1⟩
  | 80 => ⟨S_, .f32⟩
  | 81 => ⟨S100000x64, .f32⟩
  | 82 => ⟨S100000x64, .f32⟩
  | 83 => ⟨S100000x64, .f32⟩
  | 84 => ⟨S_, .f32⟩
  | 85 => ⟨S64, .f32⟩
  | 86 => ⟨S_, .f32⟩
  | 87 => ⟨S64, .f32⟩
  | 88 => ⟨S64, .f32⟩
  | 89 => ⟨S_, .i32⟩
  | 90 => ⟨S_, .f32⟩
  | 91 => ⟨S64, .f32⟩
  | 92 => ⟨S1x64, .f32⟩
  | 93 => ⟨S_, .f32⟩
  | 94 => ⟨S1x64, .f32⟩
  | 95 => ⟨S1x64, .f32⟩
  | 96 => ⟨S100000x64, .f32⟩
  | 97 => ⟨S100000x64, .f32⟩
  | 98 => ⟨S100000x64, .f32⟩
  | 99 => ⟨S_, .f32⟩
  | 100 => ⟨S_, .f32⟩
  | 101 => ⟨S_, .f32⟩
  | 102 => ⟨S_, .f32⟩
  | 103 => ⟨S64, .f32⟩
  | 104 => ⟨S64, .f32⟩
  | 105 => ⟨S64, .f32⟩
  | 106 => ⟨S_, .f32⟩
  | 107 => ⟨S_, .i1⟩
  | 108 => ⟨S_, .f32⟩
  | 109 => ⟨S_, .f32⟩
  | 110 => ⟨S64, .f32⟩
  | 111 => ⟨S64, .f32⟩
  | 112 => ⟨S1x64, .f32⟩
  | 113 => ⟨S100000x64, .f32⟩
  | 114 => ⟨S100000x64, .f32⟩
  | 115 => ⟨S_, .f32⟩
  | 116 => ⟨S64, .f32⟩
  | 117 => ⟨S64, .f32⟩
  | 118 => ⟨S64, .f32⟩
  | 119 => ⟨S1x64, .f32⟩
  | 120 => ⟨S100000x64, .f32⟩
  | 121 => ⟨S100000x64, .f32⟩
  | 122 => ⟨S1x64, .f32⟩
  | 123 => ⟨S100000x64, .f32⟩
  | 124 => ⟨S100000x64, .f32⟩
  | 125 => ⟨S1x64, .f32⟩
  | 126 => ⟨S100000x64, .f32⟩
  | 127 => ⟨S100000x64, .f32⟩
  | _ => ⟨S100000x128, .f32⟩

abbrev hbmTy0_1 (i : Nat) : BufTy := match i % 128 with
  | 0 => ⟨S100000x64, .f32⟩
  | 1 => ⟨S_, .i32⟩
  | 2 => ⟨S1350000, .i32⟩
  | 3 => ⟨S1350000, .i1⟩
  | 4 => ⟨S_, .i32⟩
  | 5 => ⟨S1350000, .i32⟩
  | 6 => ⟨S1350000, .i32⟩
  | 7 => ⟨S1350000, .i32⟩
  | 8 => ⟨S1350000x1, .i32⟩
  | 9 => ⟨S1350000x64, .f32⟩
  | 10 => ⟨S1350000x1, .f32⟩
  | 11 => ⟨S1350000x64, .f32⟩
  | 12 => ⟨S1350000x64, .f32⟩
  | 13 => ⟨S_, .f32⟩
  | 14 => ⟨S100000x64, .f32⟩
  | 15 => ⟨S1350000x1, .i32⟩
  | 16 => ⟨S100000x64, .f32⟩
  | 17 => ⟨S1x64, .f32⟩
  | 18 => ⟨S100000x64, .f32⟩
  | 19 => ⟨S100000x64, .f32⟩
  | 20 => ⟨S_, .f32⟩
  | 21 => ⟨S_, .f32⟩
  | 22 => ⟨S100000x64, .f32⟩
  | 23 => ⟨S100000x64, .i1⟩
  | 24 => ⟨S_, .f32⟩
  | 25 => ⟨S100000x64, .f32⟩
  | 26 => ⟨S100000x64, .f32⟩
  | 27 => ⟨S100000x64, .f32⟩
  | 28 => ⟨S_, .f32⟩
  | 29 => ⟨S64, .f32⟩
  | 30 => ⟨S_, .f32⟩
  | 31 => ⟨S64, .f32⟩
  | 32 => ⟨S64, .f32⟩
  | 33 => ⟨S_, .i32⟩
  | 34 => ⟨S_, .f32⟩
  | 35 => ⟨S64, .f32⟩
  | 36 => ⟨S1x64, .f32⟩
  | 37 => ⟨S_, .f32⟩
  | 38 => ⟨S1x64, .f32⟩
  | 39 => ⟨S1x64, .f32⟩
  | 40 => ⟨S100000x64, .f32⟩
  | 41 => ⟨S100000x64, .f32⟩
  | 42 => ⟨S100000x64, .f32⟩
  | 43 => ⟨S_, .f32⟩
  | 44 => ⟨S_, .f32⟩
  | 45 => ⟨S_, .f32⟩
  | 46 => ⟨S_, .f32⟩
  | 47 => ⟨S64, .f32⟩
  | 48 => ⟨S64, .f32⟩
  | 49 => ⟨S64, .f32⟩
  | 50 => ⟨S_, .f32⟩
  | 51 => ⟨S_, .i1⟩
  | 52 => ⟨S_, .f32⟩
  | 53 => ⟨S_, .f32⟩
  | 54 => ⟨S64, .f32⟩
  | 55 => ⟨S64, .f32⟩
  | 56 => ⟨S1x64, .f32⟩
  | 57 => ⟨S100000x64, .f32⟩
  | 58 => ⟨S100000x64, .f32⟩
  | 59 => ⟨S_, .f32⟩
  | 60 => ⟨S64, .f32⟩
  | 61 => ⟨S64, .f32⟩
  | 62 => ⟨S64, .f32⟩
  | 63 => ⟨S1x64, .f32⟩
  | 64 => ⟨S100000x64, .f32⟩
  | 65 => ⟨S100000x64, .f32⟩
  | 66 => ⟨S1x64, .f32⟩
  | 67 => ⟨S100000x64, .f32⟩
  | 68 => ⟨S100000x64, .f32⟩
  | 69 => ⟨S1x64, .f32⟩
  | 70 => ⟨S100000x64, .f32⟩
  | 71 => ⟨S100000x64, .f32⟩
  | 72 => ⟨S_, .i32⟩
  | 73 => ⟨S20000, .i32⟩
  | 74 => ⟨S20000, .i1⟩
  | 75 => ⟨S_, .i32⟩
  | 76 => ⟨S20000, .i32⟩
  | 77 => ⟨S20000, .i32⟩
  | 78 => ⟨S20000, .i32⟩
  | 79 => ⟨S20000x1, .i32⟩
  | 80 => ⟨S20000x64, .f32⟩
  | 81 => ⟨S20000x5, .f32⟩
  | 82 => ⟨S1x5, .f32⟩
  | 83 => ⟨S20000x5, .f32⟩
  | 84 => ⟨S20000x5, .f32⟩
  | 85 => ⟨S20000x5, .f32⟩
  | 86 => ⟨S20000x5, .f32⟩
  | 87 => ⟨S_, .f32⟩
  | 88 => ⟨S20000x5, .f32⟩
  | 89 => ⟨S20000x5, .f32⟩
  | 90 => ⟨S_, .f32⟩
  | 91 => ⟨S20000x5, .f32⟩
  | 92 => ⟨S20000x5, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_10 : Ref sig .tc := ⟨.hbm, 76, rfl⟩
abbrev main_call1_cst : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_v49 : Ref sig .tc := ⟨.hbm, 83, rfl⟩
abbrev main_cst_11 : Ref sig .tc := ⟨.hbm, 84, rfl⟩
abbrev main_v50 : Ref sig .tc := ⟨.hbm, 85, rfl⟩
abbrev main_cst_12 : Ref sig .tc := ⟨.hbm, 86, rfl⟩
abbrev main_v51 : Ref sig .tc := ⟨.hbm, 87, rfl⟩
abbrev main_v52 : Ref sig .tc := ⟨.hbm, 88, rfl⟩
abbrev main_c_13 : Ref sig .tc := ⟨.hbm, 89, rfl⟩
abbrev main_call2_cst : Ref sig .tc := ⟨.hbm, 90, rfl⟩
abbrev main_call2_v0 : Ref sig .tc := ⟨.hbm, 91, rfl⟩
abbrev main_call2_v1 : Ref sig .tc := ⟨.hbm, 92, rfl⟩
abbrev main_call2_cst_0 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_v5 : Ref sig .tc := ⟨.hbm, 97, rfl⟩
abbrev main_call2_v6 : Ref sig .tc := ⟨.hbm, 98, rfl⟩
abbrev main_call2_v7 : Ref sig .tc := ⟨.hbm, 99, rfl⟩
abbrev main_call2_cst_1 : Ref sig .tc := ⟨.hbm, 100, rfl⟩
abbrev main_call2_v8 : Ref sig .tc := ⟨.hbm, 101, rfl⟩
abbrev main_call2_cst_2 : Ref sig .tc := ⟨.hbm, 102, rfl⟩
abbrev main_call2_v9 : Ref sig .tc := ⟨.hbm, 103, rfl⟩
abbrev main_call2_v10 : Ref sig .tc := ⟨.hbm, 104, rfl⟩
abbrev main_call2_v11 : Ref sig .tc := ⟨.hbm, 105, rfl⟩
abbrev main_call2_cst_3 : Ref sig .tc := ⟨.hbm, 106, rfl⟩
abbrev main_call2_v12 : Ref sig .tc := ⟨.hbm, 107, rfl⟩
abbrev main_call2_cst_4 : Ref sig .tc := ⟨.hbm, 108, rfl⟩
abbrev main_call2_call0_v0 : Ref sig .tc := ⟨.hbm, 109, rfl⟩
abbrev main_call2_call0_v1 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_cst_14 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_c_15 : Ref sig .tc := ⟨.hbm, 129, rfl⟩
abbrev main_v70 : Ref sig .tc := ⟨.hbm, 130, rfl⟩
abbrev main_v71 : Ref sig .tc := ⟨.hbm, 131, rfl⟩
abbrev main_c_16 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_cst_17 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_cst_18 : Ref sig .tc := ⟨.hbm, 148, rfl⟩
abbrev main_call3_cst : Ref sig .tc := ⟨.hbm, 149, rfl⟩
abbrev main_call3_v0 : Ref sig .tc := ⟨.hbm, 150, rfl⟩
abbrev main_call3_v1 : Ref sig .tc := ⟨.hbm, 151, rfl⟩
abbrev main_call3_v2 : Ref sig .tc := ⟨.hbm, 152, rfl⟩
abbrev main_call3_v3 : Ref sig .tc := ⟨.hbm, 153, rfl⟩
abbrev main_call3_v4 : Ref sig .tc := ⟨.hbm, 154, rfl⟩
abbrev main_v86 : Ref sig .tc := ⟨.hbm, 155, rfl⟩
abbrev main_cst_19 : Ref sig .tc := ⟨.hbm, 156, rfl⟩
abbrev main_v87 : Ref sig .tc := ⟨.hbm, 157, rfl⟩
abbrev main_cst_20 : Ref sig .tc := ⟨.hbm, 158, rfl⟩
abbrev main_v88 : Ref sig .tc := ⟨.hbm, 159, rfl⟩
abbrev main_v89 : Ref sig .tc := ⟨.hbm, 160, rfl⟩
abbrev main_c_21 : Ref sig .tc := ⟨.hbm, 161, rfl⟩
abbrev main_call4_cst : Ref sig .tc := ⟨.hbm, 162, rfl⟩
abbrev main_call4_v0 : Ref sig .tc := ⟨.hbm, 163, rfl⟩
abbrev main_call4_v1 : Ref sig .tc := ⟨.hbm, 164, rfl⟩
abbrev main_call4_cst_0 : Ref sig .tc := ⟨.hbm, 165, rfl⟩
abbrev main_call4_v2 : Ref sig .tc := ⟨.hbm, 166, rfl⟩
abbrev main_call4_v3 : Ref sig .tc := ⟨.hbm, 167, rfl⟩
abbrev main_call4_v4 : Ref sig .tc := ⟨.hbm, 168, rfl⟩
abbrev main_call4_v5 : Ref sig .tc := ⟨.hbm, 169, rfl⟩
abbrev main_call4_v6 : Ref sig .tc := ⟨.hbm, 170, rfl⟩
abbrev main_call4_v7 : Ref sig .tc := ⟨.hbm, 171, rfl⟩
abbrev main_call4_cst_1 : Ref sig .tc := ⟨.hbm, 172, rfl⟩
abbrev main_call4_v8 : Ref sig .tc := ⟨.hbm, 173, rfl⟩
abbrev main_call4_cst_2 : Ref sig .tc := ⟨.hbm, 174, rfl⟩
abbrev main_call4_v9 : Ref sig .tc := ⟨.hbm, 175, rfl⟩
abbrev main_call4_v10 : Ref sig .tc := ⟨.hbm, 176, rfl⟩
abbrev main_call4_v11 : Ref sig .tc := ⟨.hbm, 177, rfl⟩
abbrev main_call4_cst_3 : Ref sig .tc := ⟨.hbm, 178, rfl⟩
abbrev main_call4_v12 : Ref sig .tc := ⟨.hbm, 179, rfl⟩
abbrev main_call4_cst_4 : Ref sig .tc := ⟨.hbm, 180, rfl⟩
abbrev main_call4_call0_v0 : Ref sig .tc := ⟨.hbm, 181, rfl⟩
abbrev main_call4_call0_v1 : Ref sig .tc := ⟨.hbm, 182, rfl⟩
abbrev main_v90 : Ref sig .tc := ⟨.hbm, 183, rfl⟩
abbrev main_v91 : Ref sig .tc := ⟨.hbm, 184, rfl⟩
abbrev main_v92 : Ref sig .tc := ⟨.hbm, 185, rfl⟩
abbrev main_v93 : Ref sig .tc := ⟨.hbm, 186, rfl⟩
abbrev main_cst_22 : Ref sig .tc := ⟨.hbm, 187, rfl⟩
abbrev main_v94 : Ref sig .tc := ⟨.hbm, 188, rfl⟩
abbrev main_v95 : Ref sig .tc := ⟨.hbm, 189, rfl⟩
abbrev main_v96 : Ref sig .tc := ⟨.hbm, 190, rfl⟩
abbrev main_v97 : Ref sig .tc := ⟨.hbm, 191, rfl⟩
abbrev main_v98 : Ref sig .tc := ⟨.hbm, 192, rfl⟩
abbrev main_v99 : Ref sig .tc := ⟨.hbm, 193, rfl⟩
abbrev main_v100 : Ref sig .tc := ⟨.hbm, 194, rfl⟩
abbrev main_v101 : Ref sig .tc := ⟨.hbm, 195, rfl⟩
abbrev main_v102 : Ref sig .tc := ⟨.hbm, 196, rfl⟩
abbrev main_v103 : Ref sig .tc := ⟨.hbm, 197, rfl⟩
abbrev main_v104 : Ref sig .tc := ⟨.hbm, 198, rfl⟩
abbrev main_v105 : Ref sig .tc := ⟨.hbm, 199, rfl⟩
abbrev main_c_23 : Ref sig .tc := ⟨.hbm, 200, rfl⟩
abbrev main_v106 : Ref sig .tc := ⟨.hbm, 201, rfl⟩
abbrev main_v107 : Ref sig .tc := ⟨.hbm, 202, rfl⟩
abbrev main_c_24 : Ref sig .tc := ⟨.hbm, 203, rfl⟩
abbrev main_v108 : Ref sig .tc := ⟨.hbm, 204, rfl⟩
abbrev main_v109 : Ref sig .tc := ⟨.hbm, 205, rfl⟩
abbrev main_v110 : Ref sig .tc := ⟨.hbm, 206, rfl⟩
abbrev main_v111 : Ref sig .tc := ⟨.hbm, 207, rfl⟩
abbrev main_v112 : Ref sig .tc := ⟨.hbm, 208, rfl⟩
abbrev main_v113 : Ref sig .tc := ⟨.hbm, 209, rfl⟩
abbrev main_v114 : Ref sig .tc := ⟨.hbm, 210, rfl⟩
abbrev main_v115 : Ref sig .tc := ⟨.hbm, 211, rfl⟩
abbrev main_v116 : Ref sig .tc := ⟨.hbm, 212, rfl⟩
abbrev main_v117 : Ref sig .tc := ⟨.hbm, 213, rfl⟩
abbrev main_v118 : Ref sig .tc := ⟨.hbm, 214, rfl⟩
abbrev main_cst_25 : Ref sig .tc := ⟨.hbm, 215, rfl⟩
abbrev main_v119 : Ref sig .tc := ⟨.hbm, 216, rfl⟩
abbrev main_v120 : Ref sig .tc := ⟨.hbm, 217, rfl⟩
abbrev main_cst_26 : Ref sig .tc := ⟨.hbm, 218, rfl⟩
abbrev main_v121 : Ref sig .tc := ⟨.hbm, 219, rfl⟩
abbrev main_v122 : Ref sig .tc := ⟨.hbm, 220, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  concatenates_S1250000_S100000_S1350000_d0 : Shape.Concatenates [S1250000, S100000] S1350000 0
  slices_S2x1250000_S1x1250000_1_0 : S2x1250000.Slices ![1, 0] S1x1250000
  bcast_S_S1350000 : S_.BroadcastsInDim S1350000 (![] : Fin 0 → Fin S1350000.rank)
  bcast_S_S100000 : S_.BroadcastsInDim S100000 (![] : Fin 0 → Fin S100000.rank)
  bcast_S1350000_S1350000x1_0 : S1350000.BroadcastsInDim S1350000x1 (![0] : Fin 1 → Fin S1350000x1.rank)
  bcast_S1350000x1_S1350000x64_0_1 : S1350000x1.BroadcastsInDim S1350000x64 (![0, 1] : Fin 2 → Fin S1350000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S20000 : S_.BroadcastsInDim S20000 (![] : Fin 0 → Fin S20000.rank)
  bcast_S20000_S20000x1_0 : S20000.BroadcastsInDim S20000x1 (![0] : Fin 1 → Fin S20000x1.rank)
  bcast_S5_S1x5_1 : S5.BroadcastsInDim S1x5 (![1] : Fin 1 → Fin S1x5.rank)
  bcast_S1x5_S20000x5_0_1 : S1x5.BroadcastsInDim S20000x5 (![0, 1] : Fin 2 → Fin S20000x5.rank)
  bcast_S_S20000x5 : S_.BroadcastsInDim S20000x5 (![] : Fin 0 → Fin S20000x5.rank)
  scatter_S100000_S1350000x1_S1350000_n_0_0_1_wf : ScatterDims.WF S100000 S1350000x1 S1350000 [] [0] [0] 1
  gather_S100000_S1350000x1_S1350000_n_0_n_n_0_1_1_wf : GatherDims.WF S100000 S1350000x1 S1350000 [] [0] [] [0] [] 1 ![1]
  dot_S100000x128_S128x64_S100000x64_1_0_0_1_n_n_wf : DotDims.WF S100000x128 S128x64 S100000x64 [1] [0] [0] [1] [] []
  gather_S100000x64_S1350000x1_S1350000x64_1_0_n_n_0_1_164_wf : GatherDims.WF S100000x64 S1350000x1 S1350000x64 [1] [0] [] [0] [] 1 ![1, 64]
  scatter_S100000x64_S1350000x1_S1350000x64_1_0_0_1_wf : ScatterDims.WF S100000x64 S1350000x1 S1350000x64 [1] [0] [0] 1
  dot_S100000x64_S64x64_S100000x64_1_0_0_1_n_n_wf : DotDims.WF S100000x64 S64x64 S100000x64 [1] [0] [0] [1] [] []
  gather_S100000x64_S20000x1_S20000x64_1_0_n_n_0_1_164_wf : GatherDims.WF S100000x64 S20000x1 S20000x64 [1] [0] [] [0] [] 1 ![1, 64]
  dot_S20000x64_S64x5_S20000x5_1_0_0_1_n_n_wf : DotDims.WF S20000x64 S64x5 S20000x5 [1] [0] [0] [1] [] []

variable [Facts₀]

def scatter_S100000_S1350000x1_S1350000_n_0_0_1 : ScatterDims S100000 S1350000x1 S1350000 where
  updateWindowDims := []
  insertedWindowDims := [0]
  scatterDimsToOperandDims := [0]
  indexVectorDim := 1
  wf := scatter_S100000_S1350000x1_S1350000_n_0_0_1_wf
def gather_S100000_S1350000x1_S1350000_n_0_n_n_0_1_1 : GatherDims S100000 S1350000x1 S1350000 where
  offsetDims := []
  collapsedSliceDims := [0]
  operandBatchingDims := []
  startIndicesBatchingDims := []
  startIndexMap := [0]
  indexVectorDim := 1
  sliceSizes := ![1]
  wf := gather_S100000_S1350000x1_S1350000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1350000x1_S1350000x64_1_0_n_n_0_1_164 : GatherDims S100000x64 S1350000x1 S1350000x64 where
  offsetDims := [1]
  collapsedSliceDims := [0]
  operandBatchingDims := []
  startIndicesBatchingDims := []
  startIndexMap := [0]
  indexVectorDim := 1
  sliceSizes := ![1, 64]
  wf := gather_S100000x64_S1350000x1_S1350000x64_1_0_n_n_0_1_164_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S20000x1_S20000x64_1_0_n_n_0_1_164 : GatherDims S100000x64 S20000x1 S20000x64 where
  offsetDims := [1]
  collapsedSliceDims := [0]
  operandBatchingDims := []
  startIndicesBatchingDims := []
  startIndexMap := [0]
  indexVectorDim := 1
  sliceSizes := ![1, 64]
  wf := gather_S100000x64_S20000x1_S20000x64_1_0_n_n_0_1_164_wf
def dot_S20000x64_S64x5_S20000x5_1_0_0_1_n_n : DotDims S20000x64 S64x5 S20000x5 where
  lhsContracting := [1]
  rhsContracting := [0]
  lhsNonContracting := [0]
  rhsNonContracting := [1]
  lhsBatch := []
  rhsBatch := []
  wf := dot_S20000x64_S64x5_S20000x5_1_0_0_1_n_n_wf

class Facts : Prop extends Facts₀ where

variable [Facts]
-- ==== Proof.KRun.lean ====
/-
  The idealized kernel's run with its two results named.  @main is twelve segments: host stretches and the five
  pallas_call regions.  The contents of every unscoped buffer at each segment boundary are a fold from the launch
  memory; the last boundary's contents are `Gen.W12`.  Every weakly fair execution terminates without a fault, and in
  every final state the two result arrays hold `W12` at their references, the thirteen argument arrays what they
  held at launch.
-/
import proofs.«166090_j687194767719_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; each result array ends at the last segment
    boundary's contents, each argument array as launched. -/
theorem run_results : θ_run defs (onTc (τ := τ) (main (F := F))) ⟨m, fun _ => 0, ρ⟩ (fun r => ∀ c : Dev nD,
      r.2.mem ((c.tc : Thread nD τ).loc main_v96_0) = W12 m ρ c (Proc.devRef .tc main_v96_0)
      ∧ r.2.mem ((c.tc : Thread nD τ).loc main_v96_1) = W12 m ρ c (Proc.devRef .tc main_v96_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v96_0 (by decide)),
       h c _ (mem_uc main_v96_1 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c)⟩)

end Cert.KernelIdeal.KRun

end
-- ==== Proof.RefRun.lean ====
/- The reference program's @main as the LIST of its 208 host operations, in order — the operations of each module-local
   function listed at its call over that call's record of buffers, the callee's parameters at the call's operands — cut
   into twelve stretches, and the run read back from the list: every weakly fair execution terminates with each
   TensorCore buffer at the fold of the operations' results over its launch contents; no operation writes an argument
   buffer, so the arguments end unchanged. -/
import proofs.«166090_j687194767719_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Folds and writes of a concatenation -/

/-- The fold over a concatenation is the fold over the second list from the fold over the first. -/
theorem after_append (a b : List (HloOp τ sig (Elt F))) (V : Valuation τ sig (Elt F)) :
    after (a ++ b) V = after b (after a V) := by
  induction a generalizing V with
  | nil => rfl
  | cons op a ih => exact ih _

/-- If, operation by operation, what a list writes is the one buffer of the matching entry of a list of references,
    every operation writes inside that list's buffers. -/
theorem writes_sub_of_map_eq {l : List (HloOp τ sig (Elt F))} {w : List (Ref sig .tc)}
    (h : l.map HloOp.writes = w.map fun r => ({Proc.devRef (τ := τ) .tc r} : Finset (DevRef τ sig))) :
    l.Forall fun op => op.writes ⊆ (w.map (Proc.devRef (τ := τ) .tc)).toFinset := by
  rw [List.forall_iff_forall_mem]
  intro op hop
  have hmem : op.writes ∈ l.map HloOp.writes := List.mem_map.mpr ⟨op, hop, rfl⟩
  rw [h] at hmem
  obtain ⟨r, hr, he⟩ := List.mem_map.mp hmem
  rw [← he, Finset.singleton_subset_iff, List.mem_toFinset]
  exact List.mem_map.mpr ⟨r, hr, rfl⟩

/-! ## The operations, in twelve stretches

A module-local function's operations stand where it is called: its parameters are the call's operands (typed at the
parameter's type), its own values the buffers of the call's record. Each stretch ends right after the operation that
writes the buffer its heading names. Per stretch: the operations, the reference each writes, that every buffer touched
is a TensorCore reference, that each operation writes exactly its entry's buffer and determines it, and hence that a
reference outside the stretch's writes keeps its contents across the stretch. -/

set_option maxRecDepth 8192
set_option maxHeartbeats 4000000

/-- Stretch 0, through the call of @_where (its result main_v16): the in-degree count, its clamp and reciprocal square root, zero where the count is zero. -/
abbrev r0 : List (HloOp τ sig (Elt F)) :=
  [ StableHlo.nullary main_v0 (iotaInDim S100000 32 0),
    StableHlo.unary main_arg1 main_v1 ((extractStridedSlice S1x1250000 ![0, 0] · slices_S2x1250000_S1x1250000_0_0) : (⟨S2x1250000, .i32⟩ : BufTy).Contents (Elt F) → (⟨S1x1250000, .i32⟩ : BufTy).Contents (Elt F)),
    StableHlo.reshape main_v1 main_v2 rfl shapeCasts_S1x1250000_S1250000,
    StableHlo.binary main_v2 main_v0 main_v3 ((fun a b => concatenate S1350000 0 [⟨S1250000, a⟩, ⟨S100000, b⟩] concatenates_S1250000_S100000_S1350000_d0) : (⟨S1250000, .i32⟩ : BufTy).Contents (Elt F) → (⟨S100000, .i32⟩ : BufTy).Contents (Elt F) → (⟨S1350000, .i32⟩ : BufTy).Contents (Elt F)),
    StableHlo.unary main_arg1 main_v4 ((extractStridedSlice S1x1250000 ![1, 0] · slices_S2x1250000_S1x1250000_1_0) : (⟨S2x1250000, .i32⟩ : BufTy).Contents (Elt F) → (⟨S1x1250000, .i32⟩ : BufTy).Contents (Elt F)),
    StableHlo.reshape main_v4 main_v5 rfl shapeCasts_S1x1250000_S1250000,
    StableHlo.binary main_v5 main_v0 main_v6 ((fun a b => concatenate S1350000 0 [⟨S1250000, a⟩, ⟨S100000, b⟩] concatenates_S1250000_S100000_S1350000_d0) : (⟨S1250000, .i32⟩ : BufTy).Contents (Elt F) → (⟨S100000, .i32⟩ : BufTy).Contents (Elt F) → (⟨S1350000, .i32⟩ : BufTy).Contents (Elt F)),
    StableHlo.nullary main_cst (constant S_ .f32 0x3F800000#32),
    StableHlo.unary main_cst main_v7 (broadcastInDim S1350000 ![] bcast_S_S1350000 : (⟨S_, .f32⟩ : BufTy).Contents (Elt F) → (⟨S1350000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1350000x1 ![0] bcast_S1350000_S1350000x1_0 : (⟨S1350000, .i32⟩ : BufTy).Contents (Elt F) → (⟨S1350000x1, .i32⟩ : BufTy).Contents (Elt F)),
    StableHlo.ternary main_v8 main_v9 main_v7 main_v10 ((fun x i u => Host.scatterAdd scatter_S100000_S1350000x1_S1350000_n_0_0_1 x i u) : (⟨S100000, .f32⟩ : BufTy).Contents (Elt F) → (⟨S1350000x1, .i32⟩ : BufTy).Contents (Elt F) → (⟨S1350000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x2B8CBCCC#32),
    StableHlo.unary main_cst_2 main_v13 (broadcastInDim S100000 ![] bcast_S_S100000 : (⟨S_, .f32⟩ : BufTy).Contents (Elt F) → (⟨S100000, .f32⟩ : BufTy).Contents (Elt F)),
    StableHlo.binary main_v10 main_v13 main_v14 (maximumf : (⟨S100000, .f32⟩ : BufTy).Contents (Elt F) → (⟨S100000, .f32⟩ : BufTy).Contents (Elt F) → (⟨S100000, .f32⟩ : BufTy).Contents (Elt F)),
    StableHlo.unary main_v14 main_v15 (Host.rsqrt : (⟨S100000, .f32⟩ : BufTy).Contents (Elt F) → (⟨S100000, .f32⟩ : BufTy).Contents (Elt F)),
    StableHlo.nullary main_cst_3 (constant S_ .f32 0x00000000#32),
    StableHlo.TRef.unary (.of main_cst_3 : StableHlo.TRef sig ⟨S_, .f32⟩) main_call0.v0 id,
    StableHlo.TRef.unary main_call0.v0 main_call0.v1 (broadcastInDim S100000 ![] bcast_S_S100000),
    StableHlo.TRef.ternary (.of main_v12 : StableHlo.TRef sig ⟨S100000, .i1⟩) (.of main_v15 : StableHlo.TRef sig ⟨S100000, .f32⟩) main_call0.v1 main_call0.v2 select ]
/-- The reference each operation of stretch 0 writes, in order. -/
abbrev W0 : List (Ref sig .tc) :=
  [ main_v0, main_v1, main_v2, main_v3, main_v4, main_v5, main_v6, main_cst,
    main_v7, main_cst_0, main_v8, main_v9, main_v10, main_cst_1, main_v11, main_v12,
    main_cst_2, main_v13, main_v14, main_v15, main_cst_3, main_call0.v0.ref, main_call0.v1.ref, main_call0.v2.ref ]
theorem r0_sub : (r0 : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., nullary_bufs_sub .., unary_bufs_sub ..,
    binary_bufs_sub .., unary_bufs_sub .., nullary_bufs_sub .., unary_bufs_sub .., unary_bufs_sub .., ternary_bufs_sub ..⟩
theorem r0_writes : (r0 : List (HloOp τ sig (Elt F))).map HloOp.writes
    = W0.map fun r => ({Proc.devRef (τ := τ) .tc r} : Finset (DevRef τ sig)) := rfl
theorem r0_fresh : ∀ op ∈ (r0 : List (HloOp τ sig (Elt F))), op.fresh = ∅ :=
  List.map_inj_left.mp (rfl : (r0 : List (HloOp τ sig (Elt F))).map HloOp.fresh
      = (r0 : List (HloOp τ sig (Elt F))).map fun _ => ∅)
theorem r0_writes_sub : (r0 : List (HloOp τ sig (Elt F))).Forall fun op =>
    op.writes ⊆ (W0.map (Proc.devRef (τ := τ) .tc)).toFinset := writes_sub_of_map_eq r0_writes
/-- A reference stretch 0 does not write keeps its contents across it. -/
theorem r0_keeps (V : Valuation τ sig (Elt F)) {r : Ref sig .tc} (hr : r ∉ W0) :
    after r0 V (Proc.devRef .tc r) = V (Proc.devRef .tc r) := after_of_writes_sub r0 V r0_writes_sub hr

/-- Stretch 1, through main_v31: the two gathers of that vector at the edge endpoints and their product, the edge weight. -/
abbrev r1 : List (HloOp τ sig (Elt F)) :=
  [ StableHlo.nullary main_c (constantI S_ 32 0#32),
    StableHlo.unary main_c main_v17 (broadcastInDim S1350000 ![] bcast_S_S1350000 : (⟨S_, .i32⟩ : BufTy).Contents (Elt F) → (⟨S1350000, .i32⟩ : BufTy).Contents (Elt F)),
    StableHlo.binary main_v3 main_v17 main_v18 (cmpi .slt : (⟨S1350000, .i32⟩ : BufTy).Contents (Elt F) → (⟨S1350000, .i32⟩ : BufTy).Contents (Elt F) → (⟨S1350000, .i1⟩ : BufTy).Contents (Elt F)),
    StableHlo.nullary main_c_4 (constantI S_ 32 100000#32),
    StableHlo.unary main_c_4 main_v19 (broadcastInDim S1350000 ![] bcast_S_S1350000 : (⟨S_, .i32⟩ : BufTy).Contents (Elt F) → (⟨S1350000, .i32⟩ : BufTy).Contents (Elt F)),
    StableHlo.binary main_v3 main_v19 main_v20 (addi : (⟨S1350000, .i32⟩ : BufTy).Contents (Elt F) → (⟨S1350000, .i32⟩ : BufTy).Contents (Elt F) → (⟨S1350000, .i32⟩ : BufTy).Contents (Elt F)),
    StableHlo.ternary main_v18 main_v20 main_v3 main_v21 (select : (⟨S1350000, .i1⟩ : BufTy).Contents (Elt F) → (⟨S1350000, .i32⟩ : BufTy).Contents (Elt F) → (⟨S1350000, .i32⟩ : BufTy).Contents (Elt F) → (⟨S1350000, .i32⟩ : BufTy).Contents (Elt F)),
    StableHlo.unary main_v21 main_v22 (broadcastInDim S1350000x1 ![0] bcast_S1350000_S1350000x1_0 : (⟨S1350000, .i32⟩ : BufTy).Contents (Elt F) → (⟨S1350000x1, .i32⟩ : BufTy).Contents (Elt F)),
    StableHlo.binary main_v16 main_v22 main_v23 ((fun x i => Host.gather gather_S100000_S1350000x1_S1350000_n_0_n_n_0_1_1 x i) : (⟨S100000, .f32⟩ : BufTy).Contents (Elt F) → (⟨S1350000x1, .i32⟩ : BufTy).Contents (Elt F) → (⟨S1350000, .f32⟩ : BufTy).Contents (Elt F)),
    StableHlo.nullary main_c_5 (constantI S_ 32 0#32),
    StableHlo.unary main_c_5 main_v24 (broadcastInDim S1350000 ![] bcast_S_S1350000 : (⟨S_, .i32⟩ : BufTy).Contents (Elt F) → (⟨S1350000, .i32⟩ : BufTy).Contents (Elt F)),
    StableHlo.binary main_v6 main_v24 main_v25 (cmpi .slt : (⟨S1350000, .i32⟩ : BufTy).Contents (Elt F) → (⟨S1350000, .i32⟩ : BufTy).Contents (Elt F) → (⟨S1350000, .i1⟩ : BufTy).Contents (Elt F)),
    StableHlo.nullary main_c_6 (constantI S_ 32 100000#32),
    StableHlo.unary main_c_6 main_v26 (broadcastInDim S1350000 ![] bcast_S_S1350000 : (⟨S_, .i32⟩ : BufTy).Contents (Elt F) → (⟨S1350000, .i32⟩ : BufTy).Contents (Elt F)),
    StableHlo.binary main_v6 main_v26 main_v27 (addi : (⟨S1350000, .i32⟩ : BufTy).Contents (Elt F) → (⟨S1350000, .i32⟩ : BufTy).Contents (Elt F) → (⟨S1350000, .i32⟩ : BufTy).Contents (Elt F)),
    StableHlo.ternary main_v25 main_v27 main_v6 main_v28 (select : (⟨S1350000, .i1⟩ : BufTy).Contents (Elt F) → (⟨S1350000, .i32⟩ : BufTy).Contents (Elt F) → (⟨S1350000, .i32⟩ : BufTy).Contents (Elt F) → (⟨S1350000, .i32⟩ : BufTy).Contents (Elt F)),
    StableHlo.unary main_v28 main_v29 (broadcastInDim S1350000x1 ![0] bcast_S1350000_S1350000x1_0 : (⟨S1350000, .i32⟩ : BufTy).Contents (Elt F) → (⟨S1350000x1, .i32⟩ : BufTy).Contents (Elt F)),
    StableHlo.binary main_v16 main_v29 main_v30 ((fun x i => Host.gather gather_S100000_S1350000x1_S1350000_n_0_n_n_0_1_1 x i) : (⟨S100000, .f32⟩ : BufTy).Contents (Elt F) → (⟨S1350000x1, .i32⟩ : BufTy).Contents (Elt F) → (⟨S1350000, .f32⟩ : BufTy).Contents (Elt F)),
    StableHlo.binary main_v23 main_v30 main_v31 (mulf : (⟨S1350000, .f32⟩ : BufTy).Contents (Elt F) → (⟨S1350000, .f32⟩ : BufTy).Contents (Elt F) → (⟨S1350000, .f32⟩ : BufTy).Contents (Elt F)) ]
/-- The reference each operation of stretch 1 writes, in order. -/
abbrev W1 : List (Ref sig .tc) :=
  [ main_c, main_v17, main_v18, main_c_4, main_v19, main_v20, main_v21, main_v22,
    main_v23, main_c_5, main_v24, main_v25, main_c_6, main_v26, main_v27, main_v28,
    main_v29, main_v30, main_v31 ]
theorem r1_sub : (r1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub ..⟩
theorem r1_writes : (r1 : List (HloOp τ sig (Elt F))).map HloOp.writes
    = W1.map fun r => ({Proc.devRef (τ := τ) .tc r} : Finset (DevRef τ sig)) := rfl
theorem r1_fresh : ∀ op ∈ (r1 : List (HloOp τ sig (Elt F))), op.fresh = ∅ :=
  List.map_inj_left.mp (rfl : (r1 : List (HloOp τ sig (Elt F))).map HloOp.fresh
      = (r1 : List (HloOp τ sig (Elt F))).map fun _ => ∅)
theorem r1_writes_sub : (r1 : List (HloOp τ sig (Elt F))).Forall fun op =>
    op.writes ⊆ (W1.map (Proc.devRef (τ := τ) .tc)).toFinset := writes_sub_of_map_eq r1_writes
/-- A reference stretch 1 does not write keeps its contents across it. -/
theorem r1_keeps (V : Valuation τ sig (Elt F)) {r : Ref sig .tc} (hr : r ∉ W1) :
    after r1 V (Proc.devRef .tc r) = V (Proc.devRef .tc r) := after_of_writes_sub r1 V r1_writes_sub hr

/-- Stretch 2, through main_v48: the first layer's matrix product, its gather along the edges, the weighting, the scatter-add and the bias. -/
abbrev r2 : List (HloOp τ sig (Elt F)) :=
  [ StableHlo.binary main_arg0 main_arg3 main_v32 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.nullary main_c_7 (constantI S_ 32 0#32),
    StableHlo.unary main_c_7 main_v33 (broadcastInDim S1350000 ![] bcast_S_S1350000 : (⟨S_, .i32⟩ : BufTy).Contents (Elt F) → (⟨S1350000, .i32⟩ : BufTy).Contents (Elt F)),
    StableHlo.binary main_v3 main_v33 main_v34 (cmpi .slt : (⟨S1350000, .i32⟩ : BufTy).Contents (Elt F) → (⟨S1350000, .i32⟩ : BufTy).Contents (Elt F) → (⟨S1350000, .i1⟩ : BufTy).Contents (Elt F)),
    StableHlo.nullary main_c_8 (constantI S_ 32 100000#32),
    StableHlo.unary main_c_8 main_v35 (broadcastInDim S1350000 ![] bcast_S_S1350000 : (⟨S_, .i32⟩ : BufTy).Contents (Elt F) → (⟨S1350000, .i32⟩ : BufTy).Contents (Elt F)),
    StableHlo.binary main_v3 main_v35 main_v36 (addi : (⟨S1350000, .i32⟩ : BufTy).Contents (Elt F) → (⟨S1350000, .i32⟩ : BufTy).Contents (Elt F) → (⟨S1350000, .i32⟩ : BufTy).Contents (Elt F)),
    StableHlo.ternary main_v34 main_v36 main_v3 main_v37 (select : (⟨S1350000, .i1⟩ : BufTy).Contents (Elt F) → (⟨S1350000, .i32⟩ : BufTy).Contents (Elt F) → (⟨S1350000, .i32⟩ : BufTy).Contents (Elt F) → (⟨S1350000, .i32⟩ : BufTy).Contents (Elt F)),
    StableHlo.unary main_v37 main_v38 (broadcastInDim S1350000x1 ![0] bcast_S1350000_S1350000x1_0 : (⟨S1350000, .i32⟩ : BufTy).Contents (Elt F) → (⟨S1350000x1, .i32⟩ : BufTy).Contents (Elt F)),
    StableHlo.binary main_v32 main_v38 main_v39 ((fun x i => Host.gather gather_S100000x64_S1350000x1_S1350000x64_1_0_n_n_0_1_164 x i) : (⟨S100000x64, .f32⟩ : BufTy).Contents (Elt F) → (⟨S1350000x1, .i32⟩ : BufTy).Contents (Elt F) → (⟨S1350000x64, .f32⟩ : BufTy).Contents (Elt F)),
    StableHlo.unary main_v31 main_v40 (broadcastInDim S1350000x1 ![0] bcast_S1350000_S1350000x1_0 : (⟨S1350000, .f32⟩ : BufTy).Contents (Elt F) → (⟨S1350000x1, .f32⟩ : BufTy).Contents (Elt F)),
    StableHlo.unary main_v40 main_v41 (broadcastInDim S1350000x64 ![0, 1] bcast_S1350000x1_S1350000x64_0_1 : (⟨S1350000x1, .f32⟩ : BufTy).Contents (Elt F) → (⟨S1350000x64, .f32⟩ : BufTy).Contents (Elt F)),
    StableHlo.binary main_v39 main_v41 main_v42 (mulf : (⟨S1350000x64, .f32⟩ : BufTy).Contents (Elt F) → (⟨S1350000x64, .f32⟩ : BufTy).Contents (Elt F) → (⟨S1350000x64, .f32⟩ : BufTy).Contents (Elt F)),
    StableHlo.nullary main_cst_9 (constant S_ .f32 0x00000000#32),
    StableHlo.unary main_cst_9 main_v43 (broadcastInDim S100000x64 ![] bcast_S_S100000x64 : (⟨S_, .f32⟩ : BufTy).Contents (Elt F) → (⟨S100000x64, .f32⟩ : BufTy).Contents (Elt F)),
    StableHlo.unary main_v6 main_v44 (broadcastInDim S1350000x1 ![0] bcast_S1350000_S1350000x1_0 : (⟨S1350000, .i32⟩ : BufTy).Contents (Elt F) → (⟨S1350000x1, .i32⟩ : BufTy).Contents (Elt F)),
    StableHlo.ternary main_v43 main_v44 main_v42 main_v45 ((fun x i u => Host.scatterAdd scatter_S100000x64_S1350000x1_S1350000x64_1_0_0_1 x i u) : (⟨S100000x64, .f32⟩ : BufTy).Contents (Elt F) → (⟨S1350000x1, .i32⟩ : BufTy).Contents (Elt F) → (⟨S1350000x64, .f32⟩ : BufTy).Contents (Elt F) → (⟨S100000x64, .f32⟩ : BufTy).Contents (Elt F)),
    StableHlo.unary main_arg4 main_v46 (broadcastInDim S1x64 ![1] bcast_S64_S1x64_1 : (⟨S64, .f32⟩ : BufTy).Contents (Elt F) → (⟨S1x64, .f32⟩ : BufTy).Contents (Elt F)),
    StableHlo.unary main_v46 main_v47 (broadcastInDim S100000x64 ![0, 1] bcast_S1x64_S100000x64_0_1 : (⟨S1x64, .f32⟩ : BufTy).Contents (Elt F) → (⟨S100000x64, .f32⟩ : BufTy).Contents (Elt F)),
    StableHlo.binary main_v45 main_v47 main_v48 (addf : (⟨S100000x64, .f32⟩ : BufTy).Contents (Elt F) → (⟨S100000x64, .f32⟩ : BufTy).Contents (Elt F) → (⟨S100000x64, .f32⟩ : BufTy).Contents (Elt F)) ]
/-- The reference each operation of stretch 2 writes, in order. -/
abbrev W2 : List (Ref sig .tc) :=
  [ main_v32, main_c_7, main_v33, main_v34, main_c_8, main_v35, main_v36, main_v37,
    main_v38, main_v39, main_v40, main_v41, main_v42, main_cst_9, main_v43, main_v44,
    main_v45, main_v46, main_v47, main_v48 ]
theorem r2_sub : (r2 : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub ..⟩
theorem r2_writes : (r2 : List (HloOp τ sig (Elt F))).map HloOp.writes
    = W2.map fun r => ({Proc.devRef (τ := τ) .tc r} : Finset (DevRef τ sig)) := rfl
theorem r2_fresh : ∀ op ∈ (r2 : List (HloOp τ sig (Elt F))), op.fresh = ∅ :=
  List.map_inj_left.mp (rfl : (r2 : List (HloOp τ sig (Elt F))).map HloOp.fresh
      = (r2 : List (HloOp τ sig (Elt F))).map fun _ => ∅)
theorem r2_writes_sub : (r2 : List (HloOp τ sig (Elt F))).Forall fun op =>
    op.writes ⊆ (W2.map (Proc.devRef (τ := τ) .tc)).toFinset := writes_sub_of_map_eq r2_writes
/-- A reference stretch 2 does not write keeps its contents across it. -/
theorem r2_keeps (V : Valuation τ sig (Elt F)) {r : Ref sig .tc} (hr : r ∉ W2) :
    after r2 V (Proc.devRef .tc r) = V (Proc.devRef .tc r) := after_of_writes_sub r2 V r2_writes_sub hr

/-- Stretch 3, the call of @leaky_relu on main_v48 (its result main_v49). -/
abbrev r3 : List (HloOp τ sig (Elt F)) :=
  [ StableHlo.nullary main_cst_10 (constant S_ .f32 0x3C23D70A#32),
    StableHlo.TRef.nullary main_call1.cst (constant S_ .f32 0x00000000#32),
    StableHlo.TRef.unary main_call1.cst main_call1.v0 (broadcastInDim S100000x64 ![] bcast_S_S100000x64),
    StableHlo.TRef.binary (.of main_v48 : StableHlo.TRef sig ⟨S100000x64, .f32⟩) main_call1.v0 main_call1.v1 (cmpf .oge),
    StableHlo.TRef.unary (.of main_cst_10 : StableHlo.TRef sig ⟨S_, .f32⟩) main_call1.v2 id,
    StableHlo.TRef.unary main_call1.v2 main_call1.v3 (broadcastInDim S100000x64 ![] bcast_S_S100000x64),
    StableHlo.TRef.binary main_call1.v3 (.of main_v48 : StableHlo.TRef sig ⟨S100000x64, .f32⟩) main_call1.v4 mulf,
    StableHlo.TRef.ternary main_call1.v1 (.of main_v48 : StableHlo.TRef sig ⟨S100000x64, .f32⟩) main_call1.v4 main_call1.call0.v0 select ]
/-- The reference each operation of stretch 3 writes, in order. -/
abbrev W3 : List (Ref sig .tc) :=
  [ main_cst_10, main_call1.cst.ref, main_call1.v0.ref, main_call1.v1.ref, main_call1.v2.ref, main_call1.v3.ref, main_call1.v4.ref, main_call1.call0.v0.ref ]
theorem r3_sub : (r3 : List (HloOp τ sig (Elt F))).Forall fun op => op.bufs ⊆ tcRefs τ sig :=
  ⟨nullary_bufs_sub .., nullary_bufs_sub .., unary_bufs_sub .., binary_bufs_sub .., unary_bufs_sub .., unary_bufs_sub ..,
    binary_bufs_sub .., ternary_bufs_sub ..⟩
theorem r3_writes : (r3 : List (HloOp τ sig (Elt F))).map HloOp.writes
    = W3.map fun r => ({Proc.devRef (τ := τ) .tc r} : Finset (DevRef τ sig)) := rfl
theorem r3_fresh : ∀ op ∈ (r3 : List (HloOp τ sig (Elt F))), op.fresh = ∅ :=
  List.map_inj_left.mp (rfl : (r3 : List (HloOp τ sig (Elt F))).map HloOp.fresh
      = (r3 : List (HloOp τ sig (Elt F))).map fun _ => ∅)
theorem r3_writes_sub : (r3 : List (HloOp τ sig (Elt F))).Forall fun op =>
    op.writes ⊆ (W3.map (Proc.devRef (τ := τ) .tc)).toFinset := writes_sub_of_map_eq r3_writes
/-- A reference stretch 3 does not write keeps its contents across it. -/
theorem r3_keeps (V : Valuation τ sig (Elt F)) {r : Ref sig .tc} (hr : r ∉ W3) :
    after r3 V (Proc.devRef .tc r) = V (Proc.devRef .tc r) := after_of_writes_sub r3 V r3_writes_sub hr

/-- Stretch 4, through main_v59: the column mean of main_v49, the call of @_var (its result main_v53), the reciprocal square root of the variance plus epsilon. -/
abbrev r4 : List (HloOp τ sig (Elt F)) :=
  [ StableHlo.nullary main_cst_11 (constant S_ .f32 0x00000000#32),
    StableHlo.binary main_v49 main_cst_11 main_v50 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_12 (constant S_ .f32 0x47C35000#32),
    StableHlo.unary main_cst_12 main_v51 (broadcastInDim S64 ![] bcast_S_S64 : (⟨S_, .f32⟩ : BufTy).Contents (Elt F) → (⟨S64, .f32⟩ : BufTy).Contents (Elt F)),
    StableHlo.binary main_v50 main_v51 main_v52 (Host.divf : (⟨S64, .f32⟩ : BufTy).Contents (Elt F) → (⟨S64, .f32⟩ : BufTy).Contents (Elt F) → (⟨S64, .f32⟩ : BufTy).Contents (Elt F)),
    StableHlo.nullary main_c_13 (constantI S_ 32 0#32),
    StableHlo.TRef.nullary main_call2.cst (constant S_ .f32 0x00000000#32),
    StableHlo.TRef.binary (.of main_v49 : StableHlo.TRef sig ⟨S100000x64, .f32⟩) main_call2.cst main_call2.v0 (fun x v => Host.reduceAdd x v reducesTo_S100000x64_S64_d0 h_S_),
    StableHlo.TRef.unary main_call2.v0 main_call2.v1 (broadcastInDim S1x64 ![1] bcast_S64_S1x64_1),
    StableHlo.TRef.nullary main_call2.cst_0 (constant S_ .f32 0x47C35000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S100000x64 ![0, 1] bcast_S1x64_S100000x64_0_1),
    StableHlo.TRef.binary (.of main_v49 : StableHlo.TRef sig ⟨S100000x64, .f32⟩) main_call2.v4 main_call2.v5 subf,
    StableHlo.TRef.binary main_call2.v5 main_call2.v5 main_call2.v6 mulf,
    StableHlo.TRef.unary (.of main_c_13 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v52 main_v54 (broadcastInDim S1x64 ![1] bcast_S64_S1x64_1 : (⟨S64, .f32⟩ : BufTy).Contents (Elt F) → (⟨S1x64, .f32⟩ : BufTy).Contents (Elt F)),
    StableHlo.unary main_v54 main_v55 (broadcastInDim S100000x64 ![0, 1] bcast_S1x64_S100000x64_0_1 : (⟨S1x64, .f32⟩ : BufTy).Contents (Elt F) → (⟨S100000x64, .f32⟩ : BufTy).Contents (Elt F)),
    StableHlo.binary main_v49 main_v55 main_v56 (subf : (⟨S100000x64, .f32⟩ : BufTy).Contents (Elt F) → (⟨S100000x64, .f32⟩ : BufTy).Contents (Elt F) → (⟨S100000x64, .f32⟩ : BufTy).Contents (Elt F)),
    StableHlo.nullary main_cst_14 (constant S_ .f32 0x3727C5AC#32),
    StableHlo.unary main_cst_14 main_v57 (broadcastInDim S64 ![] bcast_S_S64 : (⟨S_, .f32⟩ : BufTy).Contents (Elt F) → (⟨S64, .f32⟩ : BufTy).Contents (Elt F)),
    StableHlo.binary main_v53 main_v57 main_v58 (addf : (⟨S64, .f32⟩ : BufTy).Contents (Elt F) → (⟨S64, .f32⟩ : BufTy).Contents (Elt F) → (⟨S64, .f32⟩ : BufTy).Contents (Elt F)),
    StableHlo.unary main_v58 main_v59 (Host.rsqrt : (⟨S64, .f32⟩ : BufTy).Contents (Elt F) → (⟨S64, .f32⟩ : BufTy).Contents (Elt F)) ]
/-- The reference each operation of stretch 4 writes, in order. -/
abbrev W4 : List (Ref sig .tc) :=
  [ main_cst_11, main_v50, main_cst_12, main_v51, main_v52, main_c_13, main_call2.cst.ref, main_call2.v0.ref,
    main_call2.v1.ref, main_call2.cst_0.ref, main_call2.v2.ref, main_call2.v3.ref, main_call2.v4.ref, main_call2.v5.ref, main_call2.v6.ref, main_call2.v7.ref,
    main_call2.cst_1.ref, main_call2.v8.ref, main_call2.cst_2.ref, main_call2.v9.ref, main_call2.v10.ref, main_call2.v11.ref, main_call2.cst_3.ref, main_call2.v12.ref,
    main_call2.cst_4.ref, main_call2.call0.v0.ref, main_call2.call0.v1.ref, main_call2.call0.v2.ref, main_v54, main_v55, main_v56, main_cst_14,
    main_v57, main_v58, main_v59 ]
theorem r4_sub : (r4 : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub ..⟩
theorem r4_writes : (r4 : List (HloOp τ sig (Elt F))).map HloOp.writes
    = W4.map fun r => ({Proc.devRef (τ := τ) .tc r} : Finset (DevRef τ sig)) := rfl
theorem r4_fresh : ∀ op ∈ (r4 : List (HloOp τ sig (Elt F))), op.fresh = ∅ :=
  List.map_inj_left.mp (rfl : (r4 : List (HloOp τ sig (Elt F))).map HloOp.fresh
      = (r4 : List (HloOp τ sig (Elt F))).map fun _ => ∅)
theorem r4_writes_sub : (r4 : List (HloOp τ sig (Elt F))).Forall fun op =>
    op.writes ⊆ (W4.map (Proc.devRef (τ := τ) .tc)).toFinset := writes_sub_of_map_eq r4_writes
/-- A reference stretch 4 does not write keeps its contents across it. -/
theorem r4_keeps (V : Valuation τ sig (Elt F)) {r : Ref sig .tc} (hr : r ∉ W4) :
    after r4 V (Proc.devRef .tc r) = V (Proc.devRef .tc r) := after_of_writes_sub r4 V r4_writes_sub hr

/-- Stretch 5, through main_v68: the centring, scaling and affine map of the first normalization. -/
abbrev r5 : List (HloOp τ sig (Elt F)) :=
  [ StableHlo.unary main_v59 main_v60 (broadcastInDim S1x64 ![1] bcast_S64_S1x64_1 : (⟨S64, .f32⟩ : BufTy).Contents (Elt F) → (⟨S1x64, .f32⟩ : BufTy).Contents (Elt F)),
    StableHlo.unary main_v60 main_v61 (broadcastInDim S100000x64 ![0, 1] bcast_S1x64_S100000x64_0_1 : (⟨S1x64, .f32⟩ : BufTy).Contents (Elt F) → (⟨S100000x64, .f32⟩ : BufTy).Contents (Elt F)),
    StableHlo.binary main_v56 main_v61 main_v62 (mulf : (⟨S100000x64, .f32⟩ : BufTy).Contents (Elt F) → (⟨S100000x64, .f32⟩ : BufTy).Contents (Elt F) → (⟨S100000x64, .f32⟩ : BufTy).Contents (Elt F)),
    StableHlo.unary main_arg5 main_v63 (broadcastInDim S1x64 ![1] bcast_S64_S1x64_1 : (⟨S64, .f32⟩ : BufTy).Contents (Elt F) → (⟨S1x64, .f32⟩ : BufTy).Contents (Elt F)),
    StableHlo.unary main_v63 main_v64 (broadcastInDim S100000x64 ![0, 1] bcast_S1x64_S100000x64_0_1 : (⟨S1x64, .f32⟩ : BufTy).Contents (Elt F) → (⟨S100000x64, .f32⟩ : BufTy).Contents (Elt F)),
    StableHlo.binary main_v62 main_v64 main_v65 (mulf : (⟨S100000x64, .f32⟩ : BufTy).Contents (Elt F) → (⟨S100000x64, .f32⟩ : BufTy).Contents (Elt F) → (⟨S100000x64, .f32⟩ : BufTy).Contents (Elt F)),
    StableHlo.unary main_arg6 main_v66 (broadcastInDim S1x64 ![1] bcast_S64_S1x64_1 : (⟨S64, .f32⟩ : BufTy).Contents (Elt F) → (⟨S1x64, .f32⟩ : BufTy).Contents (Elt F)),
    StableHlo.unary main_v66 main_v67 (broadcastInDim S100000x64 ![0, 1] bcast_S1x64_S100000x64_0_1 : (⟨S1x64, .f32⟩ : BufTy).Contents (Elt F) → (⟨S100000x64, .f32⟩ : BufTy).Contents (Elt F)),
    StableHlo.binary main_v65 main_v67 main_v68 (addf : (⟨S100000x64, .f32⟩ : BufTy).Contents (Elt F) → (⟨S100000x64, .f32⟩ : BufTy).Contents (Elt F) → (⟨S100000x64, .f32⟩ : BufTy).Contents (Elt F)) ]
/-- The reference each operation of stretch 5 writes, in order. -/
abbrev W5 : List (Ref sig .tc) :=
  [ main_v60, main_v61, main_v62, main_v63, main_v64, main_v65, main_v66, main_v67,
    main_v68 ]
theorem r5_sub : (r5 : List (HloOp τ sig (Elt F))).Forall fun op => op.bufs ⊆ tcRefs τ sig :=
  ⟨unary_bufs_sub .., unary_bufs_sub .., binary_bufs_sub .., unary_bufs_sub .., unary_bufs_sub .., binary_bufs_sub ..,
    unary_bufs_sub .., unary_bufs_sub .., binary_bufs_sub ..⟩
theorem r5_writes : (r5 : List (HloOp τ sig (Elt F))).map HloOp.writes
    = W5.map fun r => ({Proc.devRef (τ := τ) .tc r} : Finset (DevRef τ sig)) := rfl
theorem r5_fresh : ∀ op ∈ (r5 : List (HloOp τ sig (Elt F))), op.fresh = ∅ :=
  List.map_inj_left.mp (rfl : (r5 : List (HloOp τ sig (Elt F))).map HloOp.fresh
      = (r5 : List (HloOp τ sig (Elt F))).map fun _ => ∅)
theorem r5_writes_sub : (r5 : List (HloOp τ sig (Elt F))).Forall fun op =>
    op.writes ⊆ (W5.map (Proc.devRef (τ := τ) .tc)).toFinset := writes_sub_of_map_eq r5_writes
/-- A reference stretch 5 does not write keeps its contents across it. -/
theorem r5_keeps (V : Valuation τ sig (Elt F)) {r : Ref sig .tc} (hr : r ∉ W5) :
    after r5 V (Proc.devRef .tc r) = V (Proc.devRef .tc r) := after_of_writes_sub r5 V r5_writes_sub hr

/-- Stretch 6, through main_v85: the second layer's matrix product, gather, weighting, scatter-add and bias. -/
abbrev r6 : List (HloOp τ sig (Elt F)) :=
  [ StableHlo.binary main_v68 main_arg7 main_v69 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_15 (constantI S_ 32 0#32),
    StableHlo.unary main_c_15 main_v70 (broadcastInDim S1350000 ![] bcast_S_S1350000 : (⟨S_, .i32⟩ : BufTy).Contents (Elt F) → (⟨S1350000, .i32⟩ : BufTy).Contents (Elt F)),
    StableHlo.binary main_v3 main_v70 main_v71 (cmpi .slt : (⟨S1350000, .i32⟩ : BufTy).Contents (Elt F) → (⟨S1350000, .i32⟩ : BufTy).Contents (Elt F) → (⟨S1350000, .i1⟩ : BufTy).Contents (Elt F)),
    StableHlo.nullary main_c_16 (constantI S_ 32 100000#32),
    StableHlo.unary main_c_16 main_v72 (broadcastInDim S1350000 ![] bcast_S_S1350000 : (⟨S_, .i32⟩ : BufTy).Contents (Elt F) → (⟨S1350000, .i32⟩ : BufTy).Contents (Elt F)),
    StableHlo.binary main_v3 main_v72 main_v73 (addi : (⟨S1350000, .i32⟩ : BufTy).Contents (Elt F) → (⟨S1350000, .i32⟩ : BufTy).Contents (Elt F) → (⟨S1350000, .i32⟩ : BufTy).Contents (Elt F)),
    StableHlo.ternary main_v71 main_v73 main_v3 main_v74 (select : (⟨S1350000, .i1⟩ : BufTy).Contents (Elt F) → (⟨S1350000, .i32⟩ : BufTy).Contents (Elt F) → (⟨S1350000, .i32⟩ : BufTy).Contents (Elt F) → (⟨S1350000, .i32⟩ : BufTy).Contents (Elt F)),
    StableHlo.unary main_v74 main_v75 (broadcastInDim S1350000x1 ![0] bcast_S1350000_S1350000x1_0 : (⟨S1350000, .i32⟩ : BufTy).Contents (Elt F) → (⟨S1350000x1, .i32⟩ : BufTy).Contents (Elt F)),
    StableHlo.binary main_v69 main_v75 main_v76 ((fun x i => Host.gather gather_S100000x64_S1350000x1_S1350000x64_1_0_n_n_0_1_164 x i) : (⟨S100000x64, .f32⟩ : BufTy).Contents (Elt F) → (⟨S1350000x1, .i32⟩ : BufTy).Contents (Elt F) → (⟨S1350000x64, .f32⟩ : BufTy).Contents (Elt F)),
    StableHlo.unary main_v31 main_v77 (broadcastInDim S1350000x1 ![0] bcast_S1350000_S1350000x1_0 : (⟨S1350000, .f32⟩ : BufTy).Contents (Elt F) → (⟨S1350000x1, .f32⟩ : BufTy).Contents (Elt F)),
    StableHlo.unary main_v77 main_v78 (broadcastInDim S1350000x64 ![0, 1] bcast_S1350000x1_S1350000x64_0_1 : (⟨S1350000x1, .f32⟩ : BufTy).Contents (Elt F) → (⟨S1350000x64, .f32⟩ : BufTy).Contents (Elt F)),
    StableHlo.binary main_v76 main_v78 main_v79 (mulf : (⟨S1350000x64, .f32⟩ : BufTy).Contents (Elt F) → (⟨S1350000x64, .f32⟩ : BufTy).Contents (Elt F) → (⟨S1350000x64, .f32⟩ : BufTy).Contents (Elt F)),
    StableHlo.nullary main_cst_17 (constant S_ .f32 0x00000000#32),
    StableHlo.unary main_cst_17 main_v80 (broadcastInDim S100000x64 ![] bcast_S_S100000x64 : (⟨S_, .f32⟩ : BufTy).Contents (Elt F) → (⟨S100000x64, .f32⟩ : BufTy).Contents (Elt F)),
    StableHlo.unary main_v6 main_v81 (broadcastInDim S1350000x1 ![0] bcast_S1350000_S1350000x1_0 : (⟨S1350000, .i32⟩ : BufTy).Contents (Elt F) → (⟨S1350000x1, .i32⟩ : BufTy).Contents (Elt F)),
    StableHlo.ternary main_v80 main_v81 main_v79 main_v82 ((fun x i u => Host.scatterAdd scatter_S100000x64_S1350000x1_S1350000x64_1_0_0_1 x i u) : (⟨S100000x64, .f32⟩ : BufTy).Contents (Elt F) → (⟨S1350000x1, .i32⟩ : BufTy).Contents (Elt F) → (⟨S1350000x64, .f32⟩ : BufTy).Contents (Elt F) → (⟨S100000x64, .f32⟩ : BufTy).Contents (Elt F)),
    StableHlo.unary main_arg8 main_v83 (broadcastInDim S1x64 ![1] bcast_S64_S1x64_1 : (⟨S64, .f32⟩ : BufTy).Contents (Elt F) → (⟨S1x64, .f32⟩ : BufTy).Contents (Elt F)),
    StableHlo.unary main_v83 main_v84 (broadcastInDim S100000x64 ![0, 1] bcast_S1x64_S100000x64_0_1 : (⟨S1x64, .f32⟩ : BufTy).Contents (Elt F) → (⟨S100000x64, .f32⟩ : BufTy).Contents (Elt F)),
    StableHlo.binary main_v82 main_v84 main_v85 (addf : (⟨S100000x64, .f32⟩ : BufTy).Contents (Elt F) → (⟨S100000x64, .f32⟩ : BufTy).Contents (Elt F) → (⟨S100000x64, .f32⟩ : BufTy).Contents (Elt F)) ]
/-- The reference each operation of stretch 6 writes, in order. -/
abbrev W6 : List (Ref sig .tc) :=
  [ main_v69, main_c_15, main_v70, main_v71, main_c_16, main_v72, main_v73, main_v74,
    main_v75, main_v76, main_v77, main_v78, main_v79, main_cst_17, main_v80, main_v81,
    main_v82, main_v83, main_v84, main_v85 ]
theorem r6_sub : (r6 : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub ..⟩
theorem r6_writes : (r6 : List (HloOp τ sig (Elt F))).map HloOp.writes
    = W6.map fun r => ({Proc.devRef (τ := τ) .tc r} : Finset (DevRef τ sig)) := rfl
theorem r6_fresh : ∀ op ∈ (r6 : List (HloOp τ sig (Elt F))), op.fresh = ∅ :=
  List.map_inj_left.mp (rfl : (r6 : List (HloOp τ sig (Elt F))).map HloOp.fresh
      = (r6 : List (HloOp τ sig (Elt F))).map fun _ => ∅)
theorem r6_writes_sub : (r6 : List (HloOp τ sig (Elt F))).Forall fun op =>
    op.writes ⊆ (W6.map (Proc.devRef (τ := τ) .tc)).toFinset := writes_sub_of_map_eq r6_writes
/-- A reference stretch 6 does not write keeps its contents across it. -/
theorem r6_keeps (V : Valuation τ sig (Elt F)) {r : Ref sig .tc} (hr : r ∉ W6) :
    after r6 V (Proc.devRef .tc r) = V (Proc.devRef .tc r) := after_of_writes_sub r6 V r6_writes_sub hr

/-- Stretch 7, the call of @leaky_relu on main_v85 (its result main_v86). -/
abbrev r7 : List (HloOp τ sig (Elt F)) :=
  [ StableHlo.nullary main_cst_18 (constant S_ .f32 0x3C23D70A#32),
    StableHlo.TRef.nullary main_call3.cst (constant S_ .f32 0x00000000#32),
    StableHlo.TRef.unary main_call3.cst main_call3.v0 (broadcastInDim S100000x64 ![] bcast_S_S100000x64),
    StableHlo.TRef.binary (.of main_v85 : StableHlo.TRef sig ⟨S100000x64, .f32⟩) main_call3.v0 main_call3.v1 (cmpf .oge),
    StableHlo.TRef.unary (.of main_cst_18 : StableHlo.TRef sig ⟨S_, .f32⟩) main_call3.v2 id,
    StableHlo.TRef.unary main_call3.v2 main_call3.v3 (broadcastInDim S100000x64 ![] bcast_S_S100000x64),
    StableHlo.TRef.binary main_call3.v3 (.of main_v85 : StableHlo.TRef sig ⟨S100000x64, .f32⟩) main_call3.v4 mulf,
    StableHlo.TRef.ternary main_call3.v1 (.of main_v85 : StableHlo.TRef sig ⟨S100000x64, .f32⟩) main_call3.v4 main_call3.call0.v0 select ]
/-- The reference each operation of stretch 7 writes, in order. -/
abbrev W7 : List (Ref sig .tc) :=
  [ main_cst_18, main_call3.cst.ref, main_call3.v0.ref, main_call3.v1.ref, main_call3.v2.ref, main_call3.v3.ref, main_call3.v4.ref, main_call3.call0.v0.ref ]
theorem r7_sub : (r7 : List (HloOp τ sig (Elt F))).Forall fun op => op.bufs ⊆ tcRefs τ sig :=
  ⟨nullary_bufs_sub .., nullary_bufs_sub .., unary_bufs_sub .., binary_bufs_sub .., unary_bufs_sub .., unary_bufs_sub ..,
    binary_bufs_sub .., ternary_bufs_sub ..⟩
theorem r7_writes : (r7 : List (HloOp τ sig (Elt F))).map HloOp.writes
    = W7.map fun r => ({Proc.devRef (τ := τ) .tc r} : Finset (DevRef τ sig)) := rfl
theorem r7_fresh : ∀ op ∈ (r7 : List (HloOp τ sig (Elt F))), op.fresh = ∅ :=
  List.map_inj_left.mp (rfl : (r7 : List (HloOp τ sig (Elt F))).map HloOp.fresh
      = (r7 : List (HloOp τ sig (Elt F))).map fun _ => ∅)
theorem r7_writes_sub : (r7 : List (HloOp τ sig (Elt F))).Forall fun op =>
    op.writes ⊆ (W7.map (Proc.devRef (τ := τ) .tc)).toFinset := writes_sub_of_map_eq r7_writes
/-- A reference stretch 7 does not write keeps its contents across it. -/
theorem r7_keeps (V : Valuation τ sig (Elt F)) {r : Ref sig .tc} (hr : r ∉ W7) :
    after r7 V (Proc.devRef .tc r) = V (Proc.devRef .tc r) := after_of_writes_sub r7 V r7_writes_sub hr

/-- Stretch 8, through main_v96: the column mean of main_v86, the call of @_var (its result main_v90), the reciprocal square root of the variance plus epsilon. -/
abbrev r8 : List (HloOp τ sig (Elt F)) :=
  [ StableHlo.nullary main_cst_19 (constant S_ .f32 0x00000000#32),
    StableHlo.binary main_v86 main_cst_19 main_v87 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_20 (constant S_ .f32 0x47C35000#32),
    StableHlo.unary main_cst_20 main_v88 (broadcastInDim S64 ![] bcast_S_S64 : (⟨S_, .f32⟩ : BufTy).Contents (Elt F) → (⟨S64, .f32⟩ : BufTy).Contents (Elt F)),
    StableHlo.binary main_v87 main_v88 main_v89 (Host.divf : (⟨S64, .f32⟩ : BufTy).Contents (Elt F) → (⟨S64, .f32⟩ : BufTy).Contents (Elt F) → (⟨S64, .f32⟩ : BufTy).Contents (Elt F)),
    StableHlo.nullary main_c_21 (constantI S_ 32 0#32),
    StableHlo.TRef.nullary main_call4.cst (constant S_ .f32 0x00000000#32),
    StableHlo.TRef.binary (.of main_v86 : StableHlo.TRef sig ⟨S100000x64, .f32⟩) main_call4.cst main_call4.v0 (fun x v => Host.reduceAdd x v reducesTo_S100000x64_S64_d0 h_S_),
    StableHlo.TRef.unary main_call4.v0 main_call4.v1 (broadcastInDim S1x64 ![1] bcast_S64_S1x64_1),
    StableHlo.TRef.nullary main_call4.cst_0 (constant S_ .f32 0x47C35000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S100000x64 ![0, 1] bcast_S1x64_S100000x64_0_1),
    StableHlo.TRef.binary (.of main_v86 : StableHlo.TRef sig ⟨S100000x64, .f32⟩) main_call4.v4 main_call4.v5 subf,
    StableHlo.TRef.binary main_call4.v5 main_call4.v5 main_call4.v6 mulf,
    StableHlo.TRef.unary (.of main_c_21 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v89 main_v91 (broadcastInDim S1x64 ![1] bcast_S64_S1x64_1 : (⟨S64, .f32⟩ : BufTy).Contents (Elt F) → (⟨S1x64, .f32⟩ : BufTy).Contents (Elt F)),
    StableHlo.unary main_v91 main_v92 (broadcastInDim S100000x64 ![0, 1] bcast_S1x64_S100000x64_0_1 : (⟨S1x64, .f32⟩ : BufTy).Contents (Elt F) → (⟨S100000x64, .f32⟩ : BufTy).Contents (Elt F)),
    StableHlo.binary main_v86 main_v92 main_v93 (subf : (⟨S100000x64, .f32⟩ : BufTy).Contents (Elt F) → (⟨S100000x64, .f32⟩ : BufTy).Contents (Elt F) → (⟨S100000x64, .f32⟩ : BufTy).Contents (Elt F)),
    StableHlo.nullary main_cst_22 (constant S_ .f32 0x3727C5AC#32),
    StableHlo.unary main_cst_22 main_v94 (broadcastInDim S64 ![] bcast_S_S64 : (⟨S_, .f32⟩ : BufTy).Contents (Elt F) → (⟨S64, .f32⟩ : BufTy).Contents (Elt F)),
    StableHlo.binary main_v90 main_v94 main_v95 (addf : (⟨S64, .f32⟩ : BufTy).Contents (Elt F) → (⟨S64, .f32⟩ : BufTy).Contents (Elt F) → (⟨S64, .f32⟩ : BufTy).Contents (Elt F)),
    StableHlo.unary main_v95 main_v96 (Host.rsqrt : (⟨S64, .f32⟩ : BufTy).Contents (Elt F) → (⟨S64, .f32⟩ : BufTy).Contents (Elt F)) ]
/-- The reference each operation of stretch 8 writes, in order. -/
abbrev W8 : List (Ref sig .tc) :=
  [ main_cst_19, main_v87, main_cst_20, main_v88, main_v89, main_c_21, main_call4.cst.ref, main_call4.v0.ref,
    main_call4.v1.ref, main_call4.cst_0.ref, main_call4.v2.ref, main_call4.v3.ref, main_call4.v4.ref, main_call4.v5.ref, main_call4.v6.ref, main_call4.v7.ref,
    main_call4.cst_1.ref, main_call4.v8.ref, main_call4.cst_2.ref, main_call4.v9.ref, main_call4.v10.ref, main_call4.v11.ref, main_call4.cst_3.ref, main_call4.v12.ref,
    main_call4.cst_4.ref, main_call4.call0.v0.ref, main_call4.call0.v1.ref, main_call4.call0.v2.ref, main_v91, main_v92, main_v93, main_cst_22,
    main_v94, main_v95, main_v96 ]
theorem r8_sub : (r8 : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub ..⟩
theorem r8_writes : (r8 : List (HloOp τ sig (Elt F))).map HloOp.writes
    = W8.map fun r => ({Proc.devRef (τ := τ) .tc r} : Finset (DevRef τ sig)) := rfl
theorem r8_fresh : ∀ op ∈ (r8 : List (HloOp τ sig (Elt F))), op.fresh = ∅ :=
  List.map_inj_left.mp (rfl : (r8 : List (HloOp τ sig (Elt F))).map HloOp.fresh
      = (r8 : List (HloOp τ sig (Elt F))).map fun _ => ∅)
theorem r8_writes_sub : (r8 : List (HloOp τ sig (Elt F))).Forall fun op =>
    op.writes ⊆ (W8.map (Proc.devRef (τ := τ) .tc)).toFinset := writes_sub_of_map_eq r8_writes
/-- A reference stretch 8 does not write keeps its contents across it. -/
theorem r8_keeps (V : Valuation τ sig (Elt F)) {r : Ref sig .tc} (hr : r ∉ W8) :
    after r8 V (Proc.devRef .tc r) = V (Proc.devRef .tc r) := after_of_writes_sub r8 V r8_writes_sub hr

/-- Stretch 9, through main_v105: the centring, scaling and affine map of the second normalization. -/
abbrev r9 : List (HloOp τ sig (Elt F)) :=
  [ StableHlo.unary main_v96 main_v97 (broadcastInDim S1x64 ![1] bcast_S64_S1x64_1 : (⟨S64, .f32⟩ : BufTy).Contents (Elt F) → (⟨S1x64, .f32⟩ : BufTy).Contents (Elt F)),
    StableHlo.unary main_v97 main_v98 (broadcastInDim S100000x64 ![0, 1] bcast_S1x64_S100000x64_0_1 : (⟨S1x64, .f32⟩ : BufTy).Contents (Elt F) → (⟨S100000x64, .f32⟩ : BufTy).Contents (Elt F)),
    StableHlo.binary main_v93 main_v98 main_v99 (mulf : (⟨S100000x64, .f32⟩ : BufTy).Contents (Elt F) → (⟨S100000x64, .f32⟩ : BufTy).Contents (Elt F) → (⟨S100000x64, .f32⟩ : BufTy).Contents (Elt F)),
    StableHlo.unary main_arg9 main_v100 (broadcastInDim S1x64 ![1] bcast_S64_S1x64_1 : (⟨S64, .f32⟩ : BufTy).Contents (Elt F) → (⟨S1x64, .f32⟩ : BufTy).Contents (Elt F)),
    StableHlo.unary main_v100 main_v101 (broadcastInDim S100000x64 ![0, 1] bcast_S1x64_S100000x64_0_1 : (⟨S1x64, .f32⟩ : BufTy).Contents (Elt F) → (⟨S100000x64, .f32⟩ : BufTy).Contents (Elt F)),
    StableHlo.binary main_v99 main_v101 main_v102 (mulf : (⟨S100000x64, .f32⟩ : BufTy).Contents (Elt F) → (⟨S100000x64, .f32⟩ : BufTy).Contents (Elt F) → (⟨S100000x64, .f32⟩ : BufTy).Contents (Elt F)),
    StableHlo.unary main_arg10 main_v103 (broadcastInDim S1x64 ![1] bcast_S64_S1x64_1 : (⟨S64, .f32⟩ : BufTy).Contents (Elt F) → (⟨S1x64, .f32⟩ : BufTy).Contents (Elt F)),
    StableHlo.unary main_v103 main_v104 (broadcastInDim S100000x64 ![0, 1] bcast_S1x64_S100000x64_0_1 : (⟨S1x64, .f32⟩ : BufTy).Contents (Elt F) → (⟨S100000x64, .f32⟩ : BufTy).Contents (Elt F)),
    StableHlo.binary main_v102 main_v104 main_v105 (addf : (⟨S100000x64, .f32⟩ : BufTy).Contents (Elt F) → (⟨S100000x64, .f32⟩ : BufTy).Contents (Elt F) → (⟨S100000x64, .f32⟩ : BufTy).Contents (Elt F)) ]
/-- The reference each operation of stretch 9 writes, in order. -/
abbrev W9 : List (Ref sig .tc) :=
  [ main_v97, main_v98, main_v99, main_v100, main_v101, main_v102, main_v103, main_v104,
    main_v105 ]
theorem r9_sub : (r9 : List (HloOp τ sig (Elt F))).Forall fun op => op.bufs ⊆ tcRefs τ sig :=
  ⟨unary_bufs_sub .., unary_bufs_sub .., binary_bufs_sub .., unary_bufs_sub .., unary_bufs_sub .., binary_bufs_sub ..,
    unary_bufs_sub .., unary_bufs_sub .., binary_bufs_sub ..⟩
theorem r9_writes : (r9 : List (HloOp τ sig (Elt F))).map HloOp.writes
    = W9.map fun r => ({Proc.devRef (τ := τ) .tc r} : Finset (DevRef τ sig)) := rfl
theorem r9_fresh : ∀ op ∈ (r9 : List (HloOp τ sig (Elt F))), op.fresh = ∅ :=
  List.map_inj_left.mp (rfl : (r9 : List (HloOp τ sig (Elt F))).map HloOp.fresh
      = (r9 : List (HloOp τ sig (Elt F))).map fun _ => ∅)
theorem r9_writes_sub : (r9 : List (HloOp τ sig (Elt F))).Forall fun op =>
    op.writes ⊆ (W9.map (Proc.devRef (τ := τ) .tc)).toFinset := writes_sub_of_map_eq r9_writes
/-- A reference stretch 9 does not write keeps its contents across it. -/
theorem r9_keeps (V : Valuation τ sig (Elt F)) {r : Ref sig .tc} (hr : r ∉ W9) :
    after r9 V (Proc.devRef .tc r) = V (Proc.devRef .tc r) := after_of_writes_sub r9 V r9_writes_sub hr

/-- Stretch 10, through main_v112: the index wrap of the third argument and the gather of the selected rows. -/
abbrev r10 : List (HloOp τ sig (Elt F)) :=
  [ StableHlo.nullary main_c_23 (constantI S_ 32 0#32),
    StableHlo.unary main_c_23 main_v106 (broadcastInDim S20000 ![] bcast_S_S20000 : (⟨S_, .i32⟩ : BufTy).Contents (Elt F) → (⟨S20000, .i32⟩ : BufTy).Contents (Elt F)),
    StableHlo.binary main_arg2 main_v106 main_v107 (cmpi .slt : (⟨S20000, .i32⟩ : BufTy).Contents (Elt F) → (⟨S20000, .i32⟩ : BufTy).Contents (Elt F) → (⟨S20000, .i1⟩ : BufTy).Contents (Elt F)),
    StableHlo.nullary main_c_24 (constantI S_ 32 100000#32),
    StableHlo.unary main_c_24 main_v108 (broadcastInDim S20000 ![] bcast_S_S20000 : (⟨S_, .i32⟩ : BufTy).Contents (Elt F) → (⟨S20000, .i32⟩ : BufTy).Contents (Elt F)),
    StableHlo.binary main_arg2 main_v108 main_v109 (addi : (⟨S20000, .i32⟩ : BufTy).Contents (Elt F) → (⟨S20000, .i32⟩ : BufTy).Contents (Elt F) → (⟨S20000, .i32⟩ : BufTy).Contents (Elt F)),
    StableHlo.ternary main_v107 main_v109 main_arg2 main_v110 (select : (⟨S20000, .i1⟩ : BufTy).Contents (Elt F) → (⟨S20000, .i32⟩ : BufTy).Contents (Elt F) → (⟨S20000, .i32⟩ : BufTy).Contents (Elt F) → (⟨S20000, .i32⟩ : BufTy).Contents (Elt F)),
    StableHlo.unary main_v110 main_v111 (broadcastInDim S20000x1 ![0] bcast_S20000_S20000x1_0 : (⟨S20000, .i32⟩ : BufTy).Contents (Elt F) → (⟨S20000x1, .i32⟩ : BufTy).Contents (Elt F)),
    StableHlo.binary main_v105 main_v111 main_v112 ((fun x i => Host.gather gather_S100000x64_S20000x1_S20000x64_1_0_n_n_0_1_164 x i) : (⟨S100000x64, .f32⟩ : BufTy).Contents (Elt F) → (⟨S20000x1, .i32⟩ : BufTy).Contents (Elt F) → (⟨S20000x64, .f32⟩ : BufTy).Contents (Elt F)) ]
/-- The reference each operation of stretch 10 writes, in order. -/
abbrev W10 : List (Ref sig .tc) :=
  [ main_c_23, main_v106, main_v107, main_c_24, main_v108, main_v109, main_v110, main_v111,
    main_v112 ]
theorem r10_sub : (r10 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub ..⟩
theorem r10_writes : (r10 : List (HloOp τ sig (Elt F))).map HloOp.writes
    = W10.map fun r => ({Proc.devRef (τ := τ) .tc r} : Finset (DevRef τ sig)) := rfl
theorem r10_fresh : ∀ op ∈ (r10 : List (HloOp τ sig (Elt F))), op.fresh = ∅ :=
  List.map_inj_left.mp (rfl : (r10 : List (HloOp τ sig (Elt F))).map HloOp.fresh
      = (r10 : List (HloOp τ sig (Elt F))).map fun _ => ∅)
theorem r10_writes_sub : (r10 : List (HloOp τ sig (Elt F))).Forall fun op =>
    op.writes ⊆ (W10.map (Proc.devRef (τ := τ) .tc)).toFinset := writes_sub_of_map_eq r10_writes
/-- A reference stretch 10 does not write keeps its contents across it. -/
theorem r10_keeps (V : Valuation τ sig (Elt F)) {r : Ref sig .tc} (hr : r ∉ W10) :
    after r10 V (Proc.devRef .tc r) = V (Proc.devRef .tc r) := after_of_writes_sub r10 V r10_writes_sub hr

/-- Stretch 11, through main_v122: the output matrix product, the bias and the logistic function. -/
abbrev r11 : List (HloOp τ sig (Elt F)) :=
  [ StableHlo.binary main_v112 main_arg11 main_v113 ((fun l r => Host.dotGeneral dot_S20000x64_S64x5_S20000x5_1_0_0_1_n_n none l r) : (⟨S20000x64, .f32⟩ : BufTy).Contents (Elt F) → (⟨S64x5, .f32⟩ : BufTy).Contents (Elt F) → (⟨S20000x5, .f32⟩ : BufTy).Contents (Elt F)),
    StableHlo.unary main_arg12 main_v114 (broadcastInDim S1x5 ![1] bcast_S5_S1x5_1 : (⟨S5, .f32⟩ : BufTy).Contents (Elt F) → (⟨S1x5, .f32⟩ : BufTy).Contents (Elt F)),
    StableHlo.unary main_v114 main_v115 (broadcastInDim S20000x5 ![0, 1] bcast_S1x5_S20000x5_0_1 : (⟨S1x5, .f32⟩ : BufTy).Contents (Elt F) → (⟨S20000x5, .f32⟩ : BufTy).Contents (Elt F)),
    StableHlo.binary main_v113 main_v115 main_v116 (addf : (⟨S20000x5, .f32⟩ : BufTy).Contents (Elt F) → (⟨S20000x5, .f32⟩ : BufTy).Contents (Elt F) → (⟨S20000x5, .f32⟩ : BufTy).Contents (Elt F)),
    StableHlo.unary main_v116 main_v117 (Host.negf : (⟨S20000x5, .f32⟩ : BufTy).Contents (Elt F) → (⟨S20000x5, .f32⟩ : BufTy).Contents (Elt F)),
    StableHlo.unary main_v117 main_v118 (Host.exp : (⟨S20000x5, .f32⟩ : BufTy).Contents (Elt F) → (⟨S20000x5, .f32⟩ : BufTy).Contents (Elt F)),
    StableHlo.nullary main_cst_25 (constant S_ .f32 0x3F800000#32),
    StableHlo.unary main_cst_25 main_v119 (broadcastInDim S20000x5 ![] bcast_S_S20000x5 : (⟨S_, .f32⟩ : BufTy).Contents (Elt F) → (⟨S20000x5, .f32⟩ : BufTy).Contents (Elt F)),
    StableHlo.binary main_v119 main_v118 main_v120 (addf : (⟨S20000x5, .f32⟩ : BufTy).Contents (Elt F) → (⟨S20000x5, .f32⟩ : BufTy).Contents (Elt F) → (⟨S20000x5, .f32⟩ : BufTy).Contents (Elt F)),
    StableHlo.nullary main_cst_26 (constant S_ .f32 0x3F800000#32),
    StableHlo.unary main_cst_26 main_v121 (broadcastInDim S20000x5 ![] bcast_S_S20000x5 : (⟨S_, .f32⟩ : BufTy).Contents (Elt F) → (⟨S20000x5, .f32⟩ : BufTy).Contents (Elt F)),
    StableHlo.binary main_v121 main_v120 main_v122 (Host.divf : (⟨S20000x5, .f32⟩ : BufTy).Contents (Elt F) → (⟨S20000x5, .f32⟩ : BufTy).Contents (Elt F) → (⟨S20000x5, .f32⟩ : BufTy).Contents (Elt F)) ]
/-- The reference each operation of stretch 11 writes, in order. -/
abbrev W11 : List (Ref sig .tc) :=
  [ main_v113, main_v114, main_v115, main_v116, main_v117, main_v118, main_cst_25, main_v119,
    main_v120, main_cst_26, main_v121, main_v122 ]
theorem r11_sub : (r11 : List (HloOp τ sig (Elt F))).Forall fun op => op.bufs ⊆ tcRefs τ sig :=
  ⟨binary_bufs_sub .., unary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..⟩
theorem r11_writes : (r11 : List (HloOp τ sig (Elt F))).map HloOp.writes
    = W11.map fun r => ({Proc.devRef (τ := τ) .tc r} : Finset (DevRef τ sig)) := rfl
theorem r11_fresh : ∀ op ∈ (r11 : List (HloOp τ sig (Elt F))), op.fresh = ∅ :=
  List.map_inj_left.mp (rfl : (r11 : List (HloOp τ sig (Elt F))).map HloOp.fresh
      = (r11 : List (HloOp τ sig (Elt F))).map fun _ => ∅)
theorem r11_writes_sub : (r11 : List (HloOp τ sig (Elt F))).Forall fun op =>
    op.writes ⊆ (W11.map (Proc.devRef (τ := τ) .tc)).toFinset := writes_sub_of_map_eq r11_writes
/-- A reference stretch 11 does not write keeps its contents across it. -/
theorem r11_keeps (V : Valuation τ sig (Elt F)) {r : Ref sig .tc} (hr : r ∉ W11) :
    after r11 V (Proc.devRef .tc r) = V (Proc.devRef .tc r) := after_of_writes_sub r11 V r11_writes_sub hr

/-! ## The whole line -/

/-- @main's 208 operations, in order: the twelve stretches one after the other. -/
abbrev ops : List (HloOp τ sig (Elt F)) :=
  r0 ++ (r1 ++ (r2 ++ (r3 ++ (r4 ++ (r5 ++ (r6 ++ (r7 ++ (r8 ++ (r9 ++ (r10 ++ (r11)))))))))))

/-- The reference each operation writes, in the operations' order. -/
abbrev W : List (Ref sig .tc) :=
  W0 ++ (W1 ++ (W2 ++ (W3 ++ (W4 ++ (W5 ++ (W6 ++ (W7 ++ (W8 ++ (W9 ++ (W10 ++ (W11)))))))))))

/-- The fold over the whole line is the stretches' folds, one after the other. -/
theorem after_ops (V : Valuation τ sig (Elt F)) :
    after ops V = after r11 (after r10 (after r9 (after r8 (after r7 (after r6 (after r5 (after r4 (after r3 (after r2 (after r1 (after r0 (V)))))))))))) := by
  simp only [ops, after_append]

set_option maxRecDepth 65536 in
/-- @main is that straight line: the windows and the functions' bodies unfolded at their calls, sequencing
    re-associated (the free monad's bind computes), both sides are the same chain of operation steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every buffer an operation touches is a TensorCore reference. -/
theorem ops_sub : (ops : List (HloOp τ sig (Elt F))).Forall fun op => op.bufs ⊆ tcRefs τ sig :=
  List.forall_append.mpr ⟨r0_sub, List.forall_append.mpr ⟨r1_sub, List.forall_append.mpr ⟨r2_sub, List.forall_append.mpr ⟨r3_sub, List.forall_append.mpr ⟨r4_sub, List.forall_append.mpr ⟨r5_sub, List.forall_append.mpr ⟨r6_sub, List.forall_append.mpr ⟨r7_sub, List.forall_append.mpr ⟨r8_sub, List.forall_append.mpr ⟨r9_sub, List.forall_append.mpr ⟨r10_sub, r11_sub⟩⟩⟩⟩⟩⟩⟩⟩⟩⟩⟩

/-- Operation by operation, what it writes is the one buffer of its entry in W. -/
theorem writes_eq : (ops : List (HloOp τ sig (Elt F))).map HloOp.writes
    = W.map fun r => ({Proc.devRef (τ := τ) .tc r} : Finset (DevRef τ sig)) := by
  simp only [ops, W, List.map_append, r0_writes, r1_writes, r2_writes, r3_writes, r4_writes, r5_writes, r6_writes, r7_writes, r8_writes, r9_writes, r10_writes, r11_writes]

/-- Hence every operation writes inside W's buffers. -/
theorem writes_sub : (ops : List (HloOp τ sig (Elt F))).Forall fun op =>
    op.writes ⊆ (W.map (Proc.devRef (τ := τ) .tc)).toFinset := writes_sub_of_map_eq writes_eq

/-- Every operation determines what it writes. -/
theorem ops_fresh : ∀ op ∈ (ops : List (HloOp τ sig (Elt F))), op.fresh = ∅ := by
  intro op h
  simp only [ops, List.mem_append] at h
  rcases h with h | h | h | h | h | h | h | h | h | h | h | h
  · exact r0_fresh op h
  · exact r1_fresh op h
  · exact r2_fresh op h
  · exact r3_fresh op h
  · exact r4_fresh op h
  · exact r5_fresh op h
  · exact r6_fresh op h
  · exact r7_fresh op h
  · exact r8_fresh op h
  · exact r9_fresh op h
  · exact r10_fresh op h
  · exact r11_fresh op h

/-- On every device, for any float values, from any memory with zero counters: every weakly fair execution of @main
    terminates, and every final state has each TensorCore buffer at the fold of the operations' results over the
    device's launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

/-! No operation writes an argument: none of the thirteen is in W. -/

theorem arg0_eq (V : Valuation τ sig (Elt F)) :
    after ops V (Proc.devRef .tc main_arg0) = V (Proc.devRef .tc main_arg0) :=
  after_of_writes_sub ops V writes_sub (by decide)
theorem arg1_eq (V : Valuation τ sig (Elt F)) :
    after ops V (Proc.devRef .tc main_arg1) = V (Proc.devRef .tc main_arg1) :=
  after_of_writes_sub ops V writes_sub (by decide)
theorem arg2_eq (V : Valuation τ sig (Elt F)) :
    after ops V (Proc.devRef .tc main_arg2) = V (Proc.devRef .tc main_arg2) :=
  after_of_writes_sub ops V writes_sub (by decide)
theorem arg3_eq (V : Valuation τ sig (Elt F)) :
    after ops V (Proc.devRef .tc main_arg3) = V (Proc.devRef .tc main_arg3) :=
  after_of_writes_sub ops V writes_sub (by decide)
theorem arg4_eq (V : Valuation τ sig (Elt F)) :
    after ops V (Proc.devRef .tc main_arg4) = V (Proc.devRef .tc main_arg4) :=
  after_of_writes_sub ops V writes_sub (by decide)
theorem arg5_eq (V : Valuation τ sig (Elt F)) :
    after ops V (Proc.devRef .tc main_arg5) = V (Proc.devRef .tc main_arg5) :=
  after_of_writes_sub ops V writes_sub (by decide)
theorem arg6_eq (V : Valuation τ sig (Elt F)) :
    after ops V (Proc.devRef .tc main_arg6) = V (Proc.devRef .tc main_arg6) :=
  after_of_writes_sub ops V writes_sub (by decide)
theorem arg7_eq (V : Valuation τ sig (Elt F)) :
    after ops V (Proc.devRef .tc main_arg7) = V (Proc.devRef .tc main_arg7) :=
  after_of_writes_sub ops V writes_sub (by decide)
theorem arg8_eq (V : Valuation τ sig (Elt F)) :
    after ops V (Proc.devRef .tc main_arg8) = V (Proc.devRef .tc main_arg8) :=
  after_of_writes_sub ops V writes_sub (by decide)
theorem arg9_eq (V : Valuation τ sig (Elt F)) :
    after ops V (Proc.devRef .tc main_arg9) = V (Proc.devRef .tc main_arg9) :=
  after_of_writes_sub ops V writes_sub (by decide)
theorem arg10_eq (V : Valuation τ sig (Elt F)) :
    after ops V (Proc.devRef .tc main_arg10) = V (Proc.devRef .tc main_arg10) :=
  after_of_writes_sub ops V writes_sub (by decide)
theorem arg11_eq (V : Valuation τ sig (Elt F)) :
    after ops V (Proc.devRef .tc main_arg11) = V (Proc.devRef .tc main_arg11) :=
  after_of_writes_sub ops V writes_sub (by decide)
theorem arg12_eq (V : Valuation τ sig (Elt F)) :
    after ops V (Proc.devRef .tc main_arg12) = V (Proc.devRef .tc main_arg12) :=
  after_of_writes_sub ops V writes_sub (by decide)

/-- @main runs and its thirteen argument buffers end as they were launched. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
    ⟨(h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _)⟩)
    (run_all m ρ)

end Cert.ReferenceIdeal.RefRun

end
-- ==== Proof.KValMatmul.lean ====
/- The two scaled-product regions of the idealized kernel, each as ONE function of its input arrays. A region walks 20 row
   blocks of 5000 rows; at a block it multiplies the block of `x` into the whole weight matrix (a sum over the contracted
   columns, into a zero accumulator), adds the bias row to every row and multiplies every row by its own scale. Since row
   `n` of the result depends only on row `n` of `x`, on row `n` of the scale column and on the whole weights and bias,
   the 20 written-back blocks are the restrictions of one whole-array function, and they tile the output array. -/
import proofs.«166090_j687194767719_2_alg».proof.Proof.Gen.KernelIdeal.Frame
import Idealize.ShloMosaic.PureOps.Ideal.Laws
import Idealize.ShloMosaic.Lib.ValueIdx
import Idealize.ShloMosaic.Lib.Pipeline.Value

noncomputable section

open Idealize.ShloMosaic Idealize.ShloMosaic.TcCoe Idealize.ShloMosaic.ValueIdx Idealize.SL.Sem
open Idealize.ShloMosaic.Pipeline (Dat)
open scoped BigOperators

namespace Cert.KernelIdeal.KVal

open Cert.KernelIdeal Cert.KernelIdeal.Gen

/-! ## Region 0: the scaled product with 128 contracted columns -/

/-- Row `n`, column `f` of the scaled product: row `n` of `x` against column `f` of `W`, plus the bias row at `f`,
    times row `n`'s scale. -/
def G0_4 (x : S100000x128.Idx → EReal) (W : S128x64.Idx → EReal) (b : S1x64.Idx → EReal) (d : S100000x1.Idx → EReal) :
    S100000x64.Idx → EReal :=
  fun i => ((∑ k : Fin 128, x (ix2 (i 0) k) * W (ix2 k (i 1))) + b (ix2 0 (i 1))) * d (ix2 (i 0) 0)

theorem hz2 : (![0, 0] : Fin 2 → Nat) = fun _ => 0 := funext fun a => by fin_cases a <;> rfl

/-- The product into the zero accumulator, read at (p, q): the sum over the 128 contracted positions. -/
theorem matmul0_apply (a : FVec Ideal S5000x128 .bf16) (w : FVec Ideal S128x64 .bf16) (p : Fin 5000) (q : Fin 64) :
    matmul dot_S5000x128_S128x64_S5000x64_1_0_0_1_n_n none a w (constant (F := Ideal) S5000x64 .f32 0x00000000#32) (ix2 p q)
      = ∑ k : Fin 128, a (ix2 p k) * w (ix2 k q) := by
  refine (Ideal.matmul_constant_zero_apply dot_S5000x128_S128x64_S5000x64_1_0_0_1_n_n none a w (ix2 p q)).trans ?_
  rw [← Equiv.sum_comp (contrEquiv1 dot_S5000x128_S128x64_S5000x64_1_0_0_1_n_n 128 rfl rfl).symm]
  refine Finset.sum_congr rfl fun k _ => ?_
  congr 1
  · refine congrArg a (funext fun d => Fin.ext ?_)
    match d with
    | ⟨0, _⟩ => rfl
    | ⟨1, _⟩ =>
      exact (DotDims.lhsIdx_val_of_single (d := dot_S5000x128_S128x64_S5000x64_1_0_0_1_n_n) (cl := 1) rfl _ _).trans
        (contrEquiv1_symm_val _ 128 rfl rfl k)
  · refine congrArg w (funext fun d => Fin.ext ?_)
    match d with
    | ⟨0, _⟩ =>
      exact (DotDims.rhsIdx_val_of_single (d := dot_S5000x128_S128x64_S5000x64_1_0_0_1_n_n) (cr := 0) rfl _ _).trans
        (contrEquiv1_symm_val _ 128 rfl rfl k)
    | ⟨1, _⟩ => rfl

/-- The body's payload at (p, q) of a block: the block's row against the weights' column, plus the bias, times the row's scale. -/
theorem pay0_apply (x0 : Vec Ideal S5000x128 .f32) (x1 : Vec Ideal S128x64 .f32) (x2 : Vec Ideal S1x64 .f32) (x3 : Vec Ideal S5000x1 .f32)
    (p : Fin 5000) (q : Fin 64) :
    Gen.k0_pay1 x0 x1 x2 x3 (ix2 p q) = ((∑ k : Fin 128, x0 (ix2 p k) * x1 (ix2 k q)) + x2 (ix2 0 q)) * x3 (ix2 p 0) := by
  unfold Gen.k0_pay1
  refine congrArg₂ (· * ·) (congrArg₂ (· + ·) ?_ ?_) ?_
  · exact matmul0_apply _ _ p q
  · rw [shapeCast_self]
    exact broadcastTo_apply x2 _ (ix2 p q) (ix2 0 q) (fun a => by match a with | ⟨0, _⟩ => rfl | ⟨1, _⟩ => rfl)
  · rw [shapeCast_self]
    exact broadcastTo_apply x3 _ (ix2 p q) (ix2 p 0) (fun a => by match a with | ⟨0, _⟩ => rfl | ⟨1, _⟩ => rfl)

/-- The printed index maps over the grid: the row-blocked windows sit at block row `t`, the whole-array windows at block 0. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

section
variable (V : (c : Dev nD) → (b : Ref sig .tc) → Buf (Elt Ideal) ((c : Thread nD τ).loc b)) (c : Dev nD)

/-- Block `t` of `x` is rows `5000 t …` of the array. -/
theorem iblk0_0_apply (t : Fin cfg0.N) (y : S5000x128.Idx) (i : S100000x128.Idx)
    (h0 : (i 0).val = 5000 * t.val + (y 0).val) (h1 : (i 1).val = (y 1).val) :
    (Gen.iblk0 V c 0 t : Vec Ideal S5000x128 .f32) y = (V c (Pipeline.arrRef spec0 0) : S100000x128.Idx → EReal) i := by
  obtain ⟨e0, e1, -⟩ := idx_facts0 t
  unfold Gen.iblk0
  rw [View.read_apply]
  refine congrArg (V c (Pipeline.arrRef spec0 0)) (funext fun a => Fin.ext ?_)
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- The weights' one block is the array. -/
theorem iblk0_1_apply (t : Fin cfg0.N) (y : S128x64.Idx) :
    (Gen.iblk0 V c 1 t : Vec Ideal S128x64 .f32) y = (V c (Pipeline.arrRef spec0 1) : S128x64.Idx → EReal) y := by
  obtain ⟨-, -, e0, e1, -⟩ := idx_facts0 t
  unfold Gen.iblk0
  rw [View.read_apply]
  refine congrArg (V c (Pipeline.arrRef spec0 1)) (funext fun a => Fin.ext ?_)
  match a with
  | ⟨0, _⟩ => show win0_1.index t (0 : Fin 2) * 128 + 1 * (y 0).val = (y 0).val; omega
  | ⟨1, _⟩ => show win0_1.index t (1 : Fin 2) * 64 + 1 * (y 1).val = (y 1).val; omega

/-- The bias row's one block is the array. -/
theorem iblk0_2_apply (t : Fin cfg0.N) (y : S1x64.Idx) :
    (Gen.iblk0 V c 2 t : Vec Ideal S1x64 .f32) y = (V c (Pipeline.arrRef spec0 2) : S1x64.Idx → EReal) y := by
  obtain ⟨-, -, -, -, e0, e1, -⟩ := idx_facts0 t
  unfold Gen.iblk0
  rw [View.read_apply]
  refine congrArg (V c (Pipeline.arrRef spec0 2)) (funext fun a => Fin.ext ?_)
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- Block `t` of the scale column is rows `5000 t …` of the array. -/
theorem iblk0_3_apply (t : Fin cfg0.N) (y : S5000x1.Idx) (i : S100000x1.Idx)
    (h0 : (i 0).val = 5000 * t.val + (y 0).val) (h1 : (i 1).val = (y 1).val) :
    (Gen.iblk0 V c 3 t : Vec Ideal S5000x1 .f32) y = (V c (Pipeline.arrRef spec0 3) : S100000x1.Idx → EReal) i := by
  obtain ⟨-, -, -, -, -, -, e0, e1, -⟩ := idx_facts0 t
  unfold Gen.iblk0
  rw [View.read_apply]
  refine congrArg (V c (Pipeline.arrRef spec0 3)) (funext fun a => Fin.ext ?_)
  match a with
  | ⟨0, _⟩ => show win0_3.index t (0 : Fin 2) * 5000 + 1 * (y 0).val = (i 0).val; omega
  | ⟨1, _⟩ => show win0_3.index t (1 : Fin 2) * 1 + 1 * (y 1).val = (i 1).val; omega

/-- What point `t` writes back is block `t` of `G0_4` of the arrays as the region finds them. -/
theorem flushed0_4_eq (t : Fin cfg0.N) :
    (Gen.dat0 (F := Ideal) V c).flushed 4 t = ((cfg0.win 4).blk t).view.read (Elt Ideal)
      (G0_4 (V c (Pipeline.arrRef spec0 0)) (V c (Pipeline.arrRef spec0 1)) (V c (Pipeline.arrRef spec0 2)) (V c (Pipeline.arrRef spec0 3))) := by
  show (cfg0.win 4).cut (grid0.coords t) ((Gen.dat0 (F := Ideal) V c).after 4 t) = _
  rw [Gen.after0_4]
  unfold Gen.out0_4
  rw [View.canon_unit_zero hz2]
  simp only [View.ld_unit_zero (S := S5000x128) hz2, View.ld_unit_zero (S := S128x64) hz2, View.ld_unit_zero (S := S1x64) hz2,
    View.ld_unit_zero (S := S5000x1) hz2]
  obtain ⟨-, -, -, -, -, -, -, -, e0, e1⟩ := idx_facts0 t
  funext j
  obtain ⟨p, q, rfl⟩ : ∃ (p : Fin 5000) (q : Fin 64), j = ix2 p q := ⟨j 0, j 1, eq_ix2 j⟩
  refine (pay0_apply _ _ _ _ p q).trans ?_
  rw [View.read_apply]
  unfold G0_4
  have hr : ((((cfg0.win 4).blk t).view.emb (ix2 p q)) 0).val = 5000 * t.val + p.val := by
    show win0_4.index t (0 : Fin 2) * 5000 + 1 * p.val = _; omega
  have hc : ((((cfg0.win 4).blk t).view.emb (ix2 p q)) 1).val = q.val := by
    show win0_4.index t (1 : Fin 2) * 64 + 1 * q.val = _; omega
  refine congrArg₂ (· * ·) (congrArg₂ (· + ·) (Finset.sum_congr rfl fun k _ => congrArg₂ (· * ·) ?_ ?_) ?_) ?_
  · exact iblk0_0_apply V c t (ix2 p k) _ hr rfl
  · refine (iblk0_1_apply V c t (ix2 k q)).trans (congrArg _ (funext fun a => Fin.ext ?_))
    match a with
    | ⟨0, _⟩ => rfl
    | ⟨1, _⟩ => exact hc.symm
  · refine (iblk0_2_apply V c t (ix2 0 q)).trans (congrArg _ (funext fun a => Fin.ext ?_))
    match a with
    | ⟨0, _⟩ => rfl
    | ⟨1, _⟩ => exact hc.symm
  · exact iblk0_3_apply V c t (ix2 p 0) _ hr rfl

/-- An index of the output array is in point `t`'s block iff each coordinate is in the block's range on its axis. -/
theorem mem_blk0_4 (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v20).slice (win0_4.rect t)).set ↔ _
  rw [View.set_slice_whole, Rect.mem_set_unit]
  exact Iff.rfl

/-- Every row of the output lies in the block of the point `row / 5000`. -/
theorem cover0_4 (i : S100000x64.Idx) : ∃ t : Fin cfg0.N, (cfg0.win 4).flush t = true ∧ i ∈ ((cfg0.win 4).blk t).view.set := by
  have hi0 : (i 0).val < 100000 := idx2_lt0 i
  have hi1 : (i 1).val < 64 := idx2_lt1 i
  have hN : cfg0.N = 20 := N_0
  let t : Fin cfg0.N := ⟨(i 0).val / 5000, by rw [hN]; omega⟩
  obtain ⟨-, -, -, -, -, -, -, -, e0, e1⟩ := idx_facts0 t
  have ht : t.val = (i 0).val / 5000 := rfl
  refine ⟨t, flush0_4 t, ?_⟩
  rw [mem_blk0_4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega

/-- The output array when region 0 is left: `G0_4` of the region's input arrays as it found them. -/
theorem final0_4 : (Gen.dat0 (F := Ideal) V c).arrAt 4 cfg0.N
    = G0_4 (V c (Pipeline.arrRef spec0 0)) (V c (Pipeline.arrRef spec0 1)) (V c (Pipeline.arrRef spec0 2)) (V c (Pipeline.arrRef spec0 3)) :=
  (Gen.dat0 (F := Ideal) V c).arrAt_eq_of_cover 4 _ (fun t _ => flushed0_4_eq V c t) cover0_4

end

/-! ## Region 2: the scaled product with 64 contracted columns (the second layer) -/

/-- Row `n`, column `f` of the scaled product: row `n` of `x` against column `f` of `W`, plus the bias row at `f`,
    times row `n`'s scale. -/
def G2_4 (x : S100000x64.Idx → EReal) (W : S64x64.Idx → EReal) (b : S1x64.Idx → EReal) (d : S100000x1.Idx → EReal) :
    S100000x64.Idx → EReal :=
  fun i => ((∑ k : Fin 64, x (ix2 (i 0) k) * W (ix2 k (i 1))) + b (ix2 0 (i 1))) * d (ix2 (i 0) 0)

/-- The product into the zero accumulator, read at (p, q): the sum over the 64 contracted positions. -/
theorem matmul2_apply (a : FVec Ideal S5000x64 .bf16) (w : FVec Ideal S64x64 .bf16) (p : Fin 5000) (q : Fin 64) :
    matmul dot_S5000x64_S64x64_S5000x64_1_0_0_1_n_n none a w (constant (F := Ideal) S5000x64 .f32 0x00000000#32) (ix2 p q)
      = ∑ k : Fin 64, a (ix2 p k) * w (ix2 k q) := by
  refine (Ideal.matmul_constant_zero_apply dot_S5000x64_S64x64_S5000x64_1_0_0_1_n_n none a w (ix2 p q)).trans ?_
  rw [← Equiv.sum_comp (contrEquiv1 dot_S5000x64_S64x64_S5000x64_1_0_0_1_n_n 64 rfl rfl).symm]
  refine Finset.sum_congr rfl fun k _ => ?_
  congr 1
  · refine congrArg a (funext fun d => Fin.ext ?_)
    match d with
    | ⟨0, _⟩ => rfl
    | ⟨1, _⟩ =>
      exact (DotDims.lhsIdx_val_of_single (d := dot_S5000x64_S64x64_S5000x64_1_0_0_1_n_n) (cl := 1) rfl _ _).trans
        (contrEquiv1_symm_val _ 64 rfl rfl k)
  · refine congrArg w (funext fun d => Fin.ext ?_)
    match d with
    | ⟨0, _⟩ =>
      exact (DotDims.rhsIdx_val_of_single (d := dot_S5000x64_S64x64_S5000x64_1_0_0_1_n_n) (cr := 0) rfl _ _).trans
        (contrEquiv1_symm_val _ 64 rfl rfl k)
    | ⟨1, _⟩ => rfl

/-- The body's payload at (p, q) of a block: the block's row against the weights' column, plus the bias, times the row's scale. -/
theorem pay2_apply (x0 : Vec Ideal S5000x64 .f32) (x1 : Vec Ideal S64x64 .f32) (x2 : Vec Ideal S1x64 .f32) (x3 : Vec Ideal S5000x1 .f32)
    (p : Fin 5000) (q : Fin 64) :
    Gen.k2_pay1 x0 x1 x2 x3 (ix2 p q) = ((∑ k : Fin 64, x0 (ix2 p k) * x1 (ix2 k q)) + x2 (ix2 0 q)) * x3 (ix2 p 0) := by
  unfold Gen.k2_pay1
  refine congrArg₂ (· * ·) (congrArg₂ (· + ·) ?_ ?_) ?_
  · rw [shapeCast_self, shapeCast_self]
    exact matmul2_apply _ _ p q
  · rw [shapeCast_self]
    exact broadcastTo_apply x2 _ (ix2 p q) (ix2 0 q) (fun a => by match a with | ⟨0, _⟩ => rfl | ⟨1, _⟩ => rfl)
  · rw [shapeCast_self]
    exact broadcastTo_apply x3 _ (ix2 p q) (ix2 p 0) (fun a => by match a with | ⟨0, _⟩ => rfl | ⟨1, _⟩ => rfl)

/-- The printed index maps over the grid: the row-blocked windows sit at block row `t`, the whole-array windows at block 0. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

section
variable (V : (c : Dev nD) → (b : Ref sig .tc) → Buf (Elt Ideal) ((c : Thread nD τ).loc b)) (c : Dev nD)

/-- Block `t` of `x` is rows `5000 t …` of the array. -/
theorem iblk2_0_apply (t : Fin cfg2.N) (y : S5000x64.Idx) (i : S100000x64.Idx)
    (h0 : (i 0).val = 5000 * t.val + (y 0).val) (h1 : (i 1).val = (y 1).val) :
    (Gen.iblk2 V c 0 t : Vec Ideal S5000x64 .f32) y = (V c (Pipeline.arrRef spec2 0) : S100000x64.Idx → EReal) i := by
  obtain ⟨e0, e1, -⟩ := idx_facts2 t
  unfold Gen.iblk2
  rw [View.read_apply]
  refine congrArg (V c (Pipeline.arrRef spec2 0)) (funext fun a => Fin.ext ?_)
  match a with
  | ⟨0, _⟩ => show win2_0.index t (0 : Fin 2) * 5000 + 1 * (y 0).val = (i 0).val; omega
  | ⟨1, _⟩ => show win2_0.index t (1 : Fin 2) * 64 + 1 * (y 1).val = (i 1).val; omega

/-- The weights' one block is the array. -/
theorem iblk2_1_apply (t : Fin cfg2.N) (y : S64x64.Idx) :
    (Gen.iblk2 V c 1 t : Vec Ideal S64x64 .f32) y = (V c (Pipeline.arrRef spec2 1) : S64x64.Idx → EReal) y := by
  obtain ⟨-, -, e0, e1, -⟩ := idx_facts2 t
  unfold Gen.iblk2
  rw [View.read_apply]
  refine congrArg (V c (Pipeline.arrRef spec2 1)) (funext fun a => Fin.ext ?_)
  match a with
  | ⟨0, _⟩ => show win2_1.index t (0 : Fin 2) * 64 + 1 * (y 0).val = (y 0).val; omega
  | ⟨1, _⟩ => show win2_1.index t (1 : Fin 2) * 64 + 1 * (y 1).val = (y 1).val; omega

/-- The bias row's one block is the array. -/
theorem iblk2_2_apply (t : Fin cfg2.N) (y : S1x64.Idx) :
    (Gen.iblk2 V c 2 t : Vec Ideal S1x64 .f32) y = (V c (Pipeline.arrRef spec2 2) : S1x64.Idx → EReal) y := by
  obtain ⟨-, -, -, -, e0, e1, -⟩ := idx_facts2 t
  unfold Gen.iblk2
  rw [View.read_apply]
  refine congrArg (V c (Pipeline.arrRef spec2 2)) (funext fun a => Fin.ext ?_)
  match a with
  | ⟨0, _⟩ => show win2_2.index t (0 : Fin 2) * 1 + 1 * (y 0).val = (y 0).val; omega
  | ⟨1, _⟩ => show win2_2.index t (1 : Fin 2) * 64 + 1 * (y 1).val = (y 1).val; omega

/-- Block `t` of the scale column is rows `5000 t …` of the array. -/
theorem iblk2_3_apply (t : Fin cfg2.N) (y : S5000x1.Idx) (i : S100000x1.Idx)
    (h0 : (i 0).val = 5000 * t.val + (y 0).val) (h1 : (i 1).val = (y 1).val) :
    (Gen.iblk2 V c 3 t : Vec Ideal S5000x1 .f32) y = (V c (Pipeline.arrRef spec2 3) : S100000x1.Idx → EReal) i := by
  obtain ⟨-, -, -, -, -, -, e0, e1, -⟩ := idx_facts2 t
  unfold Gen.iblk2
  rw [View.read_apply]
  refine congrArg (V c (Pipeline.arrRef spec2 3)) (funext fun a => Fin.ext ?_)
  match a with
  | ⟨0, _⟩ => show win2_3.index t (0 : Fin 2) * 5000 + 1 * (y 0).val = (i 0).val; omega
  | ⟨1, _⟩ => show win2_3.index t (1 : Fin 2) * 1 + 1 * (y 1).val = (i 1).val; omega

/-- What point `t` writes back is block `t` of `G2_4` of the arrays as the region finds them. -/
theorem flushed2_4_eq (t : Fin cfg2.N) :
    (Gen.dat2 (F := Ideal) V c).flushed 4 t = ((cfg2.win 4).blk t).view.read (Elt Ideal)
      (G2_4 (V c (Pipeline.arrRef spec2 0)) (V c (Pipeline.arrRef spec2 1)) (V c (Pipeline.arrRef spec2 2)) (V c (Pipeline.arrRef spec2 3))) := by
  show (cfg2.win 4).cut (grid2.coords t) ((Gen.dat2 (F := Ideal) V c).after 4 t) = _
  rw [Gen.after2_4]
  unfold Gen.out2_4
  rw [View.canon_unit_zero hz2]
  simp only [View.ld_unit_zero (S := S5000x64) hz2, View.ld_unit_zero (S := S64x64) hz2, View.ld_unit_zero (S := S1x64) hz2,
    View.ld_unit_zero (S := S5000x1) hz2]
  obtain ⟨-, -, -, -, -, -, -, -, e0, e1⟩ := idx_facts2 t
  funext j
  obtain ⟨p, q, rfl⟩ : ∃ (p : Fin 5000) (q : Fin 64), j = ix2 p q := ⟨j 0, j 1, eq_ix2 j⟩
  refine (pay2_apply _ _ _ _ p q).trans ?_
  rw [View.read_apply]
  unfold G2_4
  have hr : ((((cfg2.win 4).blk t).view.emb (ix2 p q)) 0).val = 5000 * t.val + p.val := by
    show win2_4.index t (0 : Fin 2) * 5000 + 1 * p.val = _; omega
  have hc : ((((cfg2.win 4).blk t).view.emb (ix2 p q)) 1).val = q.val := by
    show win2_4.index t (1 : Fin 2) * 64 + 1 * q.val = _; omega
  refine congrArg₂ (· * ·) (congrArg₂ (· + ·) (Finset.sum_congr rfl fun k _ => congrArg₂ (· * ·) ?_ ?_) ?_) ?_
  · exact iblk2_0_apply V c t (ix2 p k) _ hr rfl
  · refine (iblk2_1_apply V c t (ix2 k q)).trans (congrArg _ (funext fun a => Fin.ext ?_))
    match a with
    | ⟨0, _⟩ => rfl
    | ⟨1, _⟩ => exact hc.symm
  · refine (iblk2_2_apply V c t (ix2 0 q)).trans (congrArg _ (funext fun a => Fin.ext ?_))
    match a with
    | ⟨0, _⟩ => rfl
    | ⟨1, _⟩ => exact hc.symm
  · exact iblk2_3_apply V c t (ix2 p 0) _ hr rfl

/-- An index of the output array is in point `t`'s block iff each coordinate is in the block's range on its axis. -/
theorem mem_blk2_4 (t : Fin cfg2.N) (i : S100000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v58).slice (win2_4.rect t)).set ↔ _
  rw [View.set_slice_whole, Rect.mem_set_unit]
  exact Iff.rfl

/-- Every row of the output lies in the block of the point `row / 5000`. -/
theorem cover2_4 (i : S100000x64.Idx) : ∃ t : Fin cfg2.N, (cfg2.win 4).flush t = true ∧ i ∈ ((cfg2.win 4).blk t).view.set := by
  have hi0 : (i 0).val < 100000 := idx2_lt0 i
  have hi1 : (i 1).val < 64 := idx2_lt1 i
  have hN : cfg2.N = 20 := N_2
  let t : Fin cfg2.N := ⟨(i 0).val / 5000, by rw [hN]; omega⟩
  obtain ⟨-, -, -, -, -, -, -, -, e0, e1⟩ := idx_facts2 t
  have ht : t.val = (i 0).val / 5000 := rfl
  refine ⟨t, flush2_4 t, ?_⟩
  rw [mem_blk2_4]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

/-- The output array when region 2 is left: `G2_4` of the region's input arrays as it found them. -/
theorem final2_4 : (Gen.dat2 (F := Ideal) V c).arrAt 4 cfg2.N
    = G2_4 (V c (Pipeline.arrRef spec2 0)) (V c (Pipeline.arrRef spec2 1)) (V c (Pipeline.arrRef spec2 2)) (V c (Pipeline.arrRef spec2 3)) :=
  (Gen.dat2 (F := Ideal) V c).arrAt_eq_of_cover 4 _ (fun t _ => flushed2_4_eq V c t) cover2_4

end

end Cert.KernelIdeal.KVal

end
-- ==== Proof.KTower0.lean ====
/-
  The idealized kernel's run read as values, first part: the host stretches before the first region and the first
  region. Each named intermediate array of the program is a pure function of the launch arrays; a stretch of host
  operations is read once at a generic incoming valuation, and the boundary contents follow by rewriting the reads of
  the stretch's inputs.
-/
import proofs.«166090_j687194767719_2_alg».proof.Proof.Gen.KernelIdeal.Frame
import Idealize.ShloMosaic.Lib.StableHlo.Run
import Idealize.ShloMosaic.PureOps.Ideal
import proofs.«166090_j687194767719_2_alg».proof.Proof.KValMatmul

set_option maxRecDepth 16384

noncomputable section

namespace Cert.KernelIdeal.KTower

open Cert.KernelIdeal Cert.KernelIdeal.Gen Idealize.ShloMosaic Idealize.ShloMosaic.TcCoe Idealize.SL.Sem Idealize.ShloMosaic.StableHlo

/-! ## The values of the first host stretches: the edge lists, the degrees, the normalizer -/

/-- The zero scalar and the zero-filled arrays the scatters start from. -/
def zero_ : FVec Ideal S_ .f32 := constant (F := Ideal) S_ .f32 0x00000000#32

/-- One row of the edge array followed by every node once (a self loop per node). -/
def rowOf (ei : IVec S2x1250000 32) : IVec S1350000 32 :=
  concatenate S1350000 0
    [⟨S1250000, shapeCast S1250000 (extractStridedSlice S1x1250000 ![0, 0] ei slices_S2x1250000_S1x1250000_0_0) shapeCasts_S1x1250000_S1250000⟩,
     ⟨S100000, iotaInDim S100000 32 0⟩] concatenates_S1250000_S100000_S1350000_d0

/-- The other row of the edge array followed by every node once. -/
def colOf (ei : IVec S2x1250000 32) : IVec S1350000 32 :=
  concatenate S1350000 0
    [⟨S1250000, shapeCast S1250000 (extractStridedSlice S1x1250000 ![1, 0] ei slices_S2x1250000_S1x1250000_1_0) shapeCasts_S1x1250000_S1250000⟩,
     ⟨S100000, iotaInDim S100000 32 0⟩] concatenates_S1250000_S100000_S1350000_d0

/-- A node's degree: one added at the node's own position for every entry of the second list naming it. -/
def deg (ei : IVec S2x1250000 32) : FVec Ideal S100000 .f32 :=
  Host.scatterAdd (F := Ideal) scatter_S100000_S1350000x1_S1350000_n_0_0_1
    (broadcastInDim S100000 ![] bcast_S_S100000 zero_)
    (broadcastInDim S1350000x1 ![0] bcast_S1350000_S1350000x1_0 (colOf ei))
    (broadcastInDim S1350000 ![] bcast_S_S1350000 (constant (F := Ideal) S_ .f32 0x3F800000#32))

/-- Is the degree positive. -/
def degPos (ei : IVec S2x1250000 32) : IVec S100000 1 :=
  cmpf (F := Ideal) .ogt (deg ei) (broadcastInDim S100000 ![] bcast_S_S100000 zero_)

/-- The reciprocal square root of the degree, the degree first raised to the small positive floor. -/
def degRsqrt (ei : IVec S2x1250000 32) : FVec Ideal S100000 .f32 :=
  Host.rsqrt (F := Ideal) (maximumf (F := Ideal) (deg ei) (broadcastInDim S100000 ![] bcast_S_S100000 (constant (F := Ideal) S_ .f32 0x2B8CBCCC#32)))

/-- The normalizer: the reciprocal square root of a positive degree, zero elsewhere. -/
def dis (ei : IVec S2x1250000 32) : FVec Ideal S100000 .f32 :=
  select (degPos ei) (degRsqrt ei) (broadcastInDim S100000 ![] bcast_S_S100000 (id zero_))

/-- The normalizer as a column. -/
def dis2d (ei : IVec S2x1250000 32) : FVec Ideal S100000x1 .f32 :=
  shapeCast S100000x1 (dis ei) shapeCasts_S100000_S100000x1

/-- The zero row. -/
def c0 : FVec Ideal S1x64 .f32 := broadcastInDim S1x64 ![] bcast_S_S1x64 zero_

/-- A vector of 64 as a row. -/
def rowOf64 (b : FVec Ideal S64 .f32) : FVec Ideal S1x64 .f32 := shapeCast S1x64 b shapeCasts_S64_S1x64

/-- The first layer's bias as a row. -/
def b0row (b0 : FVec Ideal S64 .f32) : FVec Ideal S1x64 .f32 := rowOf64 b0

/-- The first layer's scaled product: the features against the weights, no bias, each row times its normalizer. -/
def hw0 (x : FVec Ideal S100000x128 .f32) (ei : IVec S2x1250000 32) (W0 : FVec Ideal S128x64 .f32) : FVec Ideal S100000x64 .f32 :=
  KVal.G0_4 x W0 c0 (dis2d ei)

/-! ## The first stretch read at a generic incoming valuation -/

section Stretches
variable (U : Valuation τ sig (Elt Ideal))

attribute [local irreducible] Host.scatterAdd

set_option maxHeartbeats 1000000 in
theorem s0_v3 : after (hostOps0 (F := Ideal)) U (Proc.devRef .tc main_v3) = rowOf (U (Proc.devRef .tc main_arg1)) := by
  simp only [hostOps0]; after_results_simp; rfl

set_option maxHeartbeats 1000000 in
theorem s0_v6 : after (hostOps0 (F := Ideal)) U (Proc.devRef .tc main_v6) = colOf (U (Proc.devRef .tc main_arg1)) := by
  simp only [hostOps0]; after_results_simp; rfl

set_option maxHeartbeats 1000000 in
theorem s0_v12 : after (hostOps0 (F := Ideal)) U (Proc.devRef .tc main_v12) = degPos (U (Proc.devRef .tc main_arg1)) := by
  simp only [hostOps0]; after_results_simp; rfl

set_option maxHeartbeats 1000000 in
theorem s0_v15 : after (hostOps0 (F := Ideal)) U (Proc.devRef .tc main_v15) = degRsqrt (U (Proc.devRef .tc main_arg1)) := by
  simp only [hostOps0]; after_results_simp; rfl

set_option maxHeartbeats 1000000 in
theorem s0_cst3 : after (hostOps0 (F := Ideal)) U (Proc.devRef .tc main_cst_3) = zero_ := by
  simp only [hostOps0]; after_results_simp; rfl

end Stretches

/-! ## What each stretch leaves alone -/

/-- The references `hostOps0`'s operations write. -/
abbrev hostOps0_W : List (Ref sig .tc) := [main_v0, main_v1, main_v2, main_v3, main_v4, main_v5, main_v6, main_cst, main_v7, main_cst_0, main_v8, main_v9, main_v10, main_cst_1, main_v11, main_v12, main_cst_2, main_v13, main_v14, main_v15, main_cst_3]
theorem hostOps0_writes : (hostOps0 (F := Ideal)).Forall fun op => op.writes ⊆ ((hostOps0_W).map (Proc.devRef (τ := τ) .tc)).toFinset := by
  simp only [hostOps0, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer `hostOps0` does not write keeps its contents. -/
theorem keep0 (U : Valuation τ sig (Elt Ideal)) (r : Ref sig .tc) (h : r ∉ hostOps0_W) :
    after (hostOps0 (F := Ideal)) U (Proc.devRef .tc r) = U (Proc.devRef .tc r) :=
  after_of_writes_sub _ U hostOps0_writes h

/-- The references `hostOps0_1`'s operations write. -/
abbrev hostOps0_1_W : List (Ref sig .tc) := [main_call0_v0, main_call0_v1, main_v16]
theorem hostOps0_1_writes : (hostOps0_1 (F := Ideal)).Forall fun op => op.writes ⊆ ((hostOps0_1_W).map (Proc.devRef (τ := τ) .tc)).toFinset := by
  simp only [hostOps0_1, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer `hostOps0_1` does not write keeps its contents. -/
theorem keep0_1 (U : Valuation τ sig (Elt Ideal)) (r : Ref sig .tc) (h : r ∉ hostOps0_1_W) :
    after (hostOps0_1 (F := Ideal)) U (Proc.devRef .tc r) = U (Proc.devRef .tc r) :=
  after_of_writes_sub _ U hostOps0_1_writes h

/-- The references `hostOps0_2`'s operations write. -/
abbrev hostOps0_2_W : List (Ref sig .tc) := [main_v17, main_cst_4, main_v18, main_v19]
theorem hostOps0_2_writes : (hostOps0_2 (F := Ideal)).Forall fun op => op.writes ⊆ ((hostOps0_2_W).map (Proc.devRef (τ := τ) .tc)).toFinset := by
  simp only [hostOps0_2, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer `hostOps0_2` does not write keeps its contents. -/
theorem keep0_2 (U : Valuation τ sig (Elt Ideal)) (r : Ref sig .tc) (h : r ∉ hostOps0_2_W) :
    after (hostOps0_2 (F := Ideal)) U (Proc.devRef .tc r) = U (Proc.devRef .tc r) :=
  after_of_writes_sub _ U hostOps0_2_writes h

/-! ## The second and third stretches at a generic incoming valuation -/

section Stretches
variable (U : Valuation τ sig (Elt Ideal))

theorem s0_1_v16 : after (hostOps0_1 (F := Ideal)) U (Proc.devRef .tc main_v16)
    = select (U (Proc.devRef .tc main_v12)) (U (Proc.devRef .tc main_v15))
        (broadcastInDim S100000 ![] bcast_S_S100000 (id (U (Proc.devRef .tc main_cst_3)))) := by
  simp only [hostOps0_1]; after_results; rfl

theorem s0_2_v17 : after (hostOps0_2 (F := Ideal)) U (Proc.devRef .tc main_v17)
    = shapeCast S100000x1 (U (Proc.devRef .tc main_v16)) shapeCasts_S100000_S100000x1 := by
  simp only [hostOps0_2]; after_results; rfl

theorem s0_2_v18 : after (hostOps0_2 (F := Ideal)) U (Proc.devRef .tc main_v18) = c0 := by
  simp only [hostOps0_2]; after_results; rfl

theorem s0_2_v19 : after (hostOps0_2 (F := Ideal)) U (Proc.devRef .tc main_v19) = b0row (U (Proc.devRef .tc main_arg4)) := by
  simp only [hostOps0_2]; after_results; rfl

end Stretches

/-! ## The reads at the boundaries up to region 0's exit -/

section Reads
variable (m : (ℓ : Loc nD τ sig) → Buf (Elt Ideal) ℓ) (ρ : Dev nD → PrngReg) (c : Dev nD)

/-- A buffer none of the three first stretches writes holds at region 0's entry what it held at launch. -/
theorem W3_of (r : Ref sig .tc) (h0 : r ∉ hostOps0_W) (h1 : r ∉ hostOps0_1_W) (h2 : r ∉ hostOps0_2_W) :
    W3 m ρ c (Proc.devRef .tc r) = m ((c : Thread nD τ).loc r) :=
  (keep0_2 _ r h2).trans ((keep0_1 _ r h1).trans (keep0 _ r h0))

theorem W1_v3 : W1 m ρ c (Proc.devRef .tc main_v3) = rowOf (m ((c : Thread nD τ).loc main_arg1)) := s0_v3 _
theorem W1_v6 : W1 m ρ c (Proc.devRef .tc main_v6) = colOf (m ((c : Thread nD τ).loc main_arg1)) := s0_v6 _
theorem W1_v12 : W1 m ρ c (Proc.devRef .tc main_v12) = degPos (m ((c : Thread nD τ).loc main_arg1)) := s0_v12 _
theorem W1_v15 : W1 m ρ c (Proc.devRef .tc main_v15) = degRsqrt (m ((c : Thread nD τ).loc main_arg1)) := s0_v15 _
theorem W1_cst3 : W1 m ρ c (Proc.devRef .tc main_cst_3) = zero_ := s0_cst3 _

theorem W2_v16 : W2 m ρ c (Proc.devRef .tc main_v16) = dis (m ((c : Thread nD τ).loc main_arg1)) := by
  refine (s0_1_v16 _).trans ?_
  rw [W1_v12, W1_v15, W1_cst3]; rfl

theorem W3_v3 : W3 m ρ c (Proc.devRef .tc main_v3) = rowOf (m ((c : Thread nD τ).loc main_arg1)) :=
  (keep0_2 _ _ (by decide)).trans ((keep0_1 _ _ (by decide)).trans (W1_v3 m ρ c))
theorem W3_v6 : W3 m ρ c (Proc.devRef .tc main_v6) = colOf (m ((c : Thread nD τ).loc main_arg1)) :=
  (keep0_2 _ _ (by decide)).trans ((keep0_1 _ _ (by decide)).trans (W1_v6 m ρ c))
theorem W3_v17 : W3 m ρ c (Proc.devRef .tc main_v17) = dis2d (m ((c : Thread nD τ).loc main_arg1)) := by
  refine (s0_2_v17 _).trans ?_
  rw [W2_v16]; rfl
theorem W3_v18 : W3 m ρ c (Proc.devRef .tc main_v18) = c0 := s0_2_v18 _
theorem W3_v19 : W3 m ρ c (Proc.devRef .tc main_v19) = b0row (m ((c : Thread nD τ).loc main_arg4)) := by
  refine (s0_2_v19 _).trans ?_
  rw [show W2 m ρ c (Proc.devRef .tc main_arg4) = m ((c : Thread nD τ).loc main_arg4) from
    (keep0_1 _ _ (by decide)).trans (keep0 _ _ (by decide))]
theorem W3_arg0 : W3 m ρ c (Proc.devRef .tc main_arg0) = m ((c : Thread nD τ).loc main_arg0) :=
  W3_of m ρ c _ (by decide) (by decide) (by decide)
theorem W3_arg3 : W3 m ρ c (Proc.devRef .tc main_arg3) = m ((c : Thread nD τ).loc main_arg3) :=
  W3_of m ρ c _ (by decide) (by decide) (by decide)

/-- Region 0's result: the first layer's scaled product of the launch arrays. -/
theorem W4_v20 : W4 m ρ c (Proc.devRef .tc main_v20)
    = hw0 (m ((c : Thread nD τ).loc main_arg0)) (m ((c : Thread nD τ).loc main_arg1)) (m ((c : Thread nD τ).loc main_arg3)) := by
  refine (W4_arr m ρ c 4).trans ((KVal.final0_4 (V3 m ρ) c).trans ?_)
  show KVal.G0_4 (W3 m ρ c (Proc.devRef .tc main_arg0)) (W3 m ρ c (Proc.devRef .tc main_arg3))
      (W3 m ρ c (Proc.devRef .tc main_v18)) (W3 m ρ c (Proc.devRef .tc main_v17)) = _
  rw [W3_arg0, W3_arg3, W3_v18, W3_v17]; rfl
theorem W4_v3 : W4 m ρ c (Proc.devRef .tc main_v3) = rowOf (m ((c : Thread nD τ).loc main_arg1)) :=
  (W4_of_ne m ρ c _ (by decide)).trans (W3_v3 m ρ c)
theorem W4_v6 : W4 m ρ c (Proc.devRef .tc main_v6) = colOf (m ((c : Thread nD τ).loc main_arg1)) :=
  (W4_of_ne m ρ c _ (by decide)).trans (W3_v6 m ρ c)
theorem W4_v17 : W4 m ρ c (Proc.devRef .tc main_v17) = dis2d (m ((c : Thread nD τ).loc main_arg1)) :=
  ((W4_arr m ρ c 3).trans (((dat0 (V3 m ρ) c).arrAt_in 3 rfl _).trans (A_eq0 (V3 m ρ) c 3))).trans (W3_v17 m ρ c)
theorem W4_v19 : W4 m ρ c (Proc.devRef .tc main_v19) = b0row (m ((c : Thread nD τ).loc main_arg4)) :=
  (W4_of_ne m ρ c _ (by decide)).trans (W3_v19 m ρ c)
/-- A buffer that is none of region 0's arrays and that no stretch before it writes holds at region 0's exit what it
    held at launch. -/
theorem W4_of (r : Ref sig .tc) (h0 : r ∉ hostOps0_W) (h1 : r ∉ hostOps0_1_W) (h2 : r ∉ hostOps0_2_W)
    (hr : ∀ w, Pipeline.arrRef spec0 w ≠ r) : W4 m ρ c (Proc.devRef .tc r) = m ((c : Thread nD τ).loc r) :=
  (W4_of_ne m ρ c r hr).trans (W3_of m ρ c r h0 h1 h2)

end Reads

end Cert.KernelIdeal.KTower

end
-- ==== Proof.KValStats.lean ====
/- The two ramp-and-statistics regions of the idealized kernel, each output as ONE function of the region's input arrays.
   A region walks 20 row blocks of 5000 rows; at a block it scales every row of `a` by the row's own factor, adds the bias
   row, applies the leaky ramp and writes the block; it also writes, into row `t` of two [20, 8, 64] arrays, the block's
   column sums of the ramp's output and of its squares, repeated over the 8 sublane rows. Row `n` of the ramp's output
   depends only on row `n` of the inputs, and row `t` of the sums only on block `t`'s 5000 rows, so the written-back
   blocks are restrictions of one whole-array function per output, and they tile the output arrays. -/
import proofs.«166090_j687194767719_2_alg».proof.Proof.Gen.KernelIdeal.Frame
import Idealize.ShloMosaic.PureOps.Ideal.Laws
import Idealize.ShloMosaic.Lib.ValueIdx
import Idealize.ShloMosaic.Lib.Pipeline.Value

noncomputable section

open Idealize.ShloMosaic Idealize.ShloMosaic.TcCoe Idealize.ShloMosaic.ValueIdx Idealize.SL.Sem
open Idealize.ShloMosaic.Pipeline (Dat)
open scoped BigOperators

namespace Cert.KernelIdeal.KVal

open Cert.KernelIdeal Cert.KernelIdeal.Gen

/-! ## The scalar ramp, the row of a block, and the layout steps the two regions share -/

/-- The leaky ramp: the identity above zero, the slope `0x3C23D70A` (as an f32 word) times the argument elsewhere. -/
def leaky (v : EReal) : EReal := if 0 < v then v else Ideal.ofBits .f32 0x3C23D70A#32 * v

/-- Row `n` of row block `t`: blocks are 5000 rows. -/
def blockRow (t : Fin 20) (n : Fin 5000) : Fin 100000 := ⟨5000 * t.val + n.val, by omega⟩

theorem blockRow_val (t : Fin 20) (n : Fin 5000) : (blockRow t n).val = 5000 * t.val + n.val := rfl

/-- The body's select on "above the zero word" is the ramp. -/
theorem leaky_select (v : EReal) :
    Scalar.select (FloatOps.cmpf (F := Ideal) (φ := .f32) .ogt v (FloatOps.ofBits (F := Ideal) .f32 0x00000000#32)) v
      (FloatOps.mulf (F := Ideal) (φ := .f32) (FloatOps.ofBits (F := Ideal) .f32 0x3C23D70A#32) v) = leaky v := by
  show (if BitVec.ofBool (decide (Ideal.ofBits .f32 0x00000000#32 < v)) = 1 then v else Ideal.ofBits .f32 0x3C23D70A#32 * v) = _
  rw [Ideal.ofBits_zero_f32]
  unfold leaky
  by_cases h : (0 : EReal) < v
  · simp [h]
  · simp [h]

theorem hzS2 : (![0, 0] : Fin 2 → Nat) = fun _ => 0 := funext fun a => by fin_cases a <;> rfl
theorem hzS3 : (![0, 0, 0] : Fin 3 → Nat) = fun _ => 0 := funext fun a => by fin_cases a <;> rfl

/-- A `[64]` vector cast to `[1, 1, 64]` reads, at `(u, v, f)`, the operand at `f`. -/
theorem shapeCast_64_1x1x64_apply (x : S64.Idx → EReal) (h : S64.ShapeCasts S1x1x64) (u v : Fin 1) (f : Fin 64) :
    shapeCast S1x1x64 x h (ix3 u v f) = x (ix1 f) :=
  shapeCast_apply x h _ _ (by
    have hu : u.val = 0 := by omega
    have hv : v.val = 0 := by omega
    rw [Shape.rowMajor_val_three, Shape.rowMajor_val_one]
    show f.val = (u.val * 1 + v.val) * 64 + f.val
    omega)

/-- The sum over a block's 5000 rows, read at column `f`. -/
theorem colsum_apply (src : FVec Ideal S5000x64 .f32) (hφ : FKind.Formats .f32)
    (hacc : (0x00000000#32 : BitVec 32) = FKind.add.neutral .f32 hφ) (f : Fin 64) :
    multiReduction .add [0] S64 src 0x00000000#32 reduces_S5000x64_S64 hφ hacc (ix1 f) = ∑ n : Fin 5000, src (ix2 n f) := by
  refine (Ideal.multiReduction_add_single src _ reduces_S5000x64_S64 hφ hacc (ix1 f)).trans ?_
  show ∑ n : Fin 5000, src (reduces_S5000x64_S64.lift (ix1 f) n) = _
  refine Finset.sum_congr rfl fun n _ => congrArg src (funext fun a => Fin.ext ?_)
  match a with
  | ⟨0, _⟩ => rfl
  | ⟨1, _⟩ => rfl

/-! ## Region 1: the leaky ramp of the scaled rows, and each block's column sums -/

/-- Row `n`, column `f` of the ramp's output: the ramp of `a[n,f] · d[n,0] + b[0,f]`. -/
def G1_3 (a : S100000x64.Idx → EReal) (d : S100000x1.Idx → EReal) (b : S1x64.Idx → EReal) : S100000x64.Idx → EReal :=
  fun i => leaky (a i * d (ix2 (i 0) 0) + b (ix2 0 (i 1)))

/-- Block `t`'s column sums of the ramp's output, the same in each of the 8 sublane rows. -/
def G1_4 (a : S100000x64.Idx → EReal) (d : S100000x1.Idx → EReal) (b : S1x64.Idx → EReal) : S20x8x64.Idx → EReal :=
  fun j => ∑ n : Fin 5000, G1_3 a d b (ix2 (blockRow (j 0) n) (j 2))

/-- Block `t`'s column sums of the squares of the ramp's output, the same in each of the 8 sublane rows. -/
def G1_5 (a : S100000x64.Idx → EReal) (d : S100000x1.Idx → EReal) (b : S1x64.Idx → EReal) : S20x8x64.Idx → EReal :=
  fun j => ∑ n : Fin 5000, G1_3 a d b (ix2 (blockRow (j 0) n) (j 2)) * G1_3 a d b (ix2 (blockRow (j 0) n) (j 2))

/-- The first payload at (p, q) of a block: the ramp of the scaled entry plus the bias. -/
theorem pay1_1_apply (x0 : Vec Ideal S5000x64 .f32) (x1 : Vec Ideal S5000x1 .f32) (x2 : Vec Ideal S1x64 .f32) (p : Fin 5000) (q : Fin 64) :
    Gen.k1_pay1 x0 x1 x2 (ix2 p q) = leaky (x0 (ix2 p q) * x1 (ix2 p 0) + x2 (ix2 0 q)) := by
  unfold Gen.k1_pay1
  refine (leaky_select _).trans (congrArg leaky ?_)
  refine congrArg₂ (· + ·) (congrArg₂ (· * ·) ?_ ?_) ?_
  · rw [shapeCast_self]
  · rw [shapeCast_self]
    exact broadcastTo_apply x1 _ (ix2 p q) (ix2 p 0) (fun a => by match a with | ⟨0, _⟩ => rfl | ⟨1, _⟩ => rfl)
  · rw [shapeCast_self]
    exact broadcastTo_apply x2 _ (ix2 p q) (ix2 0 q) (fun a => by match a with | ⟨0, _⟩ => rfl | ⟨1, _⟩ => rfl)

/-- The second payload at (u, r, f): the block's column sum of the first payload, whatever the sublane row. -/
theorem pay1_2_apply (x0 : Vec Ideal S5000x64 .f32) (x1 : Vec Ideal S5000x1 .f32) (x2 : Vec Ideal S1x64 .f32) (u : Fin 1) (r : Fin 8) (f : Fin 64) :
    Gen.k1_pay2 x0 x1 x2 (ix3 u r f) = ∑ n : Fin 5000, leaky (x0 (ix2 n f) * x1 (ix2 n 0) + x2 (ix2 0 f)) := by
  unfold Gen.k1_pay2
  refine (broadcastTo_apply _ _ (ix3 u r f) (ix3 0 0 f) (fun a => by match a with | ⟨0, _⟩ => rfl | ⟨1, _⟩ => rfl | ⟨2, _⟩ => rfl)).trans ?_
  rw [shapeCast_self]
  refine (shapeCast_64_1x1x64_apply _ _ 0 0 f).trans ?_
  refine (colsum_apply _ _ _ f).trans ?_
  exact Finset.sum_congr rfl fun n _ => pay1_1_apply x0 x1 x2 n f

/-- The third payload at (u, r, f): the block's column sum of the first payload's squares. -/
theorem pay1_3_apply (x0 : Vec Ideal S5000x64 .f32) (x1 : Vec Ideal S5000x1 .f32) (x2 : Vec Ideal S1x64 .f32) (u : Fin 1) (r : Fin 8) (f : Fin 64) :
    Gen.k1_pay3 x0 x1 x2 (ix3 u r f) = ∑ n : Fin 5000, leaky (x0 (ix2 n f) * x1 (ix2 n 0) + x2 (ix2 0 f)) * leaky (x0 (ix2 n f) * x1 (ix2 n 0) + x2 (ix2 0 f)) := by
  unfold Gen.k1_pay3
  refine (broadcastTo_apply _ _ (ix3 u r f) (ix3 0 0 f) (fun a => by match a with | ⟨0, _⟩ => rfl | ⟨1, _⟩ => rfl | ⟨2, _⟩ => rfl)).trans ?_
  rw [shapeCast_self]
  refine (shapeCast_64_1x1x64_apply _ _ 0 0 f).trans ?_
  refine (colsum_apply _ _ _ f).trans ?_
  exact Finset.sum_congr rfl fun n _ => congrArg₂ (· * ·) (pay1_1_apply x0 x1 x2 n f) (pay1_1_apply x0 x1 x2 n f)

/-- The printed index maps over the grid: the row-blocked windows and the per-block sums sit at block `t`, the bias row at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 3) = t.val ∧ win1_4.index t (1 : Fin 3) = 0 ∧ win1_4.index t (2 : Fin 3) = 0
    ∧ win1_5.index t (0 : Fin 3) = t.val ∧ win1_5.index t (1 : Fin 3) = 0 ∧ win1_5.index t (2 : Fin 3) = 0 :=
  (by decide +kernel : ∀ t : Fin grid1.N, _)

section
variable (V : (c : Dev nD) → (b : Ref sig .tc) → Buf (Elt Ideal) ((c : Thread nD τ).loc b)) (c : Dev nD)

/-- Block `t` of `a` is rows `5000 t …` of the array. -/
theorem iblk1_0_apply (t : Fin cfg1.N) (y : S5000x64.Idx) (i : S100000x64.Idx)
    (h0 : (i 0).val = 5000 * t.val + (y 0).val) (h1 : (i 1).val = (y 1).val) :
    (Gen.iblk1 V c 0 t : Vec Ideal S5000x64 .f32) y = (V c (Pipeline.arrRef spec1 0) : S100000x64.Idx → EReal) i := by
  obtain ⟨e0, e1, -⟩ := idx_facts1 t
  unfold Gen.iblk1
  rw [View.read_apply]
  refine congrArg (V c (Pipeline.arrRef spec1 0)) (funext fun a => Fin.ext ?_)
  match a with
  | ⟨0, _⟩ => show win1_0.index t (0 : Fin 2) * 5000 + 1 * (y 0).val = (i 0).val; omega
  | ⟨1, _⟩ => show win1_0.index t (1 : Fin 2) * 64 + 1 * (y 1).val = (i 1).val; omega

/-- Block `t` of the scale column is rows `5000 t …` of the array. -/
theorem iblk1_1_apply (t : Fin cfg1.N) (y : S5000x1.Idx) (i : S100000x1.Idx)
    (h0 : (i 0).val = 5000 * t.val + (y 0).val) (h1 : (i 1).val = (y 1).val) :
    (Gen.iblk1 V c 1 t : Vec Ideal S5000x1 .f32) y = (V c (Pipeline.arrRef spec1 1) : S100000x1.Idx → EReal) i := by
  obtain ⟨-, -, e0, e1, -⟩ := idx_facts1 t
  unfold Gen.iblk1
  rw [View.read_apply]
  refine congrArg (V c (Pipeline.arrRef spec1 1)) (funext fun a => Fin.ext ?_)
  match a with
  | ⟨0, _⟩ => show win1_1.index t (0 : Fin 2) * 5000 + 1 * (y 0).val = (i 0).val; omega
  | ⟨1, _⟩ => show win1_1.index t (1 : Fin 2) * 1 + 1 * (y 1).val = (i 1).val; omega

/-- The bias row's one block is the array. -/
theorem iblk1_2_apply (t : Fin cfg1.N) (y : S1x64.Idx) (i : S1x64.Idx)
    (h0 : (i 0).val = (y 0).val) (h1 : (i 1).val = (y 1).val) :
    (Gen.iblk1 V c 2 t : Vec Ideal S1x64 .f32) y = (V c (Pipeline.arrRef spec1 2) : S1x64.Idx → EReal) i := by
  obtain ⟨-, -, -, -, e0, e1, -⟩ := idx_facts1 t
  unfold Gen.iblk1
  rw [View.read_apply]
  refine congrArg (V c (Pipeline.arrRef spec1 2)) (funext fun a => Fin.ext ?_)
  match a with
  | ⟨0, _⟩ => show win1_2.index t (0 : Fin 2) * 1 + 1 * (y 0).val = (i 0).val; omega
  | ⟨1, _⟩ => show win1_2.index t (1 : Fin 2) * 64 + 1 * (y 1).val = (i 1).val; omega

/-- The ramp of a block's entry is the ramp's whole-array function at the entry's row of the array. -/
theorem blk1_entry (t : Fin cfg1.N) (x0 : Vec Ideal S5000x64 .f32) (x1 : Vec Ideal S5000x1 .f32) (x2 : Vec Ideal S1x64 .f32)
    (e0 : x0 = Gen.iblk1 V c 0 t) (e1 : x1 = Gen.iblk1 V c 1 t) (e2 : x2 = Gen.iblk1 V c 2 t)
    (n : Fin 5000) (f : Fin 64) (i : S100000x64.Idx)
    (h0 : (i 0).val = 5000 * t.val + n.val) (h1 : (i 1).val = f.val) :
    leaky (x0 (ix2 n f) * x1 (ix2 n 0) + x2 (ix2 0 f))
      = G1_3 (V c (Pipeline.arrRef spec1 0)) (V c (Pipeline.arrRef spec1 1)) (V c (Pipeline.arrRef spec1 2)) i := by
  subst e0 e1 e2
  unfold G1_3
  refine congrArg leaky (congrArg₂ (· + ·) (congrArg₂ (· * ·) ?_ ?_) ?_)
  · exact iblk1_0_apply V c t (ix2 n f) i h0 h1
  · exact iblk1_1_apply V c t (ix2 n 0) (ix2 (i 0) 0) h0 rfl
  · exact iblk1_2_apply V c t (ix2 0 f) (ix2 0 (i 1)) rfl h1

/-- What point `t` writes back to the ramp's output is block `t` of `G1_3` of the arrays as the region finds them. -/
theorem flushed1_3_eq (t : Fin cfg1.N) :
    (Gen.dat1 (F := Ideal) V c).flushed 3 t = ((cfg1.win 3).blk t).view.read (Elt Ideal)
      (G1_3 (V c (Pipeline.arrRef spec1 0)) (V c (Pipeline.arrRef spec1 1)) (V c (Pipeline.arrRef spec1 2))) := by
  show (cfg1.win 3).cut (grid1.coords t) ((Gen.dat1 (F := Ideal) V c).after 3 t) = _
  rw [Gen.after1_3]
  unfold Gen.out1_3
  rw [View.canon_unit_zero hzS2]
  simp only [View.ld_unit_zero (S := S5000x64) hzS2, View.ld_unit_zero (S := S5000x1) hzS2, View.ld_unit_zero (S := S1x64) hzS2]
  obtain ⟨-, -, -, -, -, -, e0, e1, -⟩ := idx_facts1 t
  funext j
  obtain ⟨p, q, rfl⟩ : ∃ (p : Fin 5000) (q : Fin 64), j = ix2 p q := ⟨j 0, j 1, eq_ix2 j⟩
  refine (pay1_1_apply _ _ _ p q).trans ?_
  rw [View.read_apply]
  refine blk1_entry V c t _ _ _ rfl rfl rfl p q _ ?_ ?_
  · show win1_3.index t (0 : Fin 2) * 5000 + 1 * p.val = _; omega
  · show win1_3.index t (1 : Fin 2) * 64 + 1 * q.val = _; omega

/-- What point `t` writes back to the sums is block `t` of `G1_4`. -/
theorem flushed1_4_eq (t : Fin cfg1.N) :
    (Gen.dat1 (F := Ideal) V c).flushed 4 t = ((cfg1.win 4).blk t).view.read (Elt Ideal)
      (G1_4 (V c (Pipeline.arrRef spec1 0)) (V c (Pipeline.arrRef spec1 1)) (V c (Pipeline.arrRef spec1 2))) := by
  show (cfg1.win 4).cut (grid1.coords t) ((Gen.dat1 (F := Ideal) V c).after 4 t) = _
  rw [Gen.after1_4]
  unfold Gen.out1_4
  rw [View.canon_unit_zero hzS3]
  simp only [View.ld_unit_zero (S := S5000x64) hzS2, View.ld_unit_zero (S := S5000x1) hzS2, View.ld_unit_zero (S := S1x64) hzS2]
  obtain ⟨-, -, -, -, -, -, -, -, e0, e1, e2, -⟩ := idx_facts1 t
  funext j
  obtain ⟨u, r, f, rfl⟩ : ∃ (u : Fin 1) (r : Fin 8) (f : Fin 64), j = ix3 u r f := ⟨j 0, j 1, j 2, eq_ix3 j⟩
  refine (pay1_2_apply _ _ _ u r f).trans ?_
  rw [View.read_apply]
  unfold G1_4
  have hu : u.val = 0 := by omega
  refine Finset.sum_congr rfl fun n _ => blk1_entry V c t _ _ _ rfl rfl rfl n f _ ?_ ?_
  · show 5000 * (win1_4.index t (0 : Fin 3) * 1 + 1 * u.val) + n.val = _; omega
  · show win1_4.index t (2 : Fin 3) * 64 + 1 * f.val = _; omega

/-- What point `t` writes back to the sums of squares is block `t` of `G1_5`. -/
theorem flushed1_5_eq (t : Fin cfg1.N) :
    (Gen.dat1 (F := Ideal) V c).flushed 5 t = ((cfg1.win 5).blk t).view.read (Elt Ideal)
      (G1_5 (V c (Pipeline.arrRef spec1 0)) (V c (Pipeline.arrRef spec1 1)) (V c (Pipeline.arrRef spec1 2))) := by
  show (cfg1.win 5).cut (grid1.coords t) ((Gen.dat1 (F := Ideal) V c).after 5 t) = _
  rw [Gen.after1_5]
  unfold Gen.out1_5
  rw [View.canon_unit_zero hzS3]
  simp only [View.ld_unit_zero (S := S5000x64) hzS2, View.ld_unit_zero (S := S5000x1) hzS2, View.ld_unit_zero (S := S1x64) hzS2]
  obtain ⟨-, -, -, -, -, -, -, -, -, -, -, e0, e1, e2⟩ := idx_facts1 t
  funext j
  obtain ⟨u, r, f, rfl⟩ : ∃ (u : Fin 1) (r : Fin 8) (f : Fin 64), j = ix3 u r f := ⟨j 0, j 1, j 2, eq_ix3 j⟩
  refine (pay1_3_apply _ _ _ u r f).trans ?_
  rw [View.read_apply]
  unfold G1_5
  have hu : u.val = 0 := by omega
  refine Finset.sum_congr rfl fun n _ => congrArg₂ (· * ·) (blk1_entry V c t _ _ _ rfl rfl rfl n f _ ?_ ?_) (blk1_entry V c t _ _ _ rfl rfl rfl n f _ ?_ ?_)
  all_goals first
    | (show 5000 * (win1_5.index t (0 : Fin 3) * 1 + 1 * u.val) + n.val = _; omega)
    | (show win1_5.index t (2 : Fin 3) * 64 + 1 * f.val = _; omega)

/-- An index of the ramp's output array is in point `t`'s block iff each coordinate is in the block's range on its axis. -/
theorem mem_blk1_3 (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v31_0).slice (win1_3.rect t)).set ↔ _
  rw [View.set_slice_whole, Rect.mem_set_unit]
  exact Iff.rfl

theorem mem_blk1_4 (t : Fin cfg1.N) (i : S20x8x64.Idx) :
    i ∈ ((cfg1.win 4).blk t).view.set ↔ ∀ a : Fin 3, win1_4.index t a * S1x8x64.size a ≤ (i a).val ∧ (i a).val < win1_4.index t a * S1x8x64.size a + S1x8x64.size a := by
  show i ∈ ((View.whole main_v31_1).slice (win1_4.rect t)).set ↔ _
  rw [View.set_slice_whole, Rect.mem_set_unit]
  exact Iff.rfl

theorem mem_blk1_5 (t : Fin cfg1.N) (i : S20x8x64.Idx) :
    i ∈ ((cfg1.win 5).blk t).view.set ↔ ∀ a : Fin 3, win1_5.index t a * S1x8x64.size a ≤ (i a).val ∧ (i a).val < win1_5.index t a * S1x8x64.size a + S1x8x64.size a := by
  show i ∈ ((View.whole main_v31_2).slice (win1_5.rect t)).set ↔ _
  rw [View.set_slice_whole, Rect.mem_set_unit]
  exact Iff.rfl

/-- Every row of the ramp's output lies in the block of the point `row / 5000`. -/
theorem cover1_3 (i : S100000x64.Idx) : ∃ t : Fin cfg1.N, (cfg1.win 3).flush t = true ∧ i ∈ ((cfg1.win 3).blk t).view.set := by
  have hi0 : (i 0).val < 100000 := idx2_lt0 i
  have hi1 : (i 1).val < 64 := idx2_lt1 i
  have hN : cfg1.N = 20 := N_1
  let t : Fin cfg1.N := ⟨(i 0).val / 5000, by rw [hN]; omega⟩
  obtain ⟨-, -, -, -, -, -, e0, e1, -⟩ := idx_facts1 t
  have ht : t.val = (i 0).val / 5000 := rfl
  refine ⟨t, flush1_3 t, ?_⟩
  rw [mem_blk1_3]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- Row `t` of the sums lies in point `t`'s block. -/
theorem cover1_4 (i : S20x8x64.Idx) : ∃ t : Fin cfg1.N, (cfg1.win 4).flush t = true ∧ i ∈ ((cfg1.win 4).blk t).view.set := by
  have hi0 : (i 0).val < 20 := (i 0).isLt
  have hi1 : (i 1).val < 8 := (i 1).isLt
  have hi2 : (i 2).val < 64 := (i 2).isLt
  have hN : cfg1.N = 20 := N_1
  let t : Fin cfg1.N := ⟨(i 0).val, by rw [hN]; omega⟩
  obtain ⟨-, -, -, -, -, -, -, -, e0, e1, e2, -⟩ := idx_facts1 t
  have ht : t.val = (i 0).val := rfl
  refine ⟨t, flush1_4 t, ?_⟩
  rw [mem_blk1_4]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 8 ≤ (i 1).val ∧ (i 1).val < win1_4.index t (1 : Fin 3) * 8 + 8; omega
  | ⟨2, _⟩ => show win1_4.index t (2 : Fin 3) * 64 ≤ (i 2).val ∧ (i 2).val < win1_4.index t (2 : Fin 3) * 64 + 64; omega

/-- Row `t` of the sums of squares lies in point `t`'s block. -/
theorem cover1_5 (i : S20x8x64.Idx) : ∃ t : Fin cfg1.N, (cfg1.win 5).flush t = true ∧ i ∈ ((cfg1.win 5).blk t).view.set := by
  have hi0 : (i 0).val < 20 := (i 0).isLt
  have hi1 : (i 1).val < 8 := (i 1).isLt
  have hi2 : (i 2).val < 64 := (i 2).isLt
  have hN : cfg1.N = 20 := N_1
  let t : Fin cfg1.N := ⟨(i 0).val, by rw [hN]; omega⟩
  obtain ⟨-, -, -, -, -, -, -, -, -, -, -, e0, e1, e2⟩ := idx_facts1 t
  have ht : t.val = (i 0).val := rfl
  refine ⟨t, flush1_5 t, ?_⟩
  rw [mem_blk1_5]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 8 ≤ (i 1).val ∧ (i 1).val < win1_5.index t (1 : Fin 3) * 8 + 8; omega
  | ⟨2, _⟩ => show win1_5.index t (2 : Fin 3) * 64 ≤ (i 2).val ∧ (i 2).val < win1_5.index t (2 : Fin 3) * 64 + 64; omega

/-- The three output arrays when region 1 is left: `G1_3`, `G1_4`, `G1_5` of the region's input arrays as it found them. -/
theorem final1_3 : (Gen.dat1 (F := Ideal) V c).arrAt 3 cfg1.N
    = G1_3 (V c (Pipeline.arrRef spec1 0)) (V c (Pipeline.arrRef spec1 1)) (V c (Pipeline.arrRef spec1 2)) :=
  (Gen.dat1 (F := Ideal) V c).arrAt_eq_of_cover 3 _ (fun t _ => flushed1_3_eq V c t) cover1_3

theorem final1_4 : (Gen.dat1 (F := Ideal) V c).arrAt 4 cfg1.N
    = G1_4 (V c (Pipeline.arrRef spec1 0)) (V c (Pipeline.arrRef spec1 1)) (V c (Pipeline.arrRef spec1 2)) :=
  (Gen.dat1 (F := Ideal) V c).arrAt_eq_of_cover 4 _ (fun t _ => flushed1_4_eq V c t) cover1_4

theorem final1_5 : (Gen.dat1 (F := Ideal) V c).arrAt 5 cfg1.N
    = G1_5 (V c (Pipeline.arrRef spec1 0)) (V c (Pipeline.arrRef spec1 1)) (V c (Pipeline.arrRef spec1 2)) :=
  (Gen.dat1 (F := Ideal) V c).arrAt_eq_of_cover 5 _ (fun t _ => flushed1_5_eq V c t) cover1_5

end

/-! ## Region 3: the leaky ramp of the scaled rows, and each block's column sums -/

/-- Row `n`, column `f` of the ramp's output: the ramp of `a[n,f] · d[n,0] + b[0,f]`. -/
def G3_3 (a : S100000x64.Idx → EReal) (d : S100000x1.Idx → EReal) (b : S1x64.Idx → EReal) : S100000x64.Idx → EReal :=
  fun i => leaky (a i * d (ix2 (i 0) 0) + b (ix2 0 (i 1)))

/-- Block `t`'s column sums of the ramp's output, the same in each of the 8 sublane rows. -/
def G3_4 (a : S100000x64.Idx → EReal) (d : S100000x1.Idx → EReal) (b : S1x64.Idx → EReal) : S20x8x64.Idx → EReal :=
  fun j => ∑ n : Fin 5000, G3_3 a d b (ix2 (blockRow (j 0) n) (j 2))

/-- Block `t`'s column sums of the squares of the ramp's output, the same in each of the 8 sublane rows. -/
def G3_5 (a : S100000x64.Idx → EReal) (d : S100000x1.Idx → EReal) (b : S1x64.Idx → EReal) : S20x8x64.Idx → EReal :=
  fun j => ∑ n : Fin 5000, G3_3 a d b (ix2 (blockRow (j 0) n) (j 2)) * G3_3 a d b (ix2 (blockRow (j 0) n) (j 2))

/-- The first payload at (p, q) of a block: the ramp of the scaled entry plus the bias. -/
theorem pay3_1_apply (x0 : Vec Ideal S5000x64 .f32) (x1 : Vec Ideal S5000x1 .f32) (x2 : Vec Ideal S1x64 .f32) (p : Fin 5000) (q : Fin 64) :
    Gen.k3_pay1 x0 x1 x2 (ix2 p q) = leaky (x0 (ix2 p q) * x1 (ix2 p 0) + x2 (ix2 0 q)) := by
  unfold Gen.k3_pay1
  refine (leaky_select _).trans (congrArg leaky ?_)
  refine congrArg₂ (· + ·) (congrArg₂ (· * ·) ?_ ?_) ?_
  · rw [shapeCast_self]
  · rw [shapeCast_self]
    exact broadcastTo_apply x1 _ (ix2 p q) (ix2 p 0) (fun a => by match a with | ⟨0, _⟩ => rfl | ⟨1, _⟩ => rfl)
  · rw [shapeCast_self]
    exact broadcastTo_apply x2 _ (ix2 p q) (ix2 0 q) (fun a => by match a with | ⟨0, _⟩ => rfl | ⟨1, _⟩ => rfl)

/-- The second payload at (u, r, f): the block's column sum of the first payload, whatever the sublane row. -/
theorem pay3_2_apply (x0 : Vec Ideal S5000x64 .f32) (x1 : Vec Ideal S5000x1 .f32) (x2 : Vec Ideal S1x64 .f32) (u : Fin 1) (r : Fin 8) (f : Fin 64) :
    Gen.k3_pay2 x0 x1 x2 (ix3 u r f) = ∑ n : Fin 5000, leaky (x0 (ix2 n f) * x1 (ix2 n 0) + x2 (ix2 0 f)) := by
  unfold Gen.k3_pay2
  refine (broadcastTo_apply _ _ (ix3 u r f) (ix3 0 0 f) (fun a => by match a with | ⟨0, _⟩ => rfl | ⟨1, _⟩ => rfl | ⟨2, _⟩ => rfl)).trans ?_
  rw [shapeCast_self]
  refine (shapeCast_64_1x1x64_apply _ _ 0 0 f).trans ?_
  refine (colsum_apply _ _ _ f).trans ?_
  exact Finset.sum_congr rfl fun n _ => pay3_1_apply x0 x1 x2 n f

/-- The third payload at (u, r, f): the block's column sum of the first payload's squares. -/
theorem pay3_3_apply (x0 : Vec Ideal S5000x64 .f32) (x1 : Vec Ideal S5000x1 .f32) (x2 : Vec Ideal S1x64 .f32) (u : Fin 1) (r : Fin 8) (f : Fin 64) :
    Gen.k3_pay3 x0 x1 x2 (ix3 u r f) = ∑ n : Fin 5000, leaky (x0 (ix2 n f) * x1 (ix2 n 0) + x2 (ix2 0 f)) * leaky (x0 (ix2 n f) * x1 (ix2 n 0) + x2 (ix2 0 f)) := by
  unfold Gen.k3_pay3
  refine (broadcastTo_apply _ _ (ix3 u r f) (ix3 0 0 f) (fun a => by match a with | ⟨0, _⟩ => rfl | ⟨1, _⟩ => rfl | ⟨2, _⟩ => rfl)).trans ?_
  rw [shapeCast_self]
  refine (shapeCast_64_1x1x64_apply _ _ 0 0 f).trans ?_
  refine (colsum_apply _ _ _ f).trans ?_
  exact Finset.sum_congr rfl fun n _ => congrArg₂ (· * ·) (pay3_1_apply x0 x1 x2 n f) (pay3_1_apply x0 x1 x2 n f)

/-- The printed index maps over the grid: the row-blocked windows and the per-block sums sit at block `t`, the bias row at block 0. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 3) = t.val ∧ win3_4.index t (1 : Fin 3) = 0 ∧ win3_4.index t (2 : Fin 3) = 0
    ∧ win3_5.index t (0 : Fin 3) = t.val ∧ win3_5.index t (1 : Fin 3) = 0 ∧ win3_5.index t (2 : Fin 3) = 0 :=
  (by decide +kernel : ∀ t : Fin grid3.N, _)

section
variable (V : (c : Dev nD) → (b : Ref sig .tc) → Buf (Elt Ideal) ((c : Thread nD τ).loc b)) (c : Dev nD)

/-- Block `t` of `a` is rows `5000 t …` of the array. -/
theorem iblk3_0_apply (t : Fin cfg3.N) (y : S5000x64.Idx) (i : S100000x64.Idx)
    (h0 : (i 0).val = 5000 * t.val + (y 0).val) (h1 : (i 1).val = (y 1).val) :
    (Gen.iblk3 V c 0 t : Vec Ideal S5000x64 .f32) y = (V c (Pipeline.arrRef spec3 0) : S100000x64.Idx → EReal) i := by
  obtain ⟨e0, e1, -⟩ := idx_facts3 t
  unfold Gen.iblk3
  rw [View.read_apply]
  refine congrArg (V c (Pipeline.arrRef spec3 0)) (funext fun a => Fin.ext ?_)
  match a with
  | ⟨0, _⟩ => show win3_0.index t (0 : Fin 2) * 5000 + 1 * (y 0).val = (i 0).val; omega
  | ⟨1, _⟩ => show win3_0.index t (1 : Fin 2) * 64 + 1 * (y 1).val = (i 1).val; omega

/-- Block `t` of the scale column is rows `5000 t …` of the array. -/
theorem iblk3_1_apply (t : Fin cfg3.N) (y : S5000x1.Idx) (i : S100000x1.Idx)
    (h0 : (i 0).val = 5000 * t.val + (y 0).val) (h1 : (i 1).val = (y 1).val) :
    (Gen.iblk3 V c 1 t : Vec Ideal S5000x1 .f32) y = (V c (Pipeline.arrRef spec3 1) : S100000x1.Idx → EReal) i := by
  obtain ⟨-, -, e0, e1, -⟩ := idx_facts3 t
  unfold Gen.iblk3
  rw [View.read_apply]
  refine congrArg (V c (Pipeline.arrRef spec3 1)) (funext fun a => Fin.ext ?_)
  match a with
  | ⟨0, _⟩ => show win3_1.index t (0 : Fin 2) * 5000 + 1 * (y 0).val = (i 0).val; omega
  | ⟨1, _⟩ => show win3_1.index t (1 : Fin 2) * 1 + 1 * (y 1).val = (i 1).val; omega

/-- The bias row's one block is the array. -/
theorem iblk3_2_apply (t : Fin cfg3.N) (y : S1x64.Idx) (i : S1x64.Idx)
    (h0 : (i 0).val = (y 0).val) (h1 : (i 1).val = (y 1).val) :
    (Gen.iblk3 V c 2 t : Vec Ideal S1x64 .f32) y = (V c (Pipeline.arrRef spec3 2) : S1x64.Idx → EReal) i := by
  obtain ⟨-, -, -, -, e0, e1, -⟩ := idx_facts3 t
  unfold Gen.iblk3
  rw [View.read_apply]
  refine congrArg (V c (Pipeline.arrRef spec3 2)) (funext fun a => Fin.ext ?_)
  match a with
  | ⟨0, _⟩ => show win3_2.index t (0 : Fin 2) * 1 + 1 * (y 0).val = (i 0).val; omega
  | ⟨1, _⟩ => show win3_2.index t (1 : Fin 2) * 64 + 1 * (y 1).val = (i 1).val; omega

/-- The ramp of a block's entry is the ramp's whole-array function at the entry's row of the array. -/
theorem blk3_entry (t : Fin cfg3.N) (x0 : Vec Ideal S5000x64 .f32) (x1 : Vec Ideal S5000x1 .f32) (x2 : Vec Ideal S1x64 .f32)
    (e0 : x0 = Gen.iblk3 V c 0 t) (e1 : x1 = Gen.iblk3 V c 1 t) (e2 : x2 = Gen.iblk3 V c 2 t)
    (n : Fin 5000) (f : Fin 64) (i : S100000x64.Idx)
    (h0 : (i 0).val = 5000 * t.val + n.val) (h1 : (i 1).val = f.val) :
    leaky (x0 (ix2 n f) * x1 (ix2 n 0) + x2 (ix2 0 f))
      = G3_3 (V c (Pipeline.arrRef spec3 0)) (V c (Pipeline.arrRef spec3 1)) (V c (Pipeline.arrRef spec3 2)) i := by
  subst e0 e1 e2
  unfold G3_3
  refine congrArg leaky (congrArg₂ (· + ·) (congrArg₂ (· * ·) ?_ ?_) ?_)
  · exact iblk3_0_apply V c t (ix2 n f) i h0 h1
  · exact iblk3_1_apply V c t (ix2 n 0) (ix2 (i 0) 0) h0 rfl
  · exact iblk3_2_apply V c t (ix2 0 f) (ix2 0 (i 1)) rfl h1

/-- What point `t` writes back to the ramp's output is block `t` of `G3_3` of the arrays as the region finds them. -/
theorem flushed3_3_eq (t : Fin cfg3.N) :
    (Gen.dat3 (F := Ideal) V c).flushed 3 t = ((cfg3.win 3).blk t).view.read (Elt Ideal)
      (G3_3 (V c (Pipeline.arrRef spec3 0)) (V c (Pipeline.arrRef spec3 1)) (V c (Pipeline.arrRef spec3 2))) := by
  show (cfg3.win 3).cut (grid3.coords t) ((Gen.dat3 (F := Ideal) V c).after 3 t) = _
  rw [Gen.after3_3]
  unfold Gen.out3_3
  rw [View.canon_unit_zero hzS2]
  simp only [View.ld_unit_zero (S := S5000x64) hzS2, View.ld_unit_zero (S := S5000x1) hzS2, View.ld_unit_zero (S := S1x64) hzS2]
  obtain ⟨-, -, -, -, -, -, e0, e1, -⟩ := idx_facts3 t
  funext j
  obtain ⟨p, q, rfl⟩ : ∃ (p : Fin 5000) (q : Fin 64), j = ix2 p q := ⟨j 0, j 1, eq_ix2 j⟩
  refine (pay3_1_apply _ _ _ p q).trans ?_
  rw [View.read_apply]
  refine blk3_entry V c t _ _ _ rfl rfl rfl p q _ ?_ ?_
  · show win3_3.index t (0 : Fin 2) * 5000 + 1 * p.val = _; omega
  · show win3_3.index t (1 : Fin 2) * 64 + 1 * q.val = _; omega

/-- What point `t` writes back to the sums is block `t` of `G3_4`. -/
theorem flushed3_4_eq (t : Fin cfg3.N) :
    (Gen.dat3 (F := Ideal) V c).flushed 4 t = ((cfg3.win 4).blk t).view.read (Elt Ideal)
      (G3_4 (V c (Pipeline.arrRef spec3 0)) (V c (Pipeline.arrRef spec3 1)) (V c (Pipeline.arrRef spec3 2))) := by
  show (cfg3.win 4).cut (grid3.coords t) ((Gen.dat3 (F := Ideal) V c).after 4 t) = _
  rw [Gen.after3_4]
  unfold Gen.out3_4
  rw [View.canon_unit_zero hzS3]
  simp only [View.ld_unit_zero (S := S5000x64) hzS2, View.ld_unit_zero (S := S5000x1) hzS2, View.ld_unit_zero (S := S1x64) hzS2]
  obtain ⟨-, -, -, -, -, -, -, -, e0, e1, e2, -⟩ := idx_facts3 t
  funext j
  obtain ⟨u, r, f, rfl⟩ : ∃ (u : Fin 1) (r : Fin 8) (f : Fin 64), j = ix3 u r f := ⟨j 0, j 1, j 2, eq_ix3 j⟩
  refine (pay3_2_apply _ _ _ u r f).trans ?_
  rw [View.read_apply]
  unfold G3_4
  have hu : u.val = 0 := by omega
  refine Finset.sum_congr rfl fun n _ => blk3_entry V c t _ _ _ rfl rfl rfl n f _ ?_ ?_
  · show 5000 * (win3_4.index t (0 : Fin 3) * 1 + 1 * u.val) + n.val = _; omega
  · show win3_4.index t (2 : Fin 3) * 64 + 1 * f.val = _; omega

/-- What point `t` writes back to the sums of squares is block `t` of `G3_5`. -/
theorem flushed3_5_eq (t : Fin cfg3.N) :
    (Gen.dat3 (F := Ideal) V c).flushed 5 t = ((cfg3.win 5).blk t).view.read (Elt Ideal)
      (G3_5 (V c (Pipeline.arrRef spec3 0)) (V c (Pipeline.arrRef spec3 1)) (V c (Pipeline.arrRef spec3 2))) := by
  show (cfg3.win 5).cut (grid3.coords t) ((Gen.dat3 (F := Ideal) V c).after 5 t) = _
  rw [Gen.after3_5]
  unfold Gen.out3_5
  rw [View.canon_unit_zero hzS3]
  simp only [View.ld_unit_zero (S := S5000x64) hzS2, View.ld_unit_zero (S := S5000x1) hzS2, View.ld_unit_zero (S := S1x64) hzS2]
  obtain ⟨-, -, -, -, -, -, -, -, -, -, -, e0, e1, e2⟩ := idx_facts3 t
  funext j
  obtain ⟨u, r, f, rfl⟩ : ∃ (u : Fin 1) (r : Fin 8) (f : Fin 64), j = ix3 u r f := ⟨j 0, j 1, j 2, eq_ix3 j⟩
  refine (pay3_3_apply _ _ _ u r f).trans ?_
  rw [View.read_apply]
  unfold G3_5
  have hu : u.val = 0 := by omega
  refine Finset.sum_congr rfl fun n _ => congrArg₂ (· * ·) (blk3_entry V c t _ _ _ rfl rfl rfl n f _ ?_ ?_) (blk3_entry V c t _ _ _ rfl rfl rfl n f _ ?_ ?_)
  all_goals first
    | (show 5000 * (win3_5.index t (0 : Fin 3) * 1 + 1 * u.val) + n.val = _; omega)
    | (show win3_5.index t (2 : Fin 3) * 64 + 1 * f.val = _; omega)

/-- An index of the ramp's output array is in point `t`'s block iff each coordinate is in the block's range on its axis. -/
theorem mem_blk3_3 (t : Fin cfg3.N) (i : S100000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v69_0).slice (win3_3.rect t)).set ↔ _
  rw [View.set_slice_whole, Rect.mem_set_unit]
  exact Iff.rfl

theorem mem_blk3_4 (t : Fin cfg3.N) (i : S20x8x64.Idx) :
    i ∈ ((cfg3.win 4).blk t).view.set ↔ ∀ a : Fin 3, win3_4.index t a * S1x8x64.size a ≤ (i a).val ∧ (i a).val < win3_4.index t a * S1x8x64.size a + S1x8x64.size a := by
  show i ∈ ((View.whole main_v69_1).slice (win3_4.rect t)).set ↔ _
  rw [View.set_slice_whole, Rect.mem_set_unit]
  exact Iff.rfl

theorem mem_blk3_5 (t : Fin cfg3.N) (i : S20x8x64.Idx) :
    i ∈ ((cfg3.win 5).blk t).view.set ↔ ∀ a : Fin 3, win3_5.index t a * S1x8x64.size a ≤ (i a).val ∧ (i a).val < win3_5.index t a * S1x8x64.size a + S1x8x64.size a := by
  show i ∈ ((View.whole main_v69_2).slice (win3_5.rect t)).set ↔ _
  rw [View.set_slice_whole, Rect.mem_set_unit]
  exact Iff.rfl

/-- Every row of the ramp's output lies in the block of the point `row / 5000`. -/
theorem cover3_3 (i : S100000x64.Idx) : ∃ t : Fin cfg3.N, (cfg3.win 3).flush t = true ∧ i ∈ ((cfg3.win 3).blk t).view.set := by
  have hi0 : (i 0).val < 100000 := idx2_lt0 i
  have hi1 : (i 1).val < 64 := idx2_lt1 i
  have hN : cfg3.N = 20 := N_3
  let t : Fin cfg3.N := ⟨(i 0).val / 5000, by rw [hN]; omega⟩
  obtain ⟨-, -, -, -, -, -, e0, e1, -⟩ := idx_facts3 t
  have ht : t.val = (i 0).val / 5000 := rfl
  refine ⟨t, flush3_3 t, ?_⟩
  rw [mem_blk3_3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- Row `t` of the sums lies in point `t`'s block. -/
theorem cover3_4 (i : S20x8x64.Idx) : ∃ t : Fin cfg3.N, (cfg3.win 4).flush t = true ∧ i ∈ ((cfg3.win 4).blk t).view.set := by
  have hi0 : (i 0).val < 20 := (i 0).isLt
  have hi1 : (i 1).val < 8 := (i 1).isLt
  have hi2 : (i 2).val < 64 := (i 2).isLt
  have hN : cfg3.N = 20 := N_3
  let t : Fin cfg3.N := ⟨(i 0).val, by rw [hN]; omega⟩
  obtain ⟨-, -, -, -, -, -, -, -, e0, e1, e2, -⟩ := idx_facts3 t
  have ht : t.val = (i 0).val := rfl
  refine ⟨t, flush3_4 t, ?_⟩
  rw [mem_blk3_4]
  intro a
  match a with
  | ⟨0, _⟩ => show win3_4.index t (0 : Fin 3) * 1 ≤ (i 0).val ∧ (i 0).val < win3_4.index t (0 : Fin 3) * 1 + 1; omega
  | ⟨1, _⟩ => show win3_4.index t (1 : Fin 3) * 8 ≤ (i 1).val ∧ (i 1).val < win3_4.index t (1 : Fin 3) * 8 + 8; omega
  | ⟨2, _⟩ => show win3_4.index t (2 : Fin 3) * 64 ≤ (i 2).val ∧ (i 2).val < win3_4.index t (2 : Fin 3) * 64 + 64; omega

/-- Row `t` of the sums of squares lies in point `t`'s block. -/
theorem cover3_5 (i : S20x8x64.Idx) : ∃ t : Fin cfg3.N, (cfg3.win 5).flush t = true ∧ i ∈ ((cfg3.win 5).blk t).view.set := by
  have hi0 : (i 0).val < 20 := (i 0).isLt
  have hi1 : (i 1).val < 8 := (i 1).isLt
  have hi2 : (i 2).val < 64 := (i 2).isLt
  have hN : cfg3.N = 20 := N_3
  let t : Fin cfg3.N := ⟨(i 0).val, by rw [hN]; omega⟩
  obtain ⟨-, -, -, -, -, -, -, -, -, -, -, e0, e1, e2⟩ := idx_facts3 t
  have ht : t.val = (i 0).val := rfl
  refine ⟨t, flush3_5 t, ?_⟩
  rw [mem_blk3_5]
  intro a
  match a with
  | ⟨0, _⟩ => show win3_5.index t (0 : Fin 3) * 1 ≤ (i 0).val ∧ (i 0).val < win3_5.index t (0 : Fin 3) * 1 + 1; omega
  | ⟨1, _⟩ => show win3_5.index t (1 : Fin 3) * 8 ≤ (i 1).val ∧ (i 1).val < win3_5.index t (1 : Fin 3) * 8 + 8; omega
  | ⟨2, _⟩ => show win3_5.index t (2 : Fin 3) * 64 ≤ (i 2).val ∧ (i 2).val < win3_5.index t (2 : Fin 3) * 64 + 64; omega

/-- The three output arrays when region 3 is left: `G3_3`, `G3_4`, `G3_5` of the region's input arrays as it found them. -/
theorem final3_3 : (Gen.dat3 (F := Ideal) V c).arrAt 3 cfg3.N
    = G3_3 (V c (Pipeline.arrRef spec3 0)) (V c (Pipeline.arrRef spec3 1)) (V c (Pipeline.arrRef spec3 2)) :=
  (Gen.dat3 (F := Ideal) V c).arrAt_eq_of_cover 3 _ (fun t _ => flushed3_3_eq V c t) cover3_3

theorem final3_4 : (Gen.dat3 (F := Ideal) V c).arrAt 4 cfg3.N
    = G3_4 (V c (Pipeline.arrRef spec3 0)) (V c (Pipeline.arrRef spec3 1)) (V c (Pipeline.arrRef spec3 2)) :=
  (Gen.dat3 (F := Ideal) V c).arrAt_eq_of_cover 4 _ (fun t _ => flushed3_4_eq V c t) cover3_4

theorem final3_5 : (Gen.dat3 (F := Ideal) V c).arrAt 5 cfg3.N
    = G3_5 (V c (Pipeline.arrRef spec3 0)) (V c (Pipeline.arrRef spec3 1)) (V c (Pipeline.arrRef spec3 2)) :=
  (Gen.dat3 (F := Ideal) V c).arrAt_eq_of_cover 5 _ (fun t _ => flushed3_5_eq V c t) cover3_5

end

end Cert.KernelIdeal.KVal

end
-- ==== Proof.KTower1.lean ====
/-
  The idealized kernel's run read as values, second part: the first aggregation (a gather of the scaled product's rows
  along the source list, added into the rows the destination list names) and the first statistics region.
-/
import proofs.«166090_j687194767719_2_alg».proof.Proof.KTower0
import proofs.«166090_j687194767719_2_alg».proof.Proof.KValStats

set_option maxRecDepth 16384

noncomputable section

namespace Cert.KernelIdeal.KTower

open Cert.KernelIdeal Cert.KernelIdeal.Gen Idealize.ShloMosaic Idealize.ShloMosaic.TcCoe Idealize.SL.Sem Idealize.ShloMosaic.StableHlo

/-! ## The first aggregation and the first statistics region -/

/-- An index brought into range: the node count added to a negative entry. -/
def wrapIdx (r : IVec S1350000 32) : IVec S1350000 32 :=
  select (cmpi .slt r (broadcastInDim S1350000 ![] bcast_S_S1350000 (constantI S_ 32 0#32)))
    (addi r (broadcastInDim S1350000 ![] bcast_S_S1350000 (constantI S_ 32 100000#32))) r

/-- The aggregation: for every list entry `k`, row `src k` of `h` added into row `dst k` of a zero array. -/
def aggOf (h : FVec Ideal S100000x64 .f32) (src dst : IVec S1350000 32) : FVec Ideal S100000x64 .f32 :=
  Host.scatterAdd (F := Ideal) scatter_S100000x64_S1350000x1_S1350000x64_1_0_0_1
    (broadcastInDim S100000x64 ![] bcast_S_S100000x64 zero_)
    (broadcastInDim S1350000x1 ![0] bcast_S1350000_S1350000x1_0 dst)
    (Host.gather gather_S100000x64_S1350000x1_S1350000x64_1_0_n_n_0_1_164 h
      (broadcastInDim S1350000x1 ![0] bcast_S1350000_S1350000x1_0 src))

/-- The source list brought into range. -/
def rowN (ei : IVec S2x1250000 32) : IVec S1350000 32 := wrapIdx (rowOf ei)

/-- The first layer's aggregate. -/
def agg0 (x : FVec Ideal S100000x128 .f32) (ei : IVec S2x1250000 32) (W0 : FVec Ideal S128x64 .f32) : FVec Ideal S100000x64 .f32 := aggOf (hw0 x ei W0) (rowN ei) (colOf ei)

/-- The first layer's activation, and its per-block column sums and sums of squares. -/
def leaky0 (x : FVec Ideal S100000x128 .f32) (ei : IVec S2x1250000 32) (W0 : FVec Ideal S128x64 .f32) (b0 : FVec Ideal S64 .f32) : FVec Ideal S100000x64 .f32 := KVal.G1_3 (agg0 x ei W0) (dis2d ei) (b0row b0)
def psum0 (x : FVec Ideal S100000x128 .f32) (ei : IVec S2x1250000 32) (W0 : FVec Ideal S128x64 .f32) (b0 : FVec Ideal S64 .f32) : FVec Ideal S20x8x64 .f32 := KVal.G1_4 (agg0 x ei W0) (dis2d ei) (b0row b0)
def psumsq0 (x : FVec Ideal S100000x128 .f32) (ei : IVec S2x1250000 32) (W0 : FVec Ideal S128x64 .f32) (b0 : FVec Ideal S64 .f32) : FVec Ideal S20x8x64 .f32 := KVal.G1_5 (agg0 x ei W0) (dis2d ei) (b0row b0)

/-- The references `hostOps1`'s operations write. -/
abbrev hostOps1_W : List (Ref sig .tc) := [main_c, main_v21, main_v22, main_c_5, main_v23, main_v24, main_v25, main_v26, main_v27, main_cst_6, main_v28, main_v29, main_v30]
theorem hostOps1_writes : (hostOps1 (F := Ideal)).Forall fun op => op.writes ⊆ ((hostOps1_W).map (Proc.devRef (τ := τ) .tc)).toFinset := by
  simp only [hostOps1, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer `hostOps1` does not write keeps its contents. -/
theorem keep1 (U : Valuation τ sig (Elt Ideal)) (r : Ref sig .tc) (h : r ∉ hostOps1_W) :
    after (hostOps1 (F := Ideal)) U (Proc.devRef .tc r) = U (Proc.devRef .tc r) :=
  after_of_writes_sub _ U hostOps1_writes h

section Stretches
variable (U : Valuation τ sig (Elt Ideal))

attribute [local irreducible] Host.scatterAdd Host.gather

theorem s1_v30 : after (hostOps1 (F := Ideal)) U (Proc.devRef .tc main_v30)
    = aggOf (U (Proc.devRef .tc main_v20)) (wrapIdx (U (Proc.devRef .tc main_v3))) (U (Proc.devRef .tc main_v6)) := by
  simp only [hostOps1]; after_results; rfl

end Stretches

section Reads
variable (m : (ℓ : Loc nD τ sig) → Buf (Elt Ideal) ℓ) (ρ : Dev nD → PrngReg) (c : Dev nD)

theorem W5_v30 : W5 m ρ c (Proc.devRef .tc main_v30) = agg0 (m ((c : Thread nD τ).loc main_arg0)) (m ((c : Thread nD τ).loc main_arg1)) (m ((c : Thread nD τ).loc main_arg3)) := by
  refine (s1_v30 _).trans ?_
  rw [W4_v20, W4_v3, W4_v6]; rfl
theorem W5_v3 : W5 m ρ c (Proc.devRef .tc main_v3) = rowOf (m ((c : Thread nD τ).loc main_arg1)) := (keep1 _ _ (by decide)).trans (W4_v3 m ρ c)
theorem W5_v6 : W5 m ρ c (Proc.devRef .tc main_v6) = colOf (m ((c : Thread nD τ).loc main_arg1)) := (keep1 _ _ (by decide)).trans (W4_v6 m ρ c)
theorem W5_v17 : W5 m ρ c (Proc.devRef .tc main_v17) = dis2d (m ((c : Thread nD τ).loc main_arg1)) := (keep1 _ _ (by decide)).trans (W4_v17 m ρ c)
theorem W5_v19 : W5 m ρ c (Proc.devRef .tc main_v19) = b0row (m ((c : Thread nD τ).loc main_arg4)) := (keep1 _ _ (by decide)).trans (W4_v19 m ρ c)

theorem W6_v31_0 : W6 m ρ c (Proc.devRef .tc main_v31_0) = leaky0 (m ((c : Thread nD τ).loc main_arg0)) (m ((c : Thread nD τ).loc main_arg1)) (m ((c : Thread nD τ).loc main_arg3)) (m ((c : Thread nD τ).loc main_arg4)) := by
  refine (W6_arr m ρ c 3).trans ((KVal.final1_3 (V5 m ρ) c).trans ?_)
  show KVal.G1_3 (W5 m ρ c (Proc.devRef .tc main_v30)) (W5 m ρ c (Proc.devRef .tc main_v17)) (W5 m ρ c (Proc.devRef .tc main_v19)) = _
  rw [W5_v30, W5_v17, W5_v19]; rfl
theorem W6_v31_1 : W6 m ρ c (Proc.devRef .tc main_v31_1) = psum0 (m ((c : Thread nD τ).loc main_arg0)) (m ((c : Thread nD τ).loc main_arg1)) (m ((c : Thread nD τ).loc main_arg3)) (m ((c : Thread nD τ).loc main_arg4)) := by
  refine (W6_arr m ρ c 4).trans ((KVal.final1_4 (V5 m ρ) c).trans ?_)
  show KVal.G1_4 (W5 m ρ c (Proc.devRef .tc main_v30)) (W5 m ρ c (Proc.devRef .tc main_v17)) (W5 m ρ c (Proc.devRef .tc main_v19)) = _
  rw [W5_v30, W5_v17, W5_v19]; rfl
theorem W6_v31_2 : W6 m ρ c (Proc.devRef .tc main_v31_2) = psumsq0 (m ((c : Thread nD τ).loc main_arg0)) (m ((c : Thread nD τ).loc main_arg1)) (m ((c : Thread nD τ).loc main_arg3)) (m ((c : Thread nD τ).loc main_arg4)) := by
  refine (W6_arr m ρ c 5).trans ((KVal.final1_5 (V5 m ρ) c).trans ?_)
  show KVal.G1_5 (W5 m ρ c (Proc.devRef .tc main_v30)) (W5 m ρ c (Proc.devRef .tc main_v17)) (W5 m ρ c (Proc.devRef .tc main_v19)) = _
  rw [W5_v30, W5_v17, W5_v19]; rfl
theorem W6_v3 : W6 m ρ c (Proc.devRef .tc main_v3) = rowOf (m ((c : Thread nD τ).loc main_arg1)) := (W6_of_ne m ρ c _ (by decide)).trans (W5_v3 m ρ c)
theorem W6_v6 : W6 m ρ c (Proc.devRef .tc main_v6) = colOf (m ((c : Thread nD τ).loc main_arg1)) := (W6_of_ne m ρ c _ (by decide)).trans (W5_v6 m ρ c)
theorem W6_v17 : W6 m ρ c (Proc.devRef .tc main_v17) = dis2d (m ((c : Thread nD τ).loc main_arg1)) :=
  ((W6_arr m ρ c 1).trans (((dat1 (V5 m ρ) c).arrAt_in 1 rfl _).trans (A_eq1 (V5 m ρ) c 1))).trans (W5_v17 m ρ c)
/-- A buffer that is none of the first two regions' arrays and that no stretch before the second region's exit writes
    holds there what it held at launch. -/
theorem W6_of (r : Ref sig .tc) (h0 : r ∉ hostOps0_W) (h1 : r ∉ hostOps0_1_W) (h2 : r ∉ hostOps0_2_W)
    (hr0 : ∀ w, Pipeline.arrRef spec0 w ≠ r) (h3 : r ∉ hostOps1_W) (hr1 : ∀ w, Pipeline.arrRef spec1 w ≠ r) :
    W6 m ρ c (Proc.devRef .tc r) = m ((c : Thread nD τ).loc r) :=
  (W6_of_ne m ρ c r hr1).trans ((keep1 _ r h3).trans (W4_of m ρ c r h0 h1 h2 hr0))

end Reads

end Cert.KernelIdeal.KTower

end
-- ==== Proof.KStretch.lean ====
/- The host operations the idealized kernel's @main runs between its regions, each stretch read at ANY incoming buffer
   contents `U`: the buffer a later region or stretch reads holds a named function of the buffers the stretch itself does
   not write. The second and fourth stretches turn the 20 per-block column sums and sums of squares into column means and
   variances (total over the node count; mean of squares less squared mean, floored at zero), and fold the
   normalisation's scale and shift into the next layer's weights and bias row; the third aggregates rows over the edge
   list (gather the source rows, add into the target rows); the fourth also selects 20000 rows and lays the small
   vectors out as rows. Every other buffer keeps its contents. -/
import proofs.«166090_j687194767719_2_alg».proof.Proof.Gen.KernelIdeal.Frame
import Idealize.ShloMosaic.Lib.StableHlo.Run
import Idealize.ShloMosaic.PureOps.Ideal

set_option maxRecDepth 16384

noncomputable section

namespace Cert.KernelIdeal.KStretch

open Cert.KernelIdeal Cert.KernelIdeal.Gen Idealize.ShloMosaic Idealize.ShloMosaic.TcCoe Idealize.SL.Sem Idealize.ShloMosaic.StableHlo

/-! ## The host operations between the regions, as functions of the arrays they read -/

/-- The zero scalar. -/
def zeroS : FVec Ideal S_ .f32 := constant (F := Ideal) S_ .f32 0x00000000#32

/-- The node count, 100000, as an f32 word, at every one of 64 columns. -/
def countV : FVec Ideal S64 .f32 := broadcastInDim S64 ![] bcast_S_S64 (constant (F := Ideal) S_ .f32 0x47C35000#32)

/-- The small constant added to a variance, at every one of 64 columns. -/
def epsV : FVec Ideal S64 .f32 := broadcastInDim S64 ![] bcast_S_S64 (constant (F := Ideal) S_ .f32 0x3727C5AC#32)

/-- A vector of 64 as a row. -/
def row64 (v : FVec Ideal S64 .f32) : FVec Ideal S1x64 .f32 := shapeCast S1x64 v shapeCasts_S64_S1x64

/-- The column totals of the 20 per-block sums: sublane row 0 of each block's [8, 64] tile, added over the 20 blocks. -/
def colSum (ps : FVec Ideal S20x8x64 .f32) : FVec Ideal S64 .f32 :=
  Host.reduceAdd (F := Ideal)
    (shapeCast S20x64 (extractStridedSlice S20x1x64 ![0, 0, 0] ps slices_S20x8x64_S20x1x64_0_0_0) shapeCasts_S20x1x64_S20x64)
    zeroS reducesTo_S20x64_S64_d0 h_S_

/-- The column means: the totals over the node count. -/
def meanOf (ps : FVec Ideal S20x8x64 .f32) : FVec Ideal S64 .f32 := Host.divf (F := Ideal) (colSum ps) countV

/-- The column variances: the mean of the squares less the square of the mean, raised to zero where negative. -/
def varOf (ps pq : FVec Ideal S20x8x64 .f32) : FVec Ideal S64 .f32 :=
  maximumf (F := Ideal) (subf (F := Ideal) (Host.divf (F := Ideal) (colSum pq) countV) (mulf (F := Ideal) (meanOf ps) (meanOf ps)))
    (broadcastInDim S64 ![] bcast_S_S64 zeroS)

/-- The normalisation's scale folded with the reciprocal standard deviation. -/
def scaleOf (g : FVec Ideal S64 .f32) (ps pq : FVec Ideal S20x8x64 .f32) : FVec Ideal S64 .f32 :=
  mulf (F := Ideal) g (Host.rsqrt (F := Ideal) (addf (F := Ideal) (varOf ps pq) epsV))

/-- The normalisation's shift less the scaled mean. -/
def shiftOf (g b : FVec Ideal S64 .f32) (ps pq : FVec Ideal S20x8x64 .f32) : FVec Ideal S64 .f32 :=
  subf (F := Ideal) b (mulf (F := Ideal) (meanOf ps) (scaleOf g ps pq))

/-- The next layer's weights with the normalisation's scale folded into their rows. -/
def foldedW (g : FVec Ideal S64 .f32) (ps pq : FVec Ideal S20x8x64 .f32) (W : FVec Ideal S64x64 .f32) : FVec Ideal S64x64 .f32 :=
  mulf (F := Ideal)
    (broadcastInDim S64x64 ![0, 1] bcast_S64x1_S64x64_0_1 (broadcastInDim S64x1 ![0] bcast_S64_S64x1_0 (scaleOf g ps pq))) W

/-- The normalisation's shift carried through the next layer's weights, as a row. -/
def foldedC (g b : FVec Ideal S64 .f32) (ps pq : FVec Ideal S20x8x64 .f32) (W : FVec Ideal S64x64 .f32) : FVec Ideal S1x64 .f32 :=
  Host.dotGeneral (F := Ideal) dot_S1x64_S64x64_S1x64_1_0_0_1_n_n none (row64 (shiftOf g b ps pq)) W

/-- An edge list's entries with the negative ones wrapped round the node count. -/
def wrapE (idx : IVec S1350000 32) : IVec S1350000 32 :=
  select (cmpi .slt idx (broadcastInDim S1350000 ![] bcast_S_S1350000 (constantI S_ 32 0#32)))
    (addi idx (broadcastInDim S1350000 ![] bcast_S_S1350000 (constantI S_ 32 100000#32))) idx

/-- The aggregation over the edges: each edge's source row of `h` gathered, then added into its target row, from zero. -/
def aggregate (h : FVec Ideal S100000x64 .f32) (src dst : IVec S1350000 32) : FVec Ideal S100000x64 .f32 :=
  Host.scatterAdd (F := Ideal) scatter_S100000x64_S1350000x1_S1350000x64_1_0_0_1
    (broadcastInDim S100000x64 ![] bcast_S_S100000x64 zeroS)
    (broadcastInDim S1350000x1 ![0] bcast_S1350000_S1350000x1_0 dst)
    (Host.gather gather_S100000x64_S1350000x1_S1350000x64_1_0_n_n_0_1_164 h
      (broadcastInDim S1350000x1 ![0] bcast_S1350000_S1350000x1_0 (wrapE src)))

/-- The selected node indices with the negative ones wrapped round the node count. -/
def wrapSel (idx : IVec S20000 32) : IVec S20000 32 :=
  select (cmpi .slt idx (broadcastInDim S20000 ![] bcast_S_S20000 (constantI S_ 32 0#32)))
    (addi idx (broadcastInDim S20000 ![] bcast_S_S20000 (constantI S_ 32 100000#32))) idx

/-- The selected rows of `h`. -/
def takeRows (h : FVec Ideal S100000x64 .f32) (idx : IVec S20000 32) : FVec Ideal S20000x64 .f32 :=
  Host.gather gather_S100000x64_S20000x1_S20000x64_1_0_n_n_0_1_164 h
    (broadcastInDim S20000x1 ![0] bcast_S20000_S20000x1_0 (wrapSel idx))

/-- A vector of 5 as a row. -/
def row5 (v : FVec Ideal S5 .f32) : FVec Ideal S1x5 .f32 := shapeCast S1x5 v shapeCasts_S5_S1x5

/-! ## The three later stretches read at a generic incoming valuation -/

section Stretches
variable (U : Valuation τ sig (Elt Ideal))

attribute [local irreducible] Host.scatterAdd Host.gather Host.reduceAdd

set_option maxHeartbeats 1000000 in
theorem s2_v39 : after (hostOps2 (F := Ideal)) U (Proc.devRef .tc main_v39)
    = meanOf (U (Proc.devRef .tc main_v31_1)) := by
  simp only [hostOps2]; after_results_simp; rfl

set_option maxHeartbeats 1000000 in
theorem s2_v45 : after (hostOps2 (F := Ideal)) U (Proc.devRef .tc main_v45)
    = varOf (U (Proc.devRef .tc main_v31_1)) (U (Proc.devRef .tc main_v31_2)) := by
  simp only [hostOps2]; after_results_simp; rfl

set_option maxHeartbeats 1000000 in
theorem s2_v54 : after (hostOps2 (F := Ideal)) U (Proc.devRef .tc main_v54)
    = foldedW (U (Proc.devRef .tc main_arg5)) (U (Proc.devRef .tc main_v31_1)) (U (Proc.devRef .tc main_v31_2)) (U (Proc.devRef .tc main_arg7)) := by
  simp only [hostOps2]; after_results_simp; rfl

set_option maxHeartbeats 1000000 in
theorem s2_v56 : after (hostOps2 (F := Ideal)) U (Proc.devRef .tc main_v56)
    = foldedC (U (Proc.devRef .tc main_arg5)) (U (Proc.devRef .tc main_arg6)) (U (Proc.devRef .tc main_v31_1)) (U (Proc.devRef .tc main_v31_2)) (U (Proc.devRef .tc main_arg7)) := by
  simp only [hostOps2]; after_results_simp; rfl

set_option maxHeartbeats 1000000 in
theorem s2_v57 : after (hostOps2 (F := Ideal)) U (Proc.devRef .tc main_v57)
    = row64 (U (Proc.devRef .tc main_arg8)) := by
  simp only [hostOps2]; after_results_simp; rfl

set_option maxHeartbeats 1000000 in
theorem s3_v68 : after (hostOps3 (F := Ideal)) U (Proc.devRef .tc main_v68)
    = aggregate (U (Proc.devRef .tc main_v58)) (U (Proc.devRef .tc main_v3)) (U (Proc.devRef .tc main_v6)) := by
  simp only [hostOps3]; after_results_simp; rfl

set_option maxHeartbeats 1000000 in
theorem s4_v77 : after (hostOps4 (F := Ideal)) U (Proc.devRef .tc main_v77)
    = meanOf (U (Proc.devRef .tc main_v69_1)) := by
  simp only [hostOps4]; after_results_simp; rfl

set_option maxHeartbeats 1000000 in
theorem s4_v83 : after (hostOps4 (F := Ideal)) U (Proc.devRef .tc main_v83)
    = varOf (U (Proc.devRef .tc main_v69_1)) (U (Proc.devRef .tc main_v69_2)) := by
  simp only [hostOps4]; after_results_simp; rfl

set_option maxHeartbeats 1000000 in
theorem s4_v90 : after (hostOps4 (F := Ideal)) U (Proc.devRef .tc main_v90)
    = takeRows (U (Proc.devRef .tc main_v69_0)) (U (Proc.devRef .tc main_arg2)) := by
  simp only [hostOps4]; after_results_simp; rfl

set_option maxHeartbeats 1000000 in
theorem s4_v91 : after (hostOps4 (F := Ideal)) U (Proc.devRef .tc main_v91)
    = row64 (meanOf (U (Proc.devRef .tc main_v69_1))) := by
  simp only [hostOps4]; after_results_simp; rfl

set_option maxHeartbeats 1000000 in
theorem s4_v92 : after (hostOps4 (F := Ideal)) U (Proc.devRef .tc main_v92)
    = row64 (varOf (U (Proc.devRef .tc main_v69_1)) (U (Proc.devRef .tc main_v69_2))) := by
  simp only [hostOps4]; after_results_simp; rfl

set_option maxHeartbeats 1000000 in
theorem s4_v93 : after (hostOps4 (F := Ideal)) U (Proc.devRef .tc main_v93)
    = row64 (U (Proc.devRef .tc main_arg9)) := by
  simp only [hostOps4]; after_results_simp; rfl

set_option maxHeartbeats 1000000 in
theorem s4_v94 : after (hostOps4 (F := Ideal)) U (Proc.devRef .tc main_v94)
    = row64 (U (Proc.devRef .tc main_arg10)) := by
  simp only [hostOps4]; after_results_simp; rfl

set_option maxHeartbeats 1000000 in
theorem s4_v95 : after (hostOps4 (F := Ideal)) U (Proc.devRef .tc main_v95)
    = row5 (U (Proc.devRef .tc main_arg12)) := by
  simp only [hostOps4]; after_results_simp; rfl

end Stretches

/-! ## What each stretch leaves alone -/

/-- The references `hostOps2`'s operations write. -/
abbrev hostOps2_W : List (Ref sig .tc) := [main_v32, main_v33, main_cst_7, main_v34, main_v35, main_v36, main_cst_8, main_v37, main_cst_9, main_v38, main_v39, main_cst_10, main_v40, main_v41, main_v42, main_v43, main_cst_11, main_v44, main_v45, main_cst_12, main_v46, main_v47, main_v48, main_v49, main_v50, main_v51, main_v52, main_v53, main_v54, main_v55, main_v56, main_v57]
theorem hostOps2_writes : (hostOps2 (F := Ideal)).Forall fun op => op.writes ⊆ ((hostOps2_W).map (Proc.devRef (τ := τ) .tc)).toFinset := by
  simp only [hostOps2, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer `hostOps2` does not write keeps its contents. -/
theorem keep2 (U : Valuation τ sig (Elt Ideal)) (r : Ref sig .tc) (h : r ∉ hostOps2_W) :
    after (hostOps2 (F := Ideal)) U (Proc.devRef .tc r) = U (Proc.devRef .tc r) :=
  after_of_writes_sub _ U hostOps2_writes h

/-- The references `hostOps3`'s operations write. -/
abbrev hostOps3_W : List (Ref sig .tc) := [main_c_13, main_v59, main_v60, main_c_14, main_v61, main_v62, main_v63, main_v64, main_v65, main_cst_15, main_v66, main_v67, main_v68]
theorem hostOps3_writes : (hostOps3 (F := Ideal)).Forall fun op => op.writes ⊆ ((hostOps3_W).map (Proc.devRef (τ := τ) .tc)).toFinset := by
  simp only [hostOps3, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer `hostOps3` does not write keeps its contents. -/
theorem keep3 (U : Valuation τ sig (Elt Ideal)) (r : Ref sig .tc) (h : r ∉ hostOps3_W) :
    after (hostOps3 (F := Ideal)) U (Proc.devRef .tc r) = U (Proc.devRef .tc r) :=
  after_of_writes_sub _ U hostOps3_writes h

/-- The references `hostOps4`'s operations write. -/
abbrev hostOps4_W : List (Ref sig .tc) := [main_v70, main_v71, main_cst_16, main_v72, main_v73, main_v74, main_cst_17, main_v75, main_cst_18, main_v76, main_v77, main_cst_19, main_v78, main_v79, main_v80, main_v81, main_cst_20, main_v82, main_v83, main_c_21, main_v84, main_v85, main_c_22, main_v86, main_v87, main_v88, main_v89, main_v90, main_v91, main_v92, main_v93, main_v94, main_v95]
theorem hostOps4_writes : (hostOps4 (F := Ideal)).Forall fun op => op.writes ⊆ ((hostOps4_W).map (Proc.devRef (τ := τ) .tc)).toFinset := by
  simp only [hostOps4, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer `hostOps4` does not write keeps its contents. -/
theorem keep4 (U : Valuation τ sig (Elt Ideal)) (r : Ref sig .tc) (h : r ∉ hostOps4_W) :
    after (hostOps4 (F := Ideal)) U (Proc.devRef .tc r) = U (Proc.devRef .tc r) :=
  after_of_writes_sub _ U hostOps4_writes h

end Cert.KernelIdeal.KStretch

end
-- ==== Proof.KTower2.lean ====
/-
  The idealized kernel's run read as values, third part: the first layer's column statistics, the normalization they
  give folded into the second layer's weights and bias row, and the second scaled product.
-/
import proofs.«166090_j687194767719_2_alg».proof.Proof.KTower1
import proofs.«166090_j687194767719_2_alg».proof.Proof.KStretch

set_option maxRecDepth 16384

noncomputable section

namespace Cert.KernelIdeal.KTower

open Cert.KernelIdeal Cert.KernelIdeal.Gen Idealize.ShloMosaic Idealize.ShloMosaic.TcCoe Idealize.SL.Sem Idealize.ShloMosaic.StableHlo

/-! ## The first normalization folded into the second layer's weights, and the second scaled product -/

/-- The mean over the 100000 rows of a column, from the 20 blocks' partial sums (a block's sum sits in the first of its
    8 rows): the partial sums added up, divided by the row count. -/
def meanOf (ps : FVec Ideal S20x8x64 .f32) : FVec Ideal S64 .f32 :=
  Host.divf (F := Ideal)
    (Host.reduceAdd (F := Ideal)
      (shapeCast S20x64 (extractStridedSlice S20x1x64 ![0, 0, 0] ps slices_S20x8x64_S20x1x64_0_0_0) shapeCasts_S20x1x64_S20x64)
      zero_ reducesTo_S20x64_S64_d0 h_S_)
    (broadcastInDim S64 ![] bcast_S_S64 (constant (F := Ideal) S_ .f32 0x47C35000#32))

/-- The variance from the mean and the mean of the squares, never below zero. -/
def varOf (mean msq : FVec Ideal S64 .f32) : FVec Ideal S64 .f32 :=
  maximumf (F := Ideal) (subf (F := Ideal) msq (mulf (F := Ideal) mean mean)) (broadcastInDim S64 ![] bcast_S_S64 zero_)

/-- The normalization's scale: the gain over the square root of the variance plus the small constant. -/
def scaleOf (gamma var : FVec Ideal S64 .f32) : FVec Ideal S64 .f32 :=
  mulf (F := Ideal) gamma (Host.rsqrt (F := Ideal) (addf (F := Ideal) var
    (broadcastInDim S64 ![] bcast_S_S64 (constant (F := Ideal) S_ .f32 0x3727C5AC#32))))

/-- The normalization's shift: the offset minus the mean times the scale. -/
def shiftOf (beta mean scale : FVec Ideal S64 .f32) : FVec Ideal S64 .f32 :=
  subf (F := Ideal) beta (mulf (F := Ideal) mean scale)

/-- A weight matrix with each row multiplied by that row's scale. -/
def foldScale (scale : FVec Ideal S64 .f32) (W : FVec Ideal S64x64 .f32) : FVec Ideal S64x64 .f32 :=
  mulf (F := Ideal) (broadcastInDim S64x64 ![0, 1] bcast_S64x1_S64x64_0_1 (broadcastInDim S64x1 ![0] bcast_S64_S64x1_0 scale)) W

/-- The shift as a row, multiplied into a weight matrix. -/
def foldShift (shift : FVec Ideal S64 .f32) (W : FVec Ideal S64x64 .f32) : FVec Ideal S1x64 .f32 :=
  Host.dotGeneral (F := Ideal) dot_S1x64_S64x64_S1x64_1_0_0_1_n_n none (shapeCast S1x64 shift shapeCasts_S64_S1x64) W

/-- The first layer's column means and variances. -/
def mean0 (x : FVec Ideal S100000x128 .f32) (ei : IVec S2x1250000 32) (W0 : FVec Ideal S128x64 .f32) (b0 : FVec Ideal S64 .f32) : FVec Ideal S64 .f32 := meanOf (psum0 x ei W0 b0)
def var0 (x : FVec Ideal S100000x128 .f32) (ei : IVec S2x1250000 32) (W0 : FVec Ideal S128x64 .f32) (b0 : FVec Ideal S64 .f32) : FVec Ideal S64 .f32 := varOf (mean0 x ei W0 b0) (meanOf (psumsq0 x ei W0 b0))
/-- The first normalization's scale and shift. -/
def scale0 (x : FVec Ideal S100000x128 .f32) (ei : IVec S2x1250000 32) (W0 : FVec Ideal S128x64 .f32) (b0 : FVec Ideal S64 .f32) (g0 : FVec Ideal S64 .f32) : FVec Ideal S64 .f32 := scaleOf g0 (var0 x ei W0 b0)
def shift0 (x : FVec Ideal S100000x128 .f32) (ei : IVec S2x1250000 32) (W0 : FVec Ideal S128x64 .f32) (b0 : FVec Ideal S64 .f32) (g0 : FVec Ideal S64 .f32) (be0 : FVec Ideal S64 .f32) : FVec Ideal S64 .f32 := shiftOf be0 (mean0 x ei W0 b0) (scale0 x ei W0 b0 g0)
/-- The second layer's weights with the first normalization's scale folded in, and its shift as a bias row. -/
def W1p (x : FVec Ideal S100000x128 .f32) (ei : IVec S2x1250000 32) (W0 : FVec Ideal S128x64 .f32) (b0 : FVec Ideal S64 .f32) (g0 : FVec Ideal S64 .f32) (W1 : FVec Ideal S64x64 .f32) : FVec Ideal S64x64 .f32 := foldScale (scale0 x ei W0 b0 g0) W1
def c1 (x : FVec Ideal S100000x128 .f32) (ei : IVec S2x1250000 32) (W0 : FVec Ideal S128x64 .f32) (b0 : FVec Ideal S64 .f32) (g0 : FVec Ideal S64 .f32) (be0 : FVec Ideal S64 .f32) (W1 : FVec Ideal S64x64 .f32) : FVec Ideal S1x64 .f32 := foldShift (shift0 x ei W0 b0 g0 be0) W1
/-- The second layer's bias as a row. -/
def b1row (b1 : FVec Ideal S64 .f32) : FVec Ideal S1x64 .f32 := rowOf64 b1
/-- The second layer's scaled product. -/
def hw1 (x : FVec Ideal S100000x128 .f32) (ei : IVec S2x1250000 32) (W0 : FVec Ideal S128x64 .f32) (b0 : FVec Ideal S64 .f32) (g0 : FVec Ideal S64 .f32) (be0 : FVec Ideal S64 .f32) (W1 : FVec Ideal S64x64 .f32) : FVec Ideal S100000x64 .f32 :=
  KVal.G2_4 (leaky0 x ei W0 b0) (W1p x ei W0 b0 g0 W1) (c1 x ei W0 b0 g0 be0 W1) (dis2d ei)

/-! ### The stretch reads' right-hand sides in this file's terms -/

section Glue
attribute [local irreducible] Host.scatterAdd Host.gather Host.reduceAdd

theorem glue_mean (ps : FVec Ideal S20x8x64 .f32) : KStretch.meanOf ps = meanOf ps := rfl
theorem glue_var (ps pq : FVec Ideal S20x8x64 .f32) : KStretch.varOf ps pq = varOf (meanOf ps) (meanOf pq) := rfl
theorem glue_W (g : FVec Ideal S64 .f32) (ps pq : FVec Ideal S20x8x64 .f32) (W : FVec Ideal S64x64 .f32) :
    KStretch.foldedW g ps pq W = foldScale (scaleOf g (varOf (meanOf ps) (meanOf pq))) W := rfl
theorem glue_C (g b : FVec Ideal S64 .f32) (ps pq : FVec Ideal S20x8x64 .f32) (W : FVec Ideal S64x64 .f32) :
    KStretch.foldedC g b ps pq W
      = foldShift (shiftOf b (meanOf ps) (scaleOf g (varOf (meanOf ps) (meanOf pq)))) W := rfl
theorem glue_row64 (v : FVec Ideal S64 .f32) : KStretch.row64 v = rowOf64 v := rfl
theorem glue_agg (h : FVec Ideal S100000x64 .f32) (src dst : IVec S1350000 32) :
    KStretch.aggregate h src dst = aggOf h (wrapIdx src) dst := rfl

end Glue

section Reads
variable (m : (ℓ : Loc nD τ sig) → Buf (Elt Ideal) ℓ) (ρ : Dev nD → PrngReg) (c : Dev nD)

attribute [local irreducible] Host.scatterAdd Host.gather Host.reduceAdd

theorem W6_arg5 : W6 m ρ c (Proc.devRef .tc main_arg5) = m ((c : Thread nD τ).loc main_arg5) := W6_of m ρ c _ (by decide) (by decide) (by decide) (by decide) (by decide) (by decide)
theorem W6_arg6 : W6 m ρ c (Proc.devRef .tc main_arg6) = m ((c : Thread nD τ).loc main_arg6) := W6_of m ρ c _ (by decide) (by decide) (by decide) (by decide) (by decide) (by decide)
theorem W6_arg7 : W6 m ρ c (Proc.devRef .tc main_arg7) = m ((c : Thread nD τ).loc main_arg7) := W6_of m ρ c _ (by decide) (by decide) (by decide) (by decide) (by decide) (by decide)
theorem W6_arg8 : W6 m ρ c (Proc.devRef .tc main_arg8) = m ((c : Thread nD τ).loc main_arg8) := W6_of m ρ c _ (by decide) (by decide) (by decide) (by decide) (by decide) (by decide)

theorem W7_v54 : W7 m ρ c (Proc.devRef .tc main_v54) = W1p (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg7)) := by
  refine (KStretch.s2_v54 _).trans ?_
  rw [W6_v31_1, W6_v31_2, W6_arg5, W6_arg7, glue_W]; rfl
theorem W7_v56 : W7 m ρ c (Proc.devRef .tc main_v56) = c1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (KStretch.s2_v56 _).trans ?_
  rw [W6_v31_1, W6_v31_2, W6_arg5, W6_arg6, W6_arg7, glue_C]; rfl
theorem W7_v57 : W7 m ρ c (Proc.devRef .tc main_v57) = b1row (m ((c : Thread nD τ).loc main_arg8)) := by
  refine (KStretch.s2_v57 _).trans ?_
  rw [W6_arg8, glue_row64]; rfl
theorem W7_v31_0 : W7 m ρ c (Proc.devRef .tc main_v31_0) = leaky0 (m ((c : Thread nD τ).loc main_arg0)) (m ((c : Thread nD τ).loc main_arg1)) (m ((c : Thread nD τ).loc main_arg3)) (m ((c : Thread nD τ).loc main_arg4)) := (KStretch.keep2 _ _ (by decide)).trans (W6_v31_0 m ρ c)
theorem W7_v3 : W7 m ρ c (Proc.devRef .tc main_v3) = rowOf (m ((c : Thread nD τ).loc main_arg1)) := (KStretch.keep2 _ _ (by decide)).trans (W6_v3 m ρ c)
theorem W7_v6 : W7 m ρ c (Proc.devRef .tc main_v6) = colOf (m ((c : Thread nD τ).loc main_arg1)) := (KStretch.keep2 _ _ (by decide)).trans (W6_v6 m ρ c)
theorem W7_v17 : W7 m ρ c (Proc.devRef .tc main_v17) = dis2d (m ((c : Thread nD τ).loc main_arg1)) := (KStretch.keep2 _ _ (by decide)).trans (W6_v17 m ρ c)

/-- Region 2's result: the second layer's scaled product. -/
theorem W8_v58 : W8 m ρ c (Proc.devRef .tc main_v58) = hw1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 4).trans ((KVal.final2_4 (V7 m ρ) c).trans ?_)
  show KVal.G2_4 (W7 m ρ c (Proc.devRef .tc main_v31_0)) (W7 m ρ c (Proc.devRef .tc main_v54)) (W7 m ρ c (Proc.devRef .tc main_v56)) (W7 m ρ c (Proc.devRef .tc main_v17)) = _
  rw [W7_v31_0, W7_v54, W7_v56, W7_v17]; rfl
theorem W8_v3 : W8 m ρ c (Proc.devRef .tc main_v3) = rowOf (m ((c : Thread nD τ).loc main_arg1)) := (W8_of_ne m ρ c _ (by decide)).trans (W7_v3 m ρ c)
theorem W8_v6 : W8 m ρ c (Proc.devRef .tc main_v6) = colOf (m ((c : Thread nD τ).loc main_arg1)) := (W8_of_ne m ρ c _ (by decide)).trans (W7_v6 m ρ c)
theorem W8_v57 : W8 m ρ c (Proc.devRef .tc main_v57) = b1row (m ((c : Thread nD τ).loc main_arg8)) := (W8_of_ne m ρ c _ (by decide)).trans (W7_v57 m ρ c)
theorem W8_v17 : W8 m ρ c (Proc.devRef .tc main_v17) = dis2d (m ((c : Thread nD τ).loc main_arg1)) :=
  ((W8_arr m ρ c 3).trans (((dat2 (V7 m ρ) c).arrAt_in 3 rfl _).trans (A_eq2 (V7 m ρ) c 3))).trans (W7_v17 m ρ c)
/-- A buffer that is none of the first three regions' arrays and that no stretch before the third region's exit writes
    holds there what it held at launch. -/
theorem W8_of (r : Ref sig .tc) (h0 : r ∉ hostOps0_W) (h1 : r ∉ hostOps0_1_W) (h2 : r ∉ hostOps0_2_W)
    (hr0 : ∀ w, Pipeline.arrRef spec0 w ≠ r) (h3 : r ∉ hostOps1_W) (hr1 : ∀ w, Pipeline.arrRef spec1 w ≠ r)
    (h4 : r ∉ KStretch.hostOps2_W) (hr2 : ∀ w, Pipeline.arrRef spec2 w ≠ r) :
    W8 m ρ c (Proc.devRef .tc r) = m ((c : Thread nD τ).loc r) :=
  (W8_of_ne m ρ c r hr2).trans ((KStretch.keep2 _ r h4).trans (W6_of m ρ c r h0 h1 h2 hr0 h3 hr1))

end Reads

end Cert.KernelIdeal.KTower

end
-- ==== Proof.KTower3.lean ====
/-
  The idealized kernel's run read as values, fourth part: the second aggregation and the second statistics region.
-/
import proofs.«166090_j687194767719_2_alg».proof.Proof.KTower2

set_option maxRecDepth 16384

noncomputable section

namespace Cert.KernelIdeal.KTower

open Cert.KernelIdeal Cert.KernelIdeal.Gen Idealize.ShloMosaic Idealize.ShloMosaic.TcCoe Idealize.SL.Sem Idealize.ShloMosaic.StableHlo

/-! ## The second aggregation and the second statistics region -/

/-- The second layer's aggregate. -/
def agg1 (x : FVec Ideal S100000x128 .f32) (ei : IVec S2x1250000 32) (W0 : FVec Ideal S128x64 .f32) (b0 : FVec Ideal S64 .f32) (g0 : FVec Ideal S64 .f32) (be0 : FVec Ideal S64 .f32) (W1 : FVec Ideal S64x64 .f32) : FVec Ideal S100000x64 .f32 := aggOf (hw1 x ei W0 b0 g0 be0 W1) (rowN ei) (colOf ei)

/-- The second layer's activation, and its per-block column sums and sums of squares. -/
def leaky1 (x : FVec Ideal S100000x128 .f32) (ei : IVec S2x1250000 32) (W0 : FVec Ideal S128x64 .f32) (b0 : FVec Ideal S64 .f32) (g0 : FVec Ideal S64 .f32) (be0 : FVec Ideal S64 .f32) (W1 : FVec Ideal S64x64 .f32) (b1 : FVec Ideal S64 .f32) : FVec Ideal S100000x64 .f32 := KVal.G3_3 (agg1 x ei W0 b0 g0 be0 W1) (dis2d ei) (b1row b1)
def psum1 (x : FVec Ideal S100000x128 .f32) (ei : IVec S2x1250000 32) (W0 : FVec Ideal S128x64 .f32) (b0 : FVec Ideal S64 .f32) (g0 : FVec Ideal S64 .f32) (be0 : FVec Ideal S64 .f32) (W1 : FVec Ideal S64x64 .f32) (b1 : FVec Ideal S64 .f32) : FVec Ideal S20x8x64 .f32 := KVal.G3_4 (agg1 x ei W0 b0 g0 be0 W1) (dis2d ei) (b1row b1)
def psumsq1 (x : FVec Ideal S100000x128 .f32) (ei : IVec S2x1250000 32) (W0 : FVec Ideal S128x64 .f32) (b0 : FVec Ideal S64 .f32) (g0 : FVec Ideal S64 .f32) (be0 : FVec Ideal S64 .f32) (W1 : FVec Ideal S64x64 .f32) (b1 : FVec Ideal S64 .f32) : FVec Ideal S20x8x64 .f32 := KVal.G3_5 (agg1 x ei W0 b0 g0 be0 W1) (dis2d ei) (b1row b1)

section Reads
variable (m : (ℓ : Loc nD τ sig) → Buf (Elt Ideal) ℓ) (ρ : Dev nD → PrngReg) (c : Dev nD)

attribute [local irreducible] Host.scatterAdd Host.gather

theorem W9_v68 : W9 m ρ c (Proc.devRef .tc main_v68) = agg1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (KStretch.s3_v68 _).trans ?_
  rw [W8_v58, W8_v3, W8_v6, glue_agg]; rfl
theorem W9_v17 : W9 m ρ c (Proc.devRef .tc main_v17) = dis2d (m ((c : Thread nD τ).loc main_arg1)) := (KStretch.keep3 _ _ (by decide)).trans (W8_v17 m ρ c)
theorem W9_v57 : W9 m ρ c (Proc.devRef .tc main_v57) = b1row (m ((c : Thread nD τ).loc main_arg8)) := (KStretch.keep3 _ _ (by decide)).trans (W8_v57 m ρ c)

theorem W10_v69_0 : W10 m ρ c (Proc.devRef .tc main_v69_0) = leaky1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 3).trans ((KVal.final3_3 (V9 m ρ) c).trans ?_)
  show KVal.G3_3 (W9 m ρ c (Proc.devRef .tc main_v68)) (W9 m ρ c (Proc.devRef .tc main_v17)) (W9 m ρ c (Proc.devRef .tc main_v57)) = _
  rw [W9_v68, W9_v17, W9_v57]; rfl
theorem W10_v69_1 : W10 m ρ c (Proc.devRef .tc main_v69_1) = psum1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 4).trans ((KVal.final3_4 (V9 m ρ) c).trans ?_)
  show KVal.G3_4 (W9 m ρ c (Proc.devRef .tc main_v68)) (W9 m ρ c (Proc.devRef .tc main_v17)) (W9 m ρ c (Proc.devRef .tc main_v57)) = _
  rw [W9_v68, W9_v17, W9_v57]; rfl
theorem W10_v69_2 : W10 m ρ c (Proc.devRef .tc main_v69_2) = psumsq1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 5).trans ((KVal.final3_5 (V9 m ρ) c).trans ?_)
  show KVal.G3_5 (W9 m ρ c (Proc.devRef .tc main_v68)) (W9 m ρ c (Proc.devRef .tc main_v17)) (W9 m ρ c (Proc.devRef .tc main_v57)) = _
  rw [W9_v68, W9_v17, W9_v57]; rfl
/-- A buffer that is none of the first four regions' arrays and that no stretch before the fourth region's exit writes
    holds there what it held at launch. -/
theorem W10_of (r : Ref sig .tc) (h0 : r ∉ hostOps0_W) (h1 : r ∉ hostOps0_1_W) (h2 : r ∉ hostOps0_2_W)
    (hr0 : ∀ w, Pipeline.arrRef spec0 w ≠ r) (h3 : r ∉ hostOps1_W) (hr1 : ∀ w, Pipeline.arrRef spec1 w ≠ r)
    (h4 : r ∉ KStretch.hostOps2_W) (hr2 : ∀ w, Pipeline.arrRef spec2 w ≠ r)
    (h5 : r ∉ KStretch.hostOps3_W) (hr3 : ∀ w, Pipeline.arrRef spec3 w ≠ r) :
    W10 m ρ c (Proc.devRef .tc r) = m ((c : Thread nD τ).loc r) :=
  (W10_of_ne m ρ c r hr3).trans ((KStretch.keep3 _ r h5).trans (W8_of m ρ c r h0 h1 h2 hr0 h3 hr1 h4 hr2))

end Reads

end Cert.KernelIdeal.KTower

end
-- ==== Proof.KValFinal.lean ====
/- The last region of the idealized kernel as ONE function of its input arrays, per output. It walks 10 row blocks of 2000
   selected rows; at a block it normalises every entry by its column's mean, variance (plus a small constant, under a
   reciprocal square root), scale and shift, writes the normalised block, multiplies it into the head's 64 × 5 weights
   (a sum over the 64 columns, into a zero accumulator), adds the head's bias row and takes the logistic. Row `n` of
   either output depends only on row `n` of the selected rows and on the whole small arrays, so the written-back blocks are
   restrictions of one whole-array function per output, and they tile the output arrays. -/
import proofs.«166090_j687194767719_2_alg».proof.Proof.Gen.KernelIdeal.Frame
import Idealize.ShloMosaic.PureOps.Ideal.Laws
import Idealize.ShloMosaic.Lib.ValueIdx
import Idealize.ShloMosaic.Lib.Pipeline.Value

noncomputable section

open Idealize.ShloMosaic Idealize.ShloMosaic.TcCoe Idealize.ShloMosaic.ValueIdx Idealize.SL.Sem
open Idealize.ShloMosaic.Pipeline (Dat)
open scoped BigOperators

namespace Cert.KernelIdeal.KVal

open Cert.KernelIdeal Cert.KernelIdeal.Gen

/-! ## Region 4: the normalised selected rows and their logistic head -/

/-- Row `n`, column `f` of the normalised rows: `(v[n,f] − mean[f]) · rsqrt(var[f] + ε) · γ[f] + β[f]`, with `ε` the f32 word `0x3727C5AC`. -/
def G4_7 (v : S20000x64.Idx → EReal) (mean var gamma beta : S1x64.Idx → EReal) : S20000x64.Idx → EReal :=
  fun i => ((v i - mean (ix2 0 (i 1))) * Ideal.rsqrt (var (ix2 0 (i 1)) + Ideal.ofBits .f32 0x3727C5AC#32)) * gamma (ix2 0 (i 1)) + beta (ix2 0 (i 1))

/-- Row `n`, class `j` of the head: the logistic of the normalised row against column `j` of the head's weights, plus its bias. -/
def G4_8 (v : S20000x64.Idx → EReal) (mean var gamma beta : S1x64.Idx → EReal) (Wm : S64x5.Idx → EReal) (bm : S1x5.Idx → EReal) :
    S20000x5.Idx → EReal :=
  fun i => Ideal.logistic ((∑ k : Fin 64, G4_7 v mean var gamma beta (ix2 (i 0) k) * Wm (ix2 k (i 1))) + bm (ix2 0 (i 1)))

theorem hzF2 : (![0, 0] : Fin 2 → Nat) = fun _ => 0 := funext fun a => by fin_cases a <;> rfl

/-- The head's product into the zero accumulator, read at (p, j): the sum over the 64 contracted positions. -/
theorem matmul4_apply (a : FVec Ideal S2000x64 .bf16) (w : FVec Ideal S64x5 .bf16) (p : Fin 2000) (j : Fin 5) :
    matmul dot_S2000x64_S64x5_S2000x5_1_0_0_1_n_n none a w (constant (F := Ideal) S2000x5 .f32 0x00000000#32) (ix2 p j)
      = ∑ k : Fin 64, a (ix2 p k) * w (ix2 k j) := by
  refine (Ideal.matmul_constant_zero_apply dot_S2000x64_S64x5_S2000x5_1_0_0_1_n_n none a w (ix2 p j)).trans ?_
  rw [← Equiv.sum_comp (contrEquiv1 dot_S2000x64_S64x5_S2000x5_1_0_0_1_n_n 64 rfl rfl).symm]
  refine Finset.sum_congr rfl fun k _ => ?_
  congr 1
  · refine congrArg a (funext fun d => Fin.ext ?_)
    match d with
    | ⟨0, _⟩ => rfl
    | ⟨1, _⟩ =>
      exact (DotDims.lhsIdx_val_of_single (d := dot_S2000x64_S64x5_S2000x5_1_0_0_1_n_n) (cl := 1) rfl _ _).trans
        (contrEquiv1_symm_val _ 64 rfl rfl k)
  · refine congrArg w (funext fun d => Fin.ext ?_)
    match d with
    | ⟨0, _⟩ =>
      exact (DotDims.rhsIdx_val_of_single (d := dot_S2000x64_S64x5_S2000x5_1_0_0_1_n_n) (cr := 0) rfl _ _).trans
        (contrEquiv1_symm_val _ 64 rfl rfl k)
    | ⟨1, _⟩ => rfl

/-- The first payload at (p, q) of a block: the block's entry normalised by column `q`'s statistics. -/
theorem pay4_1_apply (x0 : Vec Ideal S2000x64 .f32) (xm xv xg xb : Vec Ideal S1x64 .f32) (p : Fin 2000) (q : Fin 64) :
    Gen.k4_pay1 x0 xv xm xg xb (ix2 p q)
      = ((x0 (ix2 p q) - xm (ix2 0 q)) * Ideal.rsqrt (xv (ix2 0 q) + Ideal.ofBits .f32 0x3727C5AC#32)) * xg (ix2 0 q) + xb (ix2 0 q) := by
  unfold Gen.k4_pay1
  refine congrArg₂ (· + ·) (congrArg₂ (· * ·) (congrArg₂ (· * ·) (congrArg₂ (· - ·) ?_ ?_) ?_) ?_) ?_
  · rw [shapeCast_self]
  · rw [shapeCast_self]
    exact broadcastTo_apply xm _ (ix2 p q) (ix2 0 q) (fun a => by match a with | ⟨0, _⟩ => rfl | ⟨1, _⟩ => rfl)
  · refine (broadcastTo_apply _ _ (ix2 p q) (ix2 0 q) (fun a => by match a with | ⟨0, _⟩ => rfl | ⟨1, _⟩ => rfl)).trans ?_
    rw [shapeCast_self]
    rfl
  · rw [shapeCast_self]
    exact broadcastTo_apply xg _ (ix2 p q) (ix2 0 q) (fun a => by match a with | ⟨0, _⟩ => rfl | ⟨1, _⟩ => rfl)
  · rw [shapeCast_self]
    exact broadcastTo_apply xb _ (ix2 p q) (ix2 0 q) (fun a => by match a with | ⟨0, _⟩ => rfl | ⟨1, _⟩ => rfl)

/-- The second payload at (p, j): the logistic of the normalised row `p` against column `j` of the head, plus its bias. -/
theorem pay4_2_apply (x0 : Vec Ideal S2000x64 .f32) (xm xv xg xb : Vec Ideal S1x64 .f32) (xw : Vec Ideal S64x5 .f32) (xc : Vec Ideal S1x5 .f32)
    (p : Fin 2000) (j : Fin 5) :
    Gen.k4_pay2 x0 xv xm xg xb xw xc (ix2 p j)
      = Ideal.logistic ((∑ k : Fin 64,
          (((x0 (ix2 p k) - xm (ix2 0 k)) * Ideal.rsqrt (xv (ix2 0 k) + Ideal.ofBits .f32 0x3727C5AC#32)) * xg (ix2 0 k) + xb (ix2 0 k)) * xw (ix2 k j))
          + xc (ix2 0 j)) := by
  unfold Gen.k4_pay2
  refine congrArg Ideal.logistic (congrArg₂ (· + ·) ?_ ?_)
  · refine (matmul4_apply _ _ p j).trans (Finset.sum_congr rfl fun k _ => congrArg₂ (· * ·) ?_ rfl)
    exact pay4_1_apply x0 xm xv xg xb p k
  · rw [shapeCast_self]
    exact broadcastTo_apply xc _ (ix2 p j) (ix2 0 j) (fun a => by match a with | ⟨0, _⟩ => rfl | ⟨1, _⟩ => rfl)

/-! The printed index maps over the grid: the row-blocked windows sit at block row `t`, the whole-array windows at block 0. -/
theorem idx4_0 : ∀ t : Fin cfg4.N, win4_0.index t (0 : Fin 2) = t.val ∧ win4_0.index t (1 : Fin 2) = 0 :=
  (by decide +kernel : ∀ t : Fin grid4.N, _)
theorem idx4_1 : ∀ t : Fin cfg4.N, win4_1.index t (0 : Fin 2) = 0 ∧ win4_1.index t (1 : Fin 2) = 0 :=
  (by decide +kernel : ∀ t : Fin grid4.N, _)
theorem idx4_2 : ∀ t : Fin cfg4.N, win4_2.index t (0 : Fin 2) = 0 ∧ win4_2.index t (1 : Fin 2) = 0 :=
  (by decide +kernel : ∀ t : Fin grid4.N, _)
theorem idx4_3 : ∀ t : Fin cfg4.N, win4_3.index t (0 : Fin 2) = 0 ∧ win4_3.index t (1 : Fin 2) = 0 :=
  (by decide +kernel : ∀ t : Fin grid4.N, _)
theorem idx4_4 : ∀ t : Fin cfg4.N, win4_4.index t (0 : Fin 2) = 0 ∧ win4_4.index t (1 : Fin 2) = 0 :=
  (by decide +kernel : ∀ t : Fin grid4.N, _)
theorem idx4_5 : ∀ t : Fin cfg4.N, win4_5.index t (0 : Fin 2) = 0 ∧ win4_5.index t (1 : Fin 2) = 0 :=
  (by decide +kernel : ∀ t : Fin grid4.N, _)
theorem idx4_6 : ∀ t : Fin cfg4.N, win4_6.index t (0 : Fin 2) = 0 ∧ win4_6.index t (1 : Fin 2) = 0 :=
  (by decide +kernel : ∀ t : Fin grid4.N, _)
theorem idx4_7 : ∀ t : Fin cfg4.N, win4_7.index t (0 : Fin 2) = t.val ∧ win4_7.index t (1 : Fin 2) = 0 :=
  (by decide +kernel : ∀ t : Fin grid4.N, _)
theorem idx4_8 : ∀ t : Fin cfg4.N, win4_8.index t (0 : Fin 2) = t.val ∧ win4_8.index t (1 : Fin 2) = 0 :=
  (by decide +kernel : ∀ t : Fin grid4.N, _)

section
variable (V : (c : Dev nD) → (b : Ref sig .tc) → Buf (Elt Ideal) ((c : Thread nD τ).loc b)) (c : Dev nD)

/-- Block `t` of the selected rows is rows `2000 t …` of the array. -/
theorem iblk4_0_apply (t : Fin cfg4.N) (y : S2000x64.Idx) (i : S20000x64.Idx)
    (h0 : (i 0).val = 2000 * t.val + (y 0).val) (h1 : (i 1).val = (y 1).val) :
    (Gen.iblk4 V c 0 t : Vec Ideal S2000x64 .f32) y = (V c (Pipeline.arrRef spec4 0) : S20000x64.Idx → EReal) i := by
  obtain ⟨e0, e1⟩ := idx4_0 t
  unfold Gen.iblk4
  rw [View.read_apply]
  refine congrArg (V c (Pipeline.arrRef spec4 0)) (funext fun a => Fin.ext ?_)
  match a with
  | ⟨0, _⟩ => show win4_0.index t (0 : Fin 2) * 2000 + 1 * (y 0).val = (i 0).val; omega
  | ⟨1, _⟩ => show win4_0.index t (1 : Fin 2) * 64 + 1 * (y 1).val = (i 1).val; omega

/-- The mean row's one block is the array. -/
theorem iblk4_1_apply (t : Fin cfg4.N) (y : S1x64.Idx) (i : S1x64.Idx)
    (h0 : (i 0).val = (y 0).val) (h1 : (i 1).val = (y 1).val) :
    (Gen.iblk4 V c 1 t : Vec Ideal S1x64 .f32) y = (V c (Pipeline.arrRef spec4 1) : S1x64.Idx → EReal) i := by
  obtain ⟨e0, e1⟩ := idx4_1 t
  unfold Gen.iblk4
  rw [View.read_apply]
  refine congrArg (V c (Pipeline.arrRef spec4 1)) (funext fun a => Fin.ext ?_)
  match a with
  | ⟨0, _⟩ => show win4_1.index t (0 : Fin 2) * 1 + 1 * (y 0).val = (i 0).val; omega
  | ⟨1, _⟩ => show win4_1.index t (1 : Fin 2) * 64 + 1 * (y 1).val = (i 1).val; omega

/-- The variance row's one block is the array. -/
theorem iblk4_2_apply (t : Fin cfg4.N) (y : S1x64.Idx) (i : S1x64.Idx)
    (h0 : (i 0).val = (y 0).val) (h1 : (i 1).val = (y 1).val) :
    (Gen.iblk4 V c 2 t : Vec Ideal S1x64 .f32) y = (V c (Pipeline.arrRef spec4 2) : S1x64.Idx → EReal) i := by
  obtain ⟨e0, e1⟩ := idx4_2 t
  unfold Gen.iblk4
  rw [View.read_apply]
  refine congrArg (V c (Pipeline.arrRef spec4 2)) (funext fun a => Fin.ext ?_)
  match a with
  | ⟨0, _⟩ => show win4_2.index t (0 : Fin 2) * 1 + 1 * (y 0).val = (i 0).val; omega
  | ⟨1, _⟩ => show win4_2.index t (1 : Fin 2) * 64 + 1 * (y 1).val = (i 1).val; omega

/-- The scale row's one block is the array. -/
theorem iblk4_3_apply (t : Fin cfg4.N) (y : S1x64.Idx) (i : S1x64.Idx)
    (h0 : (i 0).val = (y 0).val) (h1 : (i 1).val = (y 1).val) :
    (Gen.iblk4 V c 3 t : Vec Ideal S1x64 .f32) y = (V c (Pipeline.arrRef spec4 3) : S1x64.Idx → EReal) i := by
  obtain ⟨e0, e1⟩ := idx4_3 t
  unfold Gen.iblk4
  rw [View.read_apply]
  refine congrArg (V c (Pipeline.arrRef spec4 3)) (funext fun a => Fin.ext ?_)
  match a with
  | ⟨0, _⟩ => show win4_3.index t (0 : Fin 2) * 1 + 1 * (y 0).val = (i 0).val; omega
  | ⟨1, _⟩ => show win4_3.index t (1 : Fin 2) * 64 + 1 * (y 1).val = (i 1).val; omega

/-- The shift row's one block is the array. -/
theorem iblk4_4_apply (t : Fin cfg4.N) (y : S1x64.Idx) (i : S1x64.Idx)
    (h0 : (i 0).val = (y 0).val) (h1 : (i 1).val = (y 1).val) :
    (Gen.iblk4 V c 4 t : Vec Ideal S1x64 .f32) y = (V c (Pipeline.arrRef spec4 4) : S1x64.Idx → EReal) i := by
  obtain ⟨e0, e1⟩ := idx4_4 t
  unfold Gen.iblk4
  rw [View.read_apply]
  refine congrArg (V c (Pipeline.arrRef spec4 4)) (funext fun a => Fin.ext ?_)
  match a with
  | ⟨0, _⟩ => show win4_4.index t (0 : Fin 2) * 1 + 1 * (y 0).val = (i 0).val; omega
  | ⟨1, _⟩ => show win4_4.index t (1 : Fin 2) * 64 + 1 * (y 1).val = (i 1).val; omega

/-- The head's weights' one block is the array. -/
theorem iblk4_5_apply (t : Fin cfg4.N) (y : S64x5.Idx) (i : S64x5.Idx)
    (h0 : (i 0).val = (y 0).val) (h1 : (i 1).val = (y 1).val) :
    (Gen.iblk4 V c 5 t : Vec Ideal S64x5 .f32) y = (V c (Pipeline.arrRef spec4 5) : S64x5.Idx → EReal) i := by
  obtain ⟨e0, e1⟩ := idx4_5 t
  unfold Gen.iblk4
  rw [View.read_apply]
  refine congrArg (V c (Pipeline.arrRef spec4 5)) (funext fun a => Fin.ext ?_)
  match a with
  | ⟨0, _⟩ => show win4_5.index t (0 : Fin 2) * 64 + 1 * (y 0).val = (i 0).val; omega
  | ⟨1, _⟩ => show win4_5.index t (1 : Fin 2) * 5 + 1 * (y 1).val = (i 1).val; omega

/-- The head's bias row's one block is the array. -/
theorem iblk4_6_apply (t : Fin cfg4.N) (y : S1x5.Idx) (i : S1x5.Idx)
    (h0 : (i 0).val = (y 0).val) (h1 : (i 1).val = (y 1).val) :
    (Gen.iblk4 V c 6 t : Vec Ideal S1x5 .f32) y = (V c (Pipeline.arrRef spec4 6) : S1x5.Idx → EReal) i := by
  obtain ⟨e0, e1⟩ := idx4_6 t
  unfold Gen.iblk4
  rw [View.read_apply]
  refine congrArg (V c (Pipeline.arrRef spec4 6)) (funext fun a => Fin.ext ?_)
  match a with
  | ⟨0, _⟩ => show win4_6.index t (0 : Fin 2) * 1 + 1 * (y 0).val = (i 0).val; omega
  | ⟨1, _⟩ => show win4_6.index t (1 : Fin 2) * 5 + 1 * (y 1).val = (i 1).val; omega

/-- A block's normalised entry is the whole-array function at the entry's row of the array. -/
theorem blk4_entry (t : Fin cfg4.N) (x0 : Vec Ideal S2000x64 .f32) (xm xv xg xb : Vec Ideal S1x64 .f32)
    (e0 : x0 = Gen.iblk4 V c 0 t) (e1 : xm = Gen.iblk4 V c 1 t) (e2 : xv = Gen.iblk4 V c 2 t) (e3 : xg = Gen.iblk4 V c 3 t)
    (e4 : xb = Gen.iblk4 V c 4 t) (n : Fin 2000) (f : Fin 64) (i : S20000x64.Idx)
    (h0 : (i 0).val = 2000 * t.val + n.val) (h1 : (i 1).val = f.val) :
    ((x0 (ix2 n f) - xm (ix2 0 f)) * Ideal.rsqrt (xv (ix2 0 f) + Ideal.ofBits .f32 0x3727C5AC#32)) * xg (ix2 0 f) + xb (ix2 0 f)
      = G4_7 (V c (Pipeline.arrRef spec4 0)) (V c (Pipeline.arrRef spec4 1)) (V c (Pipeline.arrRef spec4 2)) (V c (Pipeline.arrRef spec4 3))
          (V c (Pipeline.arrRef spec4 4)) i := by
  subst e0 e1 e2 e3 e4
  unfold G4_7
  refine congrArg₂ (· + ·) (congrArg₂ (· * ·) (congrArg₂ (· * ·) (congrArg₂ (· - ·) ?_ ?_)
    (congrArg (fun z => Ideal.rsqrt (z + Ideal.ofBits .f32 0x3727C5AC#32)) ?_)) ?_) ?_
  · exact iblk4_0_apply V c t (ix2 n f) i h0 h1
  · exact iblk4_1_apply V c t (ix2 0 f) (ix2 0 (i 1)) rfl h1
  · exact iblk4_2_apply V c t (ix2 0 f) (ix2 0 (i 1)) rfl h1
  · exact iblk4_3_apply V c t (ix2 0 f) (ix2 0 (i 1)) rfl h1
  · exact iblk4_4_apply V c t (ix2 0 f) (ix2 0 (i 1)) rfl h1

/-- What point `t` writes back to the normalised rows is block `t` of `G4_7` of the arrays as the region finds them. -/
theorem flushed4_7_eq (t : Fin cfg4.N) :
    (Gen.dat4 (F := Ideal) V c).flushed 7 t = ((cfg4.win 7).blk t).view.read (Elt Ideal)
      (G4_7 (V c (Pipeline.arrRef spec4 0)) (V c (Pipeline.arrRef spec4 1)) (V c (Pipeline.arrRef spec4 2)) (V c (Pipeline.arrRef spec4 3))
        (V c (Pipeline.arrRef spec4 4))) := by
  show (cfg4.win 7).cut (grid4.coords t) ((Gen.dat4 (F := Ideal) V c).after 7 t) = _
  rw [Gen.after4_7]
  unfold Gen.out4_7
  rw [View.canon_unit_zero hzF2]
  simp only [View.ld_unit_zero (S := S2000x64) hzF2, View.ld_unit_zero (S := S1x64) hzF2]
  obtain ⟨e0, e1⟩ := idx4_7 t
  funext j
  obtain ⟨p, q, rfl⟩ : ∃ (p : Fin 2000) (q : Fin 64), j = ix2 p q := ⟨j 0, j 1, eq_ix2 j⟩
  refine (pay4_1_apply _ _ _ _ _ p q).trans ?_
  rw [View.read_apply]
  refine blk4_entry V c t _ _ _ _ _ rfl rfl rfl rfl rfl p q _ ?_ ?_
  · show win4_7.index t (0 : Fin 2) * 2000 + 1 * p.val = _; omega
  · show win4_7.index t (1 : Fin 2) * 64 + 1 * q.val = _; omega

/-- What point `t` writes back to the head's output is block `t` of `G4_8`. -/
theorem flushed4_8_eq (t : Fin cfg4.N) :
    (Gen.dat4 (F := Ideal) V c).flushed 8 t = ((cfg4.win 8).blk t).view.read (Elt Ideal)
      (G4_8 (V c (Pipeline.arrRef spec4 0)) (V c (Pipeline.arrRef spec4 1)) (V c (Pipeline.arrRef spec4 2)) (V c (Pipeline.arrRef spec4 3))
        (V c (Pipeline.arrRef spec4 4)) (V c (Pipeline.arrRef spec4 5)) (V c (Pipeline.arrRef spec4 6))) := by
  show (cfg4.win 8).cut (grid4.coords t) ((Gen.dat4 (F := Ideal) V c).after 8 t) = _
  rw [Gen.after4_8]
  unfold Gen.out4_8
  rw [View.canon_unit_zero hzF2]
  simp only [View.ld_unit_zero (S := S2000x64) hzF2, View.ld_unit_zero (S := S1x64) hzF2, View.ld_unit_zero (S := S64x5) hzF2,
    View.ld_unit_zero (S := S1x5) hzF2]
  obtain ⟨e0, e1⟩ := idx4_8 t
  funext j
  obtain ⟨p, q, rfl⟩ : ∃ (p : Fin 2000) (q : Fin 5), j = ix2 p q := ⟨j 0, j 1, eq_ix2 j⟩
  refine (pay4_2_apply _ _ _ _ _ _ _ p q).trans ?_
  rw [View.read_apply]
  unfold G4_8
  have hr : ((((cfg4.win 8).blk t).view.emb (ix2 p q)) 0).val = 2000 * t.val + p.val := by
    show win4_8.index t (0 : Fin 2) * 2000 + 1 * p.val = _; omega
  have hc : ((((cfg4.win 8).blk t).view.emb (ix2 p q)) 1).val = q.val := by
    show win4_8.index t (1 : Fin 2) * 5 + 1 * q.val = _; omega
  refine congrArg Ideal.logistic (congrArg₂ (· + ·) (Finset.sum_congr rfl fun k _ => congrArg₂ (· * ·) ?_ ?_) ?_)
  · exact blk4_entry V c t _ _ _ _ _ rfl rfl rfl rfl rfl p k _ hr rfl
  · exact iblk4_5_apply V c t (ix2 k q) _ rfl hc
  · exact iblk4_6_apply V c t (ix2 0 q) _ rfl hc

/-- An index of an output array is in point `t`'s block iff each coordinate is in the block's range on its axis. -/
theorem mem_blk4_7 (t : Fin cfg4.N) (i : S20000x64.Idx) :
    i ∈ ((cfg4.win 7).blk t).view.set ↔ ∀ a : Fin 2, win4_7.index t a * S2000x64.size a ≤ (i a).val ∧ (i a).val < win4_7.index t a * S2000x64.size a + S2000x64.size a := by
  show i ∈ ((View.whole main_v96_0).slice (win4_7.rect t)).set ↔ _
  rw [View.set_slice_whole, Rect.mem_set_unit]
  exact Iff.rfl

theorem mem_blk4_8 (t : Fin cfg4.N) (i : S20000x5.Idx) :
    i ∈ ((cfg4.win 8).blk t).view.set ↔ ∀ a : Fin 2, win4_8.index t a * S2000x5.size a ≤ (i a).val ∧ (i a).val < win4_8.index t a * S2000x5.size a + S2000x5.size a := by
  show i ∈ ((View.whole main_v96_1).slice (win4_8.rect t)).set ↔ _
  rw [View.set_slice_whole, Rect.mem_set_unit]
  exact Iff.rfl

/-- Every row of the normalised rows lies in the block of the point `row / 2000`. -/
theorem cover4_7 (i : S20000x64.Idx) : ∃ t : Fin cfg4.N, (cfg4.win 7).flush t = true ∧ i ∈ ((cfg4.win 7).blk t).view.set := by
  have hi0 : (i 0).val < 20000 := idx2_lt0 i
  have hi1 : (i 1).val < 64 := idx2_lt1 i
  have hN : cfg4.N = 10 := N_4
  let t : Fin cfg4.N := ⟨(i 0).val / 2000, by rw [hN]; omega⟩
  obtain ⟨e0, e1⟩ := idx4_7 t
  have ht : t.val = (i 0).val / 2000 := rfl
  refine ⟨t, flush4_7 t, ?_⟩
  rw [mem_blk4_7]
  intro a
  match a with
  | ⟨0, _⟩ => show win4_7.index t (0 : Fin 2) * 2000 ≤ (i 0).val ∧ (i 0).val < win4_7.index t (0 : Fin 2) * 2000 + 2000; omega
  | ⟨1, _⟩ => show win4_7.index t (1 : Fin 2) * 64 ≤ (i 1).val ∧ (i 1).val < win4_7.index t (1 : Fin 2) * 64 + 64; omega

/-- Every row of the head's output lies in the block of the point `row / 2000`. -/
theorem cover4_8 (i : S20000x5.Idx) : ∃ t : Fin cfg4.N, (cfg4.win 8).flush t = true ∧ i ∈ ((cfg4.win 8).blk t).view.set := by
  have hi0 : (i 0).val < 20000 := idx2_lt0 i
  have hi1 : (i 1).val < 5 := idx2_lt1 i
  have hN : cfg4.N = 10 := N_4
  let t : Fin cfg4.N := ⟨(i 0).val / 2000, by rw [hN]; omega⟩
  obtain ⟨e0, e1⟩ := idx4_8 t
  have ht : t.val = (i 0).val / 2000 := rfl
  refine ⟨t, flush4_8 t, ?_⟩
  rw [mem_blk4_8]
  intro a
  match a with
  | ⟨0, _⟩ => show win4_8.index t (0 : Fin 2) * 2000 ≤ (i 0).val ∧ (i 0).val < win4_8.index t (0 : Fin 2) * 2000 + 2000; omega
  | ⟨1, _⟩ => show win4_8.index t (1 : Fin 2) * 5 ≤ (i 1).val ∧ (i 1).val < win4_8.index t (1 : Fin 2) * 5 + 5; omega

/-- The two output arrays when region 4 is left: `G4_7` and `G4_8` of the region's input arrays as it found them. -/
theorem final4_7 : (Gen.dat4 (F := Ideal) V c).arrAt 7 cfg4.N
    = G4_7 (V c (Pipeline.arrRef spec4 0)) (V c (Pipeline.arrRef spec4 1)) (V c (Pipeline.arrRef spec4 2)) (V c (Pipeline.arrRef spec4 3))
        (V c (Pipeline.arrRef spec4 4)) :=
  (Gen.dat4 (F := Ideal) V c).arrAt_eq_of_cover 7 _ (fun t _ => flushed4_7_eq V c t) cover4_7

theorem final4_8 : (Gen.dat4 (F := Ideal) V c).arrAt 8 cfg4.N
    = G4_8 (V c (Pipeline.arrRef spec4 0)) (V c (Pipeline.arrRef spec4 1)) (V c (Pipeline.arrRef spec4 2)) (V c (Pipeline.arrRef spec4 3))
        (V c (Pipeline.arrRef spec4 4)) (V c (Pipeline.arrRef spec4 5)) (V c (Pipeline.arrRef spec4 6)) :=
  (Gen.dat4 (F := Ideal) V c).arrAt_eq_of_cover 8 _ (fun t _ => flushed4_8_eq V c t) cover4_8

end

end Cert.KernelIdeal.KVal

end
-- ==== Proof.KTower4.lean ====
/-
  The idealized kernel's run read as values, last part: the second layer's column statistics, the selected rows, and
  the last region's two result arrays, each as one function of the launch arrays.
-/
import proofs.«166090_j687194767719_2_alg».proof.Proof.KTower3
import proofs.«166090_j687194767719_2_alg».proof.Proof.KValFinal

set_option maxRecDepth 16384

noncomputable section

namespace Cert.KernelIdeal.KTower

open Cert.KernelIdeal Cert.KernelIdeal.Gen Idealize.ShloMosaic Idealize.ShloMosaic.TcCoe Idealize.SL.Sem Idealize.ShloMosaic.StableHlo

/-! ## The selected rows, the second normalization's statistics, and the two results -/

/-- A selection index brought into range: the node count added to a negative entry. -/
def wrapSel (r : IVec S20000 32) : IVec S20000 32 :=
  select (cmpi .slt r (broadcastInDim S20000 ![] bcast_S_S20000 (constantI S_ 32 0#32)))
    (addi r (broadcastInDim S20000 ![] bcast_S_S20000 (constantI S_ 32 100000#32))) r

/-- The rows of `h` the selection names. -/
def selOf (h : FVec Ideal S100000x64 .f32) (r : IVec S20000 32) : FVec Ideal S20000x64 .f32 :=
  Host.gather gather_S100000x64_S20000x1_S20000x64_1_0_n_n_0_1_164 h (broadcastInDim S20000x1 ![0] bcast_S20000_S20000x1_0 r)

/-- The second layer's column means and variances. -/
def mean1 (x : FVec Ideal S100000x128 .f32) (ei : IVec S2x1250000 32) (W0 : FVec Ideal S128x64 .f32) (b0 : FVec Ideal S64 .f32) (g0 : FVec Ideal S64 .f32) (be0 : FVec Ideal S64 .f32) (W1 : FVec Ideal S64x64 .f32) (b1 : FVec Ideal S64 .f32) : FVec Ideal S64 .f32 := meanOf (psum1 x ei W0 b0 g0 be0 W1 b1)
def var1 (x : FVec Ideal S100000x128 .f32) (ei : IVec S2x1250000 32) (W0 : FVec Ideal S128x64 .f32) (b0 : FVec Ideal S64 .f32) (g0 : FVec Ideal S64 .f32) (be0 : FVec Ideal S64 .f32) (W1 : FVec Ideal S64x64 .f32) (b1 : FVec Ideal S64 .f32) : FVec Ideal S64 .f32 := varOf (mean1 x ei W0 b0 g0 be0 W1 b1) (meanOf (psumsq1 x ei W0 b0 g0 be0 W1 b1))
/-- The selection brought into range, and the selected rows of the second layer's activation. -/
def idxN (idx : IVec S20000 32) : IVec S20000 32 := wrapSel idx
def sel (x : FVec Ideal S100000x128 .f32) (ei : IVec S2x1250000 32) (idx : IVec S20000 32) (W0 : FVec Ideal S128x64 .f32) (b0 : FVec Ideal S64 .f32) (g0 : FVec Ideal S64 .f32) (be0 : FVec Ideal S64 .f32) (W1 : FVec Ideal S64x64 .f32) (b1 : FVec Ideal S64 .f32) : FVec Ideal S20000x64 .f32 := selOf (leaky1 x ei W0 b0 g0 be0 W1 b1) (idxN idx)
/-- The second normalization's statistics and parameters, and the head's bias, as rows. -/
def mean1row (x : FVec Ideal S100000x128 .f32) (ei : IVec S2x1250000 32) (W0 : FVec Ideal S128x64 .f32) (b0 : FVec Ideal S64 .f32) (g0 : FVec Ideal S64 .f32) (be0 : FVec Ideal S64 .f32) (W1 : FVec Ideal S64x64 .f32) (b1 : FVec Ideal S64 .f32) : FVec Ideal S1x64 .f32 := rowOf64 (mean1 x ei W0 b0 g0 be0 W1 b1)
def var1row (x : FVec Ideal S100000x128 .f32) (ei : IVec S2x1250000 32) (W0 : FVec Ideal S128x64 .f32) (b0 : FVec Ideal S64 .f32) (g0 : FVec Ideal S64 .f32) (be0 : FVec Ideal S64 .f32) (W1 : FVec Ideal S64x64 .f32) (b1 : FVec Ideal S64 .f32) : FVec Ideal S1x64 .f32 := rowOf64 (var1 x ei W0 b0 g0 be0 W1 b1)
def gamma1row (g1 : FVec Ideal S64 .f32) : FVec Ideal S1x64 .f32 := rowOf64 g1
def beta1row (be1 : FVec Ideal S64 .f32) : FVec Ideal S1x64 .f32 := rowOf64 be1
def bmrow (bm : FVec Ideal S5 .f32) : FVec Ideal S1x5 .f32 := shapeCast S1x5 bm shapeCasts_S5_S1x5
/-- The first result: the selected rows normalized. -/
def hsel (x : FVec Ideal S100000x128 .f32) (ei : IVec S2x1250000 32) (idx : IVec S20000 32) (W0 : FVec Ideal S128x64 .f32) (b0 : FVec Ideal S64 .f32) (g0 : FVec Ideal S64 .f32) (be0 : FVec Ideal S64 .f32) (W1 : FVec Ideal S64x64 .f32) (b1 : FVec Ideal S64 .f32) (g1 : FVec Ideal S64 .f32) (be1 : FVec Ideal S64 .f32) : FVec Ideal S20000x64 .f32 :=
  KVal.G4_7 (sel x ei idx W0 b0 g0 be0 W1 b1) (mean1row x ei W0 b0 g0 be0 W1 b1) (var1row x ei W0 b0 g0 be0 W1 b1) (gamma1row g1) (beta1row be1)
/-- The second result: the head applied to the normalized rows. -/
def out (x : FVec Ideal S100000x128 .f32) (ei : IVec S2x1250000 32) (idx : IVec S20000 32) (W0 : FVec Ideal S128x64 .f32) (b0 : FVec Ideal S64 .f32) (g0 : FVec Ideal S64 .f32) (be0 : FVec Ideal S64 .f32) (W1 : FVec Ideal S64x64 .f32) (b1 : FVec Ideal S64 .f32) (g1 : FVec Ideal S64 .f32) (be1 : FVec Ideal S64 .f32) (Wm : FVec Ideal S64x5 .f32) (bm : FVec Ideal S5 .f32) : FVec Ideal S20000x5 .f32 :=
  KVal.G4_8 (sel x ei idx W0 b0 g0 be0 W1 b1) (mean1row x ei W0 b0 g0 be0 W1 b1) (var1row x ei W0 b0 g0 be0 W1 b1) (gamma1row g1) (beta1row be1) Wm (bmrow bm)

/-! ### The last stretch's right-hand sides in this file's terms -/

section Glue
attribute [local irreducible] Host.gather Host.reduceAdd

theorem glue_take (h : FVec Ideal S100000x64 .f32) (r : IVec S20000 32) :
    KStretch.takeRows h r = selOf h (wrapSel r) := rfl
theorem glue_row5 (v : FVec Ideal S5 .f32) : KStretch.row5 v = bmrow v := rfl

end Glue

section Reads
variable (m : (ℓ : Loc nD τ sig) → Buf (Elt Ideal) ℓ) (ρ : Dev nD → PrngReg) (c : Dev nD)

attribute [local irreducible] Host.gather Host.reduceAdd

theorem W10_arg2 : W10 m ρ c (Proc.devRef .tc main_arg2) = m ((c : Thread nD τ).loc main_arg2) := W10_of m ρ c _ (by decide) (by decide) (by decide) (by decide) (by decide) (by decide) (by decide) (by decide) (by decide) (by decide)
theorem W10_arg9 : W10 m ρ c (Proc.devRef .tc main_arg9) = m ((c : Thread nD τ).loc main_arg9) := W10_of m ρ c _ (by decide) (by decide) (by decide) (by decide) (by decide) (by decide) (by decide) (by decide) (by decide) (by decide)
theorem W10_arg10 : W10 m ρ c (Proc.devRef .tc main_arg10) = m ((c : Thread nD τ).loc main_arg10) := W10_of m ρ c _ (by decide) (by decide) (by decide) (by decide) (by decide) (by decide) (by decide) (by decide) (by decide) (by decide)
theorem W10_arg11 : W10 m ρ c (Proc.devRef .tc main_arg11) = m ((c : Thread nD τ).loc main_arg11) := W10_of m ρ c _ (by decide) (by decide) (by decide) (by decide) (by decide) (by decide) (by decide) (by decide) (by decide) (by decide)
theorem W10_arg12 : W10 m ρ c (Proc.devRef .tc main_arg12) = m ((c : Thread nD τ).loc main_arg12) := W10_of m ρ c _ (by decide) (by decide) (by decide) (by decide) (by decide) (by decide) (by decide) (by decide) (by decide) (by decide)

theorem W11_v90 : W11 m ρ c (Proc.devRef .tc main_v90) = sel (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (KStretch.s4_v90 _).trans ?_
  rw [W10_v69_0, W10_arg2, glue_take]; rfl
theorem W11_v91 : W11 m ρ c (Proc.devRef .tc main_v91) = mean1row (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (KStretch.s4_v91 _).trans ?_
  rw [W10_v69_1, glue_mean, glue_row64]; rfl
theorem W11_v92 : W11 m ρ c (Proc.devRef .tc main_v92) = var1row (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (KStretch.s4_v92 _).trans ?_
  rw [W10_v69_1, W10_v69_2, glue_var, glue_row64]; rfl
theorem W11_v93 : W11 m ρ c (Proc.devRef .tc main_v93) = gamma1row (m ((c : Thread nD τ).loc main_arg9)) := by
  refine (KStretch.s4_v93 _).trans ?_
  rw [W10_arg9, glue_row64]; rfl
theorem W11_v94 : W11 m ρ c (Proc.devRef .tc main_v94) = beta1row (m ((c : Thread nD τ).loc main_arg10)) := by
  refine (KStretch.s4_v94 _).trans ?_
  rw [W10_arg10, glue_row64]; rfl
theorem W11_v95 : W11 m ρ c (Proc.devRef .tc main_v95) = bmrow (m ((c : Thread nD τ).loc main_arg12)) := by
  refine (KStretch.s4_v95 _).trans ?_
  rw [W10_arg12, glue_row5]
theorem W11_arg11 : W11 m ρ c (Proc.devRef .tc main_arg11) = m ((c : Thread nD τ).loc main_arg11) :=
  (KStretch.keep4 _ _ (by decide)).trans (W10_arg11 m ρ c)

/-- The first result array at the end of the run, as a function of the launch arrays. -/
theorem kernel_hsel : W12 (F := Ideal) m ρ c (Proc.devRef .tc main_v96_0) = hsel (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W12_arr m ρ c 7).trans ((KVal.final4_7 (V11 m ρ) c).trans ?_)
  show KVal.G4_7 (W11 m ρ c (Proc.devRef .tc main_v90)) (W11 m ρ c (Proc.devRef .tc main_v91)) (W11 m ρ c (Proc.devRef .tc main_v92))
      (W11 m ρ c (Proc.devRef .tc main_v93)) (W11 m ρ c (Proc.devRef .tc main_v94)) = _
  rw [W11_v90, W11_v91, W11_v92, W11_v93, W11_v94]; rfl

/-- The second result array at the end of the run, as a function of the launch arrays. -/
theorem kernel_out : W12 (F := Ideal) m ρ c (Proc.devRef .tc main_v96_1) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W12_arr m ρ c 8).trans ((KVal.final4_8 (V11 m ρ) c).trans ?_)
  show KVal.G4_8 (W11 m ρ c (Proc.devRef .tc main_v90)) (W11 m ρ c (Proc.devRef .tc main_v91)) (W11 m ρ c (Proc.devRef .tc main_v92))
      (W11 m ρ c (Proc.devRef .tc main_v93)) (W11 m ρ c (Proc.devRef .tc main_v94)) (W11 m ρ c (Proc.devRef .tc main_arg11)) (W11 m ρ c (Proc.devRef .tc main_v95)) = _
  rw [W11_v90, W11_v91, W11_v92, W11_v93, W11_v94, W11_arg11, W11_v95]; rfl

end Reads

end Cert.KernelIdeal.KTower

end
-- ==== Proof.RTower0.lean ====
/- The reference program read as a tower of pure definitions, at the ideal float instance: one definition per named
   intermediate value as a function of the argument arrays and earlier intermediates it reads, and, per stretch of the
   operation list and per buffer a later stretch reads, the fold of the stretch at that buffer as those definitions over
   the stretch's input buffers, from any valuation. This module: through the first layer's activation. -/
import proofs.«166090_j687194767719_2_alg».proof.Proof.RefRun
import Idealize.ShloMosaic.PureOps.Ideal

noncomputable section

namespace Cert.ReferenceIdeal.RTower

open Cert.ReferenceIdeal Cert.ReferenceIdeal.Gen Cert.ReferenceIdeal.RefRun Idealize.ShloMosaic Idealize.ShloMosaic.TcCoe Idealize.SL.Sem Idealize.ShloMosaic.StableHlo

/-! ## The graph: endpoints, degrees, edge weights -/

/-- The edges' first endpoints followed by the self loops' (main_v3): row 0 of the edge array, then 0 … 99999. -/
def rowOf (ei : IVec S2x1250000 32) : IVec S1350000 32 :=
  concatenate S1350000 0
    [⟨S1250000, shapeCast S1250000 (extractStridedSlice S1x1250000 ![0, 0] ei slices_S2x1250000_S1x1250000_0_0)
        shapeCasts_S1x1250000_S1250000⟩,
     ⟨S100000, iotaInDim S100000 32 0⟩]
    concatenates_S1250000_S100000_S1350000_d0

/-- The edges' second endpoints followed by the self loops' (main_v6): row 1 of the edge array, then 0 … 99999. -/
def colOf (ei : IVec S2x1250000 32) : IVec S1350000 32 :=
  concatenate S1350000 0
    [⟨S1250000, shapeCast S1250000 (extractStridedSlice S1x1250000 ![1, 0] ei slices_S2x1250000_S1x1250000_1_0)
        shapeCasts_S1x1250000_S1250000⟩,
     ⟨S100000, iotaInDim S100000 32 0⟩]
    concatenates_S1250000_S100000_S1350000_d0

/-- The in-degree with self loops (main_v10): ones scatter-added at the second endpoints into zeros. -/
def deg (col : IVec S1350000 32) : FVec Ideal S100000 .f32 :=
  Host.scatterAdd scatter_S100000_S1350000x1_S1350000_n_0_0_1
    (broadcastInDim S100000 ![] bcast_S_S100000 (constant (F := Ideal) S_ .f32 0x00000000#32))
    (broadcastInDim S1350000x1 ![0] bcast_S1350000_S1350000x1_0 col)
    (broadcastInDim S1350000 ![] bcast_S_S1350000 (constant (F := Ideal) S_ .f32 0x3F800000#32))

/-- The reciprocal square root of the degree clamped below at 1e-12, zero where the degree is not positive (main_v16). -/
def dis (d : FVec Ideal S100000 .f32) : FVec Ideal S100000 .f32 :=
  select (cmpf .ogt d (broadcastInDim S100000 ![] bcast_S_S100000 (constant (F := Ideal) S_ .f32 0x00000000#32)))
    (Host.rsqrt (maximumf d (broadcastInDim S100000 ![] bcast_S_S100000 (constant (F := Ideal) S_ .f32 0x2B8CBCCC#32))))
    (broadcastInDim S100000 ![] bcast_S_S100000 (constant (F := Ideal) S_ .f32 0x00000000#32))

/-- An endpoint vector with negative entries wrapped by the node count (main_v21, main_v28, and again before each
    gather of features): the index normalization of a gather. -/
def wrapN (i : IVec S1350000 32) : IVec S1350000 32 :=
  select (cmpi .slt i (broadcastInDim S1350000 ![] bcast_S_S1350000 (constantI S_ 32 0#32)))
    (addi i (broadcastInDim S1350000 ![] bcast_S_S1350000 (constantI S_ 32 100000#32))) i

/-- The first endpoints, wrapped (main_v21). -/
abbrev rowN (row : IVec S1350000 32) : IVec S1350000 32 := wrapN row
/-- The second endpoints, wrapped (main_v28). -/
abbrev colN (col : IVec S1350000 32) : IVec S1350000 32 := wrapN col

/-- The edge weight (main_v31): the product of the two endpoints' normalizers. -/
def norm (d : FVec Ideal S100000 .f32) (rn cn : IVec S1350000 32) : FVec Ideal S1350000 .f32 :=
  mulf
    (Host.gather gather_S100000_S1350000x1_S1350000_n_0_n_n_0_1_1 d
      (broadcastInDim S1350000x1 ![0] bcast_S1350000_S1350000x1_0 rn))
    (Host.gather gather_S100000_S1350000x1_S1350000_n_0_n_n_0_1_1 d
      (broadcastInDim S1350000x1 ![0] bcast_S1350000_S1350000x1_0 cn))

/-! ## A graph convolution and its activation -/

/-- The first layer's feature transform (main_v32). -/
def xw0 (x : FVec Ideal S100000x128 .f32) (w : FVec Ideal S128x64 .f32) : FVec Ideal S100000x64 .f32 :=
  Host.dotGeneral dot_S100000x128_S128x64_S100000x64_1_0_0_1_n_n none x w

/-- The messages (main_v42, main_v79): the transformed features gathered at the wrapped first endpoints, each row
    scaled by its edge's weight. -/
def upd (xw : FVec Ideal S100000x64 .f32) (rn : IVec S1350000 32) (nrm : FVec Ideal S1350000 .f32) :
    FVec Ideal S1350000x64 .f32 :=
  mulf
    (Host.gather gather_S100000x64_S1350000x1_S1350000x64_1_0_n_n_0_1_164 xw
      (broadcastInDim S1350000x1 ![0] bcast_S1350000_S1350000x1_0 rn))
    (broadcastInDim S1350000x64 ![0, 1] bcast_S1350000x1_S1350000x64_0_1
      (broadcastInDim S1350000x1 ![0] bcast_S1350000_S1350000x1_0 nrm))

/-- The aggregation (main_v45, main_v82): the messages scatter-added at the second endpoints into zeros. -/
def agg (col : IVec S1350000 32) (u : FVec Ideal S1350000x64 .f32) : FVec Ideal S100000x64 .f32 :=
  Host.scatterAdd scatter_S100000x64_S1350000x1_S1350000x64_1_0_0_1
    (broadcastInDim S100000x64 ![] bcast_S_S100000x64 (constant (F := Ideal) S_ .f32 0x00000000#32))
    (broadcastInDim S1350000x1 ![0] bcast_S1350000_S1350000x1_0 col) u

/-- A vector of 64 repeated down the 100000 rows. -/
abbrev bcRow (v : FVec Ideal S64 .f32) : FVec Ideal S100000x64 .f32 :=
  broadcastInDim S100000x64 ![0, 1] bcast_S1x64_S100000x64_0_1 (broadcastInDim S1x64 ![1] bcast_S64_S1x64_1 v)

/-- The convolution's output (main_v48, main_v85): the aggregate plus the bias on every row. -/
def conv (a : FVec Ideal S100000x64 .f32) (b : FVec Ideal S64 .f32) : FVec Ideal S100000x64 .f32 :=
  addf a (bcRow b)

/-- The leaky rectifier of slope 0.01 (main_v49, main_v86). -/
def leaky (x : FVec Ideal S100000x64 .f32) : FVec Ideal S100000x64 .f32 :=
  select (cmpf .oge x (broadcastInDim S100000x64 ![] bcast_S_S100000x64 (constant (F := Ideal) S_ .f32 0x00000000#32))) x
    (mulf (broadcastInDim S100000x64 ![] bcast_S_S100000x64 (constant (F := Ideal) S_ .f32 0x3C23D70A#32)) x)

/-- The first layer's messages, aggregate, output and activation. -/
abbrev upd0 := upd
abbrev agg0 := agg
abbrev conv0 := conv
abbrev leaky0 := leaky

/-! ## The stretches read back -/

set_option maxRecDepth 8192
set_option maxHeartbeats 4000000

theorem r0_row (U : Valuation τ sig (Elt Ideal)) :
    after (r0 (F := Ideal)) U (Proc.devRef .tc main_v3)
      = rowOf (U (Proc.devRef .tc main_arg1)) := by
  simp only [r0]; after_results_simp; rfl

theorem r0_col (U : Valuation τ sig (Elt Ideal)) :
    after (r0 (F := Ideal)) U (Proc.devRef .tc main_v6)
      = colOf (U (Proc.devRef .tc main_arg1)) := by
  simp only [r0]; after_results_simp; rfl

/-- The selection closing the call of @_where, at any valuation: the select of the three buffers it reads. -/
theorem where0_select (G : Valuation τ sig (Elt Ideal)) :
    (TRef.ternary (τ := τ) (Val := Elt Ideal) (.of main_v12 : TRef sig ⟨S100000, .i1⟩)
        (.of main_v15 : TRef sig ⟨S100000, .f32⟩) main_call0.v1 main_call0.v2 select).result G (Proc.devRef .tc main_v16)
      = select (G (Proc.devRef .tc main_v12)) (G (Proc.devRef .tc main_v15)) (G (Proc.devRef .tc main_call0_v1)) := by
  rw [ternary_result]
  rfl

theorem r0_dis (U : Valuation τ sig (Elt Ideal)) :
    after (r0 (F := Ideal)) U (Proc.devRef .tc main_v16)
      = dis (deg (colOf (U (Proc.devRef .tc main_arg1)))) := by
  simp only [r0, after_cons, after_nil]
  rw [where0_select]
  simp (disch := decide) only [nullary_result', unary_result', binary_result', ternary_result', reshape_result',
    nullary_result_ne', unary_result_ne', binary_result_ne', ternary_result_ne', reshape_result_ne']
  rfl

theorem r1_norm (U : Valuation τ sig (Elt Ideal)) :
    after (r1 (F := Ideal)) U (Proc.devRef .tc main_v31)
      = norm (U (Proc.devRef .tc main_v16)) (rowN (U (Proc.devRef .tc main_v3))) (colN (U (Proc.devRef .tc main_v6))) := by
  simp only [r1]; after_results_simp; rfl

theorem r2_conv0 (U : Valuation τ sig (Elt Ideal)) :
    after (r2 (F := Ideal)) U (Proc.devRef .tc main_v48)
      = conv0 (agg0 (U (Proc.devRef .tc main_v6)) (upd0 (xw0 (U (Proc.devRef .tc main_arg0)) (U (Proc.devRef .tc main_arg3))) (rowN (U (Proc.devRef .tc main_v3)))
          (U (Proc.devRef .tc main_v31)))) (U (Proc.devRef .tc main_arg4)) := by
  simp only [r2]; after_results_simp; rfl

theorem r3_leaky0 (U : Valuation τ sig (Elt Ideal)) :
    after (r3 (F := Ideal)) U (Proc.devRef .tc main_v49)
      = leaky0 (U (Proc.devRef .tc main_v48)) := by
  simp only [r3]; after_results_simp; rfl

end Cert.ReferenceIdeal.RTower

end
-- ==== Proof.RStretch.lean ====
/- The reference program's last four stretches of host operations, each read at ANY incoming buffer contents `U`: the
   buffer a later stretch (or the claim) reads holds a named function of the buffers the stretch itself does not write.
   Stretch 8 takes the column means of the second layer's output, its column variances (the totals of the squared
   deviations over the node count, guarded by a select on the divisor's sign) and the reciprocal standard deviations;
   stretch 9 normalises the centred rows and applies the scale and shift; stretch 10 selects 20000 rows; stretch 11
   multiplies them into the head's weights, adds the bias and applies the logistic as one over one plus an exponential. -/
import proofs.«166090_j687194767719_2_alg».proof.Proof.RefRun
import Idealize.ShloMosaic.Lib.StableHlo.Run
import Idealize.ShloMosaic.PureOps.Ideal

set_option maxRecDepth 16384

noncomputable section

namespace Cert.ReferenceIdeal.RStretch

open Cert.ReferenceIdeal Cert.ReferenceIdeal.Gen Cert.ReferenceIdeal.RefRun Idealize.ShloMosaic Idealize.ShloMosaic.TcCoe Idealize.SL.Sem Idealize.ShloMosaic.StableHlo

/-! ## The reference's last four stretches, as functions of the arrays they read -/

/-- The zero scalar. -/
def zeroS : FVec Ideal S_ .f32 := constant (F := Ideal) S_ .f32 0x00000000#32

/-- The node count, 100000, as an f32 word. -/
def countS : FVec Ideal S_ .f32 := constant (F := Ideal) S_ .f32 0x47C35000#32

/-- A vector of 64 laid along every one of the 100000 rows. -/
def tile64 (v : FVec Ideal S64 .f32) : FVec Ideal S100000x64 .f32 :=
  broadcastInDim S100000x64 ![0, 1] bcast_S1x64_S100000x64_0_1 (broadcastInDim S1x64 ![1] bcast_S64_S1x64_1 v)

/-- The column totals over the 100000 rows. -/
def colTotal (h : FVec Ideal S100000x64 .f32) : FVec Ideal S64 .f32 :=
  Host.reduceAdd (F := Ideal) h zeroS reducesTo_S100000x64_S64_d0 h_S_

/-- The column means: the totals over the node count. -/
def meanR (h : FVec Ideal S100000x64 .f32) : FVec Ideal S64 .f32 :=
  Host.divf (F := Ideal) (colTotal h) (broadcastInDim S64 ![] bcast_S_S64 countS)

/-- The rows less the column means. -/
def centered (h : FVec Ideal S100000x64 .f32) : FVec Ideal S100000x64 .f32 := subf (F := Ideal) h (tile64 (meanR h))

/-- The variance's divisor: the node count less the zero correction, converted from an integer. -/
def divisorS : FVec Ideal S_ .f32 := subf (F := Ideal) countS (sitofp (F := Ideal) .f32 (constantI S_ 32 0#32))

/-- The variance's own deviations: the rows less the column means computed as a kept [1, 64] row. -/
def devR (h : FVec Ideal S100000x64 .f32) : FVec Ideal S100000x64 .f32 :=
  subf (F := Ideal) h (broadcastInDim S100000x64 ![0, 1] bcast_S1x64_S100000x64_0_1
    (Host.divf (F := Ideal) (broadcastInDim S1x64 ![1] bcast_S64_S1x64_1 (colTotal h)) (broadcastInDim S1x64 ![] bcast_S_S1x64 countS)))

/-- The column variances: the column totals of the squared deviations over the divisor where the divisor is positive,
    the not-a-number word `0x7FC00000` elsewhere. -/
def varR (h : FVec Ideal S100000x64 .f32) : FVec Ideal S64 .f32 :=
  select (broadcastInDim S64 ![] bcast_S_S64 (cmpf (F := Ideal) .ogt divisorS zeroS))
    (Host.divf (F := Ideal) (Host.reduceAdd (F := Ideal) (mulf (F := Ideal) (devR h) (devR h)) zeroS reducesTo_S100000x64_S64_d0 h_S_)
      (broadcastInDim S64 ![] bcast_S_S64 divisorS))
    (broadcastInDim S64 ![] bcast_S_S64 (constant (F := Ideal) S_ .f32 0x7FC00000#32))

/-- The reciprocal standard deviations: the reciprocal square root of a variance plus the small constant. -/
def rstdOf (v : FVec Ideal S64 .f32) : FVec Ideal S64 .f32 :=
  Host.rsqrt (F := Ideal) (addf (F := Ideal) v (broadcastInDim S64 ![] bcast_S_S64 (constant (F := Ideal) S_ .f32 0x3727C5AC#32)))

/-- The normalisation: centred rows times the reciprocal deviations, times the scale, plus the shift. -/
def affineR (cen : FVec Ideal S100000x64 .f32) (rstd g b : FVec Ideal S64 .f32) : FVec Ideal S100000x64 .f32 :=
  addf (F := Ideal) (mulf (F := Ideal) (mulf (F := Ideal) cen (tile64 rstd)) (tile64 g)) (tile64 b)

/-- The selected node indices with the negative ones wrapped round the node count. -/
def wrapSel (idx : IVec S20000 32) : IVec S20000 32 :=
  select (cmpi .slt idx (broadcastInDim S20000 ![] bcast_S_S20000 (constantI S_ 32 0#32)))
    (addi idx (broadcastInDim S20000 ![] bcast_S_S20000 (constantI S_ 32 100000#32))) idx

/-- The selected rows of `h`. -/
def takeRows (h : FVec Ideal S100000x64 .f32) (idx : IVec S20000 32) : FVec Ideal S20000x64 .f32 :=
  Host.gather gather_S100000x64_S20000x1_S20000x64_1_0_n_n_0_1_164 h
    (broadcastInDim S20000x1 ![0] bcast_S20000_S20000x1_0 (wrapSel idx))

/-- The head before the logistic: the selected rows against the head's weights, plus its bias along every row. -/
def logitsR (hs : FVec Ideal S20000x64 .f32) (Wm : FVec Ideal S64x5 .f32) (bm : FVec Ideal S5 .f32) : FVec Ideal S20000x5 .f32 :=
  addf (F := Ideal) (Host.dotGeneral (F := Ideal) dot_S20000x64_S64x5_S20000x5_1_0_0_1_n_n none hs Wm)
    (broadcastInDim S20000x5 ![0, 1] bcast_S1x5_S20000x5_0_1 (broadcastInDim S1x5 ![1] bcast_S5_S1x5_1 bm))

/-- One, at every entry of the head's output. -/
def onesR : FVec Ideal S20000x5 .f32 := broadcastInDim S20000x5 ![] bcast_S_S20000x5 (constant (F := Ideal) S_ .f32 0x3F800000#32)

/-- The logistic spelt out: one over one plus the exponential of the negation. -/
def logisticR (z : FVec Ideal S20000x5 .f32) : FVec Ideal S20000x5 .f32 :=
  Host.divf (F := Ideal) onesR (addf (F := Ideal) onesR (Host.exp (F := Ideal) (Host.negf (F := Ideal) z)))

/-! ## The four stretches read at a generic incoming valuation -/

section Stretches
variable (U : Valuation τ sig (Elt Ideal))

attribute [local irreducible] Host.gather Host.reduceAdd

set_option maxHeartbeats 1000000 in
theorem s8_v89 : after (r8 (F := Ideal)) U (Proc.devRef .tc main_v89)
    = meanR (U (Proc.devRef .tc main_v86)) := by
  simp only [r8]; after_results_simp; rfl

set_option maxHeartbeats 1000000 in
theorem s8_v90 : after (r8 (F := Ideal)) U (Proc.devRef .tc main_v90)
    = varR (U (Proc.devRef .tc main_v86)) := by
  simp only [r8]; after_results_simp; rfl

set_option maxHeartbeats 1000000 in
theorem s8_v93 : after (r8 (F := Ideal)) U (Proc.devRef .tc main_v93)
    = centered (U (Proc.devRef .tc main_v86)) := by
  simp only [r8]; after_results_simp; rfl

set_option maxHeartbeats 1000000 in
theorem s8_v96 : after (r8 (F := Ideal)) U (Proc.devRef .tc main_v96)
    = rstdOf (varR (U (Proc.devRef .tc main_v86))) := by
  simp only [r8]; after_results_simp; rfl

set_option maxHeartbeats 1000000 in
theorem s9_v105 : after (r9 (F := Ideal)) U (Proc.devRef .tc main_v105)
    = affineR (U (Proc.devRef .tc main_v93)) (U (Proc.devRef .tc main_v96)) (U (Proc.devRef .tc main_arg9)) (U (Proc.devRef .tc main_arg10)) := by
  simp only [r9]; after_results_simp; rfl

set_option maxHeartbeats 1000000 in
theorem s10_v112 : after (r10 (F := Ideal)) U (Proc.devRef .tc main_v112)
    = takeRows (U (Proc.devRef .tc main_v105)) (U (Proc.devRef .tc main_arg2)) := by
  simp only [r10]; after_results_simp; rfl

set_option maxHeartbeats 1000000 in
theorem s11_v122 : after (r11 (F := Ideal)) U (Proc.devRef .tc main_v122)
    = logisticR (logitsR (U (Proc.devRef .tc main_v112)) (U (Proc.devRef .tc main_arg11)) (U (Proc.devRef .tc main_arg12))) := by
  simp only [r11]; after_results_simp; rfl

end Stretches

end Cert.ReferenceIdeal.RStretch

end
-- ==== Proof.RTower1.lean ====
/- The reference program's tower of pure definitions, continued: the second graph convolution's feature transform, and the
   stretches 4 … 7 of the operation list read back, from any valuation — the normalization after the first convolution
   through the definitions of the column statistics shared with the second, and the second convolution and activation
   through the first's definitions. -/
import proofs.«166090_j687194767719_2_alg».proof.Proof.RTower0
import proofs.«166090_j687194767719_2_alg».proof.Proof.RStretch

noncomputable section

namespace Cert.ReferenceIdeal.RTower

open Cert.ReferenceIdeal Cert.ReferenceIdeal.Gen Cert.ReferenceIdeal.RefRun Cert.ReferenceIdeal.RStretch Idealize.ShloMosaic Idealize.ShloMosaic.TcCoe Idealize.SL.Sem Idealize.ShloMosaic.StableHlo

/-! ## The first normalization and the second graph convolution -/

/-- The first normalization's column mean (main_v52), variance (main_v53), reciprocal deviation (main_v59) and output
    (main_v68): the column statistics and the affine map, the same functions at both layers. -/
abbrev mean0 := meanR
abbrev var0 := varR
abbrev rs0 := rstdOf
abbrev h0 := affineR

/-- The second layer's feature transform (main_v69). -/
def xw1 (h : FVec Ideal S100000x64 .f32) (w : FVec Ideal S64x64 .f32) : FVec Ideal S100000x64 .f32 :=
  Host.dotGeneral dot_S100000x64_S64x64_S100000x64_1_0_0_1_n_n none h w

/-- The second layer's messages, aggregate, output and activation: the first's functions. -/
abbrev upd1 := upd
abbrev agg1 := agg
abbrev conv1 := conv
abbrev leaky1 := leaky

/-! ## The stretches read back -/

set_option maxRecDepth 16384

attribute [local irreducible] Host.gather Host.reduceAdd

set_option maxHeartbeats 1000000 in
theorem s4_v52 (U : Valuation τ sig (Elt Ideal)) :
    after (r4 (F := Ideal)) U (Proc.devRef .tc main_v52)
      = mean0 (U (Proc.devRef .tc main_v49)) := by
  simp only [r4]; after_results_simp; rfl

set_option maxHeartbeats 1000000 in
theorem s4_v53 (U : Valuation τ sig (Elt Ideal)) :
    after (r4 (F := Ideal)) U (Proc.devRef .tc main_v53)
      = var0 (U (Proc.devRef .tc main_v49)) := by
  simp only [r4]; after_results_simp; rfl

set_option maxHeartbeats 1000000 in
theorem s4_v56 (U : Valuation τ sig (Elt Ideal)) :
    after (r4 (F := Ideal)) U (Proc.devRef .tc main_v56)
      = centered (U (Proc.devRef .tc main_v49)) := by
  simp only [r4]; after_results_simp; rfl

set_option maxHeartbeats 1000000 in
theorem s4_v59 (U : Valuation τ sig (Elt Ideal)) :
    after (r4 (F := Ideal)) U (Proc.devRef .tc main_v59)
      = rs0 (var0 (U (Proc.devRef .tc main_v49))) := by
  simp only [r4]; after_results_simp; rfl

set_option maxHeartbeats 1000000 in
theorem s5_v68 (U : Valuation τ sig (Elt Ideal)) :
    after (r5 (F := Ideal)) U (Proc.devRef .tc main_v68)
      = h0 (U (Proc.devRef .tc main_v56)) (U (Proc.devRef .tc main_v59)) (U (Proc.devRef .tc main_arg5)) (U (Proc.devRef .tc main_arg6)) := by
  simp only [r5]; after_results_simp; rfl

set_option maxHeartbeats 1000000 in
theorem r6_conv1 (U : Valuation τ sig (Elt Ideal)) :
    after (r6 (F := Ideal)) U (Proc.devRef .tc main_v85)
      = conv1 (agg1 (U (Proc.devRef .tc main_v6)) (upd1 (xw1 (U (Proc.devRef .tc main_v68)) (U (Proc.devRef .tc main_arg7))) (rowN (U (Proc.devRef .tc main_v3)))
          (U (Proc.devRef .tc main_v31)))) (U (Proc.devRef .tc main_arg8)) := by
  simp only [r6]; after_results_simp; rfl

set_option maxHeartbeats 1000000 in
theorem r7_leaky1 (U : Valuation τ sig (Elt Ideal)) :
    after (r7 (F := Ideal)) U (Proc.devRef .tc main_v86)
      = leaky1 (U (Proc.devRef .tc main_v85)) := by
  simp only [r7]; after_results_simp; rfl

end Cert.ReferenceIdeal.RTower

end
-- ==== Proof.RTower2.lean ====
/- The reference program's tower of pure definitions, closed: the second normalization, the row selection and the output
   layer through the definitions shared with the last four stretches' reads; the two results as functions of the thirteen
   argument arrays; and the fold of the whole operation list at the two result buffers, from any valuation, as those
   functions of the valuation's argument buffers — the stretches' reads chained, every buffer a stretch does not write
   carried across it. -/
import proofs.«166090_j687194767719_2_alg».proof.Proof.RTower1

noncomputable section

namespace Cert.ReferenceIdeal.RTower

open Cert.ReferenceIdeal Cert.ReferenceIdeal.Gen Cert.ReferenceIdeal.RefRun Cert.ReferenceIdeal.RStretch Idealize.ShloMosaic Idealize.ShloMosaic.TcCoe Idealize.SL.Sem Idealize.ShloMosaic.StableHlo

/-! ## The second normalization, the selection, the output -/

/-- The second normalization's column mean (main_v89), variance (main_v90), reciprocal deviation (main_v96) and output
    (main_v105): the same functions as the first's. -/
abbrev mean1 := meanR
abbrev var1 := varR
abbrev rs1 := rstdOf
abbrev h1 := affineR

/-- The selected node indices, negative ones wrapped by the node count (main_v110). -/
abbrev idxN := wrapSel

/-- The rows of the normalized features at wrapped indices (main_v112). -/
def hsel (h : FVec Ideal S100000x64 .f32) (ix : IVec S20000 32) : FVec Ideal S20000x64 .f32 :=
  Host.gather gather_S100000x64_S20000x1_S20000x64_1_0_n_n_0_1_164 h
    (broadcastInDim S20000x1 ![0] bcast_S20000_S20000x1_0 ix)

/-- Selecting rows is the gather at the wrapped indices. -/
theorem takeRows_eq (h : FVec Ideal S100000x64 .f32) (idx : IVec S20000 32) : takeRows h idx = hsel h (idxN idx) := rfl

/-- The output (main_v122): the logistic function of the selected rows' affine image. -/
def out (hs : FVec Ideal S20000x64 .f32) (w : FVec Ideal S64x5 .f32) (b : FVec Ideal S5 .f32) : FVec Ideal S20000x5 .f32 :=
  logisticR (logitsR hs w b)

/-! ## The intermediates as functions of the argument arrays

In the program's argument order: the features x, the edge array ei, the selected indices idx, then per layer the weight,
the bias, the normalization's scale and shift, and the output layer's weight and bias. -/

/-- The edge weights (main_v31) of an edge array. -/
def normOf (ei : IVec S2x1250000 32) : FVec Ideal S1350000 .f32 :=
  norm (dis (deg (colOf ei))) (rowN (rowOf ei)) (colN (colOf ei))

/-- The first convolution's output (main_v48). -/
def conv0Of (x : FVec Ideal S100000x128 .f32) (ei : IVec S2x1250000 32) (w0 : FVec Ideal S128x64 .f32) (b0 : FVec Ideal S64 .f32) : FVec Ideal S100000x64 .f32 :=
  conv0 (agg0 (colOf ei) (upd0 (xw0 x w0) (rowN (rowOf ei)) (normOf ei))) b0

/-- The first activation (main_v49). -/
def leaky0Of (x : FVec Ideal S100000x128 .f32) (ei : IVec S2x1250000 32) (w0 : FVec Ideal S128x64 .f32) (b0 : FVec Ideal S64 .f32) : FVec Ideal S100000x64 .f32 :=
  leaky0 (conv0Of x ei w0 b0)

/-- The first normalization's output (main_v68). -/
def h0Of (x : FVec Ideal S100000x128 .f32) (ei : IVec S2x1250000 32) (w0 : FVec Ideal S128x64 .f32) (b0 : FVec Ideal S64 .f32) (g0 : FVec Ideal S64 .f32) (be0 : FVec Ideal S64 .f32) : FVec Ideal S100000x64 .f32 :=
  h0 (centered (leaky0Of x ei w0 b0)) (rs0 (var0 (leaky0Of x ei w0 b0))) g0 be0

/-- The second convolution's output (main_v85). -/
def conv1Of (x : FVec Ideal S100000x128 .f32) (ei : IVec S2x1250000 32) (w0 : FVec Ideal S128x64 .f32) (b0 : FVec Ideal S64 .f32) (g0 : FVec Ideal S64 .f32) (be0 : FVec Ideal S64 .f32) (w1 : FVec Ideal S64x64 .f32) (b1 : FVec Ideal S64 .f32) : FVec Ideal S100000x64 .f32 :=
  conv1 (agg1 (colOf ei) (upd1 (xw1 (h0Of x ei w0 b0 g0 be0) w1) (rowN (rowOf ei)) (normOf ei))) b1

/-- The second activation (main_v86). -/
def leaky1Of (x : FVec Ideal S100000x128 .f32) (ei : IVec S2x1250000 32) (w0 : FVec Ideal S128x64 .f32) (b0 : FVec Ideal S64 .f32) (g0 : FVec Ideal S64 .f32) (be0 : FVec Ideal S64 .f32) (w1 : FVec Ideal S64x64 .f32) (b1 : FVec Ideal S64 .f32) : FVec Ideal S100000x64 .f32 :=
  leaky1 (conv1Of x ei w0 b0 g0 be0 w1 b1)

/-- The second normalization's output (main_v105). -/
def h1Of (x : FVec Ideal S100000x128 .f32) (ei : IVec S2x1250000 32) (w0 : FVec Ideal S128x64 .f32) (b0 : FVec Ideal S64 .f32) (g0 : FVec Ideal S64 .f32) (be0 : FVec Ideal S64 .f32) (w1 : FVec Ideal S64x64 .f32) (b1 : FVec Ideal S64 .f32) (g1 : FVec Ideal S64 .f32) (be1 : FVec Ideal S64 .f32) : FVec Ideal S100000x64 .f32 :=
  h1 (centered (leaky1Of x ei w0 b0 g0 be0 w1 b1)) (rs1 (var1 (leaky1Of x ei w0 b0 g0 be0 w1 b1))) g1 be1

/-- The first result (main_v112): the selected rows of the second normalization's output. -/
def hselOf (x : FVec Ideal S100000x128 .f32) (ei : IVec S2x1250000 32) (idx : IVec S20000 32) (w0 : FVec Ideal S128x64 .f32) (b0 : FVec Ideal S64 .f32) (g0 : FVec Ideal S64 .f32) (be0 : FVec Ideal S64 .f32) (w1 : FVec Ideal S64x64 .f32) (b1 : FVec Ideal S64 .f32) (g1 : FVec Ideal S64 .f32) (be1 : FVec Ideal S64 .f32) : FVec Ideal S20000x64 .f32 :=
  hsel (h1Of x ei w0 b0 g0 be0 w1 b1 g1 be1) (idxN idx)

/-- The second result (main_v122): the output layer on the selected rows. -/
def outOf (x : FVec Ideal S100000x128 .f32) (ei : IVec S2x1250000 32) (idx : IVec S20000 32) (w0 : FVec Ideal S128x64 .f32) (b0 : FVec Ideal S64 .f32) (g0 : FVec Ideal S64 .f32) (be0 : FVec Ideal S64 .f32) (w1 : FVec Ideal S64x64 .f32) (b1 : FVec Ideal S64 .f32) (g1 : FVec Ideal S64 .f32) (be1 : FVec Ideal S64 .f32) (w2 : FVec Ideal S64x5 .f32) (b2 : FVec Ideal S5 .f32) : FVec Ideal S20000x5 .f32 :=
  out (hselOf x ei idx w0 b0 g0 be0 w1 b1 g1 be1) w2 b2

/-! ## The stretches chained

The stretches as opaque constants (so that a rewriting rule about one stretch is found by the stretch's name, not by
its two dozen operations), the fold of the whole line over them, and the rewriting rules: per stretch, the buffers it
does not write keep their contents, and each buffer a later stretch reads is the stretch's read-back term. -/

def R0 : List (HloOp τ sig (Elt Ideal)) := r0
def R1 : List (HloOp τ sig (Elt Ideal)) := r1
def R2 : List (HloOp τ sig (Elt Ideal)) := r2
def R3 : List (HloOp τ sig (Elt Ideal)) := r3
def R4 : List (HloOp τ sig (Elt Ideal)) := r4
def R5 : List (HloOp τ sig (Elt Ideal)) := r5
def R6 : List (HloOp τ sig (Elt Ideal)) := r6
def R7 : List (HloOp τ sig (Elt Ideal)) := r7
def R8 : List (HloOp τ sig (Elt Ideal)) := r8
def R9 : List (HloOp τ sig (Elt Ideal)) := r9
def R10 : List (HloOp τ sig (Elt Ideal)) := r10
def R11 : List (HloOp τ sig (Elt Ideal)) := r11

theorem after_opsR (V : Valuation τ sig (Elt Ideal)) :
    after (ops (F := Ideal)) V = after R11 (after R10 (after R9 (after R8 (after R7 (after R6 (after R5 (after R4 (after R3 (after R2 (after R1 (after R0 (V)))))))))))) := after_ops V

theorem k0 (U : Valuation τ sig (Elt Ideal)) {r : Ref sig .tc} (hr : r ∉ W0) :
    after R0 U (no_index (Proc.devRef .tc r)) = U (Proc.devRef .tc r) := r0_keeps U hr
theorem k1 (U : Valuation τ sig (Elt Ideal)) {r : Ref sig .tc} (hr : r ∉ W1) :
    after R1 U (no_index (Proc.devRef .tc r)) = U (Proc.devRef .tc r) := r1_keeps U hr
theorem k2 (U : Valuation τ sig (Elt Ideal)) {r : Ref sig .tc} (hr : r ∉ W2) :
    after R2 U (no_index (Proc.devRef .tc r)) = U (Proc.devRef .tc r) := r2_keeps U hr
theorem k3 (U : Valuation τ sig (Elt Ideal)) {r : Ref sig .tc} (hr : r ∉ W3) :
    after R3 U (no_index (Proc.devRef .tc r)) = U (Proc.devRef .tc r) := r3_keeps U hr
theorem k4 (U : Valuation τ sig (Elt Ideal)) {r : Ref sig .tc} (hr : r ∉ W4) :
    after R4 U (no_index (Proc.devRef .tc r)) = U (Proc.devRef .tc r) := r4_keeps U hr
theorem k5 (U : Valuation τ sig (Elt Ideal)) {r : Ref sig .tc} (hr : r ∉ W5) :
    after R5 U (no_index (Proc.devRef .tc r)) = U (Proc.devRef .tc r) := r5_keeps U hr
theorem k6 (U : Valuation τ sig (Elt Ideal)) {r : Ref sig .tc} (hr : r ∉ W6) :
    after R6 U (no_index (Proc.devRef .tc r)) = U (Proc.devRef .tc r) := r6_keeps U hr
theorem k7 (U : Valuation τ sig (Elt Ideal)) {r : Ref sig .tc} (hr : r ∉ W7) :
    after R7 U (no_index (Proc.devRef .tc r)) = U (Proc.devRef .tc r) := r7_keeps U hr
theorem k8 (U : Valuation τ sig (Elt Ideal)) {r : Ref sig .tc} (hr : r ∉ W8) :
    after R8 U (no_index (Proc.devRef .tc r)) = U (Proc.devRef .tc r) := r8_keeps U hr
theorem k9 (U : Valuation τ sig (Elt Ideal)) {r : Ref sig .tc} (hr : r ∉ W9) :
    after R9 U (no_index (Proc.devRef .tc r)) = U (Proc.devRef .tc r) := r9_keeps U hr
theorem k10 (U : Valuation τ sig (Elt Ideal)) {r : Ref sig .tc} (hr : r ∉ W10) :
    after R10 U (no_index (Proc.devRef .tc r)) = U (Proc.devRef .tc r) := r10_keeps U hr
theorem k11 (U : Valuation τ sig (Elt Ideal)) {r : Ref sig .tc} (hr : r ∉ W11) :
    after R11 U (no_index (Proc.devRef .tc r)) = U (Proc.devRef .tc r) := r11_keeps U hr

theorem q0_row (U : Valuation τ sig (Elt Ideal)) :
    after R0 U (no_index (Proc.devRef .tc main_v3)) = rowOf (U (Proc.devRef .tc main_arg1)) := r0_row U
theorem q0_col (U : Valuation τ sig (Elt Ideal)) :
    after R0 U (no_index (Proc.devRef .tc main_v6)) = colOf (U (Proc.devRef .tc main_arg1)) := r0_col U
theorem q0_dis (U : Valuation τ sig (Elt Ideal)) :
    after R0 U (no_index (Proc.devRef .tc main_v16)) = dis (deg (colOf (U (Proc.devRef .tc main_arg1)))) := r0_dis U
theorem q1_norm (U : Valuation τ sig (Elt Ideal)) :
    after R1 U (no_index (Proc.devRef .tc main_v31)) = norm (U (Proc.devRef .tc main_v16)) (rowN (U (Proc.devRef .tc main_v3))) (colN (U (Proc.devRef .tc main_v6))) := r1_norm U
theorem q2_conv0 (U : Valuation τ sig (Elt Ideal)) :
    after R2 U (no_index (Proc.devRef .tc main_v48)) = conv0 (agg0 (U (Proc.devRef .tc main_v6)) (upd0 (xw0 (U (Proc.devRef .tc main_arg0)) (U (Proc.devRef .tc main_arg3))) (rowN (U (Proc.devRef .tc main_v3))) (U (Proc.devRef .tc main_v31)))) (U (Proc.devRef .tc main_arg4)) := r2_conv0 U
theorem q3_leaky0 (U : Valuation τ sig (Elt Ideal)) :
    after R3 U (no_index (Proc.devRef .tc main_v49)) = leaky0 (U (Proc.devRef .tc main_v48)) := r3_leaky0 U
theorem q4_cen (U : Valuation τ sig (Elt Ideal)) :
    after R4 U (no_index (Proc.devRef .tc main_v56)) = centered (U (Proc.devRef .tc main_v49)) := s4_v56 U
theorem q4_rs (U : Valuation τ sig (Elt Ideal)) :
    after R4 U (no_index (Proc.devRef .tc main_v59)) = rs0 (var0 (U (Proc.devRef .tc main_v49))) := s4_v59 U
theorem q5_h0 (U : Valuation τ sig (Elt Ideal)) :
    after R5 U (no_index (Proc.devRef .tc main_v68)) = h0 (U (Proc.devRef .tc main_v56)) (U (Proc.devRef .tc main_v59)) (U (Proc.devRef .tc main_arg5)) (U (Proc.devRef .tc main_arg6)) := s5_v68 U
theorem q6_conv1 (U : Valuation τ sig (Elt Ideal)) :
    after R6 U (no_index (Proc.devRef .tc main_v85)) = conv1 (agg1 (U (Proc.devRef .tc main_v6)) (upd1 (xw1 (U (Proc.devRef .tc main_v68)) (U (Proc.devRef .tc main_arg7))) (rowN (U (Proc.devRef .tc main_v3))) (U (Proc.devRef .tc main_v31)))) (U (Proc.devRef .tc main_arg8)) := r6_conv1 U
theorem q7_leaky1 (U : Valuation τ sig (Elt Ideal)) :
    after R7 U (no_index (Proc.devRef .tc main_v86)) = leaky1 (U (Proc.devRef .tc main_v85)) := r7_leaky1 U
theorem q8_cen (U : Valuation τ sig (Elt Ideal)) :
    after R8 U (no_index (Proc.devRef .tc main_v93)) = centered (U (Proc.devRef .tc main_v86)) := s8_v93 U
theorem q8_rs (U : Valuation τ sig (Elt Ideal)) :
    after R8 U (no_index (Proc.devRef .tc main_v96)) = rs1 (var1 (U (Proc.devRef .tc main_v86))) := s8_v96 U
theorem q9_h1 (U : Valuation τ sig (Elt Ideal)) :
    after R9 U (no_index (Proc.devRef .tc main_v105)) = h1 (U (Proc.devRef .tc main_v93)) (U (Proc.devRef .tc main_v96)) (U (Proc.devRef .tc main_arg9)) (U (Proc.devRef .tc main_arg10)) := s9_v105 U
theorem q10_hsel (U : Valuation τ sig (Elt Ideal)) :
    after R10 U (no_index (Proc.devRef .tc main_v112)) = takeRows (U (Proc.devRef .tc main_v105)) (U (Proc.devRef .tc main_arg2)) := s10_v112 U
theorem q11_out (U : Valuation τ sig (Elt Ideal)) :
    after R11 U (no_index (Proc.devRef .tc main_v122)) = logisticR (logitsR (U (Proc.devRef .tc main_v112)) (U (Proc.devRef .tc main_arg11)) (U (Proc.devRef .tc main_arg12))) := s11_v122 U

/-! ## The two results -/

set_option maxRecDepth 16384
set_option maxHeartbeats 4000000

/-- The fold of the whole line at the first result buffer: the selected rows, as a function of the eleven arguments
    they depend on. -/
theorem ref_hsel (V : Valuation τ sig (Elt Ideal)) :
    after (ops (F := Ideal)) V (Proc.devRef .tc main_v112)
      = hselOf (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [after_opsR]
  simp (disch := decide) only [k0, k1, k2, k3, k4, k5, k6, k7, k8, k9, k10, k11,
    q0_row, q0_col, q0_dis, q1_norm, q2_conv0, q3_leaky0, q4_cen, q4_rs, q5_h0, q6_conv1, q7_leaky1, q8_cen, q8_rs, q9_h1, q10_hsel, q11_out]
  rfl

/-- The fold of the whole line at the second result buffer: the output, as a function of the thirteen arguments. -/
theorem ref_out (V : Valuation τ sig (Elt Ideal)) :
    after (ops (F := Ideal)) V (Proc.devRef .tc main_v122)
      = outOf (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [after_opsR]
  simp (disch := decide) only [k0, k1, k2, k3, k4, k5, k6, k7, k8, k9, k10, k11,
    q0_row, q0_col, q0_dis, q1_norm, q2_conv0, q3_leaky0, q4_cen, q4_rs, q5_h0, q6_conv1, q7_leaky1, q8_cen, q8_rs, q9_h1, q10_hsel, q11_out]
  rfl

end Cert.ReferenceIdeal.RTower

end
-- ==== Proof.PreFinite.lean ====
/-
  Finite inputs are real numbers.

  The precondition says, array by array, that every entry's absolute value is below +∞.  An extended real whose
  absolute value `max x (−x)` is below ⊤ is neither ⊤ nor ⊥, hence a real number.  The test is a conjunction of one
  `all`-reduction per float argument; each conjunct being 1 gives the fact at every index of that argument.
-/
import proofs.«166090_j687194767719_2_alg».proof.Pre_finite_inputs
import proofs.«166090_j687194767719_2_alg».proof.Proof.Gen.Pre_finite_inputs
import Idealize.ShloMosaic.PureOps.Ideal
import Idealize.ShloMosaic.Lib.ReduceAll
import Idealize.ShloMosaic.Lib.ValueIdx
import Idealize.ShloMosaic.Lib.Affine

noncomputable section

namespace Cert.PreFinite

open Idealize.ShloMosaic Idealize.ShloMosaic.ValueIdx Cert.Pre_finite_inputs

instance : Subsingleton S_.Idx := ⟨fun a b => funext fun d => d.elim0⟩

/-- An extended real whose absolute value is below +∞ is a real number. -/
theorem real_of_abs_lt_top (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  unfold Ideal.cmp at h
  have hlt : max x (-x) < ⊤ := by
    by_contra hc
    simp [hc] at h
  induction x using EReal.rec with
  | bot => simp at hlt
  | coe r => exact ⟨r, rfl⟩
  | top => simp at hlt

/-- One float argument's conjunct: the `all` of "|x| < +∞" being 1 makes every entry real. -/
theorem real_of_all {s : Shape} {axes : List (Fin s.rank)} (x : FVec Ideal s .f32) (bc : S_.BroadcastsInDim s (![] : Fin 0 → Fin s.rank))
    (h : s.ReducesTo axes S_) (hu : 0 < S_.numel)
    (e : Host.reduce IntOp.andi (cmpf .olt (Host.absf x) (broadcastInDim s ![] bc (constant (F := Ideal) S_ .f32 0x7F800000#32)))
          (constantI S_ 1 1#1) h hu ix0 = 1#1) (i : s.Idx) :
    ∃ r : ℝ, x i = (r : EReal) :=
  real_of_abs_lt_top (x i) (Host.reduce_andi_all _ _ h hu ix0 e i)

/-- The vector conjunction read at an index is 1 exactly when both operands are 1 there. -/
theorem andi_apply_eq_one {s : Shape} (x y : IVec s 1) (i : s.Idx) :
    andi x y i = 1#1 ↔ x i = 1#1 ∧ y i = 1#1 := IntOp.andi_eq_one

/-- The whole precondition: it is the conjunction, argument by argument, of the `all` of "|x| < +∞";
    its being 1 makes every entry of every float argument a real number. -/
theorem args_real (a0 : FVec Ideal S100000x128 .f32) (a1 : IVec S2x1250000 32) (a2 : IVec S20000 32)
    (a3 : FVec Ideal S128x64 .f32) (a4 a5 a6 : FVec Ideal S64 .f32) (a7 : FVec Ideal S64x64 .f32)
    (a8 a9 a10 : FVec Ideal S64 .f32) (a11 : FVec Ideal S64x5 .f32) (a12 : FVec Ideal S5 .f32)
    (h : Cert.Pre_finite_inputs.fn (F := Ideal) a0 a1 a2 a3 a4 a5 a6 a7 a8 a9 a10 a11 a12 = fun _ => 1#1) :
    (∀ i, ∃ r : ℝ, a0 i = (r : EReal)) ∧ (∀ i, ∃ r : ℝ, a3 i = (r : EReal)) ∧
    (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) ∧
    (∀ i, ∃ r : ℝ, a8 i = (r : EReal)) ∧ (∀ i, ∃ r : ℝ, a9 i = (r : EReal)) ∧
    (∀ i, ∃ r : ℝ, a10 i = (r : EReal)) ∧ (∀ i, ∃ r : ℝ, a11 i = (r : EReal)) ∧
    (∀ i, ∃ r : ℝ, a12 i = (r : EReal)) := by
  have h0 := congrFun h ValueIdx.ix0
  dsimp only [fn, fn_part1, fn_part2, fn_part3] at h0
  simp only [andi_apply_eq_one] at h0
  obtain ⟨⟨⟨⟨⟨⟨⟨⟨⟨⟨e0, e3⟩, e4⟩, e5⟩, e6⟩, e7⟩, e8⟩, e9⟩, e10⟩, e11⟩, e12⟩ := h0
  exact ⟨real_of_all a0 _ _ _ e0, real_of_all a3 _ _ _ e3, real_of_all a4 _ _ _ e4, real_of_all a5 _ _ _ e5,
    real_of_all a6 _ _ _ e6, real_of_all a7 _ _ _ e7, real_of_all a8 _ _ _ e8, real_of_all a9 _ _ _ e9,
    real_of_all a10 _ _ _ e10, real_of_all a11 _ _ _ e11, real_of_all a12 _ _ _ e12⟩

end Cert.PreFinite
-- ==== Proof.LibGatherRows.lean ====
/-
  Row gathers and row scatters read at an index.

  `x[idx]` of a table `x : [N, C]` at `E` start indices (an `[E, 1]` array of signed words) is the gather whose result
  element `(e, f)` is `x (clamp idx[e], f)`, the start index read signed and clamped into `[0, N − 1]`; of a vector
  `x : [N]` it is `x (clamp idx[e])`.  The scatter with the same dimension numbers sends update element `(e, f)` to
  row `idx[e]` (read signed, NOT clamped), column `f`, and drops it when that row is outside `[0, N)`.  So whenever an
  update lands, the row it lands on is a natural number below `N`, and the clamped read of the same start index is
  that very row.
-/
import Idealize.ShloMosaic.Lib.ValueIdx

noncomputable section

namespace Cert.LibGather

open Idealize.ShloMosaic Idealize.ShloMosaic.ValueIdx

variable {α : Type}

/-! ## Gathering rows of a table -/

/-- The dimension numbers of `x[idx]` for `x : [N, C]`, `idx : [E, 1]`, result `[E, C]`. -/
abbrev rowsDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The clamped row a start index reads: signed, then into `[0, N − 1]`. -/
abbrev clampRow {w : Nat} (N : Nat) (hN : 0 < N) (i : BitVec w) : Fin N := ⟨min i.toInt.toNat (N - 1), by omega⟩

/-- The row gather at `(e, f)`: the table at the clamped start index, same column. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowsDims N E C wf) x idx (ix2 e f) = x (ix2 (clampRow N hN (idx (ix2 e 0))) f) := by
  unfold Host.gather
  congr 1
  funext a
  refine Fin.ext ?_
  match a with
  | ⟨0, _⟩ =>
    show (rowsDims N E C wf).start (ix2 e f) idx 0 + (rowsDims N E C wf).batchCoord (ix2 e f) 0
        + (rowsDims N E C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e f) ⟨List.idxOf (0 : Fin 2) (rowsDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsDims N E C wf).start (ix2 e f) idx 1 + (rowsDims N E C wf).batchCoord (ix2 e f) 1
        + (rowsDims N E C wf).offCoord (ix2 e f) 1 = f.val
    rw [GatherDims.batchCoord_eq_zero _ _ _ List.not_mem_nil]
    have hs : (rowsDims N E C wf).start (ix2 e f) idx 1 = 0 := by
      unfold GatherDims.start
      rw [dif_neg (show (1 : Fin 2) ∉ (rowsDims N E C wf).startIndexMap by simp [rowsDims])]
    rw [hs]
    simp only [Nat.add_zero, Nat.zero_add]
    rfl

/-! ## Gathering entries of a vector -/

/-- The dimension numbers of `x[idx]` for `x : [N]`, `idx : [E, 1]`, result `[E]`. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The vector gather at `e`: the vector at the clamped start index. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (clampRow N hN (idx (ix2 e 0)))) := by
  unfold Host.gather
  congr 1
  funext a
  obtain rfl : a = 0 := Subsingleton.elim _ _
  refine Fin.ext ?_
  show (vecDims N E wf).start (ix1 e) idx 0 + (vecDims N E wf).batchCoord (ix1 e) 0 + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Scattering rows into a table -/

/-- The dimension numbers of `x.at[idx].add(u)` for `x : [N, C]`, `idx : [E, 1]`, `u : [E, C]`. -/
abbrev rowsScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem rowsScatter_start0 {N E C w : Nat} (wf) (idx : IVec ⟨2, ![E, 1]⟩ w) (e : Fin E) (f : Fin C) :
    (rowsScatter N E C wf).start (ix2 e f) idx 0 = (idx (ix2 e 0)).toInt := by
  unfold ScatterDims.start
  rw [dif_pos (show (0 : Fin 2) ∈ (rowsScatter N E C wf).scatterDimsToOperandDims from List.mem_singleton.mpr rfl)]
  have hsi : (rowsScatter N E C wf).siIdx (ix2 e f) ⟨List.idxOf (0 : Fin 2) (rowsScatter N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem rowsScatter_window0 {N E C : Nat} (wf) (e : Fin E) (f : Fin C) :
    (rowsScatter N E C wf).window (ix2 e f) 0 = 0 := by
  unfold ScatterDims.window
  rw [dif_neg (show (0 : Fin 2) ∉ (rowsScatter N E C wf).sKept by simp [ScatterDims.sKept, Shape.kept])]

theorem rowsScatter_start1 {N E C w : Nat} (wf) (idx : IVec ⟨2, ![E, 1]⟩ w) (e : Fin E) (f : Fin C) :
    (rowsScatter N E C wf).start (ix2 e f) idx 1 = 0 := by
  unfold ScatterDims.start
  rw [dif_neg (show (1 : Fin 2) ∉ (rowsScatter N E C wf).scatterDimsToOperandDims by simp [rowsScatter])]

theorem rowsScatter_window1 {N E C : Nat} (wf) (e : Fin E) (f : Fin C) :
    (rowsScatter N E C wf).window (ix2 e f) 1 = f.val := by
  unfold ScatterDims.window
  rw [dif_pos (show (1 : Fin 2) ∈ (rowsScatter N E C wf).sKept by simp [ScatterDims.sKept, Shape.kept])]
  rfl

/-- Where a row update lands: on the row its start index names (a natural number below `N`), same column. -/
theorem rowsScatter_lands {N E C w : Nat} (wf) (idx : IVec ⟨2, ![E, 1]⟩ w) (e : Fin E) (f : Fin C)
    (i : (⟨2, ![N, C]⟩ : Shape).Idx) (h : (rowsScatter N E C wf).resultIdx? (ix2 e f) idx = some i) :
    (idx (ix2 e 0)).toInt = ((i 0).val : Int) ∧ (i 1).val = f.val := by
  unfold ScatterDims.resultIdx? at h
  split at h
  · rename_i hr
    have hi := Option.some.inj h
    have h0 := hr 0
    have e0 : ((rowsScatter N E C wf).start (ix2 e f) idx 0 + ((rowsScatter N E C wf).window (ix2 e f) 0 : Nat)).toNat = (i 0).val :=
      congrArg (fun g => (g 0).val) hi
    have e1 : ((rowsScatter N E C wf).start (ix2 e f) idx 1 + ((rowsScatter N E C wf).window (ix2 e f) 1 : Nat)).toNat = (i 1).val :=
      congrArg (fun g => (g 1).val) hi
    rw [rowsScatter_start0, rowsScatter_window0] at e0 h0
    rw [rowsScatter_start1, rowsScatter_window1] at e1
    refine ⟨by omega, by omega⟩
  · exact absurd h (by simp)

/-- When a row update lands on row `r`, the clamped read of the same start index is `r`. -/
theorem clampRow_of_lands {N w : Nat} (hN : 0 < N) (b : BitVec w) (r : Fin N) (h : b.toInt = (r.val : Int)) :
    clampRow N hN b = r := by
  refine Fin.ext ?_
  show min b.toInt.toNat (N - 1) = r.val
  rw [h]; have := r.isLt; omega

end Cert.LibGather
-- ==== Proof.LibHostApply.lean ====
import Idealize.ShloMosaic.Lib.ValueIdx
import Idealize.ShloMosaic.Lib.IdealHost
import Idealize.ShloMosaic.Lib.StackMember
import Idealize.ShloMosaic.PureOps.Ideal.Laws
import Idealize.ShloMosaic.Lib.Pipeline.Value

/-!
Host operations over rank-2 arrays read at an index: the column sums of an `N × C` array, the product of an
`N × K` by a `K × C` matrix, and the reshapes and broadcasts that add or repeat an axis of extent one. Each
is stated over the literal shape `⟨2, ![_, _]⟩` with its side condition a parameter, so that a program's own
shape facts and dimension records apply as they stand.
-/

namespace Cert.LibHostApply

open Idealize.ShloMosaic Idealize.ShloMosaic.ValueIdx

/-! ### Column sums -/

/-- The host's sum over axis 0 of an `N × C` array, read at column `f`: the initial value plus the sum over
    the rows of the entries of that column. -/
theorem reduceAdd_cols_apply {N C : Nat} {φ : FTy} {u : Shape} (x : FVec Ideal ⟨2, ![N, C]⟩ φ) (init : u.Idx → Ideal φ)
    (h' : (⟨2, ![N, C]⟩ : Shape).ReducesTo [0] ⟨1, ![C]⟩) (hu : 0 < u.numel) (f : Fin C) :
    Host.reduceAdd x init h' hu (ix1 f) = init (Shape.Idx.first hu) + ∑ n : Fin N, x (ix2 n f) := by
  have h : (⟨2, ![N, C]⟩ : Shape).Reduces [0] ⟨1, ![C]⟩ := ⟨h'.1, Nat.one_pos, h'.2⟩
  show Ideal.hostReduceAdd h' x _ (ix1 f) = _
  rw [Ideal.hostReduceAdd_single h' h]
  refine congrArg (_ + ·) (Finset.sum_congr rfl fun n _ => ?_)
  refine congrArg x (funext fun a => Fin.ext ?_)
  match a with
  | ⟨0, _⟩ => rfl
  | ⟨1, _⟩ => rfl

/-- The same from an initial value that is zero: the column's sum alone. -/
theorem reduceAdd_cols_apply_zero {N C : Nat} {φ : FTy} {u : Shape} (x : FVec Ideal ⟨2, ![N, C]⟩ φ) (init : u.Idx → Ideal φ)
    (h' : (⟨2, ![N, C]⟩ : Shape).ReducesTo [0] ⟨1, ![C]⟩) (hu : 0 < u.numel) (h0 : init (Shape.Idx.first hu) = 0)
    (f : Fin C) :
    Host.reduceAdd x init h' hu (ix1 f) = ∑ n : Fin N, x (ix2 n f) := by
  rw [reduceAdd_cols_apply, h0, zero_add]

/-! ### A matrix product -/

/-- The dimension numbers of `N × K` by `K × C`: contract the left operand's axis 1 with the right operand's
    axis 0, no batch axes. -/
abbrev mmDims (N K C : Nat)
    (wf : DotDims.WF ⟨2, ![N, K]⟩ ⟨2, ![K, C]⟩ ⟨2, ![N, C]⟩ [1] [0] [0] [1] [] []) :
    DotDims ⟨2, ![N, K]⟩ ⟨2, ![K, C]⟩ ⟨2, ![N, C]⟩ where
  lhsContracting := [1]
  rhsContracting := [0]
  lhsNonContracting := [0]
  rhsNonContracting := [1]
  lhsBatch := []
  rhsBatch := []
  wf := wf

/-- The product read at `(n, f)`: the sum over the contracted coordinate of the products of the entries. -/
theorem dotGeneral_mm_apply {N K C : Nat} {φ₁ φ₂ : FTy}
    (wf : DotDims.WF ⟨2, ![N, K]⟩ ⟨2, ![K, C]⟩ ⟨2, ![N, C]⟩ [1] [0] [0] [1] [] [])
    (prec : Option ContractPrecision) (l : FVec Ideal ⟨2, ![N, K]⟩ φ₁) (r : FVec Ideal ⟨2, ![K, C]⟩ φ₂)
    (n : Fin N) (f : Fin C) :
    Host.dotGeneral (mmDims N K C wf) prec l r (ix2 n f) = ∑ k : Fin K, l (ix2 n k) * r (ix2 k f) :=
  StackMember.dotGeneral_plain_apply prec l r n f

/-! ### Reshapes and broadcasts that add or repeat a unit axis -/

section Moves
variable {α : Type}

/-- A vector reshaped to a column, at row `n`. -/
theorem shapeCast_col_apply {N : Nat} (v : (⟨1, ![N]⟩ : Shape).Idx → α)
    (h : (⟨1, ![N]⟩ : Shape).ShapeCasts ⟨2, ![N, 1]⟩) (n : Fin N) :
    shapeCast ⟨2, ![N, 1]⟩ v h (ix2 n (0 : Fin 1)) = v (ix1 n) :=
  shapeCast_apply v h (ix2 n (0 : Fin 1)) (ix1 n) (by
    rw [Shape.rowMajor_val_one, Shape.rowMajor_val_two]
    show n.val = n.val * 1 + 0
    omega)

/-- A vector reshaped to a row, at column `f`. -/
theorem shapeCast_row_apply {C : Nat} (v : (⟨1, ![C]⟩ : Shape).Idx → α)
    (h : (⟨1, ![C]⟩ : Shape).ShapeCasts ⟨2, ![1, C]⟩) (f : Fin C) :
    shapeCast ⟨2, ![1, C]⟩ v h (ix2 (0 : Fin 1) f) = v (ix1 f) :=
  shapeCast_apply v h (ix2 (0 : Fin 1) f) (ix1 f) (by
    rw [Shape.rowMajor_val_one, Shape.rowMajor_val_two]
    show f.val = 0 * C + f.val
    omega)

/-- A row repeated down `N` rows, at `(n, f)`: the row's entry `f`. -/
theorem broadcastInDim_rows_apply {N C : Nat} (v : (⟨2, ![1, C]⟩ : Shape).Idx → α)
    (h : (⟨2, ![1, C]⟩ : Shape).BroadcastsInDim ⟨2, ![N, C]⟩ (![0, 1] : Fin 2 → Fin 2)) (n : Fin N) (f : Fin C) :
    broadcastInDim ⟨2, ![N, C]⟩ ![0, 1] h v (ix2 n f) = v (ix2 (0 : Fin 1) f) :=
  broadcastInDim_apply _ h v (ix2 n f) (ix2 (0 : Fin 1) f) (fun a => by
    match a with
    | ⟨0, _⟩ => exact (if_pos rfl).symm
    | ⟨1, _⟩ =>
      show f.val = if C = 1 then 0 else f.val
      split_ifs with hC
      · have := f.isLt; omega
      · rfl)

/-- A vector placed as the one row of a `1 × C` array, at column `f`. -/
theorem broadcastInDim_row_apply {C : Nat} (v : (⟨1, ![C]⟩ : Shape).Idx → α)
    (h : (⟨1, ![C]⟩ : Shape).BroadcastsInDim ⟨2, ![1, C]⟩ (![1] : Fin 1 → Fin 2)) (f : Fin C) :
    broadcastInDim ⟨2, ![1, C]⟩ ![1] h v (ix2 (0 : Fin 1) f) = v (ix1 f) :=
  broadcastInDim_apply _ h v (ix2 (0 : Fin 1) f) (ix1 f) (fun a => by
    match a with
    | ⟨0, _⟩ =>
      show f.val = if C = 1 then 0 else f.val
      split_ifs with hC
      · have := f.isLt; omega
      · rfl)

/-- A vector placed as the one column of an `E × 1` array, at row `e`. -/
theorem broadcastInDim_col_apply {E : Nat} (v : (⟨1, ![E]⟩ : Shape).Idx → α)
    (h : (⟨1, ![E]⟩ : Shape).BroadcastsInDim ⟨2, ![E, 1]⟩ (![0] : Fin 1 → Fin 2)) (e : Fin E) :
    broadcastInDim ⟨2, ![E, 1]⟩ ![0] h v (ix2 e (0 : Fin 1)) = v (ix1 e) :=
  broadcastInDim_apply _ h v (ix2 e (0 : Fin 1)) (ix1 e) (fun a => by
    match a with
    | ⟨0, _⟩ =>
      show e.val = if E = 1 then 0 else e.val
      split_ifs with hE
      · have := e.isLt; omega
      · rfl)

/-- A column repeated across `C` columns, at `(e, f)`: the column's entry `e`. -/
theorem broadcastInDim_cols_apply {E C : Nat} (v : (⟨2, ![E, 1]⟩ : Shape).Idx → α)
    (h : (⟨2, ![E, 1]⟩ : Shape).BroadcastsInDim ⟨2, ![E, C]⟩ (![0, 1] : Fin 2 → Fin 2)) (e : Fin E) (f : Fin C) :
    broadcastInDim ⟨2, ![E, C]⟩ ![0, 1] h v (ix2 e f) = v (ix2 e (0 : Fin 1)) :=
  broadcastInDim_apply _ h v (ix2 e f) (ix2 e (0 : Fin 1)) (fun a => by
    match a with
    | ⟨0, _⟩ =>
      show e.val = if E = 1 then 0 else e.val
      split_ifs with hE
      · have := e.isLt; omega
      · rfl
    | ⟨1, _⟩ => exact (if_pos rfl).symm)

/-- A scalar repeated over any shape reads the scalar everywhere. -/
theorem broadcastInDim_scalar_apply {T : Shape} (h : (⟨0, ![]⟩ : Shape).BroadcastsInDim T ![])
    (x : (⟨0, ![]⟩ : Shape).Idx → α) (j : T.Idx) : broadcastInDim T ![] h x j = x ix0 :=
  ValueIdx.broadcastInDim_scalar_apply h x j

end Moves

end Cert.LibHostApply
-- ==== Proof.LibERealOps.lean ====
import Idealize.ShloMosaic.PureOps.Ideal
import Idealize.ShloMosaic.PureOps.Ideal.Laws

/-!
Extended-real facts about the ideal float operations at real arguments: a quotient and a
reciprocal square root of reals are the real ones, the reciprocal square root of a positive
extended real is nonnegative and finite, a few f32 bit patterns and the reals they denote,
the maximum of two reals, and the logistic function as a quotient.
-/

namespace Cert.LibERealOps

open Idealize.ShloMosaic

/-- A quotient of two reals by a nonzero divisor is the real quotient. -/
theorem div_coe_coe (a b : ℝ) (hb : b ≠ 0) :
    Ideal.div (a : EReal) (b : EReal) = ((a / b : ℝ) : EReal) := by
  rw [Ideal.div, if_neg (by exact_mod_cast hb), ← EReal.coe_inv, ← EReal.coe_mul, div_eq_mul_inv]

/-- The reciprocal square root of a positive real is the real `(√r)⁻¹`. -/
theorem rsqrt_coe_pos (r : ℝ) (hr : 0 < r) :
    Ideal.rsqrt (r : EReal) = (((Real.sqrt r)⁻¹ : ℝ) : EReal) := by
  rw [Ideal.rsqrt_coe, if_neg (not_lt.mpr hr.le), if_neg hr.ne']

/-- On a positive extended real the reciprocal square root is nonnegative and not `⊤`:
    `⊤ ↦ 0`, and a positive real goes to the positive real `(√r)⁻¹`. -/
theorem rsqrt_nonneg_ne_top (y : EReal) (hy : 0 < y) :
    0 ≤ Ideal.rsqrt y ∧ Ideal.rsqrt y ≠ ⊤ := by
  induction y using EReal.rec with
  | bot => exact absurd hy (not_lt.mpr bot_le)
  | coe r =>
    have hr : 0 < r := by exact_mod_cast hy
    rw [rsqrt_coe_pos r hr]
    refine ⟨?_, EReal.coe_ne_top _⟩
    exact_mod_cast inv_nonneg.mpr (Real.sqrt_nonneg r)
  | top => exact ⟨by rw [Ideal.rsqrt_top], by rw [Ideal.rsqrt_top]; exact EReal.zero_ne_top⟩

/-! ### f32 bit patterns: sign `0`, biased exponent `E`, fraction `T` denote `(2^23 + T) · 2^(E - 150)` -/

/-- `E = 143`, `2^23 + T = 12800000`: the value is `12800000 / 2^7 = 100000`. -/
theorem ofBits_1e5 : Ideal.ofBits .f32 0x47C35000#32 = ((100000 : ℝ) : EReal) := by
  have h : Ideal.ofBits .f32 0x47C35000#32 = (((12800000 : ℝ) * (2 ^ 7)⁻¹ : ℝ) : EReal) := by
    simp [Ideal.ofBits, Ideal.ieee]
  rw [h]
  norm_num

/-- `E = 127`, `T = 0`: the value is `2^23 / 2^23 = 1`. -/
theorem ofBits_one : Ideal.ofBits .f32 0x3F800000#32 = ((1 : ℝ) : EReal) := by
  have h : Ideal.ofBits .f32 0x3F800000#32 = (((8388608 : ℝ) * (2 ^ 23)⁻¹ : ℝ) : EReal) := by
    simp [Ideal.ofBits, Ideal.ieee]
  rw [h]
  norm_num

/-- `E = 110`: the value is the positive real `10995116 / 2^40` (about `1e-5`). -/
theorem ofBits_eps : ∃ e : ℝ, 0 < e ∧ Ideal.ofBits .f32 0x3727C5AC#32 = (e : EReal) := by
  have h : Ideal.ofBits .f32 0x3727C5AC#32 = (((10995116 : ℝ) * (2 ^ 40)⁻¹ : ℝ) : EReal) := by
    simp [Ideal.ofBits, Ideal.ieee]
  exact ⟨_, by positivity, h⟩

/-- `E = 87`: the value is the positive real `9223372 / 2^63` (about `1e-12`). -/
theorem ofBits_tiny : ∃ e : ℝ, 0 < e ∧ Ideal.ofBits .f32 0x2B8CBCCC#32 = (e : EReal) := by
  have h : Ideal.ofBits .f32 0x2B8CBCCC#32 = (((9223372 : ℝ) * (2 ^ 63)⁻¹ : ℝ) : EReal) := by
    simp [Ideal.ofBits, Ideal.ieee]
  exact ⟨_, by positivity, h⟩

/-- `E = 120`: the value is the real `10737418 / 2^30` (about `0.01`). -/
theorem ofBits_slope : ∃ s : ℝ, Ideal.ofBits .f32 0x3C23D70A#32 = (s : EReal) := by
  have h : Ideal.ofBits .f32 0x3C23D70A#32 = (((10737418 : ℝ) * (2 ^ 30)⁻¹ : ℝ) : EReal) := by
    simp [Ideal.ofBits, Ideal.ieee]
  exact ⟨_, h⟩

/-- The maximum of two reals, taken in the extended reals, is the real maximum: the
    embedding of the reals is monotone. -/
theorem max_coe (a b : ℝ) : max (a : EReal) (b : EReal) = ((max a b : ℝ) : EReal) :=
  (EReal.coe_strictMono.monotone.map_max).symm

/-- The logistic function is by definition `1 / (1 + e⁻ˣ)`. -/
theorem logistic_eq (x : EReal) : Ideal.logistic x = Ideal.div 1 (1 + Ideal.exp (-x)) := rfl

end Cert.LibERealOps
-- ==== Proof.BridgeFinal.lean ====
/- The last stage of the two programs over the same arrays. The kernel's last region normalises the selected rows by the
   column means and variances it is handed as rows, and takes the logistic of the head; the reference normalises all rows
   first (centre, times the reciprocal deviation, scale, shift), then selects the rows and spells the logistic as one over
   one plus an exponential. Selecting a row commutes with an entrywise map of the rows, both programs wrap and clamp the
   selected indices the same way, and the logistic is by definition that quotient: so the two agree entry by entry as soon
   as the kernel's mean and variance rows agree with the reference's column statistics. -/
import proofs.«166090_j687194767719_2_alg».proof.Proof.KValFinal
import proofs.«166090_j687194767719_2_alg».proof.Proof.KStretch
import proofs.«166090_j687194767719_2_alg».proof.Proof.RStretch
import proofs.«166090_j687194767719_2_alg».proof.Proof.LibGatherRows
import proofs.«166090_j687194767719_2_alg».proof.Proof.LibHostApply
import proofs.«166090_j687194767719_2_alg».proof.Proof.LibERealOps
import Idealize.ShloMosaic.Lib.ValueIdx

noncomputable section

open Idealize.ShloMosaic Idealize.ShloMosaic.ValueIdx
open scoped BigOperators

namespace Cert.TowerBridge

open Cert.KernelIdeal (S100000x64 S20000x64 S20000x5 S64 S1x64 S64x5 S5 S1x5 S20000 S_)
open Cert

/-! ## The kernel's last region and its inputs, read at an index -/

/-- The normalised rows at (n, f), the definition read. -/
theorem G4_7_apply (v : S20000x64.Idx → EReal) (mean var gamma beta : S1x64.Idx → EReal) (n : Fin 20000) (f : Fin 64) :
    KernelIdeal.KVal.G4_7 v mean var gamma beta (ix2 n f)
      = ((v (ix2 n f) - mean (ix2 0 f)) * Ideal.rsqrt (var (ix2 0 f) + Ideal.ofBits .f32 0x3727C5AC#32)) * gamma (ix2 0 f) + beta (ix2 0 f) := rfl

/-- The head at (n, j), the definition read. -/
theorem G4_8_apply (v : S20000x64.Idx → EReal) (mean var gamma beta : S1x64.Idx → EReal) (Wm : S64x5.Idx → EReal) (bm : S1x5.Idx → EReal)
    (n : Fin 20000) (j : Fin 5) :
    KernelIdeal.KVal.G4_8 v mean var gamma beta Wm bm (ix2 n j)
      = Ideal.logistic ((∑ k : Fin 64, KernelIdeal.KVal.G4_7 v mean var gamma beta (ix2 n k) * Wm (ix2 k j)) + bm (ix2 0 j)) := rfl

/-- A vector of 64 laid as a row, at column f. -/
theorem row64_apply (v : S64.Idx → EReal) (f : Fin 64) : KernelIdeal.KStretch.row64 v (ix2 (0 : Fin 1) f) = v (ix1 f) := by
  unfold KernelIdeal.KStretch.row64
  exact LibHostApply.shapeCast_row_apply v _ f

/-- A vector of 5 laid as a row, at column j. -/
theorem row5_apply (v : S5.Idx → EReal) (j : Fin 5) : KernelIdeal.KStretch.row5 v (ix2 (0 : Fin 1) j) = v (ix1 j) := by
  unfold KernelIdeal.KStretch.row5
  exact LibHostApply.shapeCast_row_apply v _ j

/-- The two programs wrap the selected indices by the same operations. -/
theorem wrapSel_eq (idx : IVec S20000 32) : KernelIdeal.KStretch.wrapSel idx = ReferenceIdeal.RStretch.wrapSel idx := rfl

/-- The kernel side's selected rows at (n, f): the table at the wrapped and clamped index, same column. -/
theorem takeRowsK_apply (h : S100000x64.Idx → EReal) (idx : IVec S20000 32) (n : Fin 20000) (f : Fin 64) :
    KernelIdeal.KStretch.takeRows h idx (ix2 n f)
      = h (ix2 (LibGather.clampRow 100000 (by decide) (KernelIdeal.KStretch.wrapSel idx (ix1 n))) f) := by
  unfold KernelIdeal.KStretch.takeRows
  refine (LibGather.gather_rows_apply (N := 100000) (E := 20000) (C := 64) (by decide)
    KernelIdeal.Gen.gather_S100000x64_S20000x1_S20000x64_1_0_n_n_0_1_164_wf h _ n f).trans ?_
  rw [LibHostApply.broadcastInDim_col_apply]

/-- The reference side's selected rows at (n, f). -/
theorem takeRowsR_apply (h : S100000x64.Idx → EReal) (idx : IVec S20000 32) (n : Fin 20000) (f : Fin 64) :
    ReferenceIdeal.RStretch.takeRows h idx (ix2 n f)
      = h (ix2 (LibGather.clampRow 100000 (by decide) (ReferenceIdeal.RStretch.wrapSel idx (ix1 n))) f) := by
  unfold ReferenceIdeal.RStretch.takeRows
  refine (LibGather.gather_rows_apply (N := 100000) (E := 20000) (C := 64) (by decide)
    ReferenceIdeal.Gen.gather_S100000x64_S20000x1_S20000x64_1_0_n_n_0_1_164_wf h _ n f).trans ?_
  rw [LibHostApply.broadcastInDim_col_apply]

/-! ## The reference's last stretches, read at an index -/

/-- A vector of 64 laid along every row, at (r, f). -/
theorem tile64_apply (v : S64.Idx → EReal) (r : Fin 100000) (f : Fin 64) : ReferenceIdeal.RStretch.tile64 v (ix2 r f) = v (ix1 f) := by
  unfold ReferenceIdeal.RStretch.tile64
  rw [LibHostApply.broadcastInDim_rows_apply, LibHostApply.broadcastInDim_row_apply]

/-- The centred rows at (r, f). -/
theorem centered_apply (h : S100000x64.Idx → EReal) (r : Fin 100000) (f : Fin 64) :
    ReferenceIdeal.RStretch.centered h (ix2 r f) = h (ix2 r f) - ReferenceIdeal.RStretch.meanR h (ix1 f) := by
  unfold ReferenceIdeal.RStretch.centered
  rw [subf_apply, tile64_apply]

/-- The reciprocal deviation at column f. -/
theorem rstdOf_apply (v : S64.Idx → EReal) (f : Fin 64) :
    ReferenceIdeal.RStretch.rstdOf v (ix1 f) = Ideal.rsqrt (v (ix1 f) + Ideal.ofBits .f32 0x3727C5AC#32) := rfl

/-- The normalisation at (r, f). -/
theorem affineR_apply (cen : S100000x64.Idx → EReal) (rstd g b : S64.Idx → EReal) (r : Fin 100000) (f : Fin 64) :
    ReferenceIdeal.RStretch.affineR cen rstd g b (ix2 r f) = (cen (ix2 r f) * rstd (ix1 f)) * g (ix1 f) + b (ix1 f) := by
  unfold ReferenceIdeal.RStretch.affineR
  rw [addf_apply, mulf_apply, mulf_apply, tile64_apply, tile64_apply, tile64_apply]

/-- The head before the logistic at (n, j). -/
theorem logitsR_apply (hs : S20000x64.Idx → EReal) (Wm : S64x5.Idx → EReal) (bm : S5.Idx → EReal) (n : Fin 20000) (j : Fin 5) :
    ReferenceIdeal.RStretch.logitsR hs Wm bm (ix2 n j) = (∑ k : Fin 64, hs (ix2 n k) * Wm (ix2 k j)) + bm (ix1 j) := by
  unfold ReferenceIdeal.RStretch.logitsR
  rw [addf_apply, LibHostApply.broadcastInDim_rows_apply, LibHostApply.broadcastInDim_row_apply]
  refine congrArg (· + bm (ix1 j)) ?_
  exact LibHostApply.dotGeneral_mm_apply (N := 20000) (K := 64) (C := 5)
    ReferenceIdeal.Gen.dot_S20000x64_S64x5_S20000x5_1_0_0_1_n_n_wf none hs Wm n j

/-- The spelt-out logistic at (n, j) is the logistic. -/
theorem logisticR_apply (z : S20000x5.Idx → EReal) (n : Fin 20000) (j : Fin 5) :
    ReferenceIdeal.RStretch.logisticR z (ix2 n j) = Ideal.logistic (z (ix2 n j)) := by
  rw [LibERealOps.logistic_eq]
  show Ideal.div (Ideal.ofBits .f32 0x3F800000#32) (Ideal.ofBits .f32 0x3F800000#32 + Ideal.exp (-(z (ix2 n j)))) = _
  rw [LibERealOps.ofBits_one, EReal.coe_one]

/-! ## The two last stages agree -/

section
variable (l1 : S100000x64.Idx → EReal) (idx : IVec S20000 32) (mK vK g be : S64.Idx → EReal)
  (hm : ∀ f : Fin 64, mK (ix1 f) = ReferenceIdeal.RStretch.meanR l1 (ix1 f))
  (hv : ∀ f : Fin 64, vK (ix1 f) = ReferenceIdeal.RStretch.varR l1 (ix1 f))
  (n : Fin 20000)
include hm hv

/-- The normalised selected rows: normalising the selected rows is selecting the normalised rows. -/
theorem final_hsel_eq (f : Fin 64) :
    KernelIdeal.KVal.G4_7 (KernelIdeal.KStretch.takeRows l1 idx) (KernelIdeal.KStretch.row64 mK) (KernelIdeal.KStretch.row64 vK)
        (KernelIdeal.KStretch.row64 g) (KernelIdeal.KStretch.row64 be) (ix2 n f)
      = ReferenceIdeal.RStretch.takeRows (ReferenceIdeal.RStretch.affineR (ReferenceIdeal.RStretch.centered l1)
          (ReferenceIdeal.RStretch.rstdOf (ReferenceIdeal.RStretch.varR l1)) g be) idx (ix2 n f) := by
  rw [takeRowsR_apply, affineR_apply, centered_apply, rstdOf_apply, G4_7_apply, takeRowsK_apply, row64_apply, row64_apply, row64_apply,
    row64_apply, hm f, hv f, wrapSel_eq]

/-- The head: the logistic of the normalised selected rows against the head's weights plus its bias. -/
theorem final_out_eq (Wm : S64x5.Idx → EReal) (bm : S5.Idx → EReal) (j : Fin 5) :
    KernelIdeal.KVal.G4_8 (KernelIdeal.KStretch.takeRows l1 idx) (KernelIdeal.KStretch.row64 mK) (KernelIdeal.KStretch.row64 vK)
        (KernelIdeal.KStretch.row64 g) (KernelIdeal.KStretch.row64 be) Wm (KernelIdeal.KStretch.row5 bm) (ix2 n j)
      = ReferenceIdeal.RStretch.logisticR (ReferenceIdeal.RStretch.logitsR
          (ReferenceIdeal.RStretch.takeRows (ReferenceIdeal.RStretch.affineR (ReferenceIdeal.RStretch.centered l1)
            (ReferenceIdeal.RStretch.rstdOf (ReferenceIdeal.RStretch.varR l1)) g be) idx) Wm bm) (ix2 n j) := by
  rw [logisticR_apply, logitsR_apply, G4_8_apply, row5_apply]
  refine congrArg (fun z => Ideal.logistic (z + bm (ix1 j))) (Finset.sum_congr rfl fun k _ => ?_)
  rw [final_hsel_eq l1 idx mK vK g be hm hv n k]

end

end Cert.TowerBridge

end
-- ==== Proof.BridgeStatsK.lean ====
/-
  The kernel's batch-normalisation statistics read at an index. The per-block column sums of the ramp's output and of
  its squares, added over the 20 blocks, are the sums over all 100000 rows taken block by block; the column mean is
  that total over the node count, the variance the mean of the squares less the squared mean, raised to zero; the
  scale is the gain times the reciprocal root of the variance plus a small constant, the shift the bias less the
  scaled mean; the folded weights carry the scale on their rows and the folded bias row carries the shifts through
  the weights.
-/
import proofs.«166090_j687194767719_2_alg».proof.Proof.KStretch
import proofs.«166090_j687194767719_2_alg».proof.Proof.KValStats
import proofs.«166090_j687194767719_2_alg».proof.Proof.LibHostApply
import proofs.«166090_j687194767719_2_alg».proof.Proof.LibERealOps
import Idealize.ShloMosaic.Lib.ValueIdx
import Idealize.ShloMosaic.Lib.Pipeline.Value

noncomputable section

namespace Cert.TowerBridge

open Cert.KernelIdeal Cert.KernelIdeal.Gen Cert.KernelIdeal.KStretch Cert.KernelIdeal.KVal
open Idealize.ShloMosaic Idealize.ShloMosaic.ValueIdx Cert.LibHostApply

/-! ### The folded weights and bias row -/

/-- Entry `(k, f)` of the folded weights: row `k`'s scale times the weight. -/
theorem K_foldedW_apply (g : FVec Ideal S64 .f32) (ps pq : FVec Ideal S20x8x64 .f32) (W : FVec Ideal S64x64 .f32)
    (k f : Fin 64) :
    foldedW g ps pq W (ix2 k f) = scaleOf g ps pq (ix1 k) * W (ix2 k f) := by
  show broadcastInDim S64x64 ![0, 1] bcast_S64x1_S64x64_0_1
      (broadcastInDim S64x1 ![0] bcast_S64_S64x1_0 (scaleOf g ps pq)) (ix2 k f) * W (ix2 k f) = _
  rw [broadcastInDim_cols_apply, broadcastInDim_col_apply]

/-- Entry `f` of the folded bias row: the shifts carried through column `f` of the weights. -/
theorem K_foldedC_apply (g be : FVec Ideal S64 .f32) (ps pq : FVec Ideal S20x8x64 .f32) (W : FVec Ideal S64x64 .f32)
    (f : Fin 64) :
    foldedC g be ps pq W (ix2 (0 : Fin 1) f) = ∑ k : Fin 64, shiftOf g be ps pq (ix1 k) * W (ix2 k f) := by
  refine (dotGeneral_mm_apply (dot_S1x64_S64x64_S1x64_1_0_0_1_n_n).wf none (row64 (shiftOf g be ps pq)) W
    (0 : Fin 1) f).trans ?_
  refine Finset.sum_congr rfl fun k _ => ?_
  show shapeCast S1x64 (shiftOf g be ps pq) shapeCasts_S64_S1x64 (ix2 (0 : Fin 1) k) * W (ix2 k f) = _
  rw [shapeCast_row_apply]

/-! ### Scale and shift -/

/-- The scale at column `k`: the gain times the reciprocal root of the variance plus the small constant. -/
theorem K_scale_apply (g : FVec Ideal S64 .f32) (ps pq : FVec Ideal S20x8x64 .f32) (k : Fin 64) :
    scaleOf g ps pq (ix1 k)
      = g (ix1 k) * Ideal.rsqrt (varOf ps pq (ix1 k) + Ideal.ofBits .f32 0x3727C5AC#32) := by
  rfl

/-- The shift at column `k`: the bias less the mean times the scale. -/
theorem K_shift_apply (g be : FVec Ideal S64 .f32) (ps pq : FVec Ideal S20x8x64 .f32) (k : Fin 64) :
    shiftOf g be ps pq (ix1 k) = be (ix1 k) - meanOf ps (ix1 k) * scaleOf g ps pq (ix1 k) := by
  rfl

/-! ### The statistics, for any two arrays of per-block sums -/

section StatsAny
variable (ps pq : FVec Ideal S20x8x64 .f32) (f : Fin 64)

/-- Row 0 of each block's tile, the middle axis dropped, summed over the 20 blocks from zero: at column `f` the sum
    over the blocks of the block's entry `(t, 0, f)`. -/
theorem K_colSum_apply : colSum ps (ix1 f) = 0 + ∑ t : Fin 20, ps (ix3 t (0 : Fin 8) f) := by
  show Host.reduceAdd (F := Ideal)
      (shapeCast S20x64 (extractStridedSlice S20x1x64 ![0, 0, 0] ps slices_S20x8x64_S20x1x64_0_0_0)
        shapeCasts_S20x1x64_S20x64) zeroS reducesTo_S20x64_S64_d0 h_S_ (ix1 f) = _
  rw [reduceAdd_cols_apply]
  congr 1
  · exact Ideal.ofBits_zero_f32
  · refine Finset.sum_congr rfl fun t _ => ?_
    rw [shapeCast_apply _ shapeCasts_S20x1x64_S20x64 (ix2 t f) (ix3 t (0 : Fin 1) f) (by
      rw [Shape.rowMajor_val_three, Shape.rowMajor_val_two]
      show (t.val * 1 + 0) * 64 + f.val = t.val * 64 + f.val
      omega)]
    exact extractStridedSlice_apply _ _ slices_S20x8x64_S20x1x64_0_0_0 (ix3 t (0 : Fin 1) f) (ix3 t (0 : Fin 8) f)
      (fun ax => by
        match ax with
        | ⟨0, _⟩ => exact (Nat.zero_add _).symm
        | ⟨1, _⟩ => rfl
        | ⟨2, _⟩ => exact (Nat.zero_add _).symm)

/-- The column mean: the total over the node count. -/
theorem K_mean_gen :
    meanOf ps (ix1 f) = Ideal.div (0 + ∑ t : Fin 20, ps (ix3 t (0 : Fin 8) f)) (Ideal.ofBits .f32 0x47C35000#32) := by
  show Ideal.div (colSum ps (ix1 f)) (Ideal.ofBits .f32 0x47C35000#32) = _
  rw [K_colSum_apply]

/-- The column variance: the mean of the squares less the squared mean, raised to zero. -/
theorem K_var_gen :
    varOf ps pq (ix1 f)
      = max (Ideal.div (0 + ∑ t : Fin 20, pq (ix3 t (0 : Fin 8) f)) (Ideal.ofBits .f32 0x47C35000#32)
            - Ideal.div (0 + ∑ t : Fin 20, ps (ix3 t (0 : Fin 8) f)) (Ideal.ofBits .f32 0x47C35000#32)
              * Ideal.div (0 + ∑ t : Fin 20, ps (ix3 t (0 : Fin 8) f)) (Ideal.ofBits .f32 0x47C35000#32)) 0 := by
  show max (Ideal.div (colSum pq (ix1 f)) (Ideal.ofBits .f32 0x47C35000#32)
      - meanOf ps (ix1 f) * meanOf ps (ix1 f)) (Ideal.ofBits .f32 0x00000000#32) = _
  rw [K_colSum_apply, K_mean_gen, Ideal.ofBits_zero_f32]

end StatsAny

/-! ### The statistics of the first ramp's output -/

section Stats
variable (a : S100000x64.Idx → EReal) (d : S100000x1.Idx → EReal) (b : S1x64.Idx → EReal) (f : Fin 64)

/-- The totals of the per-block sums are the sums over all rows, block by block. -/
theorem K_colSum_psum :
    colSum (G1_4 a d b) (ix1 f) = 0 + ∑ t : Fin 20, ∑ n : Fin 5000, G1_3 a d b (ix2 (blockRow t n) f) :=
  K_colSum_apply (G1_4 a d b) f

/-- The same for the squares. -/
theorem K_colSum_psq :
    colSum (G1_5 a d b) (ix1 f)
      = 0 + ∑ t : Fin 20, ∑ n : Fin 5000, G1_3 a d b (ix2 (blockRow t n) f) * G1_3 a d b (ix2 (blockRow t n) f) :=
  K_colSum_apply (G1_5 a d b) f

theorem K_mean_apply :
    meanOf (G1_4 a d b) (ix1 f)
      = Ideal.div (0 + ∑ t : Fin 20, ∑ n : Fin 5000, G1_3 a d b (ix2 (blockRow t n) f))
          (Ideal.ofBits .f32 0x47C35000#32) :=
  K_mean_gen (G1_4 a d b) f

theorem K_var_apply :
    varOf (G1_4 a d b) (G1_5 a d b) (ix1 f)
      = max (Ideal.div (0 + ∑ t : Fin 20, ∑ n : Fin 5000,
                G1_3 a d b (ix2 (blockRow t n) f) * G1_3 a d b (ix2 (blockRow t n) f))
              (Ideal.ofBits .f32 0x47C35000#32)
            - Ideal.div (0 + ∑ t : Fin 20, ∑ n : Fin 5000, G1_3 a d b (ix2 (blockRow t n) f))
                (Ideal.ofBits .f32 0x47C35000#32)
              * Ideal.div (0 + ∑ t : Fin 20, ∑ n : Fin 5000, G1_3 a d b (ix2 (blockRow t n) f))
                (Ideal.ofBits .f32 0x47C35000#32)) 0 :=
  K_var_gen (G1_4 a d b) (G1_5 a d b) f

end Stats

end Cert.TowerBridge

end
-- ==== Proof.LibStats.lean ====
import Mathlib.Algebra.BigOperators.Fin
import Mathlib.Analysis.SpecialFunctions.Pow.Real

/-!
Real-number identities of a batch normalisation computed two ways: the two-pass variance
`E[(x - E x)²]` against the clamped one-pass `max (E[x²] - (E x)²) 0`, a sum over `B · R` indices
split into `B` blocks of `R`, and the normalisation's scale and shift folded into the weights of a
following contraction.
-/

namespace Cert.LibStats

open Finset

/-- With `m = (∑ l) / N`, `∑ (l n - m)² = ∑ l n² - 2 m ∑ l + N m² = ∑ l n² - (∑ l)² / N`; dividing by
    `N` gives `E[x²] - (E x)²`. The left side is a sum of squares over a positive number, so the
    difference is nonnegative and the clamp at `0` does nothing. -/
theorem var_one_pass {N : ℕ} (l : Fin N → ℝ) (Nr : ℝ) (hNr : Nr = (N : ℝ)) (hpos : 0 < Nr) :
    (∑ n, (l n - (∑ n, l n) / Nr) * (l n - (∑ n, l n) / Nr)) / Nr
      = max ((∑ n, l n * l n) / Nr - ((∑ n, l n) / Nr) * ((∑ n, l n) / Nr)) 0 := by
  have hne : Nr ≠ 0 := hpos.ne'
  have hexp : ∀ m : ℝ, ∑ n, (l n - m) * (l n - m)
      = (∑ n, l n * l n) - 2 * m * (∑ n, l n) + Nr * (m * m) := by
    intro m
    have h1 : ∀ n, (l n - m) * (l n - m) = l n * l n - 2 * m * l n + m * m := fun n => by ring
    simp only [h1, sum_add_distrib, sum_sub_distrib, ← mul_sum, sum_const, card_univ,
      Fintype.card_fin, nsmul_eq_mul, hNr]
    ring
  have key : (∑ n, (l n - (∑ n, l n) / Nr) * (l n - (∑ n, l n) / Nr)) / Nr
      = (∑ n, l n * l n) / Nr - ((∑ n, l n) / Nr) * ((∑ n, l n) / Nr) := by
    rw [hexp]
    field_simp
    ring
  rw [max_eq_left]
  · exact key
  · rw [← key]
    exact div_nonneg (sum_nonneg fun n _ => mul_self_nonneg _) hpos.le

/-- A map `h` with `h b r = R · b + r` is the standard bijection `Fin B × Fin R ≃ Fin (B · R)`, so the
    iterated sum over blocks and rows is the sum over all `B · R` indices. -/
theorem sum_blocks {B R : ℕ} {M : Type*} [AddCommMonoid M] (g : Fin (B * R) → M)
    (h : Fin B → Fin R → Fin (B * R)) (hval : ∀ b r, (h b r).val = R * b.val + r.val) :
    ∑ b : Fin B, ∑ r : Fin R, g (h b r) = ∑ n : Fin (B * R), g n := by
  have hh : ∀ b r, h b r = finProdFinEquiv (b, r) := by
    intro b r
    apply Fin.ext
    rw [hval]
    simp [finProdFinEquiv, add_comm]
  simp only [hh]
  rw [← Fintype.sum_prod_type']
  exact Equiv.sum_comp finProdFinEquiv g

/-- Termwise, `((l - μ) · s · g + b) · W = l · (g · s · W) + (b - μ · (g · s)) · W`: the scale goes into
    the weight and the shift into a bias term. -/
theorem bn_fold {K : ℕ} (l mu rs g b W : Fin K → ℝ) :
    ∑ k, ((((l k - mu k) * rs k) * g k) + b k) * W k
      = (∑ k, l k * ((g k * rs k) * W k)) + ∑ k, (b k - mu k * (g k * rs k)) * W k := by
  rw [← sum_add_distrib]
  exact sum_congr rfl fun k _ => by ring

end Cert.LibStats
-- ==== Proof.LibERealSums.lean ====
/-
  Finite sums of extended reals.

  On the extended reals multiplication does not distribute over addition in general (⊤ + ⊥), but it does when the
  common factor is a finite nonnegative number: then `(∑ a j) * d = ∑ (a j * d)` for every finite family `a`.
  The coercion of a finite real sum is the sum of the coercions.
-/
import Mathlib.Data.EReal.Operations
import Mathlib.Algebra.BigOperators.Group.Finset.Basic

namespace Cert.LibEReal

open Finset

/-- The coercion ℝ → EReal commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A finite nonnegative factor distributes over any finite sum of extended reals (from the right). -/
theorem sum_mul_of_nonneg_ne_top {ι : Type*} (s : Finset ι) (a : ι → EReal) {d : EReal} (h0 : 0 ≤ d) (ht : d ≠ ⊤) :
    (∑ j ∈ s, a j) * d = ∑ j ∈ s, a j * d := by
  classical
  induction s using Finset.induction_on with
  | empty => simp
  | insert i s hi ih =>
    rw [Finset.sum_insert hi, Finset.sum_insert hi, EReal.right_distrib_of_nonneg_of_ne_top h0 ht, ih]

/-- The same from the left. -/
theorem mul_sum_of_nonneg_ne_top {ι : Type*} (s : Finset ι) (a : ι → EReal) {d : EReal} (h0 : 0 ≤ d) (ht : d ≠ ⊤) :
    d * (∑ j ∈ s, a j) = ∑ j ∈ s, d * a j := by
  rw [EReal.mul_comm, sum_mul_of_nonneg_ne_top s a h0 ht]
  exact Finset.sum_congr rfl fun j _ => EReal.mul_comm _ _

/-- A finite sum of real numbers, as an extended real, is a real number. -/
theorem sum_coe_eq_coe {ι : Type*} (s : Finset ι) (a : ι → EReal) (f : ι → ℝ) (h : ∀ j ∈ s, a j = (f j : EReal)) :
    ∑ j ∈ s, a j = ((∑ j ∈ s, f j : ℝ) : EReal) := by
  rw [coe_sum]; exact Finset.sum_congr rfl h

end Cert.LibEReal
-- ==== Proof.LibBatchNorm.lean ====
import proofs.«166090_j687194767719_2_alg».proof.Proof.LibStats
import proofs.«166090_j687194767719_2_alg».proof.Proof.LibERealOps
import proofs.«166090_j687194767719_2_alg».proof.Proof.LibERealSums
import Idealize.ShloMosaic.PureOps.Ideal

/-!
A batch normalisation over extended reals whose inputs are all real numbers: the statistics computed block by
block in one pass (`E[x²] - (E x)²`, clamped at zero) are the two-pass ones (`E[(x - E x)²]`), both are real
numbers with a nonnegative variance, and the scale and shift fold into the weights of a following contraction.
Every step pushes the embedding of the reals outward and then cites the real-number identity.
-/

namespace Cert.LibBatchNorm

open Idealize.ShloMosaic Finset

/-- A sum over `B` blocks of `R` consecutive indices is the sum over all `N = B · R` indices. -/
theorem sum_blocks_cast {B R N : ℕ} {M : Type*} [AddCommMonoid M] (hBR : B * R = N) (g : Fin N → M)
    (blk : Fin B → Fin R → Fin N) (hblk : ∀ b r, (blk b r).val = R * b.val + r.val) :
    ∑ b : Fin B, ∑ r : Fin R, g (blk b r) = ∑ n : Fin N, g n := by
  subst hBR
  exact Cert.LibStats.sum_blocks g blk hblk

/-- The statistics of `N = B · R` real inputs. One way sums blocks of `R` rows, divides by `N`, and takes
    `max (E[x²] - (E x)²) 0`; the other sums all rows, divides by `N`, and averages the squared deviations from
    the mean. The block sums regroup into the full sums, every term is a real number, and on the reals the clamped
    one-pass variance is the two-pass one. Both means and both variances are real, the variance nonnegative. -/
theorem stats_eq {B R N : ℕ} (l : Fin N → EReal) (lr : Fin N → ℝ) (hl : ∀ n, l n = (lr n : EReal))
    (blk : Fin B → Fin R → Fin N) (hblk : ∀ b r, (blk b r).val = R * b.val + r.val) (hBR : B * R = N)
    (c : EReal) (Nr : ℝ) (hc : c = (Nr : EReal)) (hNr : Nr = (N : ℝ)) (hpos : 0 < Nr) :
    let meanK := Ideal.div ((0 : EReal) + ∑ b : Fin B, ∑ r : Fin R, l (blk b r)) c
    let varK := max (Ideal.div ((0 : EReal) + ∑ b : Fin B, ∑ r : Fin R, l (blk b r) * l (blk b r)) c - meanK * meanK) 0
    let meanR := Ideal.div ((0 : EReal) + ∑ n, l n) c
    let varR := Ideal.div ((0 : EReal) + ∑ n, (l n - meanR) * (l n - meanR)) (c - 0)
    meanK = meanR ∧ varK = varR ∧ ∃ mr vr : ℝ, meanR = (mr : EReal) ∧ varR = (vr : EReal) ∧ 0 ≤ vr := by
  intro meanK varK meanR varR
  have hne : Nr ≠ 0 := hpos.ne'
  have hS : ∑ n, l n = ((∑ n, lr n : ℝ) : EReal) :=
    Cert.LibEReal.sum_coe_eq_coe _ _ _ fun n _ => hl n
  have hQ : ∑ n, l n * l n = ((∑ n, lr n * lr n : ℝ) : EReal) :=
    Cert.LibEReal.sum_coe_eq_coe _ _ _ fun n _ => by rw [hl, ← EReal.coe_mul]
  have hSb : ∑ b : Fin B, ∑ r : Fin R, l (blk b r) = ∑ n, l n := sum_blocks_cast hBR l blk hblk
  have hQb : ∑ b : Fin B, ∑ r : Fin R, l (blk b r) * l (blk b r) = ∑ n, l n * l n :=
    sum_blocks_cast hBR (fun n => l n * l n) blk hblk
  have hmR : meanR = (((∑ n, lr n) / Nr : ℝ) : EReal) := by
    show Ideal.div ((0 : EReal) + ∑ n, l n) c = _
    rw [zero_add, hS, hc, Cert.LibERealOps.div_coe_coe _ _ hne]
  have hmK : meanK = meanR := by
    show Ideal.div ((0 : EReal) + ∑ b : Fin B, ∑ r : Fin R, l (blk b r)) c = Ideal.div ((0 : EReal) + ∑ n, l n) c
    rw [hSb]
  have hvR : varR = (((∑ n, (lr n - (∑ n, lr n) / Nr) * (lr n - (∑ n, lr n) / Nr)) / Nr : ℝ) : EReal) := by
    show Ideal.div ((0 : EReal) + ∑ n, (l n - meanR) * (l n - meanR)) (c - 0) = _
    have hD : ∑ n, (l n - meanR) * (l n - meanR)
        = ((∑ n, (lr n - (∑ n, lr n) / Nr) * (lr n - (∑ n, lr n) / Nr) : ℝ) : EReal) :=
      Cert.LibEReal.sum_coe_eq_coe _ _ _ fun n _ => by rw [hl, hmR, ← EReal.coe_sub, ← EReal.coe_mul]
    rw [zero_add, hD, hc, sub_zero, Cert.LibERealOps.div_coe_coe _ _ hne]
  have hvK : varK = ((max ((∑ n, lr n * lr n) / Nr - ((∑ n, lr n) / Nr) * ((∑ n, lr n) / Nr)) 0 : ℝ) : EReal) := by
    show max (Ideal.div ((0 : EReal) + ∑ b : Fin B, ∑ r : Fin R, l (blk b r) * l (blk b r)) c - meanK * meanK) 0 = _
    rw [hmK, hmR, hQb, zero_add, hQ, hc, Cert.LibERealOps.div_coe_coe _ _ hne, ← EReal.coe_mul, ← EReal.coe_sub,
      ← EReal.coe_zero, Cert.LibERealOps.max_coe]
  have hvar := Cert.LibStats.var_one_pass lr Nr hNr hpos
  refine ⟨hmK, ?_, _, _, hmR, hvR, ?_⟩
  · rw [hvK, hvR, hvar]
  · exact div_nonneg (sum_nonneg fun n _ => mul_self_nonneg _) hpos.le

/-- On real inputs the normalisation folded into the weights, `∑ l · (g · s · W) + ∑ (b - μ · (g · s)) · W`, is the
    contraction of the normalised values, `∑ ((l - μ) · s · g + b) · W`: both are the same real number. -/
theorem bn_fold_ereal {K : ℕ} (l mu rs g b W : Fin K → EReal) (lr mur rsr gr br Wr : Fin K → ℝ)
    (hl : ∀ k, l k = (lr k : EReal)) (hmu : ∀ k, mu k = (mur k : EReal)) (hrs : ∀ k, rs k = (rsr k : EReal))
    (hg : ∀ k, g k = (gr k : EReal)) (hb : ∀ k, b k = (br k : EReal)) (hW : ∀ k, W k = (Wr k : EReal)) :
    (∑ k, l k * ((g k * rs k) * W k)) + ∑ k, (b k - mu k * (g k * rs k)) * W k
      = ∑ k, ((((l k - mu k) * rs k) * g k) + b k) * W k := by
  have e1 : ∑ k, l k * ((g k * rs k) * W k) = ((∑ k, lr k * ((gr k * rsr k) * Wr k) : ℝ) : EReal) :=
    Cert.LibEReal.sum_coe_eq_coe _ _ _ fun k _ => by
      rw [hl, hg, hrs, hW, ← EReal.coe_mul, ← EReal.coe_mul, ← EReal.coe_mul]
  have e2 : ∑ k, (b k - mu k * (g k * rs k)) * W k
      = ((∑ k, (br k - mur k * (gr k * rsr k)) * Wr k : ℝ) : EReal) :=
    Cert.LibEReal.sum_coe_eq_coe _ _ _ fun k _ => by
      rw [hb, hmu, hg, hrs, hW, ← EReal.coe_mul, ← EReal.coe_mul, ← EReal.coe_sub, ← EReal.coe_mul]
  have e3 : ∑ k, ((((l k - mu k) * rs k) * g k) + b k) * W k
      = ((∑ k, ((((lr k - mur k) * rsr k) * gr k) + br k) * Wr k : ℝ) : EReal) :=
    Cert.LibEReal.sum_coe_eq_coe _ _ _ fun k _ => by
      rw [hl, hmu, hrs, hg, hb, hW, ← EReal.coe_sub, ← EReal.coe_mul, ← EReal.coe_mul, ← EReal.coe_add,
        ← EReal.coe_mul]
  rw [e1, e2, e3, ← EReal.coe_add, Cert.LibStats.bn_fold lr mur rsr gr br Wr]

/-- … and that common value is a real number. -/
theorem bn_fold_ereal_real {K : ℕ} (l mu rs g b W : Fin K → EReal) (lr mur rsr gr br Wr : Fin K → ℝ)
    (hl : ∀ k, l k = (lr k : EReal)) (hmu : ∀ k, mu k = (mur k : EReal)) (hrs : ∀ k, rs k = (rsr k : EReal))
    (hg : ∀ k, g k = (gr k : EReal)) (hb : ∀ k, b k = (br k : EReal)) (hW : ∀ k, W k = (Wr k : EReal)) :
    ∃ y : ℝ, (∑ k, l k * ((g k * rs k) * W k)) + ∑ k, (b k - mu k * (g k * rs k)) * W k = (y : EReal) ∧
      ∑ k, ((((l k - mu k) * rs k) * g k) + b k) * W k = (y : EReal) := by
  have e3 : ∑ k, ((((l k - mu k) * rs k) * g k) + b k) * W k
      = ((∑ k, ((((lr k - mur k) * rsr k) * gr k) + br k) * Wr k : ℝ) : EReal) :=
    Cert.LibEReal.sum_coe_eq_coe _ _ _ fun k _ => by
      rw [hl, hmu, hrs, hg, hb, hW, ← EReal.coe_sub, ← EReal.coe_mul, ← EReal.coe_mul, ← EReal.coe_add,
        ← EReal.coe_mul]
  exact ⟨_, (bn_fold_ereal l mu rs g b W lr mur rsr gr br Wr hl hmu hrs hg hb hW).trans e3, e3⟩

end Cert.LibBatchNorm
-- ==== Proof.BridgeStats.lean ====
/-
  The two programs' batch-normalisation statistics are the same real numbers. The reference takes the column means
  of a 100000-row array in one sum and the variances as the mean squared deviation; the kernel adds 20 per-block sums
  and takes the mean of the squares less the squared mean, raised to zero. On an array of real numbers the block sums
  regroup into the full sums, the clamped one-pass variance is the two-pass one, and both are real with a
  nonnegative variance.
-/
import proofs.«166090_j687194767719_2_alg».proof.Proof.BridgeStatsK
import proofs.«166090_j687194767719_2_alg».proof.Proof.RStretch
import proofs.«166090_j687194767719_2_alg».proof.Proof.LibBatchNorm
import proofs.«166090_j687194767719_2_alg».proof.Proof.LibHostApply
import proofs.«166090_j687194767719_2_alg».proof.Proof.LibERealOps

set_option maxRecDepth 16384

noncomputable section

namespace Cert.TowerBridge

open Idealize.ShloMosaic Idealize.ShloMosaic.ValueIdx Cert.LibHostApply
open Cert.KernelIdeal.KStretch (meanOf varOf colSum)
open Cert.KernelIdeal.KVal (G1_3 G1_4 G1_5 G3_3 G3_4 G3_5 blockRow)
open Cert.ReferenceIdeal.RStretch (meanR varR colTotal devR divisorS countS)

/-! ### The reference's statistics read at a column -/

section Ref
variable (h : (⟨2, ![100000, 64]⟩ : Shape).Idx → EReal) (f : Fin 64)

/-- The column total: the sum over the 100000 rows, from zero. -/
theorem R_colTotal_apply : colTotal h (ix1 f) = 0 + ∑ n : Fin 100000, h (ix2 n f) := by
  unfold Cert.ReferenceIdeal.RStretch.colTotal
  rw [reduceAdd_cols_apply]
  congr 1
  exact Ideal.ofBits_zero_f32

/-- The column mean: the total over the node count. -/
theorem R_mean_apply :
    meanR h (ix1 f) = Ideal.div (0 + ∑ n : Fin 100000, h (ix2 n f)) (Ideal.ofBits .f32 0x47C35000#32) := by
  show Ideal.div (colTotal h (ix1 f)) (Ideal.ofBits .f32 0x47C35000#32) = _
  rw [R_colTotal_apply]

/-- The variance's divisor is the node count less zero. -/
theorem R_divisor (j : (⟨0, ![]⟩ : Shape).Idx) : divisorS j = Ideal.ofBits .f32 0x47C35000#32 - 0 := by
  show Ideal.ofBits .f32 0x47C35000#32 - (((0#32 : BitVec 32).toInt : ℝ) : EReal) = _
  rw [BitVec.toInt_zero, Int.cast_zero, EReal.coe_zero]

/-- The divisor is positive, so the select takes its first branch. -/
theorem R_guard (j : (⟨0, ![]⟩ : Shape).Idx) :
    cmpf (F := Ideal) .ogt divisorS Cert.ReferenceIdeal.RStretch.zeroS j = 1 := by
  have hpos : (0 : EReal) < ((100000 : ℝ) : EReal) - 0 := by
    rw [sub_zero]
    exact_mod_cast (by norm_num : (0 : ℝ) < 100000)
  show BitVec.ofBool (decide (Ideal.ofBits .f32 0x00000000#32 < divisorS j)) = 1
  rw [R_divisor, Ideal.ofBits_zero_f32, Cert.LibERealOps.ofBits_1e5, decide_eq_true hpos]
  rfl

/-- The variance's deviations are the entries less the column mean. -/
theorem R_dev_apply (n : Fin 100000) : devR h (ix2 n f) = h (ix2 n f) - meanR h (ix1 f) := by
  show h (ix2 n f) - broadcastInDim (⟨2, ![100000, 64]⟩ : Shape) (![0, 1] : Fin 2 → Fin 2) _
      (Host.divf (F := Ideal)
        (broadcastInDim (⟨2, ![1, 64]⟩ : Shape) (![1] : Fin 1 → Fin 2) _ (colTotal h))
        (broadcastInDim (⟨2, ![1, 64]⟩ : Shape) (![] : Fin 0 → Fin 2) _ countS)) (ix2 n f) = _
  rw [broadcastInDim_rows_apply]
  show h (ix2 n f) - Ideal.div
      (broadcastInDim (⟨2, ![1, 64]⟩ : Shape) (![1] : Fin 1 → Fin 2) _ (colTotal h) (ix2 (0 : Fin 1) f))
      (Ideal.ofBits .f32 0x47C35000#32) = _
  rw [broadcastInDim_row_apply]
  rfl

/-- The squared deviation at `(n, f)`. -/
theorem R_sq_apply (n : Fin 100000) :
    mulf (F := Ideal) (devR h) (devR h) (ix2 n f)
      = (h (ix2 n f) - meanR h (ix1 f)) * (h (ix2 n f) - meanR h (ix1 f)) := by
  show devR h (ix2 n f) * devR h (ix2 n f) = _
  rw [R_dev_apply]

/-- The column variance: the total of the squared deviations from the column mean, over the divisor. -/
theorem R_var_apply :
    varR h (ix1 f)
      = Ideal.div (0 + ∑ n : Fin 100000, (h (ix2 n f) - meanR h (ix1 f)) * (h (ix2 n f) - meanR h (ix1 f)))
          (Ideal.ofBits .f32 0x47C35000#32 - 0) := by
  show Scalar.select (cmpf (F := Ideal) .ogt divisorS Cert.ReferenceIdeal.RStretch.zeroS _)
      (Ideal.div (Host.reduceAdd (F := Ideal) (mulf (F := Ideal) (devR h) (devR h)) Cert.ReferenceIdeal.RStretch.zeroS _ _ (ix1 f))
        (divisorS _)) _ = _
  rw [Scalar.select, if_pos (R_guard _), R_divisor, reduceAdd_cols_apply,
    show Cert.ReferenceIdeal.RStretch.zeroS _ = (0 : EReal) from Ideal.ofBits_zero_f32,
    Finset.sum_congr rfl fun n _ => R_sq_apply h f n]

end Ref

/-! ### The bridge: one-pass block statistics against two-pass statistics, on real entries -/

/-- For an array `L` of real numbers and per-block sums `ps`, `pq` of its entries and of their squares, the kernel's
    column mean and variance are the reference's, and these are real numbers, the variance nonnegative. -/
theorem stats_bridge (L : (⟨2, ![100000, 64]⟩ : Shape).Idx → EReal) (Lr : Fin 100000 → Fin 64 → ℝ)
    (hL : ∀ n f, L (ix2 n f) = (Lr n f : EReal))
    (ps pq : (⟨3, ![20, 8, 64]⟩ : Shape).Idx → EReal)
    (hps : ∀ (t : Fin 20) (f : Fin 64), ps (ix3 t (0 : Fin 8) f) = ∑ n : Fin 5000, L (ix2 (blockRow t n) f))
    (hpq : ∀ (t : Fin 20) (f : Fin 64),
      pq (ix3 t (0 : Fin 8) f) = ∑ n : Fin 5000, L (ix2 (blockRow t n) f) * L (ix2 (blockRow t n) f))
    (f : Fin 64) :
    meanOf ps (ix1 f) = meanR L (ix1 f) ∧ varOf ps pq (ix1 f) = varR L (ix1 f) ∧
      ∃ mr vr : ℝ, meanR L (ix1 f) = (mr : EReal) ∧ varR L (ix1 f) = (vr : EReal) ∧ 0 ≤ vr := by
  have key := Cert.LibBatchNorm.stats_eq (B := 20) (R := 5000) (N := 100000) (fun n => L (ix2 n f)) (fun n => Lr n f)
    (fun n => hL n f) blockRow (fun t n => rfl) (by norm_num) (Ideal.ofBits .f32 0x47C35000#32) 100000
    Cert.LibERealOps.ofBits_1e5 (by norm_num) (by norm_num)
  obtain ⟨hm, hv, mr, vr, hmr, hvr, hvr0⟩ := key
  rw [K_mean_gen, K_var_gen, R_var_apply, R_mean_apply]
  simp only [hps, hpq]
  exact ⟨hm, hv, mr, vr, hmr, hvr, hvr0⟩

/-! ### The first and the second normalisation's statistics -/

section Instances
variable (a : (⟨2, ![100000, 64]⟩ : Shape).Idx → EReal) (d : (⟨2, ![100000, 1]⟩ : Shape).Idx → EReal)
  (b : (⟨2, ![1, 64]⟩ : Shape).Idx → EReal) (Lr : Fin 100000 → Fin 64 → ℝ) (f : Fin 64)

theorem stats_mean_eq (hL : ∀ n f, G1_3 a d b (ix2 n f) = (Lr n f : EReal)) :
    meanOf (G1_4 a d b) (ix1 f) = meanR (G1_3 a d b) (ix1 f) :=
  (stats_bridge (G1_3 a d b) Lr hL (G1_4 a d b) (G1_5 a d b) (fun _ _ => rfl) (fun _ _ => rfl) f).1

theorem stats_var_eq (hL : ∀ n f, G1_3 a d b (ix2 n f) = (Lr n f : EReal)) :
    varOf (G1_4 a d b) (G1_5 a d b) (ix1 f) = varR (G1_3 a d b) (ix1 f) :=
  (stats_bridge (G1_3 a d b) Lr hL (G1_4 a d b) (G1_5 a d b) (fun _ _ => rfl) (fun _ _ => rfl) f).2.1

theorem stats_real (hL : ∀ n f, G1_3 a d b (ix2 n f) = (Lr n f : EReal)) :
    ∃ mr vr : ℝ, meanR (G1_3 a d b) (ix1 f) = (mr : EReal) ∧ varR (G1_3 a d b) (ix1 f) = (vr : EReal) ∧ 0 ≤ vr :=
  (stats_bridge (G1_3 a d b) Lr hL (G1_4 a d b) (G1_5 a d b) (fun _ _ => rfl) (fun _ _ => rfl) f).2.2

theorem stats_mean_eq3 (hL : ∀ n f, G3_3 a d b (ix2 n f) = (Lr n f : EReal)) :
    meanOf (G3_4 a d b) (ix1 f) = meanR (G3_3 a d b) (ix1 f) :=
  (stats_bridge (G3_3 a d b) Lr hL (G3_4 a d b) (G3_5 a d b) (fun _ _ => rfl) (fun _ _ => rfl) f).1

theorem stats_var_eq3 (hL : ∀ n f, G3_3 a d b (ix2 n f) = (Lr n f : EReal)) :
    varOf (G3_4 a d b) (G3_5 a d b) (ix1 f) = varR (G3_3 a d b) (ix1 f) :=
  (stats_bridge (G3_3 a d b) Lr hL (G3_4 a d b) (G3_5 a d b) (fun _ _ => rfl) (fun _ _ => rfl) f).2.1

theorem stats_real3 (hL : ∀ n f, G3_3 a d b (ix2 n f) = (Lr n f : EReal)) :
    ∃ mr vr : ℝ, meanR (G3_3 a d b) (ix1 f) = (mr : EReal) ∧ varR (G3_3 a d b) (ix1 f) = (vr : EReal) ∧ 0 ≤ vr :=
  (stats_bridge (G3_3 a d b) Lr hL (G3_4 a d b) (G3_5 a d b) (fun _ _ => rfl) (fun _ _ => rfl) f).2.2

end Instances

end Cert.TowerBridge

end
-- ==== Proof.LibPointwise.lean ====
/-
  Pointwise facts on the extended reals used along a graph-convolution layer.

  Leaky ReLU: `if v > 0 then v else s·v` and `if v ≥ 0 then v else s·v` are the same function, because at `v = 0` both
  branches are `0` (`s · 0 = 0` for every extended real `s`).
  The inverse square root of a degree: `if d > 0 then rsqrt (max d t) else 0` with `t > 0` is a nonnegative real
  number whatever `d` is, since `max d t ≥ t > 0` and the inverse square root of a positive extended real is a
  nonnegative real (`0` at `⊤`).
-/
import Idealize.ShloMosaic.PureOps.Ideal
import proofs.«166090_j687194767719_2_alg».proof.Proof.LibERealOps

namespace Cert.LibPointwise

open Idealize.ShloMosaic

/-- The strict and the non-strict threshold give one leaky ReLU. -/
theorem leaky_gt_eq_ge (s v : EReal) :
    Scalar.select (Ideal.cmp .ogt v 0) v (s * v) = Scalar.select (Ideal.cmp .oge v 0) v (s * v) := by
  unfold Scalar.select Ideal.cmp
  by_cases h : (0 : EReal) < v
  · simp [h, le_of_lt h]
  · by_cases h0 : v = 0
    · subst h0; simp
    · have hlt : v < 0 := lt_of_le_of_ne (not_lt.mp h) h0
      simp [h, not_le.mpr hlt]

/-- The strict threshold written with `if`. -/
theorem select_gt_eq_ite (s v : EReal) :
    Scalar.select (Ideal.cmp .ogt v 0) v (s * v) = if 0 < v then v else s * v := by
  unfold Scalar.select Ideal.cmp
  by_cases h : (0 : EReal) < v <;> simp [h]

/-- The `if` form of the kernel's leaky ReLU is the reference's select on `v ≥ 0`. -/
theorem leaky_ite_eq_select_ge (s v : EReal) :
    (if 0 < v then v else s * v) = Scalar.select (Ideal.cmp .oge v 0) v (s * v) := by
  rw [← select_gt_eq_ite, leaky_gt_eq_ge]

/-- A nonnegative extended real other than `⊤` is a nonnegative real number. -/
theorem real_of_nonneg_ne_top (y : EReal) (h0 : 0 ≤ y) (ht : y ≠ ⊤) : ∃ r : ℝ, 0 ≤ r ∧ y = (r : EReal) := by
  induction y using EReal.rec with
  | bot => simp at h0
  | coe r => exact ⟨r, by exact_mod_cast h0, rfl⟩
  | top => exact absurd rfl ht

/-- The inverse square root of a degree, with the guard and the floor the programs use, is a nonnegative real. -/
theorem dis_entry (d : EReal) (t : ℝ) (ht : 0 < t) :
    0 ≤ Scalar.select (Ideal.cmp .ogt d 0) (Ideal.rsqrt (max d (t : EReal))) 0
      ∧ Scalar.select (Ideal.cmp .ogt d 0) (Ideal.rsqrt (max d (t : EReal))) 0 ≠ ⊤ := by
  have hpos : (0 : EReal) < max d (t : EReal) := lt_of_lt_of_le (by exact_mod_cast ht) (le_max_right _ _)
  have hr := Cert.LibERealOps.rsqrt_nonneg_ne_top _ hpos
  unfold Scalar.select
  split
  · exact hr
  · exact ⟨le_refl _, EReal.zero_ne_top⟩

end Cert.LibPointwise
-- ==== Proof.BridgeK0.lean ====
/-
  The first layer's kernel-side values read at an index.

  `dis n` is `rsqrt (max (deg n) t)` when `deg n > 0` and `0` otherwise, with `t` a small positive number: a
  nonnegative real whatever the degree is.  As a column, `dis2d (n, 0) = dis n`.  The scaled product at `(n, f)` is
  `((∑ₖ x (n, k) · W (k, f)) + 0) · dis n`.  Each read is first stated for an arbitrary degree array (or an arbitrary
  normalizer) and then used at the program's.
-/
import proofs.«166090_j687194767719_2_alg».proof.Proof.KTower0
import proofs.«166090_j687194767719_2_alg».proof.Proof.LibPointwise
import proofs.«166090_j687194767719_2_alg».proof.Proof.LibERealOps
import proofs.«166090_j687194767719_2_alg».proof.Proof.LibHostApply
import Idealize.ShloMosaic.Lib.Pipeline.Value
import Idealize.ShloMosaic.Lib.ValueIdx
import Idealize.ShloMosaic.Lib.IdealHost
import Idealize.ShloMosaic.PureOps.Ideal.Laws

noncomputable section

namespace Cert.TowerBridge

open Idealize.ShloMosaic Idealize.ShloMosaic.ValueIdx Cert.KernelIdeal Cert.KernelIdeal.Gen Cert.KernelIdeal.KTower

/-- The guarded inverse square root of an arbitrary degree array, at a node. -/
theorem K_disForm_apply (dg : FVec Ideal S100000 .f32) (n : Fin 100000) :
    select (cmpf (F := Ideal) .ogt dg (broadcastInDim S100000 ![] bcast_S_S100000 zero_))
        (Host.rsqrt (F := Ideal) (maximumf (F := Ideal) dg
          (broadcastInDim S100000 ![] bcast_S_S100000 (constant (F := Ideal) S_ .f32 0x2B8CBCCC#32))))
        (broadcastInDim S100000 ![] bcast_S_S100000 (id zero_)) (ix1 n)
      = Scalar.select (Ideal.cmp .ogt (dg (ix1 n)) 0)
          (Ideal.rsqrt (max (dg (ix1 n)) (Ideal.ofBits .f32 0x2B8CBCCC#32))) 0 := by
  unfold zero_
  rw [select_apply, cmpf_apply, broadcastInDim_scalar_apply, broadcastInDim_scalar_apply]
  simp only [id, constant_apply, Ideal.ofBits_zero_f32, Ideal.cmpf_def]
  rfl

/-- The normalizer at a node, from the node's degree. -/
theorem K_dis_apply (ei : IVec S2x1250000 32) (n : Fin 100000) :
    dis ei (ix1 n) = Scalar.select (Ideal.cmp .ogt (deg ei (ix1 n)) 0)
      (Ideal.rsqrt (max (deg ei (ix1 n)) (Ideal.ofBits .f32 0x2B8CBCCC#32))) 0 :=
  K_disForm_apply (deg ei) n

/-- The normalizer is a nonnegative real at every node. -/
theorem K_dis_nonneg_ne_top (ei : IVec S2x1250000 32) (i : S100000.Idx) : 0 ≤ dis ei i ∧ dis ei i ≠ ⊤ := by
  obtain ⟨n, rfl⟩ : ∃ n : Fin 100000, i = ix1 n := ⟨i 0, eq_ix1 i⟩
  obtain ⟨t, ht, et⟩ := Cert.LibERealOps.ofBits_tiny
  rw [K_dis_apply, et]
  exact Cert.LibPointwise.dis_entry _ t ht

/-- An arbitrary vector as a column. -/
theorem K_colForm_apply (v : FVec Ideal S100000 .f32) (n : Fin 100000) :
    shapeCast S100000x1 v shapeCasts_S100000_S100000x1 (ix2 n 0) = v (ix1 n) :=
  Cert.LibHostApply.shapeCast_col_apply v shapeCasts_S100000_S100000x1 n

/-- The normalizer as a column. -/
theorem K_dis2d_apply (ei : IVec S2x1250000 32) (n : Fin 100000) : dis2d ei (ix2 n 0) = dis ei (ix1 n) :=
  K_colForm_apply (dis ei) n

/-- The zero row. -/
theorem K_c0_apply (f : Fin 64) : c0 (ix2 0 f) = 0 := by
  unfold c0 zero_
  rw [broadcastInDim_scalar_apply, constant_apply, Ideal.ofBits_zero_f32]

/-- The scaled product of an arbitrary column normalizer, at a node and feature. -/
theorem K_G0_apply (x : FVec Ideal S100000x128 .f32) (W0 : FVec Ideal S128x64 .f32) (cc : FVec Ideal S1x64 .f32)
    (d : FVec Ideal S100000x1 .f32) (n : Fin 100000) (f : Fin 64) :
    KVal.G0_4 x W0 cc d (ix2 n f) = ((∑ k : Fin 128, x (ix2 n k) * W0 (ix2 k f)) + cc (ix2 0 f)) * d (ix2 n 0) := rfl

/-- The first layer's scaled product at a node and feature. -/
theorem K_hw0_apply (x : FVec Ideal S100000x128 .f32) (ei : IVec S2x1250000 32) (W0 : FVec Ideal S128x64 .f32)
    (n : Fin 100000) (f : Fin 64) :
    hw0 x ei W0 (ix2 n f) = ((∑ k : Fin 128, x (ix2 n k) * W0 (ix2 k f)) + 0) * dis ei (ix1 n) := by
  unfold hw0
  rw [K_G0_apply, K_c0_apply, K_dis2d_apply]

end Cert.TowerBridge
-- ==== Proof.LibScatter.lean ====
/-
  The symmetric normalization of a graph convolution, factored through a scatter-add.

  A scatter-add over the extended reals sends the update array `u` to
  `i ↦ x i + ∑ {j | update j lands at i} u j`.  Let `D` be a finite nonnegative weight per result element, and `Du` a
  weight per update element that agrees with `D` wherever the update lands (`Du j = D i` whenever update `j` lands
  at `i`).  Then weighting after the scatter is weighting before it:
  `(x i + ∑ u j) * D i = x i * D i + ∑ (u j * Du j)`.
  Finiteness and nonnegativity of the weight are what distributivity on the extended reals needs; nothing is asked of
  the updates themselves.
-/
import Idealize.ShloMosaic.PureOps.Ideal
import proofs.«166090_j687194767719_2_alg».proof.Proof.LibERealSums

namespace Cert.LibScatter

open Idealize.ShloMosaic Finset

/-- Weighting the result of a scatter-add by `D` is scattering the weighted updates into the weighted operand, when
    the update-side weight `Du` agrees with `D` at the element each update lands on. -/
theorem scatterAdd_mul_weight {s si su : Shape} (d : ScatterDims s si su) {w : Nat} (x : s.Idx → EReal) (idx : IVec si w)
    (u : su.Idx → EReal) (D : s.Idx → EReal) (Du : su.Idx → EReal)
    (hD0 : ∀ i, 0 ≤ D i) (hDt : ∀ i, D i ≠ ⊤)
    (hland : ∀ j i, d.resultIdx? j idx = some i → Du j = D i) (i : s.Idx) :
    Ideal.hostScatterAdd d x idx u i * D i
      = Ideal.hostScatterAdd d (fun i => x i * D i) idx (fun j => u j * Du j) i := by
  unfold Ideal.hostScatterAdd
  rw [EReal.right_distrib_of_nonneg_of_ne_top (hD0 i) (hDt i), Cert.LibEReal.sum_mul_of_nonneg_ne_top _ _ (hD0 i) (hDt i)]
  refine congrArg _ (Finset.sum_congr rfl fun j hj => ?_)
  show u j * D i = u j * Du j
  rw [hland j i (Finset.mem_filter.mp hj).2]

/-- Two scatter-adds of the same indices agree when their operands and updates agree elementwise. -/
theorem scatterAdd_congr {s si su : Shape} (d : ScatterDims s si su) {w : Nat} (x x' : s.Idx → EReal) (idx : IVec si w)
    (u u' : su.Idx → EReal) (hx : ∀ i, x i = x' i) (hu : ∀ j, u j = u' j) (i : s.Idx) :
    Ideal.hostScatterAdd d x idx u i = Ideal.hostScatterAdd d x' idx u' i := by
  unfold Ideal.hostScatterAdd
  rw [hx i]; exact congrArg _ (Finset.sum_congr rfl fun j _ => hu j)

/-- A scatter-add of real updates into a real operand is real: its value is the real operand element plus the real sum. -/
theorem scatterAdd_coe {s si su : Shape} (d : ScatterDims s si su) {w : Nat} (x : s.Idx → EReal) (idx : IVec si w)
    (u : su.Idx → EReal) (xr : s.Idx → ℝ) (ur : su.Idx → ℝ) (hx : ∀ i, x i = (xr i : EReal)) (hu : ∀ j, u j = (ur j : EReal))
    (i : s.Idx) :
    Ideal.hostScatterAdd d x idx u i
      = ((xr i + ∑ j ∈ Finset.univ.filter (fun j => d.resultIdx? j idx = some i), ur j : ℝ) : EReal) := by
  unfold Ideal.hostScatterAdd
  rw [EReal.coe_add, hx i, Cert.LibEReal.coe_sum]
  exact congrArg _ (Finset.sum_congr rfl fun j _ => hu j)

end Cert.LibScatter
-- ==== Proof.BridgeReal.lean ====
/-
  Realness on the kernel side: when the float launch arrays hold real numbers, every entry of the two layers'
  activations and of their column statistics is a real number, and the variances are nonnegative. Each step is a
  closure fact about arbitrary arrays (a gather reads entries of its table; a scatter-add of real updates into a real
  array is real; finite sums, products and differences of reals are real; the guarded normalizer is a nonnegative
  real), instantiated along the tower of named intermediates.
-/
import proofs.«166090_j687194767719_2_alg».proof.Proof.KTower4
import proofs.«166090_j687194767719_2_alg».proof.Proof.BridgeK0
import proofs.«166090_j687194767719_2_alg».proof.Proof.BridgeStatsK
import proofs.«166090_j687194767719_2_alg».proof.Proof.LibScatter
import proofs.«166090_j687194767719_2_alg».proof.Proof.LibERealSums
import proofs.«166090_j687194767719_2_alg».proof.Proof.LibPointwise
import proofs.«166090_j687194767719_2_alg».proof.Proof.LibERealOps
import proofs.«166090_j687194767719_2_alg».proof.Proof.LibHostApply

noncomputable section

namespace Cert.TowerBridge

open Idealize.ShloMosaic Idealize.ShloMosaic.ValueIdx Cert.KernelIdeal Cert.KernelIdeal.Gen Cert.KernelIdeal.KTower
open Cert.LibHostApply

/-! ## Real extended reals -/

/-- An extended real that is a real number. -/
def R (a : EReal) : Prop := ∃ r : ℝ, a = (r : EReal)

theorem R.zero : R 0 := ⟨0, EReal.coe_zero.symm⟩
theorem R.coe (r : ℝ) : R (r : EReal) := ⟨r, rfl⟩
theorem R.add {a b : EReal} (ha : R a) (hb : R b) : R (a + b) := by
  obtain ⟨x, rfl⟩ := ha; obtain ⟨y, rfl⟩ := hb; exact ⟨x + y, (EReal.coe_add x y).symm⟩
theorem R.mul {a b : EReal} (ha : R a) (hb : R b) : R (a * b) := by
  obtain ⟨x, rfl⟩ := ha; obtain ⟨y, rfl⟩ := hb; exact ⟨x * y, (EReal.coe_mul x y).symm⟩
theorem R.sub {a b : EReal} (ha : R a) (hb : R b) : R (a - b) := by
  obtain ⟨x, rfl⟩ := ha; obtain ⟨y, rfl⟩ := hb; exact ⟨x - y, (EReal.coe_sub x y).symm⟩
theorem R.sum {ι : Type*} (s : Finset ι) (a : ι → EReal) (h : ∀ j ∈ s, R (a j)) : R (∑ j ∈ s, a j) := by
  classical
  induction s using Finset.induction_on with
  | empty => rw [Finset.sum_empty]; exact R.zero
  | insert i s hi ih =>
    rw [Finset.sum_insert hi]
    exact R.add (h i (Finset.mem_insert_self i s)) (ih fun j hj => h j (Finset.mem_insert_of_mem hj))

/-- The leaky ramp of a real is real. -/
theorem R.leaky {v : EReal} (hv : R v) : R (KVal.leaky v) := by
  obtain ⟨s, hs⟩ := Cert.LibERealOps.ofBits_slope
  unfold KVal.leaky
  split
  · exact hv
  · rw [hs]; exact R.mul (R.coe s) hv

/-- Every entry of an array is a real number. -/
def IsReal {S : Shape} (A : S.Idx → EReal) : Prop := ∀ i, R (A i)

/-! ## Closure under the host operations, for arbitrary arrays -/

/-- A gather reads entries of its table. -/
theorem isReal_gather {s si t : Shape} {w : Nat} (d : GatherDims s si t) (x : s.Idx → EReal) (idx : IVec si w)
    (hx : IsReal x) : IsReal (Host.gather d x idx) := fun j => hx (d.operandIdx j idx)

/-- A scatter-add of real updates into a real array is real. -/
theorem isReal_scatterAdd {s si su : Shape} {w : Nat} (d : ScatterDims s si su) (x : s.Idx → EReal) (idx : IVec si w)
    (u : su.Idx → EReal) (hx : IsReal x) (hu : IsReal u) :
    IsReal (Host.scatterAdd (F := Ideal) (φ := .f32) d x idx u) := by
  choose xr hxr using hx
  choose ur hur using hu
  intro i
  exact ⟨_, Cert.LibScatter.scatterAdd_coe d x idx u xr ur hxr hur i⟩

/-- The zero scalar repeated over any shape. -/
theorem isReal_bcast_zero {T : Shape} (h : (⟨0, ![]⟩ : Shape).BroadcastsInDim T ![]) :
    IsReal (broadcastInDim T ![] h zero_) := by
  intro i
  unfold zero_
  rw [ValueIdx.broadcastInDim_scalar_apply, constant_apply, Ideal.ofBits_zero_f32]
  exact R.zero

/-- The aggregate of a real array along any two index lists. -/
theorem isReal_aggOf (h : FVec Ideal S100000x64 .f32) (src dst : IVec S1350000 32) (hh : IsReal h) :
    IsReal (aggOf h src dst) := by
  unfold aggOf
  exact isReal_scatterAdd _ _ _ _ (isReal_bcast_zero _) (isReal_gather _ _ _ hh)

/-- A real vector of 64 as a row. -/
theorem isReal_rowOf64 (b : FVec Ideal S64 .f32) (hb : IsReal b) : IsReal (rowOf64 b) := by
  intro i
  obtain ⟨z, f, rfl⟩ : ∃ (z : Fin 1) (f : Fin 64), i = ix2 z f := ⟨i 0, i 1, eq_ix2 i⟩
  obtain rfl : z = 0 := Subsingleton.elim _ _
  unfold rowOf64
  rw [shapeCast_row_apply]
  exact hb _

/-- The normalizer column is real. -/
theorem isReal_dis2d (ei : IVec S2x1250000 32) : IsReal (dis2d ei) := by
  intro i
  obtain ⟨n, z, rfl⟩ : ∃ (n : Fin 100000) (z : Fin 1), i = ix2 n z := ⟨i 0, i 1, eq_ix2 i⟩
  obtain rfl : z = 0 := Subsingleton.elim _ _
  rw [K_dis2d_apply]
  obtain ⟨r, -, hr⟩ := Cert.LibPointwise.real_of_nonneg_ne_top _ (K_dis_nonneg_ne_top ei (ix1 n)).1
    (K_dis_nonneg_ne_top ei (ix1 n)).2
  exact ⟨r, hr⟩

/-- The zero row is real. -/
theorem isReal_c0 : IsReal c0 := by unfold c0; exact isReal_bcast_zero _

/-! ## Closure under the regions' functions, for arbitrary arrays -/

theorem isReal_G0_4 (x : S100000x128.Idx → EReal) (W : S128x64.Idx → EReal) (b : S1x64.Idx → EReal)
    (d : S100000x1.Idx → EReal) (hx : IsReal x) (hW : IsReal W) (hb : IsReal b) (hd : IsReal d) :
    IsReal (KVal.G0_4 x W b d) := fun i =>
  R.mul (R.add (R.sum _ _ fun k _ => R.mul (hx _) (hW _)) (hb _)) (hd _)

theorem isReal_G2_4 (x : S100000x64.Idx → EReal) (W : S64x64.Idx → EReal) (b : S1x64.Idx → EReal)
    (d : S100000x1.Idx → EReal) (hx : IsReal x) (hW : IsReal W) (hb : IsReal b) (hd : IsReal d) :
    IsReal (KVal.G2_4 x W b d) := fun i =>
  R.mul (R.add (R.sum _ _ fun k _ => R.mul (hx _) (hW _)) (hb _)) (hd _)

section Stats
variable (a : S100000x64.Idx → EReal) (d : S100000x1.Idx → EReal) (b : S1x64.Idx → EReal)
  (ha : IsReal a) (hd : IsReal d) (hb : IsReal b)
include ha hd hb

theorem isReal_G1_3 : IsReal (KVal.G1_3 a d b) := fun i => R.leaky (R.add (R.mul (ha _) (hd _)) (hb _))
theorem isReal_G1_4 : IsReal (KVal.G1_4 a d b) := fun j => R.sum _ _ fun n _ => isReal_G1_3 a d b ha hd hb _
theorem isReal_G1_5 : IsReal (KVal.G1_5 a d b) := fun j =>
  R.sum _ _ fun n _ => R.mul (isReal_G1_3 a d b ha hd hb _) (isReal_G1_3 a d b ha hd hb _)
theorem isReal_G3_3 : IsReal (KVal.G3_3 a d b) := fun i => R.leaky (R.add (R.mul (ha _) (hd _)) (hb _))
theorem isReal_G3_4 : IsReal (KVal.G3_4 a d b) := fun j => R.sum _ _ fun n _ => isReal_G3_3 a d b ha hd hb _
theorem isReal_G3_5 : IsReal (KVal.G3_5 a d b) := fun j =>
  R.sum _ _ fun n _ => R.mul (isReal_G3_3 a d b ha hd hb _) (isReal_G3_3 a d b ha hd hb _)

end Stats

/-! ## Closure under the statistics, for arbitrary arrays -/

/-- The column means of real per-block sums are real. -/
theorem isReal_meanOf (ps : FVec Ideal S20x8x64 .f32) (hps : IsReal ps) : IsReal (meanOf ps) := by
  intro i
  obtain ⟨f, rfl⟩ : ∃ f : Fin 64, i = ix1 f := ⟨i 0, eq_ix1 i⟩
  rw [← glue_mean, K_mean_gen, Cert.LibERealOps.ofBits_1e5]
  obtain ⟨t, ht⟩ := R.add R.zero (R.sum _ _ fun t (_ : t ∈ Finset.univ) => hps (ix3 t (0 : Fin 8) f))
  rw [ht, Cert.LibERealOps.div_coe_coe _ _ (by norm_num)]
  exact R.coe _

/-- The variance from a real mean and a real mean of squares is a nonnegative real. -/
theorem real_varOf (mean msq : FVec Ideal S64 .f32) (hm : IsReal mean) (hq : IsReal msq) :
    ∀ i, ∃ r : ℝ, 0 ≤ r ∧ varOf mean msq i = (r : EReal) := by
  intro i
  obtain ⟨p, hp⟩ := hm i
  obtain ⟨q, hq'⟩ := hq i
  have h : varOf mean msq i = max (msq i - mean i * mean i) (Ideal.ofBits .f32 0x00000000#32) := rfl
  rw [h, hp, hq', Ideal.ofBits_zero_f32, ← EReal.coe_mul, ← EReal.coe_sub, ← EReal.coe_zero, Cert.LibERealOps.max_coe]
  exact ⟨max (q - p * p) 0, le_max_right _ _, rfl⟩

/-- The scale from a real gain and a nonnegative real variance is real. -/
theorem isReal_scaleOf (gamma var : FVec Ideal S64 .f32) (hg : IsReal gamma)
    (hv : ∀ i, ∃ r : ℝ, 0 ≤ r ∧ var i = (r : EReal)) : IsReal (scaleOf gamma var) := by
  intro i
  obtain ⟨v, hv0, hvi⟩ := hv i
  obtain ⟨e, he, hee⟩ := Cert.LibERealOps.ofBits_eps
  have h : scaleOf gamma var i = gamma i * Ideal.rsqrt (var i + Ideal.ofBits .f32 0x3727C5AC#32) := rfl
  rw [h, hvi, hee, ← EReal.coe_add, Cert.LibERealOps.rsqrt_coe_pos _ (by positivity)]
  exact R.mul (hg i) (R.coe _)

/-- The shift from real arrays is real. -/
theorem isReal_shiftOf (beta mean scale : FVec Ideal S64 .f32) (hb : IsReal beta) (hm : IsReal mean) (hs : IsReal scale) :
    IsReal (shiftOf beta mean scale) := fun i => R.sub (hb i) (R.mul (hm i) (hs i))

/-- Entry `(k, f)` of the row-scaled weights. -/
theorem foldScale_apply (s : FVec Ideal S64 .f32) (W : FVec Ideal S64x64 .f32) (k f : Fin 64) :
    foldScale s W (ix2 k f) = s (ix1 k) * W (ix2 k f) := by
  show broadcastInDim S64x64 ![0, 1] bcast_S64x1_S64x64_0_1 (broadcastInDim S64x1 ![0] bcast_S64_S64x1_0 s) (ix2 k f)
      * W (ix2 k f) = _
  rw [broadcastInDim_cols_apply, broadcastInDim_col_apply]

/-- Entry `f` of the shift row carried through the weights. -/
theorem foldShift_apply (t : FVec Ideal S64 .f32) (W : FVec Ideal S64x64 .f32) (f : Fin 64) :
    foldShift t W (ix2 (0 : Fin 1) f) = ∑ k : Fin 64, t (ix1 k) * W (ix2 k f) := by
  refine (dotGeneral_mm_apply (dot_S1x64_S64x64_S1x64_1_0_0_1_n_n).wf none (shapeCast S1x64 t shapeCasts_S64_S1x64) W
    (0 : Fin 1) f).trans ?_
  refine Finset.sum_congr rfl fun k _ => ?_
  rw [shapeCast_row_apply]

theorem isReal_foldScale (s : FVec Ideal S64 .f32) (W : FVec Ideal S64x64 .f32) (hs : IsReal s) (hW : IsReal W) :
    IsReal (foldScale s W) := by
  intro i
  obtain ⟨k, f, rfl⟩ : ∃ (k f : Fin 64), i = ix2 k f := ⟨i 0, i 1, eq_ix2 i⟩
  rw [foldScale_apply]
  exact R.mul (hs _) (hW _)

theorem isReal_foldShift (t : FVec Ideal S64 .f32) (W : FVec Ideal S64x64 .f32) (ht : IsReal t) (hW : IsReal W) :
    IsReal (foldShift t W) := by
  intro i
  obtain ⟨z, f, rfl⟩ : ∃ (z : Fin 1) (f : Fin 64), i = ix2 z f := ⟨i 0, i 1, eq_ix2 i⟩
  obtain rfl : z = 0 := Subsingleton.elim _ _
  rw [foldShift_apply]
  exact R.sum _ _ fun k _ => R.mul (ht _) (hW _)

/-! ## Along the tower -/

section Tower
variable (x : FVec Ideal S100000x128 .f32) (ei : IVec S2x1250000 32) (W0 : FVec Ideal S128x64 .f32)
  (b0 g0 be0 : FVec Ideal S64 .f32) (W1 : FVec Ideal S64x64 .f32) (b1 : FVec Ideal S64 .f32)

theorem K_hw0_real (hx : ∀ i, ∃ r : ℝ, x i = (r : EReal)) (hW0 : ∀ i, ∃ r : ℝ, W0 i = (r : EReal)) : ∀ i, ∃ r : ℝ, hw0 x ei W0 i = (r : EReal) := by
  unfold hw0; exact isReal_G0_4 _ _ _ _ hx hW0 isReal_c0 (isReal_dis2d ei)

theorem K_agg0_real (hx : ∀ i, ∃ r : ℝ, x i = (r : EReal)) (hW0 : ∀ i, ∃ r : ℝ, W0 i = (r : EReal)) : ∀ i, ∃ r : ℝ, agg0 x ei W0 i = (r : EReal) := by
  unfold agg0; exact isReal_aggOf _ _ _ (K_hw0_real x ei W0 hx hW0)

/-- The first layer's activation is real at every entry. -/
theorem K_leaky0_real (hx : ∀ i, ∃ r : ℝ, x i = (r : EReal)) (hW0 : ∀ i, ∃ r : ℝ, W0 i = (r : EReal)) (hb0 : ∀ i, ∃ r : ℝ, b0 i = (r : EReal)) : ∀ i, ∃ r : ℝ, leaky0 x ei W0 b0 i = (r : EReal) := by
  unfold leaky0
  exact isReal_G1_3 _ _ _ (K_agg0_real x ei W0 hx hW0) (isReal_dis2d ei) (isReal_rowOf64 b0 hb0)

theorem K_psum0_real (hx : ∀ i, ∃ r : ℝ, x i = (r : EReal)) (hW0 : ∀ i, ∃ r : ℝ, W0 i = (r : EReal)) (hb0 : ∀ i, ∃ r : ℝ, b0 i = (r : EReal)) : ∀ i, ∃ r : ℝ, psum0 x ei W0 b0 i = (r : EReal) := by
  unfold psum0
  exact isReal_G1_4 _ _ _ (K_agg0_real x ei W0 hx hW0) (isReal_dis2d ei) (isReal_rowOf64 b0 hb0)

theorem K_psumsq0_real (hx : ∀ i, ∃ r : ℝ, x i = (r : EReal)) (hW0 : ∀ i, ∃ r : ℝ, W0 i = (r : EReal)) (hb0 : ∀ i, ∃ r : ℝ, b0 i = (r : EReal)) : ∀ i, ∃ r : ℝ, psumsq0 x ei W0 b0 i = (r : EReal) := by
  unfold psumsq0
  exact isReal_G1_5 _ _ _ (K_agg0_real x ei W0 hx hW0) (isReal_dis2d ei) (isReal_rowOf64 b0 hb0)

theorem K_mean0_real (hx : ∀ i, ∃ r : ℝ, x i = (r : EReal)) (hW0 : ∀ i, ∃ r : ℝ, W0 i = (r : EReal)) (hb0 : ∀ i, ∃ r : ℝ, b0 i = (r : EReal)) : ∀ i, ∃ r : ℝ, mean0 x ei W0 b0 i = (r : EReal) := by
  unfold mean0; exact isReal_meanOf _ (K_psum0_real x ei W0 b0 hx hW0 hb0)

theorem K_var0_real (hx : ∀ i, ∃ r : ℝ, x i = (r : EReal)) (hW0 : ∀ i, ∃ r : ℝ, W0 i = (r : EReal)) (hb0 : ∀ i, ∃ r : ℝ, b0 i = (r : EReal)) : ∀ i, ∃ r : ℝ, 0 ≤ r ∧ var0 x ei W0 b0 i = (r : EReal) := by
  unfold var0
  exact real_varOf _ _ (K_mean0_real x ei W0 b0 hx hW0 hb0) (isReal_meanOf _ (K_psumsq0_real x ei W0 b0 hx hW0 hb0))

/-- The first layer's column means are real and its column variances nonnegative reals. -/
theorem K_stats0_real (hx : ∀ i, ∃ r : ℝ, x i = (r : EReal)) (hW0 : ∀ i, ∃ r : ℝ, W0 i = (r : EReal)) (hb0 : ∀ i, ∃ r : ℝ, b0 i = (r : EReal)) :
    (∀ i, ∃ r : ℝ, mean0 x ei W0 b0 i = (r : EReal)) ∧ (∀ i, ∃ r : ℝ, 0 ≤ r ∧ var0 x ei W0 b0 i = (r : EReal)) :=
  ⟨K_mean0_real x ei W0 b0 hx hW0 hb0, K_var0_real x ei W0 b0 hx hW0 hb0⟩

theorem K_scale0_real (hx : ∀ i, ∃ r : ℝ, x i = (r : EReal)) (hW0 : ∀ i, ∃ r : ℝ, W0 i = (r : EReal)) (hb0 : ∀ i, ∃ r : ℝ, b0 i = (r : EReal)) (hg0 : ∀ i, ∃ r : ℝ, g0 i = (r : EReal)) : ∀ i, ∃ r : ℝ, scale0 x ei W0 b0 g0 i = (r : EReal) := by
  unfold scale0; exact isReal_scaleOf _ _ hg0 (K_var0_real x ei W0 b0 hx hW0 hb0)

theorem K_shift0_real (hx : ∀ i, ∃ r : ℝ, x i = (r : EReal)) (hW0 : ∀ i, ∃ r : ℝ, W0 i = (r : EReal)) (hb0 : ∀ i, ∃ r : ℝ, b0 i = (r : EReal)) (hg0 : ∀ i, ∃ r : ℝ, g0 i = (r : EReal)) (hbe0 : ∀ i, ∃ r : ℝ, be0 i = (r : EReal)) : ∀ i, ∃ r : ℝ, shift0 x ei W0 b0 g0 be0 i = (r : EReal) := by
  unfold shift0
  exact isReal_shiftOf _ _ _ hbe0 (K_mean0_real x ei W0 b0 hx hW0 hb0) (K_scale0_real x ei W0 b0 g0 hx hW0 hb0 hg0)

theorem K_W1p_real (hx : ∀ i, ∃ r : ℝ, x i = (r : EReal)) (hW0 : ∀ i, ∃ r : ℝ, W0 i = (r : EReal)) (hb0 : ∀ i, ∃ r : ℝ, b0 i = (r : EReal)) (hg0 : ∀ i, ∃ r : ℝ, g0 i = (r : EReal)) (hW1 : ∀ i, ∃ r : ℝ, W1 i = (r : EReal)) : ∀ i, ∃ r : ℝ, W1p x ei W0 b0 g0 W1 i = (r : EReal) := by
  unfold W1p; exact isReal_foldScale _ _ (K_scale0_real x ei W0 b0 g0 hx hW0 hb0 hg0) hW1

theorem K_c1_real (hx : ∀ i, ∃ r : ℝ, x i = (r : EReal)) (hW0 : ∀ i, ∃ r : ℝ, W0 i = (r : EReal)) (hb0 : ∀ i, ∃ r : ℝ, b0 i = (r : EReal)) (hg0 : ∀ i, ∃ r : ℝ, g0 i = (r : EReal)) (hbe0 : ∀ i, ∃ r : ℝ, be0 i = (r : EReal)) (hW1 : ∀ i, ∃ r : ℝ, W1 i = (r : EReal)) : ∀ i, ∃ r : ℝ, c1 x ei W0 b0 g0 be0 W1 i = (r : EReal) := by
  unfold c1; exact isReal_foldShift _ _ (K_shift0_real x ei W0 b0 g0 be0 hx hW0 hb0 hg0 hbe0) hW1

theorem K_hw1_real (hx : ∀ i, ∃ r : ℝ, x i = (r : EReal)) (hW0 : ∀ i, ∃ r : ℝ, W0 i = (r : EReal)) (hb0 : ∀ i, ∃ r : ℝ, b0 i = (r : EReal)) (hg0 : ∀ i, ∃ r : ℝ, g0 i = (r : EReal)) (hbe0 : ∀ i, ∃ r : ℝ, be0 i = (r : EReal)) (hW1 : ∀ i, ∃ r : ℝ, W1 i = (r : EReal)) : ∀ i, ∃ r : ℝ, hw1 x ei W0 b0 g0 be0 W1 i = (r : EReal) := by
  unfold hw1
  exact isReal_G2_4 _ _ _ _ (K_leaky0_real x ei W0 b0 hx hW0 hb0) (K_W1p_real x ei W0 b0 g0 W1 hx hW0 hb0 hg0 hW1)
    (K_c1_real x ei W0 b0 g0 be0 W1 hx hW0 hb0 hg0 hbe0 hW1) (isReal_dis2d ei)

theorem K_agg1_real (hx : ∀ i, ∃ r : ℝ, x i = (r : EReal)) (hW0 : ∀ i, ∃ r : ℝ, W0 i = (r : EReal)) (hb0 : ∀ i, ∃ r : ℝ, b0 i = (r : EReal)) (hg0 : ∀ i, ∃ r : ℝ, g0 i = (r : EReal)) (hbe0 : ∀ i, ∃ r : ℝ, be0 i = (r : EReal)) (hW1 : ∀ i, ∃ r : ℝ, W1 i = (r : EReal)) : ∀ i, ∃ r : ℝ, agg1 x ei W0 b0 g0 be0 W1 i = (r : EReal) := by
  unfold agg1; exact isReal_aggOf _ _ _ (K_hw1_real x ei W0 b0 g0 be0 W1 hx hW0 hb0 hg0 hbe0 hW1)

/-- The second layer's activation is real at every entry. -/
theorem K_leaky1_real (hx : ∀ i, ∃ r : ℝ, x i = (r : EReal)) (hW0 : ∀ i, ∃ r : ℝ, W0 i = (r : EReal)) (hb0 : ∀ i, ∃ r : ℝ, b0 i = (r : EReal)) (hg0 : ∀ i, ∃ r : ℝ, g0 i = (r : EReal)) (hbe0 : ∀ i, ∃ r : ℝ, be0 i = (r : EReal)) (hW1 : ∀ i, ∃ r : ℝ, W1 i = (r : EReal)) (hb1 : ∀ i, ∃ r : ℝ, b1 i = (r : EReal)) : ∀ i, ∃ r : ℝ, leaky1 x ei W0 b0 g0 be0 W1 b1 i = (r : EReal) := by
  unfold leaky1
  exact isReal_G3_3 _ _ _ (K_agg1_real x ei W0 b0 g0 be0 W1 hx hW0 hb0 hg0 hbe0 hW1) (isReal_dis2d ei) (isReal_rowOf64 b1 hb1)

theorem K_psum1_real (hx : ∀ i, ∃ r : ℝ, x i = (r : EReal)) (hW0 : ∀ i, ∃ r : ℝ, W0 i = (r : EReal)) (hb0 : ∀ i, ∃ r : ℝ, b0 i = (r : EReal)) (hg0 : ∀ i, ∃ r : ℝ, g0 i = (r : EReal)) (hbe0 : ∀ i, ∃ r : ℝ, be0 i = (r : EReal)) (hW1 : ∀ i, ∃ r : ℝ, W1 i = (r : EReal)) (hb1 : ∀ i, ∃ r : ℝ, b1 i = (r : EReal)) : ∀ i, ∃ r : ℝ, psum1 x ei W0 b0 g0 be0 W1 b1 i = (r : EReal) := by
  unfold psum1
  exact isReal_G3_4 _ _ _ (K_agg1_real x ei W0 b0 g0 be0 W1 hx hW0 hb0 hg0 hbe0 hW1) (isReal_dis2d ei) (isReal_rowOf64 b1 hb1)

theorem K_psumsq1_real (hx : ∀ i, ∃ r : ℝ, x i = (r : EReal)) (hW0 : ∀ i, ∃ r : ℝ, W0 i = (r : EReal)) (hb0 : ∀ i, ∃ r : ℝ, b0 i = (r : EReal)) (hg0 : ∀ i, ∃ r : ℝ, g0 i = (r : EReal)) (hbe0 : ∀ i, ∃ r : ℝ, be0 i = (r : EReal)) (hW1 : ∀ i, ∃ r : ℝ, W1 i = (r : EReal)) (hb1 : ∀ i, ∃ r : ℝ, b1 i = (r : EReal)) : ∀ i, ∃ r : ℝ, psumsq1 x ei W0 b0 g0 be0 W1 b1 i = (r : EReal) := by
  unfold psumsq1
  exact isReal_G3_5 _ _ _ (K_agg1_real x ei W0 b0 g0 be0 W1 hx hW0 hb0 hg0 hbe0 hW1) (isReal_dis2d ei) (isReal_rowOf64 b1 hb1)

theorem K_mean1_real (hx : ∀ i, ∃ r : ℝ, x i = (r : EReal)) (hW0 : ∀ i, ∃ r : ℝ, W0 i = (r : EReal)) (hb0 : ∀ i, ∃ r : ℝ, b0 i = (r : EReal)) (hg0 : ∀ i, ∃ r : ℝ, g0 i = (r : EReal)) (hbe0 : ∀ i, ∃ r : ℝ, be0 i = (r : EReal)) (hW1 : ∀ i, ∃ r : ℝ, W1 i = (r : EReal)) (hb1 : ∀ i, ∃ r : ℝ, b1 i = (r : EReal)) : ∀ i, ∃ r : ℝ, mean1 x ei W0 b0 g0 be0 W1 b1 i = (r : EReal) := by
  unfold mean1; exact isReal_meanOf _ (K_psum1_real x ei W0 b0 g0 be0 W1 b1 hx hW0 hb0 hg0 hbe0 hW1 hb1)

theorem K_var1_real (hx : ∀ i, ∃ r : ℝ, x i = (r : EReal)) (hW0 : ∀ i, ∃ r : ℝ, W0 i = (r : EReal)) (hb0 : ∀ i, ∃ r : ℝ, b0 i = (r : EReal)) (hg0 : ∀ i, ∃ r : ℝ, g0 i = (r : EReal)) (hbe0 : ∀ i, ∃ r : ℝ, be0 i = (r : EReal)) (hW1 : ∀ i, ∃ r : ℝ, W1 i = (r : EReal)) (hb1 : ∀ i, ∃ r : ℝ, b1 i = (r : EReal)) : ∀ i, ∃ r : ℝ, 0 ≤ r ∧ var1 x ei W0 b0 g0 be0 W1 b1 i = (r : EReal) := by
  unfold var1
  exact real_varOf _ _ (K_mean1_real x ei W0 b0 g0 be0 W1 b1 hx hW0 hb0 hg0 hbe0 hW1 hb1)
    (isReal_meanOf _ (K_psumsq1_real x ei W0 b0 g0 be0 W1 b1 hx hW0 hb0 hg0 hbe0 hW1 hb1))

/-- The second layer's column means are real and its column variances nonnegative reals. -/
theorem K_stats1_real (hx : ∀ i, ∃ r : ℝ, x i = (r : EReal)) (hW0 : ∀ i, ∃ r : ℝ, W0 i = (r : EReal)) (hb0 : ∀ i, ∃ r : ℝ, b0 i = (r : EReal)) (hg0 : ∀ i, ∃ r : ℝ, g0 i = (r : EReal)) (hbe0 : ∀ i, ∃ r : ℝ, be0 i = (r : EReal)) (hW1 : ∀ i, ∃ r : ℝ, W1 i = (r : EReal)) (hb1 : ∀ i, ∃ r : ℝ, b1 i = (r : EReal)) :
    (∀ i, ∃ r : ℝ, mean1 x ei W0 b0 g0 be0 W1 b1 i = (r : EReal)) ∧ (∀ i, ∃ r : ℝ, 0 ≤ r ∧ var1 x ei W0 b0 g0 be0 W1 b1 i = (r : EReal)) :=
  ⟨K_mean1_real x ei W0 b0 g0 be0 W1 b1 hx hW0 hb0 hg0 hbe0 hW1 hb1, K_var1_real x ei W0 b0 g0 be0 W1 b1 hx hW0 hb0 hg0 hbe0 hW1 hb1⟩

end Tower

end Cert.TowerBridge

end
-- ==== Proof.BridgeLayer.lean ====
/-
  One graph-convolution layer: the symmetric normalization factored out of the edge sum.

  Let `A : [N, C]` be the node features after the linear map, `dis : [N]` the inverse square roots of the degrees
  (finite and nonnegative), `row`, `col` the edge endpoints as signed words.  The reference scatters, for every edge
  `e` and feature `f`, the message `A[row e, f] · (dis[row e] · dis[col e])` onto node `col e`.  The kernel scales
  the table first, `A[n, f] · dis[n]`, scatters the gathered rows unweighted, and multiplies the sum at node `n` by
  `dis[n]`.  The two agree: an edge lands on node `n` exactly when `col e = n` (as a nonnegative word below `N`, so
  the clamped, sign-normalized read `dis[col e]` is `dis[n]`), and a finite nonnegative factor distributes over the
  sum of the messages whatever these are.
-/
import proofs.«166090_j687194767719_2_alg».proof.Proof.LibScatter
import proofs.«166090_j687194767719_2_alg».proof.Proof.LibGatherRows

noncomputable section

namespace Cert.BridgeLayer

open Idealize.ShloMosaic Idealize.ShloMosaic.ValueIdx Cert.LibGather Cert.LibScatter

/-- The kernel's weighted scatter is the reference's scatter of weighted messages. `Z` is the zero table both scatter
    into; `uK`, `uR` the two update arrays, given by what they hold at each `(e, f)`; `colN` the sign-normalized
    copy of `col` the reference's gather reads (equal to `col` wherever `col` is nonnegative). -/
theorem weighted_scatter_eq {N E C : Nat} (hN : 0 < N)
    (swf : ScatterDims.WF ⟨2, ![N, C]⟩ ⟨2, ![E, 1]⟩ ⟨2, ![E, C]⟩ [1] [0] [0] 1)
    (A : (⟨2, ![N, C]⟩ : Shape).Idx → EReal) (dis : (⟨1, ![N]⟩ : Shape).Idx → EReal)
    (hd0 : ∀ n, 0 ≤ dis n) (hdt : ∀ n, dis n ≠ ⊤)
    (Z : (⟨2, ![N, C]⟩ : Shape).Idx → EReal) (hZ : ∀ i, Z i = 0)
    (row col colN : IVec ⟨2, ![E, 1]⟩ 32)
    (hcolN : ∀ e : Fin E, 0 ≤ (col (ix2 e 0)).toInt → colN (ix2 e 0) = col (ix2 e 0))
    (uK uR : (⟨2, ![E, C]⟩ : Shape).Idx → EReal)
    (huK : ∀ (e : Fin E) (f : Fin C), uK (ix2 e f)
      = A (ix2 (clampRow N hN (row (ix2 e 0))) f) * dis (ix1 (clampRow N hN (row (ix2 e 0)))))
    (huR : ∀ (e : Fin E) (f : Fin C), uR (ix2 e f)
      = A (ix2 (clampRow N hN (row (ix2 e 0))) f)
        * (dis (ix1 (clampRow N hN (row (ix2 e 0)))) * dis (ix1 (clampRow N hN (colN (ix2 e 0))))))
    (n : Fin N) (f : Fin C) :
    Ideal.hostScatterAdd (rowsScatter N E C swf) Z col uK (ix2 n f) * dis (ix1 n)
      = Ideal.hostScatterAdd (rowsScatter N E C swf) Z col uR (ix2 n f) := by
  -- the node weight as a table, and the edge-side weight: dis at the (normalized, clamped) target of the edge
  let D2 : (⟨2, ![N, C]⟩ : Shape).Idx → EReal := fun i => dis (ix1 (idxEquiv2 i).1)
  let Du : (⟨2, ![E, C]⟩ : Shape).Idx → EReal := fun j => dis (ix1 (clampRow N hN (colN (ix2 (idxEquiv2 j).1 0))))
  have hland : ∀ j i, (rowsScatter N E C swf).resultIdx? j col = some i → Du j = D2 i := by
    intro j i h
    obtain ⟨e, g, rfl⟩ : ∃ (e : Fin E) (g : Fin C), j = ix2 e g := ⟨j 0, j 1, eq_ix2 j⟩
    obtain ⟨h0, -⟩ := rowsScatter_lands swf col e g i h
    have hnn : 0 ≤ (col (ix2 e 0)).toInt := by rw [h0]; exact Int.natCast_nonneg _
    show dis (ix1 (clampRow N hN (colN (ix2 e 0)))) = dis (ix1 (idxEquiv2 i).1)
    rw [hcolN e hnn, clampRow_of_lands hN (col (ix2 e 0)) (idxEquiv2 i).1 h0]
  have hw := scatterAdd_mul_weight (rowsScatter N E C swf) Z col uK D2 Du (fun i => hd0 _) (fun i => hdt _) hland (ix2 n f)
  have hD2 : D2 (ix2 n f) = dis (ix1 n) := rfl
  rw [hD2] at hw
  rw [hw]
  refine scatterAdd_congr _ _ _ _ _ _ (fun i => ?_) (fun j => ?_) _
  · show Z i * D2 i = Z i
    rw [hZ i, zero_mul]
  · obtain ⟨e, g, rfl⟩ : ∃ (e : Fin E) (g : Fin C), j = ix2 e g := ⟨j 0, j 1, eq_ix2 j⟩
    show uK (ix2 e g) * dis (ix1 (clampRow N hN (colN (ix2 e 0)))) = uR (ix2 e g)
    rw [huK, huR, mul_assoc]

end Cert.BridgeLayer
-- ==== Proof.LibIndexNorm.lean ====
/-
  Sign normalization of an index word.

  Python-style indexing adds the extent to a negative index and leaves a nonnegative one alone:
  `select (c < 0) (c + N) c`.  On a word whose signed value is nonnegative this is the word itself.
-/
import Idealize.ShloMosaic.PureOps.Ideal

namespace Cert.LibIndexNorm

open Idealize.ShloMosaic

/-- A nonnegative index word is its own sign-normalized form. -/
theorem signNorm_of_nonneg (c z a : BitVec 32) (hz : z = 0#32) (h : 0 ≤ c.toInt) :
    Scalar.select (IntOp.cmpi .slt c z) a c = c := by
  subst hz
  have hs : c.slt 0#32 = false := by
    rw [BitVec.slt_eq_decide]
    simp only [BitVec.toInt_zero, decide_eq_false_iff_not, not_lt]
    exact h
  unfold Scalar.select IntOp.cmpi
  simp [hs]

end Cert.LibIndexNorm
-- ==== Proof.BridgeK1.lean ====
/-
  The kernel-side aggregation weighted by the normalizer.

  The kernel gathers rows of a table `h` whose row `n` is `A n · dis n`, adds them into the rows the destination
  list names, and the next region multiplies row `n` of the result by `dis n`.  Read at `(n, f)` this is the
  scatter-add of the messages `A (src e, f) · (dis (src e) · dis (dst e))`: the form the reference computes.
  The statement is first made for any extents and any arrays, and only then read at the program's.
-/
import proofs.«166090_j687194767719_2_alg».proof.Proof.KTower1
import proofs.«166090_j687194767719_2_alg».proof.Proof.BridgeK0
import proofs.«166090_j687194767719_2_alg».proof.Proof.BridgeLayer
import proofs.«166090_j687194767719_2_alg».proof.Proof.LibIndexNorm
import proofs.«166090_j687194767719_2_alg».proof.Proof.LibHostApply

noncomputable section

namespace Cert.TowerBridge

open Idealize.ShloMosaic Idealize.ShloMosaic.ValueIdx
open Cert.LibGather

/-- Any extents, any arrays: the scatter-add of the gathered rows of `h = A · dv`, times `dv` at the target row, is
    the scatter-add of the doubly weighted messages. `srcW` is the (wrapped) source index array, `dstc` the
    destination one, `dstW` its wrapped copy, equal to it wherever it is nonnegative. -/
theorem agg_mul_dis_generic {N E C : Nat} (hN : 0 < N)
    (swf : ScatterDims.WF ⟨2, ![N, C]⟩ ⟨2, ![E, 1]⟩ ⟨2, ![E, C]⟩ [1] [0] [0] 1)
    (gwf : GatherDims.WF ⟨2, ![N, C]⟩ ⟨2, ![E, 1]⟩ ⟨2, ![E, C]⟩ [1] [0] [] [0] [] 1 ![1, C])
    (A h : (⟨2, ![N, C]⟩ : Shape).Idx → EReal) (dv : (⟨1, ![N]⟩ : Shape).Idx → EReal)
    (hd0 : ∀ i, 0 ≤ dv i) (hdt : ∀ i, dv i ≠ ⊤)
    (hh : ∀ (n : Fin N) (f : Fin C), h (ix2 n f) = A (ix2 n f) * dv (ix1 n))
    (Z : (⟨2, ![N, C]⟩ : Shape).Idx → EReal) (hZ : ∀ i, Z i = 0)
    (srcW dstc dstW : IVec ⟨2, ![E, 1]⟩ 32)
    (hdstW : ∀ e : Fin E, 0 ≤ (dstc (ix2 e 0)).toInt → dstW (ix2 e 0) = dstc (ix2 e 0))
    (uR : (⟨2, ![E, C]⟩ : Shape).Idx → EReal)
    (huR : ∀ (e : Fin E) (f : Fin C), uR (ix2 e f)
      = A (ix2 (clampRow N hN (srcW (ix2 e 0))) f)
        * (dv (ix1 (clampRow N hN (srcW (ix2 e 0)))) * dv (ix1 (clampRow N hN (dstW (ix2 e 0))))))
    (n : Fin N) (f : Fin C) :
    Ideal.hostScatterAdd (rowsScatter N E C swf) Z dstc (Host.gather (rowsDims N E C gwf) h srcW) (ix2 n f) * dv (ix1 n)
      = Ideal.hostScatterAdd (rowsScatter N E C swf) Z dstc uR (ix2 n f) :=
  Cert.BridgeLayer.weighted_scatter_eq hN swf A dv hd0 hdt Z hZ srcW dstc dstW hdstW
    (Host.gather (rowsDims N E C gwf) h srcW) uR
    (fun e g => by rw [gather_rows_apply hN gwf h srcW e g, hh])
    huR n f

open Cert.KernelIdeal Cert.KernelIdeal.Gen Cert.KernelIdeal.KTower

/-- A nonnegative list entry is left alone by the range wrap. -/
theorem K_wrapIdx_of_nonneg (r : IVec S1350000 32) (e : Fin 1350000) (h : 0 ≤ (r (ix1 e)).toInt) :
    wrapIdx r (ix1 e) = r (ix1 e) := by
  unfold wrapIdx
  rw [select_apply]
  exact Cert.LibIndexNorm.signNorm_of_nonneg _ _ _ (by rw [broadcastInDim_scalar_apply]; rfl) h

/-- A list as a one-column index array, read at an entry. -/
theorem K_col1_apply (v : IVec S1350000 32) (e : Fin 1350000) :
    broadcastInDim S1350000x1 ![0] bcast_S1350000_S1350000x1_0 v (ix2 e 0) = v (ix1 e) :=
  Cert.LibHostApply.broadcastInDim_col_apply v bcast_S1350000_S1350000x1_0 e

/-- The zero table. -/
theorem K_zeroTable_apply (i : S100000x64.Idx) : broadcastInDim S100000x64 ![] bcast_S_S100000x64 zero_ i = 0 := by
  unfold zero_
  rw [broadcastInDim_scalar_apply, constant_apply, Ideal.ofBits_zero_f32]

/-- The program's row gather and row scatter are the literal-record forms the index lemmas are stated for. -/
theorem K_gd_eq : gather_S100000x64_S1350000x1_S1350000x64_1_0_n_n_0_1_164
    = rowsDims 100000 1350000 64 gather_S100000x64_S1350000x1_S1350000x64_1_0_n_n_0_1_164_wf := rfl
theorem K_sd_eq : scatter_S100000x64_S1350000x1_S1350000x64_1_0_0_1
    = rowsScatter 100000 1350000 64 scatter_S100000x64_S1350000x1_S1350000x64_1_0_0_1_wf := rfl

/-- The kernel's aggregation is the scatter-add of the gathered rows, with the dimension records in their literal form. -/
theorem K_aggOf_eq (h : FVec Ideal S100000x64 .f32) (src dst : IVec S1350000 32) :
    aggOf h src dst
      = Ideal.hostScatterAdd (rowsScatter 100000 1350000 64 scatter_S100000x64_S1350000x1_S1350000x64_1_0_0_1_wf)
          (broadcastInDim S100000x64 ![] bcast_S_S100000x64 zero_)
          (broadcastInDim S1350000x1 ![0] bcast_S1350000_S1350000x1_0 dst)
          (Host.gather (rowsDims 100000 1350000 64 gather_S100000x64_S1350000x1_S1350000x64_1_0_n_n_0_1_164_wf) h
            (broadcastInDim S1350000x1 ![0] bcast_S1350000_S1350000x1_0 src)) := by
  unfold aggOf Host.scatterAdd
  rw [Ideal.hostScatterAdd_def, K_gd_eq, K_sd_eq]

/-- The kernel's aggregate times the normalizer is the scatter-add of the doubly weighted messages. -/
theorem K_agg_mul_dis (A h : FVec Ideal S100000x64 .f32) (dv : FVec Ideal S100000 .f32)
    (hd0 : ∀ i, 0 ≤ dv i) (hdt : ∀ i, dv i ≠ ⊤)
    (hh : ∀ (n : Fin 100000) (f : Fin 64), h (ix2 n f) = A (ix2 n f) * dv (ix1 n))
    (src dst : IVec S1350000 32)
    (uR : S1350000x64.Idx → EReal)
    (huR : ∀ (e : Fin 1350000) (f : Fin 64), uR (ix2 e f)
      = A (ix2 (clampRow 100000 (by decide) (wrapIdx src (ix1 e))) f)
        * (dv (ix1 (clampRow 100000 (by decide) (wrapIdx src (ix1 e))))
            * dv (ix1 (clampRow 100000 (by decide) (wrapIdx dst (ix1 e))))))
    (n : Fin 100000) (f : Fin 64) :
    aggOf h (wrapIdx src) dst (ix2 n f) * dv (ix1 n)
      = Ideal.hostScatterAdd (rowsScatter 100000 1350000 64 scatter_S100000x64_S1350000x1_S1350000x64_1_0_0_1_wf)
          (broadcastInDim S100000x64 ![] bcast_S_S100000x64 zero_)
          (broadcastInDim S1350000x1 ![0] bcast_S1350000_S1350000x1_0 dst) uR (ix2 n f) := by
  rw [K_aggOf_eq]
  have key := fun hw hu => agg_mul_dis_generic (N := 100000) (E := 1350000) (C := 64) (by decide)
    scatter_S100000x64_S1350000x1_S1350000x64_1_0_0_1_wf gather_S100000x64_S1350000x1_S1350000x64_1_0_n_n_0_1_164_wf
    A h dv hd0 hdt hh (broadcastInDim S100000x64 ![] bcast_S_S100000x64 zero_) K_zeroTable_apply
    (broadcastInDim S1350000x1 ![0] bcast_S1350000_S1350000x1_0 (wrapIdx src))
    (broadcastInDim S1350000x1 ![0] bcast_S1350000_S1350000x1_0 dst)
    (broadcastInDim S1350000x1 ![0] bcast_S1350000_S1350000x1_0 (wrapIdx dst)) hw uR hu n f
  refine key ?_ ?_
  · intro e he
    rw [K_col1_apply] at he ⊢
    rw [K_col1_apply]
    exact K_wrapIdx_of_nonneg dst e he
  · intro e g
    rw [K_col1_apply, K_col1_apply]
    exact huR e g

end Cert.TowerBridge
-- ==== Proof.BridgeR0.lean ====
/-
  The reference's graph-convolution layer read at an index.

  The edge weight `norm e = dis (src e) · dis (dst e)` (clamped, sign-normalized reads); the message
  `upd (e, g) = xw (src e, g) · norm e`; the aggregate is the scatter-add of the messages into a zero table; the
  pre-activation adds the bias row; leaky ReLU with the threshold `v ≥ 0`.
-/
import proofs.«166090_j687194767719_2_alg».proof.Proof.RTower1
import proofs.«166090_j687194767719_2_alg».proof.Proof.LibIndexNorm
import proofs.«166090_j687194767719_2_alg».proof.Proof.LibPointwise
import proofs.«166090_j687194767719_2_alg».proof.Proof.LibERealOps
import proofs.«166090_j687194767719_2_alg».proof.Proof.LibGatherRows
import proofs.«166090_j687194767719_2_alg».proof.Proof.LibHostApply
import Idealize.ShloMosaic.Lib.ValueIdx
import Idealize.ShloMosaic.Lib.IdealHost
import Idealize.ShloMosaic.PureOps.Ideal.Laws

noncomputable section

namespace Cert.TowerBridge

open Idealize.ShloMosaic Idealize.ShloMosaic.ValueIdx Cert.ReferenceIdeal Cert.ReferenceIdeal.Gen Cert.ReferenceIdeal.RTower
open Cert.LibGather

/-- The host scatter-add at the ideal instance is the ideal scatter-add, for ANY dimension record (stated over a variable
    record: unfolding it at a literal record makes the simplifier evaluate the record's index arithmetic). -/
theorem scatterAdd_eq_ideal {s si su : Shape} {w : Nat} (d : ScatterDims s si su) (x : s.Idx → EReal) (idx : IVec si w)
    (u : su.Idx → EReal) (i : s.Idx) :
    Host.scatterAdd (F := Ideal) (φ := .f32) d x idx u i = Ideal.hostScatterAdd d x idx u i := rfl

attribute [local irreducible] Host.gather Host.scatterAdd

/-- A list as a one-column index array, read at an entry. -/
theorem R_col1_apply (v : IVec S1350000 32) (e : Fin 1350000) :
    broadcastInDim S1350000x1 ![0] bcast_S1350000_S1350000x1_0 v (ix2 e 0) = v (ix1 e) :=
  Cert.LibHostApply.broadcastInDim_col_apply v bcast_S1350000_S1350000x1_0 e

/-- The edge weight at an edge. -/
theorem R_gd_eq : gather_S100000x64_S1350000x1_S1350000x64_1_0_n_n_0_1_164
    = rowsDims 100000 1350000 64 gather_S100000x64_S1350000x1_S1350000x64_1_0_n_n_0_1_164_wf := rfl
theorem R_vd_eq : gather_S100000_S1350000x1_S1350000_n_0_n_n_0_1_1
    = vecDims 100000 1350000 gather_S100000_S1350000x1_S1350000_n_0_n_n_0_1_1_wf := rfl
theorem R_sd_eq : scatter_S100000x64_S1350000x1_S1350000x64_1_0_0_1
    = rowsScatter 100000 1350000 64 scatter_S100000x64_S1350000x1_S1350000x64_1_0_0_1_wf := rfl

theorem R_norm_apply (dv : FVec Ideal S100000 .f32) (rn cn : IVec S1350000 32) (e : Fin 1350000) :
    RTower.norm dv rn cn (ix1 e)
      = dv (ix1 (clampRow 100000 (by decide) (rn (ix1 e)))) * dv (ix1 (clampRow 100000 (by decide) (cn (ix1 e)))) := by
  unfold RTower.norm
  rw [mulf_apply, R_vd_eq, gather_vec_apply (N := 100000) (E := 1350000) (by decide),
    gather_vec_apply (N := 100000) (E := 1350000) (by decide), R_col1_apply, R_col1_apply]

/-- The message at an edge and feature. -/
theorem R_upd_apply (A : FVec Ideal S100000x64 .f32) (rn : IVec S1350000 32) (nrm : FVec Ideal S1350000 .f32)
    (e : Fin 1350000) (g : Fin 64) :
    upd A rn nrm (ix2 e g) = A (ix2 (clampRow 100000 (by decide) (rn (ix1 e))) g) * nrm (ix1 e) := by
  unfold upd
  rw [mulf_apply, R_gd_eq, gather_rows_apply (N := 100000) (E := 1350000) (C := 64) (by decide), R_col1_apply,
    Cert.LibHostApply.broadcastInDim_cols_apply, Cert.LibHostApply.broadcastInDim_col_apply]

/-- The aggregate is the ideal scatter-add of the messages. -/
theorem R_agg_eq (col : IVec S1350000 32) (u : FVec Ideal S1350000x64 .f32) (i : S100000x64.Idx) :
    agg col u i = Ideal.hostScatterAdd (rowsScatter 100000 1350000 64 scatter_S100000x64_S1350000x1_S1350000x64_1_0_0_1_wf)
      (broadcastInDim S100000x64 ![] bcast_S_S100000x64 (constant (F := Ideal) S_ .f32 0x00000000#32))
      (broadcastInDim S1350000x1 ![0] bcast_S1350000_S1350000x1_0 col) u i := by
  unfold agg
  rw [scatterAdd_eq_ideal, R_sd_eq]

/-- The pre-activation at a node and feature. -/
theorem R_conv_apply (a : FVec Ideal S100000x64 .f32) (b : FVec Ideal S64 .f32) (n : Fin 100000) (f : Fin 64) :
    conv a b (ix2 n f) = a (ix2 n f) + b (ix1 f) := by
  unfold conv bcRow
  rw [addf_apply, Cert.LibHostApply.broadcastInDim_rows_apply, Cert.LibHostApply.broadcastInDim_row_apply]

/-- Leaky ReLU at an element. -/
theorem R_leaky_apply (z : FVec Ideal S100000x64 .f32) (i : S100000x64.Idx) :
    leaky z i = Scalar.select (Ideal.cmp .oge (z i) 0) (z i) (Ideal.ofBits .f32 0x3C23D70A#32 * z i) := by
  unfold leaky
  rw [select_apply, cmpf_apply, mulf_apply, broadcastInDim_scalar_apply, broadcastInDim_scalar_apply,
    constant_apply, constant_apply, Ideal.ofBits_zero_f32, Ideal.cmpf_def]

/-- A nonnegative list entry is left alone by the range wrap. -/
theorem R_wrapN_of_nonneg (r : IVec S1350000 32) (e : Fin 1350000) (h : 0 ≤ (r (ix1 e)).toInt) :
    wrapN r (ix1 e) = r (ix1 e) := by
  unfold wrapN
  rw [select_apply]
  exact Cert.LibIndexNorm.signNorm_of_nonneg _ _ _ (by rw [broadcastInDim_scalar_apply]; rfl) h

/-- The first layer's feature transform at a node and feature: the row against the column. -/
theorem R_xw0_apply (x : FVec Ideal S100000x128 .f32) (w : FVec Ideal S128x64 .f32) (n : Fin 100000) (f : Fin 64) :
    xw0 x w (ix2 n f) = ∑ k : Fin 128, x (ix2 n k) * w (ix2 k f) :=
  Cert.LibHostApply.dotGeneral_mm_apply (dot_S100000x128_S128x64_S100000x64_1_0_0_1_n_n).wf none x w n f

/-- The second layer's feature transform at a node and feature. -/
theorem R_xw1_apply (h : FVec Ideal S100000x64 .f32) (w : FVec Ideal S64x64 .f32) (n : Fin 100000) (f : Fin 64) :
    xw1 h w (ix2 n f) = ∑ k : Fin 64, h (ix2 n k) * w (ix2 k f) :=
  Cert.LibHostApply.dotGeneral_mm_apply (dot_S100000x64_S64x64_S100000x64_1_0_0_1_n_n).wf none h w n f

/-- The normalizer of an arbitrary degree array at a node: the guarded reciprocal square root. -/
theorem R_dis_apply (d : FVec Ideal S100000 .f32) (n : Fin 100000) :
    dis d (ix1 n) = Scalar.select (Ideal.cmp .ogt (d (ix1 n)) 0)
      (Ideal.rsqrt (max (d (ix1 n)) (Ideal.ofBits .f32 0x2B8CBCCC#32))) 0 := by
  unfold dis
  rw [select_apply, cmpf_apply, broadcastInDim_scalar_apply]
  simp only [constant_apply, Ideal.ofBits_zero_f32, Ideal.cmpf_def]
  rfl

/-- The normalizer is a nonnegative real at every node, whatever the degrees. -/
theorem R_dis_nonneg_ne_top (d : FVec Ideal S100000 .f32) (i : S100000.Idx) : 0 ≤ dis d i ∧ dis d i ≠ ⊤ := by
  obtain ⟨n, rfl⟩ : ∃ n : Fin 100000, i = ix1 n := ⟨i 0, eq_ix1 i⟩
  obtain ⟨t, ht, et⟩ := Cert.LibERealOps.ofBits_tiny
  rw [R_dis_apply, et]
  exact Cert.LibPointwise.dis_entry _ t ht

end Cert.TowerBridge

end
-- ==== Proof.BridgeSame.lean ====
/-
  The two programs spell the graph's endpoint lists, the index wrap, the degrees and the normalizers with the same
  operations on the same literal shapes; only the names of the shape abbreviations, of the side facts and of the
  dimension records differ. So the two spellings are the same functions.
-/
import proofs.«166090_j687194767719_2_alg».proof.Proof.KTower1
import proofs.«166090_j687194767719_2_alg».proof.Proof.RTower0

set_option maxRecDepth 16384

noncomputable section

namespace Cert.TowerBridge

open Idealize.ShloMosaic

attribute [local irreducible] Host.scatterAdd Host.gather

/-- The first endpoints followed by the self loops': one list in both programs. -/
theorem rowOf_same (ei : IVec ⟨2, ![2, 1250000]⟩ 32) :
    Cert.KernelIdeal.KTower.rowOf ei = Cert.ReferenceIdeal.RTower.rowOf ei := rfl

/-- The second endpoints followed by the self loops'. -/
theorem colOf_same (ei : IVec ⟨2, ![2, 1250000]⟩ 32) :
    Cert.KernelIdeal.KTower.colOf ei = Cert.ReferenceIdeal.RTower.colOf ei := rfl

/-- The wrap of negative entries by the node count. -/
theorem wrap_same (r : IVec ⟨1, ![1350000]⟩ 32) :
    Cert.KernelIdeal.KTower.wrapIdx r = Cert.ReferenceIdeal.RTower.wrapN r := rfl

/-- The degrees: ones added at the second endpoints into zeros. -/
theorem deg_same (ei : IVec ⟨2, ![2, 1250000]⟩ 32) :
    Cert.KernelIdeal.KTower.deg ei = Cert.ReferenceIdeal.RTower.deg (Cert.ReferenceIdeal.RTower.colOf ei) := by
  unfold Cert.KernelIdeal.KTower.deg Cert.ReferenceIdeal.RTower.deg
  rw [colOf_same]
  rfl

/-- The normalizers: the reciprocal root of a positive degree raised to the floor, zero elsewhere. -/
theorem dis_same (ei : IVec ⟨2, ![2, 1250000]⟩ 32) :
    Cert.KernelIdeal.KTower.dis ei
      = Cert.ReferenceIdeal.RTower.dis (Cert.ReferenceIdeal.RTower.deg (Cert.ReferenceIdeal.RTower.colOf ei)) := by
  unfold Cert.KernelIdeal.KTower.dis Cert.KernelIdeal.KTower.degPos Cert.KernelIdeal.KTower.degRsqrt
    Cert.ReferenceIdeal.RTower.dis
  rw [deg_same]
  rfl

end Cert.TowerBridge

end
-- ==== Proof.BridgeLayer0.lean ====
/-
  One graph-convolution layer of the two programs, entry by entry.

  The kernel scales the transformed rows by the normalizer, gathers and adds them along the edges, scales the sum at
  each node by the normalizer again, adds the bias and applies the leaky ramp with threshold `v > 0`. The reference
  weights each gathered row by the product of its two endpoints' normalizers, adds the weighted rows along the edges,
  adds the bias and applies the ramp with threshold `v ≥ 0`. The normalizer is a nonnegative real, so it distributes
  over the edge sum; an edge lands on a node exactly when its target is that node; the two ramps differ only at `0`,
  where both give `0`.
-/
import proofs.«166090_j687194767719_2_alg».proof.Proof.BridgeK1
import proofs.«166090_j687194767719_2_alg».proof.Proof.BridgeR0
import proofs.«166090_j687194767719_2_alg».proof.Proof.BridgeSame
import proofs.«166090_j687194767719_2_alg».proof.Proof.RTower2
import proofs.«166090_j687194767719_2_alg».proof.Proof.LibPointwise
import proofs.«166090_j687194767719_2_alg».proof.Proof.LibHostApply

set_option maxRecDepth 16384

noncomputable section

namespace Cert.TowerBridge

open Idealize.ShloMosaic Idealize.ShloMosaic.ValueIdx
open Cert.LibGather
open Cert.KernelIdeal (S100000x64 S100000x128 S128x64 S64 S1x64 S2x1250000 S1350000 S1350000x64 S100000)
open Cert

/-- A vector of 64 laid as a row, at column f (the kernel side's bias rows). -/
theorem K_rowOf64_apply (v : S64.Idx → EReal) (f : Fin 64) : KernelIdeal.KTower.rowOf64 v (ix2 (0 : Fin 1) f) = v (ix1 f) := by
  unfold KernelIdeal.KTower.rowOf64
  exact LibHostApply.shapeCast_row_apply v _ f

/-- The reference's message at an edge, in the kernel side's spelling of the endpoints and the normalizer. -/
theorem message_eq (ei : IVec S2x1250000 32) (A : S100000x64.Idx → EReal) (e : Fin 1350000) (g : Fin 64) :
    ReferenceIdeal.RTower.upd A (ReferenceIdeal.RTower.wrapN (ReferenceIdeal.RTower.rowOf ei)) (ReferenceIdeal.RTower.normOf ei) (ix2 e g)
      = A (ix2 (clampRow 100000 (by decide) (KernelIdeal.KTower.wrapIdx (KernelIdeal.KTower.rowOf ei) (ix1 e))) g)
        * (KernelIdeal.KTower.dis ei (ix1 (clampRow 100000 (by decide) (KernelIdeal.KTower.wrapIdx (KernelIdeal.KTower.rowOf ei) (ix1 e))))
            * KernelIdeal.KTower.dis ei (ix1 (clampRow 100000 (by decide) (KernelIdeal.KTower.wrapIdx (KernelIdeal.KTower.colOf ei) (ix1 e))))) := by
  rw [R_upd_apply]
  unfold ReferenceIdeal.RTower.normOf
  rw [R_norm_apply, wrap_same, wrap_same, rowOf_same, colOf_same, dis_same]

/-- The two programs' scatter-adds of one update array into the zero table along the second endpoints are one term. -/
theorem scatter_same (ei : IVec S2x1250000 32) (u : S1350000x64.Idx → EReal) (i : S100000x64.Idx) :
    Ideal.hostScatterAdd (rowsScatter 100000 1350000 64 KernelIdeal.Gen.scatter_S100000x64_S1350000x1_S1350000x64_1_0_0_1_wf)
        (broadcastInDim KernelIdeal.S100000x64 ![] KernelIdeal.Gen.bcast_S_S100000x64 KernelIdeal.KTower.zero_)
        (broadcastInDim KernelIdeal.S1350000x1 ![0] KernelIdeal.Gen.bcast_S1350000_S1350000x1_0 (KernelIdeal.KTower.colOf ei)) u i
      = ReferenceIdeal.RTower.agg (ReferenceIdeal.RTower.colOf ei) u i := by
  rw [R_agg_eq, colOf_same]
  rfl

/-- One layer: for a table `h` whose row n is `A n · dis n`, the kernel's side is the reference's. -/
theorem layer_eq (ei : IVec S2x1250000 32) (A h : S100000x64.Idx → EReal) (b : S64.Idx → EReal)
    (hh : ∀ (n : Fin 100000) (f : Fin 64), h (ix2 n f) = A (ix2 n f) * KernelIdeal.KTower.dis ei (ix1 n))
    (n : Fin 100000) (f : Fin 64) :
    KernelIdeal.KVal.leaky (KernelIdeal.KTower.aggOf h (KernelIdeal.KTower.wrapIdx (KernelIdeal.KTower.rowOf ei)) (KernelIdeal.KTower.colOf ei) (ix2 n f)
        * KernelIdeal.KTower.dis2d ei (ix2 n (0 : Fin 1)) + KernelIdeal.KTower.rowOf64 b (ix2 (0 : Fin 1) f))
      = ReferenceIdeal.RTower.leaky (ReferenceIdeal.RTower.conv (ReferenceIdeal.RTower.agg (ReferenceIdeal.RTower.colOf ei)
          (ReferenceIdeal.RTower.upd A (ReferenceIdeal.RTower.wrapN (ReferenceIdeal.RTower.rowOf ei)) (ReferenceIdeal.RTower.normOf ei))) b) (ix2 n f) := by
  have hagg := K_agg_mul_dis A h (KernelIdeal.KTower.dis ei) (fun i => (K_dis_nonneg_ne_top ei i).1) (fun i => (K_dis_nonneg_ne_top ei i).2) hh
    (KernelIdeal.KTower.rowOf ei) (KernelIdeal.KTower.colOf ei)
    (ReferenceIdeal.RTower.upd A (ReferenceIdeal.RTower.wrapN (ReferenceIdeal.RTower.rowOf ei)) (ReferenceIdeal.RTower.normOf ei))
    (message_eq ei A) n f
  rw [K_dis2d_apply, K_rowOf64_apply, hagg, scatter_same, R_leaky_apply, R_conv_apply]
  unfold KernelIdeal.KVal.leaky
  exact LibPointwise.leaky_ite_eq_select_ge _ _

/-- The reference's first feature transform at a node and feature. -/
theorem xw0_apply (x : S100000x128.Idx → EReal) (W0 : S128x64.Idx → EReal) (n : Fin 100000) (f : Fin 64) :
    ReferenceIdeal.RTower.xw0 x W0 (ix2 n f) = ∑ k : Fin 128, x (ix2 n k) * W0 (ix2 k f) := by
  unfold ReferenceIdeal.RTower.xw0
  exact LibHostApply.dotGeneral_mm_apply (N := 100000) (K := 128) (C := 64)
    ReferenceIdeal.Gen.dot_S100000x128_S128x64_S100000x64_1_0_0_1_n_n_wf none x W0 n f

/-- The first layer's activations agree. -/
theorem leaky0_eq (x : FVec Ideal S100000x128 .f32) (ei : IVec S2x1250000 32) (W0 : FVec Ideal S128x64 .f32) (b0 : FVec Ideal S64 .f32) :
    KernelIdeal.KTower.leaky0 x ei W0 b0 = ReferenceIdeal.RTower.leaky0Of x ei W0 b0 := by
  funext i
  obtain ⟨n, f, rfl⟩ : ∃ (n : Fin 100000) (f : Fin 64), i = ix2 n f := ⟨i 0, i 1, eq_ix2 i⟩
  exact layer_eq ei (ReferenceIdeal.RTower.xw0 x W0) (KernelIdeal.KTower.hw0 x ei W0) b0
    (fun n f => by rw [K_hw0_apply, xw0_apply, add_zero]) n f

end Cert.TowerBridge
-- ==== Proof.BridgeFold.lean ====
/- The normalisation folded into the next layer's product. The kernel never forms the normalised rows of the first layer:
   it multiplies the raw rows into weights whose row k carries the factor scale k = γ k · rsqrt (var k + ε), and adds the
   row shift · W, shift k = β k − mean k · scale k. The reference normalises the rows and multiplies them into the plain
   weights. Entry by entry these are two arrangements of one finite sum of real numbers — every input is real, the
   variance is nonnegative and ε positive, so the reciprocal square root is a real too — and the real identity
   Σ l·(γ s W) + Σ (β − μ γ s)·W = Σ ((l − μ) s γ + β)·W carries over. -/
import proofs.«166090_j687194767719_2_alg».proof.Proof.BridgeFinal
import proofs.«166090_j687194767719_2_alg».proof.Proof.KValMatmul
import proofs.«166090_j687194767719_2_alg».proof.Proof.LibBatchNorm
import proofs.«166090_j687194767719_2_alg».proof.Proof.LibERealOps
import proofs.«166090_j687194767719_2_alg».proof.Proof.LibHostApply

noncomputable section

open Idealize.ShloMosaic Idealize.ShloMosaic.ValueIdx
open scoped BigOperators

namespace Cert.TowerBridge

open Cert.KernelIdeal (S100000x64 S64x64 S64 S1x64)
open Cert

/-- The reference's product of the normalised rows into the plain weights, read at (n, f). -/
theorem normalised_matmul_apply (l : S100000x64.Idx → EReal) (g be : S64.Idx → EReal) (W1 : S64x64.Idx → EReal)
    (n : Fin 100000) (f : Fin 64) :
    Host.dotGeneral (F := Ideal) (φ₁ := .f32) (φ₂ := .f32) ReferenceIdeal.dot_S100000x64_S64x64_S100000x64_1_0_0_1_n_n none
        (ReferenceIdeal.RStretch.affineR (ReferenceIdeal.RStretch.centered l) (ReferenceIdeal.RStretch.rstdOf (ReferenceIdeal.RStretch.varR l)) g be) W1 (ix2 n f)
      = ∑ k : Fin 64, ((((l (ix2 n k) - ReferenceIdeal.RStretch.meanR l (ix1 k)) * Ideal.rsqrt (ReferenceIdeal.RStretch.varR l (ix1 k) + Ideal.ofBits .f32 0x3727C5AC#32)) * g (ix1 k)) + be (ix1 k)) * W1 (ix2 k f) := by
  refine (LibHostApply.dotGeneral_mm_apply (N := 100000) (K := 64) (C := 64)
    ReferenceIdeal.Gen.dot_S100000x64_S64x64_S100000x64_1_0_0_1_n_n_wf none _ W1 n f).trans ?_
  refine Finset.sum_congr rfl fun k _ => ?_
  rw [affineR_apply, centered_apply, rstdOf_apply]

section
variable (l : S100000x64.Idx → EReal) (g be : S64.Idx → EReal) (W1 W1p : S64x64.Idx → EReal) (c1 : S1x64.Idx → EReal)
  (sc sh mK vK : S64.Idx → EReal)
  (hsc : ∀ k : Fin 64, sc (ix1 k) = g (ix1 k) * Ideal.rsqrt (vK (ix1 k) + Ideal.ofBits .f32 0x3727C5AC#32))
  (hsh : ∀ k : Fin 64, sh (ix1 k) = be (ix1 k) - mK (ix1 k) * sc (ix1 k))
  (hW1p : ∀ k f : Fin 64, W1p (ix2 k f) = sc (ix1 k) * W1 (ix2 k f))
  (hc1 : ∀ f : Fin 64, c1 (ix2 (0 : Fin 1) f) = ∑ k : Fin 64, sh (ix1 k) * W1 (ix2 k f))
  (hm : ∀ k : Fin 64, mK (ix1 k) = ReferenceIdeal.RStretch.meanR l (ix1 k))
  (hv : ∀ k : Fin 64, vK (ix1 k) = ReferenceIdeal.RStretch.varR l (ix1 k))
  (hl : ∀ i, ∃ r : ℝ, l i = (r : EReal)) (hg : ∀ i, ∃ r : ℝ, g i = (r : EReal)) (hbe : ∀ i, ∃ r : ℝ, be i = (r : EReal))
  (hW1 : ∀ i, ∃ r : ℝ, W1 i = (r : EReal))
  (hmr : ∀ k : Fin 64, ∃ r : ℝ, ReferenceIdeal.RStretch.meanR l (ix1 k) = (r : EReal))
  (hvr : ∀ k : Fin 64, ∃ r : ℝ, 0 ≤ r ∧ ReferenceIdeal.RStretch.varR l (ix1 k) = (r : EReal))
include hsc hsh hW1p hc1 hm hv hl hg hbe hW1 hmr hvr

/-- Both arrangements at (n, f) are one real number. -/
theorem fold_matmul_core (n : Fin 100000) (f : Fin 64) :
    ∃ y : ℝ, (∑ k : Fin 64, l (ix2 n k) * W1p (ix2 k f)) + c1 (ix2 (0 : Fin 1) f) = (y : EReal)
      ∧ Host.dotGeneral (F := Ideal) (φ₁ := .f32) (φ₂ := .f32) ReferenceIdeal.dot_S100000x64_S64x64_S100000x64_1_0_0_1_n_n none
        (ReferenceIdeal.RStretch.affineR (ReferenceIdeal.RStretch.centered l) (ReferenceIdeal.RStretch.rstdOf (ReferenceIdeal.RStretch.varR l)) g be) W1 (ix2 n f) = (y : EReal) := by
  obtain ⟨e, he0, he⟩ := LibERealOps.ofBits_eps
  choose lr hlr using fun k : Fin 64 => hl (ix2 n k)
  choose mur hmur using fun k : Fin 64 => hmr k
  choose vr hvr0 hvrE using fun k : Fin 64 => hvr k
  choose gr hgr using fun k : Fin 64 => hg (ix1 k)
  choose br hbr using fun k : Fin 64 => hbe (ix1 k)
  choose Wr hWr using fun k : Fin 64 => hW1 (ix2 k f)
  have hrs : ∀ k : Fin 64, Ideal.rsqrt (ReferenceIdeal.RStretch.varR l (ix1 k) + Ideal.ofBits .f32 0x3727C5AC#32) = (((Real.sqrt (vr k + e))⁻¹ : ℝ) : EReal) := fun k => by
    rw [hvrE k, he, ← EReal.coe_add, LibERealOps.rsqrt_coe_pos _ (by have := hvr0 k; linarith)]
  obtain ⟨y, h1, h2⟩ := LibBatchNorm.bn_fold_ereal_real (fun k : Fin 64 => l (ix2 n k)) (fun k : Fin 64 => ReferenceIdeal.RStretch.meanR l (ix1 k))
    (fun k : Fin 64 => Ideal.rsqrt (ReferenceIdeal.RStretch.varR l (ix1 k) + Ideal.ofBits .f32 0x3727C5AC#32)) (fun k : Fin 64 => g (ix1 k)) (fun k : Fin 64 => be (ix1 k)) (fun k : Fin 64 => W1 (ix2 k f))
    lr mur (fun k => (Real.sqrt (vr k + e))⁻¹) gr br Wr hlr hmur hrs hgr hbr hWr
  refine ⟨y, ?_, (normalised_matmul_apply l g be W1 n f).trans h2⟩
  refine Eq.trans ?_ h1
  rw [hc1 f]
  refine congrArg₂ (· + ·) (Finset.sum_congr rfl fun k _ => ?_) (Finset.sum_congr rfl fun k _ => ?_)
  · rw [hW1p k f, hsc k, hv k]
  · rw [hsh k, hsc k, hv k, hm k]

/-- The folded product plus the folded shift is the reference's product of the normalised rows. -/
theorem fold_matmul_eq (n : Fin 100000) (f : Fin 64) :
    (∑ k : Fin 64, l (ix2 n k) * W1p (ix2 k f)) + c1 (ix2 (0 : Fin 1) f)
      = Host.dotGeneral (F := Ideal) (φ₁ := .f32) (φ₂ := .f32) ReferenceIdeal.dot_S100000x64_S64x64_S100000x64_1_0_0_1_n_n none
        (ReferenceIdeal.RStretch.affineR (ReferenceIdeal.RStretch.centered l) (ReferenceIdeal.RStretch.rstdOf (ReferenceIdeal.RStretch.varR l)) g be) W1 (ix2 n f) := by
  obtain ⟨y, h1, h2⟩ := fold_matmul_core l g be W1 W1p c1 sc sh mK vK hsc hsh hW1p hc1 hm hv hl hg hbe hW1 hmr hvr n f
  exact h1.trans h2.symm

/-- … and that common value is a real number. -/
theorem fold_matmul_real (n : Fin 100000) (f : Fin 64) :
    ∃ y : ℝ, (∑ k : Fin 64, l (ix2 n k) * W1p (ix2 k f)) + c1 (ix2 (0 : Fin 1) f) = (y : EReal) := by
  obtain ⟨y, h1, -⟩ := fold_matmul_core l g be W1 W1p c1 sc sh mK vK hsc hsh hW1p hc1 hm hv hl hg hbe hW1 hmr hvr n f
  exact ⟨y, h1⟩

end

end Cert.TowerBridge

end
-- ==== Proof.BridgeLayer1.lean ====
/-
  The second graph-convolution layer of the two programs.

  The kernel multiplies the first layer's activations into weights with the first normalisation's scale folded into
  their rows and adds the folded shift; the reference normalises the activations and multiplies them into the plain
  weights. With the first layer's activations equal, the kernel's block statistics equal to the reference's column
  statistics, and every input a real number, the two transformed tables agree entry by entry; the layer itself is then
  the first layer's argument again.
-/
import proofs.«166090_j687194767719_2_alg».proof.Proof.BridgeLayer0
import proofs.«166090_j687194767719_2_alg».proof.Proof.BridgeFold
import proofs.«166090_j687194767719_2_alg».proof.Proof.BridgeStats
import proofs.«166090_j687194767719_2_alg».proof.Proof.BridgeReal
import proofs.«166090_j687194767719_2_alg».proof.Proof.KTower3
import proofs.«166090_j687194767719_2_alg».proof.Proof.RTower2

set_option maxRecDepth 16384

noncomputable section

namespace Cert.TowerBridge

open Idealize.ShloMosaic Idealize.ShloMosaic.ValueIdx
open Cert.KernelIdeal (S100000x64 S100000x128 S128x64 S64x64 S64 S1x64 S2x1250000 S1350000 S1350000x64 S100000)
open Cert

section
variable (x : FVec Ideal S100000x128 .f32) (ei : IVec S2x1250000 32) (W0 : FVec Ideal S128x64 .f32)
  (b0 g0 be0 : FVec Ideal S64 .f32) (W1 : FVec Ideal S64x64 .f32) (b1 : FVec Ideal S64 .f32)

/-- The kernel's first column means and variances, as the block-sum forms the statistics lemmas are stated for. -/
theorem K_mean0_form : KernelIdeal.KTower.mean0 x ei W0 b0
    = KernelIdeal.KStretch.meanOf (KernelIdeal.KVal.G1_4 (KernelIdeal.KTower.agg0 x ei W0) (KernelIdeal.KTower.dis2d ei) (KernelIdeal.KTower.b0row b0)) := rfl
theorem K_var0_form : KernelIdeal.KTower.var0 x ei W0 b0
    = KernelIdeal.KStretch.varOf (KernelIdeal.KVal.G1_4 (KernelIdeal.KTower.agg0 x ei W0) (KernelIdeal.KTower.dis2d ei) (KernelIdeal.KTower.b0row b0))
        (KernelIdeal.KVal.G1_5 (KernelIdeal.KTower.agg0 x ei W0) (KernelIdeal.KTower.dis2d ei) (KernelIdeal.KTower.b0row b0)) := rfl

/-- The second layer's scaled product at a node and feature. -/
theorem K_hw1_apply (n : Fin 100000) (f : Fin 64) :
    KernelIdeal.KTower.hw1 x ei W0 b0 g0 be0 W1 (ix2 n f)
      = ((∑ k : Fin 64, KernelIdeal.KTower.leaky0 x ei W0 b0 (ix2 n k) * KernelIdeal.KTower.W1p x ei W0 b0 g0 W1 (ix2 k f))
          + KernelIdeal.KTower.c1 x ei W0 b0 g0 be0 W1 (ix2 (0 : Fin 1) f)) * KernelIdeal.KTower.dis ei (ix1 n) := by
  rw [← K_dis2d_apply]
  rfl

variable (hx : ∀ i, ∃ r : ℝ, x i = (r : EReal)) (hW0 : ∀ i, ∃ r : ℝ, W0 i = (r : EReal)) (hb0 : ∀ i, ∃ r : ℝ, b0 i = (r : EReal))
  (hg0 : ∀ i, ∃ r : ℝ, g0 i = (r : EReal)) (hbe0 : ∀ i, ∃ r : ℝ, be0 i = (r : EReal)) (hW1 : ∀ i, ∃ r : ℝ, W1 i = (r : EReal))
  (hb1 : ∀ i, ∃ r : ℝ, b1 i = (r : EReal))
include hx hW0 hb0 hg0 hbe0 hW1

/-- The kernel's folded product plus folded shift is the reference's product of the normalised first activations. -/
theorem fold1_eq (n : Fin 100000) (f : Fin 64) :
    (∑ k : Fin 64, KernelIdeal.KTower.leaky0 x ei W0 b0 (ix2 n k) * KernelIdeal.KTower.W1p x ei W0 b0 g0 W1 (ix2 k f))
        + KernelIdeal.KTower.c1 x ei W0 b0 g0 be0 W1 (ix2 (0 : Fin 1) f)
      = ReferenceIdeal.RTower.xw1 (ReferenceIdeal.RTower.h0Of x ei W0 b0 g0 be0) W1 (ix2 n f) := by
  have e0 := leaky0_eq x ei W0 b0
  have hLreal := K_leaky0_real x ei W0 b0 hx hW0 hb0
  choose Lr0 hLr0 using fun i => hLreal i
  have hL : ∀ (n : Fin 100000) (f : Fin 64), KernelIdeal.KVal.G1_3 (KernelIdeal.KTower.agg0 x ei W0) (KernelIdeal.KTower.dis2d ei)
      (KernelIdeal.KTower.b0row b0) (ix2 n f) = ((fun (n : Fin 100000) (f : Fin 64) => Lr0 (ix2 n f)) n f : EReal) :=
    fun n f => hLr0 (ix2 n f)
  have hm : ∀ k : Fin 64, KernelIdeal.KTower.mean0 x ei W0 b0 (ix1 k)
      = ReferenceIdeal.RStretch.meanR (ReferenceIdeal.RTower.leaky0Of x ei W0 b0) (ix1 k) := fun k => by
    rw [← e0, K_mean0_form]
    exact stats_mean_eq _ _ _ _ k hL
  have hv : ∀ k : Fin 64, KernelIdeal.KTower.var0 x ei W0 b0 (ix1 k)
      = ReferenceIdeal.RStretch.varR (ReferenceIdeal.RTower.leaky0Of x ei W0 b0) (ix1 k) := fun k => by
    rw [← e0, K_var0_form]
    exact stats_var_eq _ _ _ _ k hL
  have hmr : ∀ k : Fin 64, ∃ r : ℝ, ReferenceIdeal.RStretch.meanR (ReferenceIdeal.RTower.leaky0Of x ei W0 b0) (ix1 k) = (r : EReal) := fun k => by
    obtain ⟨mr, vr, h1, h2, h3⟩ := stats_real _ _ _ _ k hL
    rw [← e0]; exact ⟨mr, h1⟩
  have hvr : ∀ k : Fin 64, ∃ r : ℝ, 0 ≤ r ∧ ReferenceIdeal.RStretch.varR (ReferenceIdeal.RTower.leaky0Of x ei W0 b0) (ix1 k) = (r : EReal) := fun k => by
    obtain ⟨mr, vr, h1, h2, h3⟩ := stats_real _ _ _ _ k hL
    rw [← e0]; exact ⟨vr, h3, h2⟩
  have hl : ∀ i, ∃ r : ℝ, ReferenceIdeal.RTower.leaky0Of x ei W0 b0 i = (r : EReal) := fun i => by
    rw [← e0]; exact hLreal i
  have key := fold_matmul_eq (ReferenceIdeal.RTower.leaky0Of x ei W0 b0) g0 be0 W1 (KernelIdeal.KTower.W1p x ei W0 b0 g0 W1)
    (KernelIdeal.KTower.c1 x ei W0 b0 g0 be0 W1) (KernelIdeal.KTower.scale0 x ei W0 b0 g0) (KernelIdeal.KTower.shift0 x ei W0 b0 g0 be0)
    (KernelIdeal.KTower.mean0 x ei W0 b0) (KernelIdeal.KTower.var0 x ei W0 b0)
    (fun k => rfl) (fun k => rfl) (fun k f => foldScale_apply _ W1 k f) (fun f => foldShift_apply _ W1 f)
    hm hv hl hg0 hbe0 hW1 hmr hvr n f
  rw [e0]
  exact key

include hb1

/-- The second layer's activations agree. -/
theorem leaky1_eq : KernelIdeal.KTower.leaky1 x ei W0 b0 g0 be0 W1 b1 = ReferenceIdeal.RTower.leaky1Of x ei W0 b0 g0 be0 W1 b1 := by
  funext i
  obtain ⟨n, f, rfl⟩ : ∃ (n : Fin 100000) (f : Fin 64), i = ix2 n f := ⟨i 0, i 1, eq_ix2 i⟩
  exact layer_eq ei (ReferenceIdeal.RTower.xw1 (ReferenceIdeal.RTower.h0Of x ei W0 b0 g0 be0) W1)
    (KernelIdeal.KTower.hw1 x ei W0 b0 g0 be0 W1) b1
    (fun n f => by rw [K_hw1_apply, fold1_eq x ei W0 b0 g0 be0 W1 hx hW0 hb0 hg0 hbe0 hW1 n f]) n f

end

end Cert.TowerBridge
-- ==== Proof.TowerEq.lean ====
/- The two programs' results as the same functions of the argument arrays. With the second layer's activations equal,
   the kernel's column statistics of that activation (block sums regrouped, one-pass variance) are the reference's
   (full sums, two-pass variance) on real entries, and the last stage — normalise the selected rows, against selecting
   the normalised rows; the logistic of the head — agrees entry by entry. -/
import proofs.«166090_j687194767719_2_alg».proof.Proof.KTower4
import proofs.«166090_j687194767719_2_alg».proof.Proof.RTower2
import proofs.«166090_j687194767719_2_alg».proof.Proof.BridgeFinal
import proofs.«166090_j687194767719_2_alg».proof.Proof.BridgeStats
import proofs.«166090_j687194767719_2_alg».proof.Proof.BridgeReal
import proofs.«166090_j687194767719_2_alg».proof.Proof.BridgeLayer1

set_option maxRecDepth 16384

noncomputable section

namespace Cert.TowerBridge

open Idealize.ShloMosaic Idealize.ShloMosaic.ValueIdx
open Cert.KernelIdeal (S100000x128 S2x1250000 S20000 S128x64 S64 S64x64 S64x5 S5 S100000x64 S20000x64 S20000x5)
open Cert

section
variable (x : FVec Ideal S100000x128 .f32) (ei : IVec S2x1250000 32) (idx : IVec S20000 32)
  (W0 : FVec Ideal S128x64 .f32) (b0 g0 be0 : FVec Ideal S64 .f32) (W1 : FVec Ideal S64x64 .f32)
  (b1 g1 be1 : FVec Ideal S64 .f32) (Wm : FVec Ideal S64x5 .f32) (bm : FVec Ideal S5 .f32)
  (hx : ∀ i, ∃ r : ℝ, x i = (r : EReal)) (hW0 : ∀ i, ∃ r : ℝ, W0 i = (r : EReal))
  (hb0 : ∀ i, ∃ r : ℝ, b0 i = (r : EReal)) (hg0 : ∀ i, ∃ r : ℝ, g0 i = (r : EReal))
  (hbe0 : ∀ i, ∃ r : ℝ, be0 i = (r : EReal)) (hW1 : ∀ i, ∃ r : ℝ, W1 i = (r : EReal))
  (hb1 : ∀ i, ∃ r : ℝ, b1 i = (r : EReal))
include hx hW0 hb0 hg0 hbe0 hW1 hb1

/-- The kernel's second column means are the reference's column means of the second activation. -/
theorem mean1_eq (f : Fin 64) :
    KernelIdeal.KTower.mean1 x ei W0 b0 g0 be0 W1 b1 (ix1 f) = ReferenceIdeal.RStretch.meanR (ReferenceIdeal.RTower.leaky1Of x ei W0 b0 g0 be0 W1 b1) (ix1 f) := by
  rw [← leaky1_eq x ei W0 b0 g0 be0 W1 b1 hx hW0 hb0 hg0 hbe0 hW1 hb1]
  choose Lr hLr using fun (n : Fin 100000) (f : Fin 64) => K_leaky1_real x ei W0 b0 g0 be0 W1 b1 hx hW0 hb0 hg0 hbe0 hW1 hb1 (ix2 n f)
  exact stats_mean_eq3 (KernelIdeal.KTower.agg1 x ei W0 b0 g0 be0 W1) (KernelIdeal.KTower.dis2d ei) (KernelIdeal.KTower.b1row b1) Lr f hLr

/-- The kernel's second column variances are the reference's column variances of the second activation. -/
theorem var1_eq (f : Fin 64) :
    KernelIdeal.KTower.var1 x ei W0 b0 g0 be0 W1 b1 (ix1 f) = ReferenceIdeal.RStretch.varR (ReferenceIdeal.RTower.leaky1Of x ei W0 b0 g0 be0 W1 b1) (ix1 f) := by
  rw [← leaky1_eq x ei W0 b0 g0 be0 W1 b1 hx hW0 hb0 hg0 hbe0 hW1 hb1]
  choose Lr hLr using fun (n : Fin 100000) (f : Fin 64) => K_leaky1_real x ei W0 b0 g0 be0 W1 b1 hx hW0 hb0 hg0 hbe0 hW1 hb1 (ix2 n f)
  exact stats_var_eq3 (KernelIdeal.KTower.agg1 x ei W0 b0 g0 be0 W1) (KernelIdeal.KTower.dis2d ei) (KernelIdeal.KTower.b1row b1) Lr f hLr

/-- The first results agree: the kernel's normalised selected rows are the reference's selected normalised rows. -/
theorem hsel_eq :
    KernelIdeal.KTower.hsel x ei idx W0 b0 g0 be0 W1 b1 g1 be1 = ReferenceIdeal.RTower.hselOf x ei idx W0 b0 g0 be0 W1 b1 g1 be1 := by
  funext i
  obtain ⟨n, f, rfl⟩ : ∃ (n : Fin 20000) (f : Fin 64), i = ix2 n f := ⟨i 0, i 1, eq_ix2 i⟩
  unfold KernelIdeal.KTower.hsel KernelIdeal.KTower.sel KernelIdeal.KTower.mean1row KernelIdeal.KTower.var1row KernelIdeal.KTower.gamma1row KernelIdeal.KTower.beta1row KernelIdeal.KTower.idxN
    ReferenceIdeal.RTower.hselOf ReferenceIdeal.RTower.h1Of
  rw [← KernelIdeal.KTower.glue_take, ← ReferenceIdeal.RTower.takeRows_eq, leaky1_eq x ei W0 b0 g0 be0 W1 b1 hx hW0 hb0 hg0 hbe0 hW1 hb1]
  simp only [← KernelIdeal.KTower.glue_row64]
  exact final_hsel_eq (ReferenceIdeal.RTower.leaky1Of x ei W0 b0 g0 be0 W1 b1) idx (KernelIdeal.KTower.mean1 x ei W0 b0 g0 be0 W1 b1) (KernelIdeal.KTower.var1 x ei W0 b0 g0 be0 W1 b1) g1 be1
    (mean1_eq x ei W0 b0 g0 be0 W1 b1 hx hW0 hb0 hg0 hbe0 hW1 hb1) (var1_eq x ei W0 b0 g0 be0 W1 b1 hx hW0 hb0 hg0 hbe0 hW1 hb1) n f

/-- The second results agree: the head on the kernel's normalised selected rows is the reference's output. -/
theorem out_eq :
    KernelIdeal.KTower.out x ei idx W0 b0 g0 be0 W1 b1 g1 be1 Wm bm = ReferenceIdeal.RTower.outOf x ei idx W0 b0 g0 be0 W1 b1 g1 be1 Wm bm := by
  funext i
  obtain ⟨n, j, rfl⟩ : ∃ (n : Fin 20000) (j : Fin 5), i = ix2 n j := ⟨i 0, i 1, eq_ix2 i⟩
  unfold KernelIdeal.KTower.out KernelIdeal.KTower.sel KernelIdeal.KTower.mean1row KernelIdeal.KTower.var1row KernelIdeal.KTower.gamma1row KernelIdeal.KTower.beta1row KernelIdeal.KTower.idxN
    ReferenceIdeal.RTower.outOf ReferenceIdeal.RTower.out ReferenceIdeal.RTower.hselOf ReferenceIdeal.RTower.h1Of
  rw [← KernelIdeal.KTower.glue_take, ← KernelIdeal.KTower.glue_row5, ← ReferenceIdeal.RTower.takeRows_eq, leaky1_eq x ei W0 b0 g0 be0 W1 b1 hx hW0 hb0 hg0 hbe0 hW1 hb1]
  simp only [← KernelIdeal.KTower.glue_row64]
  exact final_out_eq (ReferenceIdeal.RTower.leaky1Of x ei W0 b0 g0 be0 W1 b1) idx (KernelIdeal.KTower.mean1 x ei W0 b0 g0 be0 W1 b1) (KernelIdeal.KTower.var1 x ei W0 b0 g0 be0 W1 b1) g1 be1
    (mean1_eq x ei W0 b0 g0 be0 W1 b1 hx hW0 hb0 hg0 hbe0 hW1 hb1) (var1_eq x ei W0 b0 g0 be0 W1 b1 hx hW0 hb0 hg0 hbe0 hW1 hb1) n Wm bm j

end

end Cert.TowerBridge

end
-- ==== Proof.Bridge.lean ====
/-
  The value equation of the certificate: at the ideal values, from memories that agree on the thirteen arguments and
  whose float arguments are all finite, the reference's two results (its fold of host operations read at the result
  buffers) are the kernel's two results (the contents of the last segment boundary of its run at its result buffers).
-/
import proofs.«166090_j687194767719_2_alg».proof.Defs
import proofs.«166090_j687194767719_2_alg».proof.Proof.Gen.Pre_finite_inputs
import proofs.«166090_j687194767719_2_alg».proof.Proof.KRun
import proofs.«166090_j687194767719_2_alg».proof.Proof.RefRun
import proofs.«166090_j687194767719_2_alg».proof.Proof.KTower4
import proofs.«166090_j687194767719_2_alg».proof.Proof.RTower2
import proofs.«166090_j687194767719_2_alg».proof.Proof.PreFinite
import proofs.«166090_j687194767719_2_alg».proof.Proof.TowerEq

noncomputable section

namespace Cert.Bridge

open Idealize.ShloMosaic Idealize.ShloMosaic.TcCoe Idealize.SL.Sem Idealize.ShloMosaic.StableHlo

/-- Both results agree, element by element as extended reals. -/
theorem results_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (c : Dev Cert.KernelIdeal.nD) :
    after (Cert.ReferenceIdeal.RefRun.ops (F := Ideal)) (launchContents m' c) (Proc.devRef .tc Cert.ReferenceIdeal.main_v112)
        = Cert.KernelIdeal.Gen.W12 (F := Ideal) m ρ c (Proc.devRef .tc Cert.KernelIdeal.main_v96_0)
      ∧ after (Cert.ReferenceIdeal.RefRun.ops (F := Ideal)) (launchContents m' c) (Proc.devRef .tc Cert.ReferenceIdeal.main_v122)
        = Cert.KernelIdeal.Gen.W12 (F := Ideal) m ρ c (Proc.devRef .tc Cert.KernelIdeal.main_v96_1) := by
  obtain ⟨h0, h1, h2, h3, h4, h5, h6, h7, h8, h9, h10, h11, h12⟩ := hagree c
  obtain ⟨r0, r3, r4, r5, r6, r7, r8, -, -, -, -⟩ := Cert.PreFinite.args_real _ _ _ _ _ _ _ _ _ _ _ _ _ (hpre c)
  have e0 : launchContents m' c (Proc.devRef .tc Cert.ReferenceIdeal.main_arg0)
      = m ((c.tc : Thread Cert.KernelIdeal.nD Cert.KernelIdeal.τ).loc Cert.KernelIdeal.main_arg0) := h0
  have e1 : launchContents m' c (Proc.devRef .tc Cert.ReferenceIdeal.main_arg1)
      = m ((c.tc : Thread Cert.KernelIdeal.nD Cert.KernelIdeal.τ).loc Cert.KernelIdeal.main_arg1) := h1
  have e2 : launchContents m' c (Proc.devRef .tc Cert.ReferenceIdeal.main_arg2)
      = m ((c.tc : Thread Cert.KernelIdeal.nD Cert.KernelIdeal.τ).loc Cert.KernelIdeal.main_arg2) := h2
  have e3 : launchContents m' c (Proc.devRef .tc Cert.ReferenceIdeal.main_arg3)
      = m ((c.tc : Thread Cert.KernelIdeal.nD Cert.KernelIdeal.τ).loc Cert.KernelIdeal.main_arg3) := h3
  have e4 : launchContents m' c (Proc.devRef .tc Cert.ReferenceIdeal.main_arg4)
      = m ((c.tc : Thread Cert.KernelIdeal.nD Cert.KernelIdeal.τ).loc Cert.KernelIdeal.main_arg4) := h4
  have e5 : launchContents m' c (Proc.devRef .tc Cert.ReferenceIdeal.main_arg5)
      = m ((c.tc : Thread Cert.KernelIdeal.nD Cert.KernelIdeal.τ).loc Cert.KernelIdeal.main_arg5) := h5
  have e6 : launchContents m' c (Proc.devRef .tc Cert.ReferenceIdeal.main_arg6)
      = m ((c.tc : Thread Cert.KernelIdeal.nD Cert.KernelIdeal.τ).loc Cert.KernelIdeal.main_arg6) := h6
  have e7 : launchContents m' c (Proc.devRef .tc Cert.ReferenceIdeal.main_arg7)
      = m ((c.tc : Thread Cert.KernelIdeal.nD Cert.KernelIdeal.τ).loc Cert.KernelIdeal.main_arg7) := h7
  have e8 : launchContents m' c (Proc.devRef .tc Cert.ReferenceIdeal.main_arg8)
      = m ((c.tc : Thread Cert.KernelIdeal.nD Cert.KernelIdeal.τ).loc Cert.KernelIdeal.main_arg8) := h8
  have e9 : launchContents m' c (Proc.devRef .tc Cert.ReferenceIdeal.main_arg9)
      = m ((c.tc : Thread Cert.KernelIdeal.nD Cert.KernelIdeal.τ).loc Cert.KernelIdeal.main_arg9) := h9
  have e10 : launchContents m' c (Proc.devRef .tc Cert.ReferenceIdeal.main_arg10)
      = m ((c.tc : Thread Cert.KernelIdeal.nD Cert.KernelIdeal.τ).loc Cert.KernelIdeal.main_arg10) := h10
  have e11 : launchContents m' c (Proc.devRef .tc Cert.ReferenceIdeal.main_arg11)
      = m ((c.tc : Thread Cert.KernelIdeal.nD Cert.KernelIdeal.τ).loc Cert.KernelIdeal.main_arg11) := h11
  have e12 : launchContents m' c (Proc.devRef .tc Cert.ReferenceIdeal.main_arg12)
      = m ((c.tc : Thread Cert.KernelIdeal.nD Cert.KernelIdeal.τ).loc Cert.KernelIdeal.main_arg12) := h12
  refine ⟨?_, ?_⟩
  · rw [Cert.ReferenceIdeal.RTower.ref_hsel, Cert.KernelIdeal.KTower.kernel_hsel,
      e0, e1, e2, e3, e4, e5, e6, e7, e8, e9, e10]
    exact (Cert.TowerBridge.hsel_eq _ _ _ _ _ _ _ _ _ _ _ r0 r3 r4 r5 r6 r7 r8).symm
  · rw [Cert.ReferenceIdeal.RTower.ref_out, Cert.KernelIdeal.KTower.kernel_out,
      e0, e1, e2, e3, e4, e5, e6, e7, e8, e9, e10, e11, e12]
    exact (Cert.TowerBridge.out_eq _ _ _ _ _ _ _ _ _ _ _ _ _ r0 r3 r4 r5 r6 r7 r8).symm

end Cert.Bridge
-- ==== Proof.lean ====
/-
  The certificate of a two-layer graph convolution with batch normalization, node selection and a sigmoid head.

  Kernel: five tiled regions (linear map fused with the source-side degree scale; leaky ReLU with per-block
  batch-norm statistics; the same two again for the second layer with the first normalization folded into the weights;
  batch-norm apply fused with the final linear map and sigmoid on the selected rows) among host gathers and scatter-adds.
  Reference: the same network written directly.  Frames: the two kernel programs' generated frames; the reference's run
  of its host operations.  Nothing was rewritten by the ideal pass.  Value: both runs end, with equal results.
-/
import proofs.«166090_j687194767719_2_alg».proof.Defs
import proofs.«166090_j687194767719_2_alg».proof.Proof.Gen.Kernel
import proofs.«166090_j687194767719_2_alg».proof.Proof.Gen.Kernel.Frame
import proofs.«166090_j687194767719_2_alg».proof.Proof.Gen.KernelIdeal
import proofs.«166090_j687194767719_2_alg».proof.Proof.Gen.KernelIdeal.Frame
import proofs.«166090_j687194767719_2_alg».proof.Proof.Gen.ReferenceIdeal
import proofs.«166090_j687194767719_2_alg».proof.Proof.Gen.Pre_finite_inputs
import proofs.«166090_j687194767719_2_alg».proof.Proof.KRun
import proofs.«166090_j687194767719_2_alg».proof.Proof.RefRun
import proofs.«166090_j687194767719_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.RefRun.frame (F := Ideal) m ρ

/-- The ideal pass rewrote nothing. -/
theorem preserves : Cert.preserves_Kernel_KernelIdeal := trivial

/-- Both idealized programs run to the end; the results are the kernel's last boundary contents on both sides. -/
theorem algebraic : Cert.algebraic_KernelIdeal_ReferenceIdeal := by
  intro m ρ m' ρ' hpre hagree
  refine ⟨fun c => Cert.KernelIdeal.Gen.W12 (F := Ideal) m ρ c (Proc.devRef .tc Cert.KernelIdeal.main_v96_0),
    fun c => Cert.KernelIdeal.Gen.W12 (F := Ideal) m ρ c (Proc.devRef .tc Cert.KernelIdeal.main_v96_1),
    Cert.KernelIdeal.KRun.run_results (F := Ideal) m ρ, ?_⟩
  refine (θ_run Cert.ReferenceIdeal.defs _ _).mono (fun r h c => ?_) (Cert.ReferenceIdeal.RefRun.run_all (F := Ideal) m' ρ')
  obtain ⟨e0, e1⟩ := Cert.Bridge.results_eq m ρ m' hpre hagree c
  exact ⟨(h c Cert.ReferenceIdeal.main_v112).trans e0, (h c Cert.ReferenceIdeal.main_v122).trans e1,
      (h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _),
      (h c Cert.ReferenceIdeal.main_arg3).trans (Cert.ReferenceIdeal.RefRun.arg3_eq _),
      (h c Cert.ReferenceIdeal.main_arg4).trans (Cert.ReferenceIdeal.RefRun.arg4_eq _),
      (h c Cert.ReferenceIdeal.main_arg5).trans (Cert.ReferenceIdeal.RefRun.arg5_eq _),
      (h c Cert.ReferenceIdeal.main_arg6).trans (Cert.ReferenceIdeal.RefRun.arg6_eq _),
      (h c Cert.ReferenceIdeal.main_arg7).trans (Cert.ReferenceIdeal.RefRun.arg7_eq _),
      (h c Cert.ReferenceIdeal.main_arg8).trans (Cert.ReferenceIdeal.RefRun.arg8_eq _),
      (h c Cert.ReferenceIdeal.main_arg9).trans (Cert.ReferenceIdeal.RefRun.arg9_eq _),
      (h c Cert.ReferenceIdeal.main_arg10).trans (Cert.ReferenceIdeal.RefRun.arg10_eq _),
      (h c Cert.ReferenceIdeal.main_arg11).trans (Cert.ReferenceIdeal.RefRun.arg11_eq _),
      (h c Cert.ReferenceIdeal.main_arg12).trans (Cert.ReferenceIdeal.RefRun.arg12_eq _)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
